-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v262)) (v1 : (c : Dev Cert.KernelIdeal.nD) → Buf (Elt Ideal) ((c.tc : Thread Cert.KernelIdeal.nD Cert.KernelIdeal.τ).loc Cert.KernelIdeal.main_v203)) (v2 : (c : Dev Cert.KernelIdeal.nD) → Buf (Elt Ideal) ((c.tc : Thread Cert.KernelIdeal.nD Cert.KernelIdeal.τ).loc Cert.KernelIdeal.main_v221)) (v3 : (c : Dev Cert.KernelIdeal.nD) → Buf (Elt Ideal) ((c.tc : Thread Cert.KernelIdeal.nD Cert.KernelIdeal.τ).loc Cert.KernelIdeal.main_v259)) (v4 : (c : Dev Cert.KernelIdeal.nD) → Buf (Elt Ideal) ((c.tc : Thread Cert.KernelIdeal.nD Cert.KernelIdeal.τ).loc Cert.KernelIdeal.main_v239)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v262) = v0 c
          ∧ r.2.mem ((c.tc : Thread Cert.KernelIdeal.nD Cert.KernelIdeal.τ).loc Cert.KernelIdeal.main_v203) = v1 c
          ∧ r.2.mem ((c.tc : Thread Cert.KernelIdeal.nD Cert.KernelIdeal.τ).loc Cert.KernelIdeal.main_v221) = v2 c
          ∧ r.2.mem ((c.tc : Thread Cert.KernelIdeal.nD Cert.KernelIdeal.τ).loc Cert.KernelIdeal.main_v259) = v3 c
          ∧ r.2.mem ((c.tc : Thread Cert.KernelIdeal.nD Cert.KernelIdeal.τ).loc Cert.KernelIdeal.main_v239) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v273) = v0 c
          ∧ r.2.mem ((c.tc : Thread Cert.ReferenceIdeal.nD Cert.ReferenceIdeal.τ).loc Cert.ReferenceIdeal.main_v198) = v1 c
          ∧ r.2.mem ((c.tc : Thread Cert.ReferenceIdeal.nD Cert.ReferenceIdeal.τ).loc Cert.ReferenceIdeal.main_v216) = v2 c
          ∧ r.2.mem ((c.tc : Thread Cert.ReferenceIdeal.nD Cert.ReferenceIdeal.τ).loc Cert.ReferenceIdeal.main_v270) = v3 c
          ∧ r.2.mem ((c.tc : Thread Cert.ReferenceIdeal.nD Cert.ReferenceIdeal.τ).loc Cert.ReferenceIdeal.main_v234) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x6x256x256 : Shape := ⟨4, ![64, 6, 256, 256]⟩
abbrev S64x32x4 : Shape := ⟨3, ![64, 32, 4]⟩
abbrev S_ : Shape := ⟨0, ![]⟩

class Facts : Prop where
  bcast_S_S64x6x256x256 : S_.BroadcastsInDim S64x6x256x256 (![] : Fin 0 → Fin S64x6x256x256.rank)
  reducesTo_S64x6x256x256_S_d0_1_2_3 : S64x6x256x256.ReducesTo [0, 1, 2, 3] S_
  h_S_ : 0 < S_.numel
  bcast_S_S64x32x4 : S_.BroadcastsInDim S64x32x4 (![] : Fin 0 → Fin S64x32x4.rank)
  reducesTo_S64x32x4_S_d0_1_2 : S64x32x4.ReducesTo [0, 1, 2] S_

variable [Facts]

def fn {F : FTy → Type} [FloatOps F] (main_arg0 : FVec F S64x6x256x256 .f32) (main_arg1 : FVec F S64x32x4 .f32) : IVec S_ 1 :=
  let main_v0 : FVec F S64x6x256x256 .f32 := Host.absf main_arg0
  let main_cst : FVec F S_ .f32 := constant S_ .f32 0x7F800000#32
  let main_v1 : FVec F S64x6x256x256 .f32 := broadcastInDim S64x6x256x256 ![] bcast_S_S64x6x256x256 main_cst
  let main_v2 : IVec S64x6x256x256 1 := cmpf .olt main_v0 main_v1
  let main_c : IVec S_ 1 := constantI S_ 1 1#1
  let main_v3 : IVec S_ 1 := (fun x v => Host.reduce IntOp.andi x v reducesTo_S64x6x256x256_S_d0_1_2_3 h_S_) main_v2 main_c
  let main_v4 : FVec F S64x32x4 .f32 := Host.absf main_arg1
  let main_cst_0 : FVec F S_ .f32 := constant S_ .f32 0x7F800000#32
  let main_v5 : FVec F S64x32x4 .f32 := broadcastInDim S64x32x4 ![] bcast_S_S64x32x4 main_cst_0
  let main_v6 : IVec S64x32x4 1 := cmpf .olt main_v4 main_v5
  let main_c_1 : IVec S_ 1 := constantI S_ 1 1#1
  let main_v7 : IVec S_ 1 := (fun x v => Host.reduce IntOp.andi x v reducesTo_S64x32x4_S_d0_1_2 h_S_) main_v6 main_c_1
  let main_v8 : IVec S_ 1 := andi main_v3 main_v7
  main_v8
-- ==== Kernel.lean ====
abbrev S64x6x256x256 : Shape := ⟨4, ![64, 6, 256, 256]⟩
abbrev S64x32x4 : Shape := ⟨3, ![64, 32, 4]⟩
abbrev S64x32x1 : Shape := ⟨3, ![64, 32, 1]⟩
abbrev S64x32 : Shape := ⟨2, ![64, 32]⟩
abbrev S_ : Shape := ⟨0, ![]⟩
abbrev S64 : Shape := ⟨1, ![64]⟩
abbrev S64x1 : Shape := ⟨2, ![64, 1]⟩
abbrev S4194304 : Shape := ⟨1, ![4194304]⟩
abbrev S2048 : Shape := ⟨1, ![2048]⟩
abbrev S2048x1 : Shape := ⟨2, ![2048, 1]⟩
abbrev S64x256x256 : Shape := ⟨3, ![64, 256, 256]⟩
abbrev S8x1x1 : Shape := ⟨3, ![8, 1, 1]⟩
abbrev S8x1x256x256 : Shape := ⟨4, ![8, 1, 256, 256]⟩
abbrev S8x256x256 : Shape := ⟨3, ![8, 256, 256]⟩
abbrev S1x1x1 : Shape := ⟨3, ![1, 1, 1]⟩
abbrev S8x256 : Shape := ⟨2, ![8, 256]⟩
abbrev S8x256x1 : Shape := ⟨3, ![8, 256, 1]⟩
abbrev S8x1 : Shape := ⟨2, ![8, 1]⟩
abbrev S1x1 : Shape := ⟨2, ![1, 1]⟩

abbrev nBuf : Space → Nat
  | .hbm => 351
  | .vmem => 6
  | .smem => 0
  | _ => 0

abbrev hbmTy0_0 (i : Nat) : BufTy := match i % 128 with
  | 0 => ⟨S64x6x256x256, .f32⟩
  | 1 => ⟨S64x32x4, .f32⟩
  | 2 => ⟨S64x32x1, .f32⟩
  | 3 => ⟨S64x32, .f32⟩
  | 4 => ⟨S64x32x1, .f32⟩
  | 5 => ⟨S64x32, .f32⟩
  | 6 => ⟨S64x32x1, .f32⟩
  | 7 => ⟨S64x32, .f32⟩
  | 8 => ⟨S64x32x1, .f32⟩
  | 9 => ⟨S64x32, .f32⟩
  | 10 => ⟨S_, .f32⟩
  | 11 => ⟨S64x32, .f32⟩
  | 12 => ⟨S64x32, .f32⟩
  | 13 => ⟨S64x32, .f32⟩
  | 14 => ⟨S64x32, .i32⟩
  | 15 => ⟨S_, .i32⟩
  | 16 => ⟨S_, .i32⟩
  | 17 => ⟨S_, .i32⟩
  | 18 => ⟨S64x32, .i32⟩
  | 19 => ⟨S64x32, .i32⟩
  | 20 => ⟨S_, .i32⟩
  | 21 => ⟨S64x32, .i32⟩
  | 22 => ⟨S64x32, .i32⟩
  | 23 => ⟨S_, .f32⟩
  | 24 => ⟨S64x32, .f32⟩
  | 25 => ⟨S64x32, .f32⟩
  | 26 => ⟨S64x32, .f32⟩
  | 27 => ⟨S64x32, .i32⟩
  | 28 => ⟨S_, .i32⟩
  | 29 => ⟨S_, .i32⟩
  | 30 => ⟨S_, .i32⟩
  | 31 => ⟨S64x32, .i32⟩
  | 32 => ⟨S64x32, .i32⟩
  | 33 => ⟨S_, .i32⟩
  | 34 => ⟨S64x32, .i32⟩
  | 35 => ⟨S64x32, .i32⟩
  | 36 => ⟨S64, .i32⟩
  | 37 => ⟨S64x1, .i32⟩
  | 38 => ⟨S64x32, .i32⟩
  | 39 => ⟨S_, .i32⟩
  | 40 => ⟨S64x32, .i32⟩
  | 41 => ⟨S64x32, .i1⟩
  | 42 => ⟨S_, .i32⟩
  | 43 => ⟨S64x32, .i32⟩
  | 44 => ⟨S64x32, .i32⟩
  | 45 => ⟨S64x32, .i32⟩
  | 46 => ⟨S_, .i32⟩
  | 47 => ⟨S64x32, .i32⟩
  | 48 => ⟨S64x32, .i1⟩
  | 49 => ⟨S_, .i32⟩
  | 50 => ⟨S64x32, .i32⟩
  | 51 => ⟨S64x32, .i32⟩
  | 52 => ⟨S64x32, .i32⟩
  | 53 => ⟨S_, .i32⟩
  | 54 => ⟨S64x32, .i32⟩
  | 55 => ⟨S64x32, .i1⟩
  | 56 => ⟨S_, .i32⟩
  | 57 => ⟨S64x32, .i32⟩
  | 58 => ⟨S64x32, .i32⟩
  | 59 => ⟨S64x32, .i32⟩
  | 60 => ⟨S_, .i32⟩
  | 61 => ⟨S64x32, .i32⟩
  | 62 => ⟨S64x32, .i32⟩
  | 63 => ⟨S64x32x1, .i32⟩
  | 64 => ⟨S64x32x1, .i32⟩
  | 65 => ⟨S64x32x1, .i32⟩
  | 66 => ⟨S64x32x1, .i32⟩
  | 67 => ⟨S64x32x4, .i32⟩
  | 68 => ⟨S64x32, .f32⟩
  | 69 => ⟨S_, .i32⟩
  | 70 => ⟨S64x32, .i32⟩
  | 71 => ⟨S64x32, .i1⟩
  | 72 => ⟨S_, .i32⟩
  | 73 => ⟨S64x32, .i32⟩
  | 74 => ⟨S64x32, .i32⟩
  | 75 => ⟨S64x32, .i32⟩
  | 76 => ⟨S_, .i32⟩
  | 77 => ⟨S64x32, .i32⟩
  | 78 => ⟨S64x32, .i1⟩
  | 79 => ⟨S_, .i32⟩
  | 80 => ⟨S64x32, .i32⟩
  | 81 => ⟨S64x32, .i32⟩
  | 82 => ⟨S64x32, .i32⟩
  | 83 => ⟨S_, .i32⟩
  | 84 => ⟨S64x32, .i32⟩
  | 85 => ⟨S64x32, .i1⟩
  | 86 => ⟨S_, .i32⟩
  | 87 => ⟨S64x32, .i32⟩
  | 88 => ⟨S64x32, .i32⟩
  | 89 => ⟨S64x32, .i32⟩
  | 90 => ⟨S_, .i32⟩
  | 91 => ⟨S64x32, .i32⟩
  | 92 => ⟨S64x32, .i32⟩
  | 93 => ⟨S64x32x1, .i32⟩
  | 94 => ⟨S64x32x1, .i32⟩
  | 95 => ⟨S64x32x1, .i32⟩
  | 96 => ⟨S64x32x1, .i32⟩
  | 97 => ⟨S64x32x4, .i32⟩
  | 98 => ⟨S64x32, .f32⟩
  | 99 => ⟨S_, .i32⟩
  | 100 => ⟨S64x32, .i32⟩
  | 101 => ⟨S64x32, .i1⟩
  | 102 => ⟨S_, .i32⟩
  | 103 => ⟨S64x32, .i32⟩
  | 104 => ⟨S64x32, .i32⟩
  | 105 => ⟨S64x32, .i32⟩
  | 106 => ⟨S_, .i32⟩
  | 107 => ⟨S64x32, .i32⟩
  | 108 => ⟨S64x32, .i1⟩
  | 109 => ⟨S_, .i32⟩
  | 110 => ⟨S64x32, .i32⟩
  | 111 => ⟨S64x32, .i32⟩
  | 112 => ⟨S64x32, .i32⟩
  | 113 => ⟨S_, .i32⟩
  | 114 => ⟨S64x32, .i32⟩
  | 115 => ⟨S64x32, .i1⟩
  | 116 => ⟨S_, .i32⟩
  | 117 => ⟨S64x32, .i32⟩
  | 118 => ⟨S64x32, .i32⟩
  | 119 => ⟨S64x32, .i32⟩
  | 120 => ⟨S_, .i32⟩
  | 121 => ⟨S64x32, .i32⟩
  | 122 => ⟨S64x32, .i32⟩
  | 123 => ⟨S64x32x1, .i32⟩
  | 124 => ⟨S64x32x1, .i32⟩
  | 125 => ⟨S64x32x1, .i32⟩
  | 126 => ⟨S64x32x1, .i32⟩
  | 127 => ⟨S64x32x4, .i32⟩
  | _ => ⟨S64x6x256x256, .f32⟩

abbrev hbmTy0_1 (i : Nat) : BufTy := match i % 128 with
  | 0 => ⟨S64x32, .f32⟩
  | 1 => ⟨S_, .i32⟩
  | 2 => ⟨S64x32, .i32⟩
  | 3 => ⟨S64x32, .i1⟩
  | 4 => ⟨S_, .i32⟩
  | 5 => ⟨S64x32, .i32⟩
  | 6 => ⟨S64x32, .i32⟩
  | 7 => ⟨S64x32, .i32⟩
  | 8 => ⟨S_, .i32⟩
  | 9 => ⟨S64x32, .i32⟩
  | 10 => ⟨S64x32, .i1⟩
  | 11 => ⟨S_, .i32⟩
  | 12 => ⟨S64x32, .i32⟩
  | 13 => ⟨S64x32, .i32⟩
  | 14 => ⟨S64x32, .i32⟩
  | 15 => ⟨S_, .i32⟩
  | 16 => ⟨S64x32, .i32⟩
  | 17 => ⟨S64x32, .i1⟩
  | 18 => ⟨S_, .i32⟩
  | 19 => ⟨S64x32, .i32⟩
  | 20 => ⟨S64x32, .i32⟩
  | 21 => ⟨S64x32, .i32⟩
  | 22 => ⟨S_, .i32⟩
  | 23 => ⟨S64x32, .i32⟩
  | 24 => ⟨S64x32, .i32⟩
  | 25 => ⟨S64x32x1, .i32⟩
  | 26 => ⟨S64x32x1, .i32⟩
  | 27 => ⟨S64x32x1, .i32⟩
  | 28 => ⟨S64x32x1, .i32⟩
  | 29 => ⟨S64x32x4, .i32⟩
  | 30 => ⟨S64x32, .f32⟩
  | 31 => ⟨S_, .i32⟩
  | 32 => ⟨S64x32, .i32⟩
  | 33 => ⟨S64x32, .i1⟩
  | 34 => ⟨S_, .i32⟩
  | 35 => ⟨S64x32, .i32⟩
  | 36 => ⟨S64x32, .i32⟩
  | 37 => ⟨S64x32, .i32⟩
  | 38 => ⟨S_, .i32⟩
  | 39 => ⟨S64x32, .i32⟩
  | 40 => ⟨S64x32, .i1⟩
  | 41 => ⟨S_, .i32⟩
  | 42 => ⟨S64x32, .i32⟩
  | 43 => ⟨S64x32, .i32⟩
  | 44 => ⟨S64x32, .i32⟩
  | 45 => ⟨S_, .i32⟩
  | 46 => ⟨S64x32, .i32⟩
  | 47 => ⟨S64x32, .i1⟩
  | 48 => ⟨S_, .i32⟩
  | 49 => ⟨S64x32, .i32⟩
  | 50 => ⟨S64x32, .i32⟩
  | 51 => ⟨S64x32, .i32⟩
  | 52 => ⟨S_, .i32⟩
  | 53 => ⟨S64x32, .i32⟩
  | 54 => ⟨S64x32, .i32⟩
  | 55 => ⟨S64x32x1, .i32⟩
  | 56 => ⟨S64x32x1, .i32⟩
  | 57 => ⟨S64x32x1, .i32⟩
  | 58 => ⟨S64x32x1, .i32⟩
  | 59 => ⟨S64x32x4, .i32⟩
  | 60 => ⟨S64x32, .f32⟩
  | 61 => ⟨S_, .i32⟩
  | 62 => ⟨S64x32, .i32⟩
  | 63 => ⟨S64x32, .i1⟩
  | 64 => ⟨S_, .i32⟩
  | 65 => ⟨S64x32, .i32⟩
  | 66 => ⟨S64x32, .i32⟩
  | 67 => ⟨S64x32, .i32⟩
  | 68 => ⟨S_, .i32⟩
  | 69 => ⟨S64x32, .i32⟩
  | 70 => ⟨S64x32, .i1⟩
  | 71 => ⟨S_, .i32⟩
  | 72 => ⟨S64x32, .i32⟩
  | 73 => ⟨S64x32, .i32⟩
  | 74 => ⟨S64x32, .i32⟩
  | 75 => ⟨S_, .i32⟩
  | 76 => ⟨S64x32, .i32⟩
  | 77 => ⟨S64x32, .i1⟩
  | 78 => ⟨S_, .i32⟩
  | 79 => ⟨S64x32, .i32⟩
  | 80 => ⟨S64x32, .i32⟩
  | 81 => ⟨S64x32, .i32⟩
  | 82 => ⟨S_, .i32⟩
  | 83 => ⟨S64x32, .i32⟩
  | 84 => ⟨S64x32, .i32⟩
  | 85 => ⟨S64x32x1, .i32⟩
  | 86 => ⟨S64x32x1, .i32⟩
  | 87 => ⟨S64x32x1, .i32⟩
  | 88 => ⟨S64x32x1, .i32⟩
  | 89 => ⟨S64x32x4, .i32⟩
  | 90 => ⟨S64x32, .f32⟩
  | 91 => ⟨S64x32, .f32⟩
  | 92 => ⟨S64x32, .f32⟩
  | 93 => ⟨S_, .f32⟩
  | 94 => ⟨S64x32, .f32⟩
  | 95 => ⟨S64x32, .f32⟩
  | 96 => ⟨S_, .f32⟩
  | 97 => ⟨S64x32, .f32⟩
  | 98 => ⟨S64x32, .f32⟩
  | 99 => ⟨S64x32, .f32⟩
  | 100 => ⟨S64x32, .f32⟩
  | 101 => ⟨S_, .f32⟩
  | 102 => ⟨S64x32, .f32⟩
  | 103 => ⟨S64x32, .f32⟩
  | 104 => ⟨S_, .f32⟩
  | 105 => ⟨S64x32, .f32⟩
  | 106 => ⟨S64x32, .f32⟩
  | 107 => ⟨S64x32, .f32⟩
  | 108 => ⟨S64x32, .f32⟩
  | 109 => ⟨S_, .f32⟩
  | 110 => ⟨S64x32, .f32⟩
  | 111 => ⟨S64x32, .f32⟩
  | 112 => ⟨S_, .f32⟩
  | 113 => ⟨S64x32, .f32⟩
  | 114 => ⟨S64x32, .f32⟩
  | 115 => ⟨S64x32, .f32⟩
  | 116 => ⟨S64x32, .f32⟩
  | 117 => ⟨S_, .f32⟩
  | 118 => ⟨S64x32, .f32⟩
  | 119 => ⟨S64x32, .f32⟩
  | 120 => ⟨S_, .f32⟩
  | 121 => ⟨S64x32, .f32⟩
  | 122 => ⟨S64x32, .f32⟩
  | 123 => ⟨S_, .f32⟩
  | 124 => ⟨S64x32, .f32⟩
  | 125 => ⟨S64x32, .f32⟩
  | 126 => ⟨S64x32, .f32⟩
  | 127 => ⟨S64x32, .f32⟩
  | _ => ⟨S64x6x256x256, .f32⟩

abbrev hbmTy0_2 (i : Nat) : BufTy := match i % 128 with
  | 0 => ⟨S_, .f32⟩
  | 1 => ⟨S64x32, .f32⟩
  | 2 => ⟨S64x32, .f32⟩
  | 3 => ⟨S64x32, .f32⟩
  | 4 => ⟨S64x32, .f32⟩
  | 5 => ⟨S64x32, .f32⟩
  | 6 => ⟨S64x32, .f32⟩
  | 7 => ⟨S64x32, .f32⟩
  | 8 => ⟨S64x32, .f32⟩
  | 9 => ⟨S64x32, .f32⟩
  | 10 => ⟨S64x32, .f32⟩
  | 11 => ⟨S64x32, .f32⟩
  | 12 => ⟨S64x32, .f32⟩
  | 13 => ⟨S64x32, .f32⟩
  | 14 => ⟨S64x32, .f32⟩
  | 15 => ⟨S64x32, .f32⟩
  | 16 => ⟨S_, .f32⟩
  | 17 => ⟨S_, .f32⟩
  | 18 => ⟨S_, .f32⟩
  | 19 => ⟨S_, .f32⟩
  | 20 => ⟨S_, .f32⟩
  | 21 => ⟨S64x32, .f32⟩
  | 22 => ⟨S64x32, .f32⟩
  | 23 => ⟨S64x32, .f32⟩
  | 24 => ⟨S64x32, .f32⟩
  | 25 => ⟨S64x32, .i1⟩
  | 26 => ⟨S64x32, .f32⟩
  | 27 => ⟨S64x32, .f32⟩
  | 28 => ⟨S64x32, .f32⟩
  | 29 => ⟨S64x32, .f32⟩
  | 30 => ⟨S64x32, .f32⟩
  | 31 => ⟨S64x32, .f32⟩
  | 32 => ⟨S64x32, .f32⟩
  | 33 => ⟨S64x32, .f32⟩
  | 34 => ⟨S_, .f32⟩
  | 35 => ⟨S64x32, .f32⟩
  | 36 => ⟨S64x32, .f32⟩
  | 37 => ⟨S64x32, .f32⟩
  | 38 => ⟨S_, .f32⟩
  | 39 => ⟨S_, .f32⟩
  | 40 => ⟨S_, .f32⟩
  | 41 => ⟨S_, .f32⟩
  | 42 => ⟨S_, .f32⟩
  | 43 => ⟨S64x32, .f32⟩
  | 44 => ⟨S64x32, .f32⟩
  | 45 => ⟨S64x32, .f32⟩
  | 46 => ⟨S64x32, .f32⟩
  | 47 => ⟨S64x32, .i1⟩
  | 48 => ⟨S64x32, .f32⟩
  | 49 => ⟨S64x32, .f32⟩
  | 50 => ⟨S64x32, .f32⟩
  | 51 => ⟨S64x32, .f32⟩
  | 52 => ⟨S64x32, .f32⟩
  | 53 => ⟨S64x32, .f32⟩
  | 54 => ⟨S64x32, .f32⟩
  | 55 => ⟨S64x32, .f32⟩
  | 56 => ⟨S_, .f32⟩
  | 57 => ⟨S64x32, .f32⟩
  | 58 => ⟨S64x32, .f32⟩
  | 59 => ⟨S64x32, .f32⟩
  | 60 => ⟨S_, .f32⟩
  | 61 => ⟨S_, .f32⟩
  | 62 => ⟨S_, .f32⟩
  | 63 => ⟨S_, .f32⟩
  | 64 => ⟨S_, .i32⟩
  | 65 => ⟨S64x32, .i32⟩
  | 66 => ⟨S64x32, .i32⟩
  | 67 => ⟨S64x32, .i32⟩
  | 68 => ⟨S_, .i32⟩
  | 69 => ⟨S64x32, .i32⟩
  | 70 => ⟨S64x32, .i32⟩
  | 71 => ⟨S64x32, .i32⟩
  | 72 => ⟨S_, .f32⟩
  | 73 => ⟨S4194304, .f32⟩
  | 74 => ⟨S2048, .i32⟩
  | 75 => ⟨S_, .i32⟩
  | 76 => ⟨S2048, .i32⟩
  | 77 => ⟨S2048, .i1⟩
  | 78 => ⟨S_, .i32⟩
  | 79 => ⟨S2048, .i32⟩
  | 80 => ⟨S2048, .i32⟩
  | 81 => ⟨S2048, .i32⟩
  | 82 => ⟨S2048x1, .i32⟩
  | 83 => ⟨S_, .f32⟩
  | 84 => ⟨S2048, .f32⟩
  | 85 => ⟨S4194304, .f32⟩
  | 86 => ⟨S64x256x256, .f32⟩
  | 87 => ⟨S8x1x1, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | _ => ⟨S64x6x256x256, .f32⟩

abbrev hbmTy (i : Nat) : BufTy := match i / 128 with
  | 0 => hbmTy0_0 i
  | 1 => hbmTy0_1 i
  | 2 => hbmTy0_2 i
  | _ => ⟨S64x6x256x256, .f32⟩

abbrev bufTy : (tb : Table) → Fin (tcTables nBuf tb) → BufTy
  | .hbm, ⟨i, _⟩ => hbmTy i
  | .local _ .vmem, ⟨0, _⟩ => ⟨S8x1x256x256, .f32⟩
  | .local _ .vmem, ⟨1, _⟩ => ⟨S8x1x256x256, .f32⟩
  | .local _ .vmem, ⟨2, _⟩ => ⟨S8x256x256, .f32⟩
  | .local _ .vmem, ⟨3, _⟩ => ⟨S8x256x256, .f32⟩
  | .local _ .vmem, ⟨4, _⟩ => ⟨S1x1x1, .f32⟩
  | .local _ .vmem, ⟨5, _⟩ => ⟨S1x1x1, .f32⟩
  | _, _ => ⟨S64x6x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_c_3 : Ref sig .tc := ⟨.hbm, 29, rfl⟩
abbrev main_call1_v0 : Ref sig .tc := ⟨.hbm, 30, rfl⟩
abbrev main_call1_v1 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_c_5 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_c_6 : Ref sig .tc := ⟨.hbm, 46, rfl⟩
abbrev main_v26 : Ref sig .tc := ⟨.hbm, 47, rfl⟩
abbrev main_v27 : Ref sig .tc := ⟨.hbm, 48, rfl⟩
abbrev main_c_7 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_c_8 : Ref sig .tc := ⟨.hbm, 53, rfl⟩
abbrev main_v31 : Ref sig .tc := ⟨.hbm, 54, rfl⟩
abbrev main_v32 : Ref sig .tc := ⟨.hbm, 55, rfl⟩
abbrev main_c_9 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_c_10 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_c_11 : Ref sig .tc := ⟨.hbm, 69, rfl⟩
abbrev main_v44 : Ref sig .tc := ⟨.hbm, 70, rfl⟩
abbrev main_v45 : Ref sig .tc := ⟨.hbm, 71, rfl⟩
abbrev main_c_12 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_c_13 : Ref sig .tc := ⟨.hbm, 76, rfl⟩
abbrev main_v49 : Ref sig .tc := ⟨.hbm, 77, rfl⟩
abbrev main_v50 : Ref sig .tc := ⟨.hbm, 78, rfl⟩
abbrev main_c_14 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_c_15 : Ref sig .tc := ⟨.hbm, 83, rfl⟩
abbrev main_v54 : Ref sig .tc := ⟨.hbm, 84, rfl⟩
abbrev main_v55 : Ref sig .tc := ⟨.hbm, 85, rfl⟩
abbrev main_c_16 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_17 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_c_18 : Ref sig .tc := ⟨.hbm, 99, rfl⟩
abbrev main_v67 : Ref sig .tc := ⟨.hbm, 100, rfl⟩
abbrev main_v68 : Ref sig .tc := ⟨.hbm, 101, rfl⟩
abbrev main_c_19 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_c_20 : Ref sig .tc := ⟨.hbm, 106, rfl⟩
abbrev main_v72 : Ref sig .tc := ⟨.hbm, 107, rfl⟩
abbrev main_v73 : Ref sig .tc := ⟨.hbm, 108, rfl⟩
abbrev main_c_21 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_c_22 : Ref sig .tc := ⟨.hbm, 113, rfl⟩
abbrev main_v77 : Ref sig .tc := ⟨.hbm, 114, rfl⟩
abbrev main_v78 : Ref sig .tc := ⟨.hbm, 115, rfl⟩
abbrev main_c_23 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_24 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_c_25 : Ref sig .tc := ⟨.hbm, 129, rfl⟩
abbrev main_v90 : Ref sig .tc := ⟨.hbm, 130, rfl⟩
abbrev main_v91 : Ref sig .tc := ⟨.hbm, 131, rfl⟩
abbrev main_c_26 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_c_27 : Ref sig .tc := ⟨.hbm, 136, rfl⟩
abbrev main_v95 : Ref sig .tc := ⟨.hbm, 137, rfl⟩
abbrev main_v96 : Ref sig .tc := ⟨.hbm, 138, rfl⟩
abbrev main_c_28 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_c_29 : Ref sig .tc := ⟨.hbm, 143, rfl⟩
abbrev main_v100 : Ref sig .tc := ⟨.hbm, 144, rfl⟩
abbrev main_v101 : Ref sig .tc := ⟨.hbm, 145, rfl⟩
abbrev main_c_30 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_c_31 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_c_32 : Ref sig .tc := ⟨.hbm, 159, rfl⟩
abbrev main_v113 : Ref sig .tc := ⟨.hbm, 160, rfl⟩
abbrev main_v114 : Ref sig .tc := ⟨.hbm, 161, rfl⟩
abbrev main_c_33 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_c_34 : Ref sig .tc := ⟨.hbm, 166, rfl⟩
abbrev main_v118 : Ref sig .tc := ⟨.hbm, 167, rfl⟩
abbrev main_v119 : Ref sig .tc := ⟨.hbm, 168, rfl⟩
abbrev main_c_35 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_c_36 : Ref sig .tc := ⟨.hbm, 173, rfl⟩
abbrev main_v123 : Ref sig .tc := ⟨.hbm, 174, rfl⟩
abbrev main_v124 : Ref sig .tc := ⟨.hbm, 175, rfl⟩
abbrev main_c_37 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_c_38 : Ref sig .tc := ⟨.hbm, 180, rfl⟩
abbrev main_v128 : Ref sig .tc := ⟨.hbm, 181, rfl⟩
abbrev main_v129 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_c_39 : Ref sig .tc := ⟨.hbm, 189, rfl⟩
abbrev main_v136 : Ref sig .tc := ⟨.hbm, 190, rfl⟩
abbrev main_v137 : Ref sig .tc := ⟨.hbm, 191, rfl⟩
abbrev main_c_40 : Ref sig .tc := ⟨.hbm, 192, rfl⟩
abbrev main_v138 : Ref sig .tc := ⟨.hbm, 193, rfl⟩
abbrev main_v139 : Ref sig .tc := ⟨.hbm, 194, rfl⟩
abbrev main_v140 : Ref sig .tc := ⟨.hbm, 195, rfl⟩
abbrev main_c_41 : Ref sig .tc := ⟨.hbm, 196, rfl⟩
abbrev main_v141 : Ref sig .tc := ⟨.hbm, 197, rfl⟩
abbrev main_v142 : Ref sig .tc := ⟨.hbm, 198, rfl⟩
abbrev main_c_42 : Ref sig .tc := ⟨.hbm, 199, rfl⟩
abbrev main_v143 : Ref sig .tc := ⟨.hbm, 200, rfl⟩
abbrev main_v144 : Ref sig .tc := ⟨.hbm, 201, rfl⟩
abbrev main_v145 : Ref sig .tc := ⟨.hbm, 202, rfl⟩
abbrev main_c_43 : Ref sig .tc := ⟨.hbm, 203, rfl⟩
abbrev main_v146 : Ref sig .tc := ⟨.hbm, 204, rfl⟩
abbrev main_v147 : Ref sig .tc := ⟨.hbm, 205, rfl⟩
abbrev main_c_44 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_c_45 : Ref sig .tc := ⟨.hbm, 210, rfl⟩
abbrev main_v151 : Ref sig .tc := ⟨.hbm, 211, rfl⟩
abbrev main_v152 : Ref sig .tc := ⟨.hbm, 212, rfl⟩
abbrev main_v153 : Ref sig .tc := ⟨.hbm, 213, rfl⟩
abbrev main_v154 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_cst_46 : Ref sig .tc := ⟨.hbm, 221, rfl⟩
abbrev main_v161 : Ref sig .tc := ⟨.hbm, 222, rfl⟩
abbrev main_v162 : Ref sig .tc := ⟨.hbm, 223, rfl⟩
abbrev main_cst_47 : Ref sig .tc := ⟨.hbm, 224, rfl⟩
abbrev main_v163 : Ref sig .tc := ⟨.hbm, 225, rfl⟩
abbrev main_v164 : Ref sig .tc := ⟨.hbm, 226, rfl⟩
abbrev main_v165 : Ref sig .tc := ⟨.hbm, 227, rfl⟩
abbrev main_v166 : Ref sig .tc := ⟨.hbm, 228, rfl⟩
abbrev main_cst_48 : Ref sig .tc := ⟨.hbm, 229, rfl⟩
abbrev main_v167 : Ref sig .tc := ⟨.hbm, 230, rfl⟩
abbrev main_v168 : Ref sig .tc := ⟨.hbm, 231, rfl⟩
abbrev main_cst_49 : Ref sig .tc := ⟨.hbm, 232, rfl⟩
abbrev main_v169 : Ref sig .tc := ⟨.hbm, 233, rfl⟩
abbrev main_v170 : Ref sig .tc := ⟨.hbm, 234, rfl⟩
abbrev main_v171 : Ref sig .tc := ⟨.hbm, 235, rfl⟩
abbrev main_v172 : Ref sig .tc := ⟨.hbm, 236, rfl⟩
abbrev main_cst_50 : Ref sig .tc := ⟨.hbm, 237, rfl⟩
abbrev main_v173 : Ref sig .tc := ⟨.hbm, 238, rfl⟩
abbrev main_v174 : Ref sig .tc := ⟨.hbm, 239, rfl⟩
abbrev main_cst_51 : Ref sig .tc := ⟨.hbm, 240, rfl⟩
abbrev main_v175 : Ref sig .tc := ⟨.hbm, 241, rfl⟩
abbrev main_v176 : Ref sig .tc := ⟨.hbm, 242, rfl⟩
abbrev main_v177 : Ref sig .tc := ⟨.hbm, 243, rfl⟩
abbrev main_v178 : Ref sig .tc := ⟨.hbm, 244, rfl⟩
abbrev main_cst_52 : Ref sig .tc := ⟨.hbm, 245, rfl⟩
abbrev main_v179 : Ref sig .tc := ⟨.hbm, 246, rfl⟩
abbrev main_v180 : Ref sig .tc := ⟨.hbm, 247, rfl⟩
abbrev main_cst_53 : Ref sig .tc := ⟨.hbm, 248, rfl⟩
abbrev main_v181 : Ref sig .tc := ⟨.hbm, 249, rfl⟩
abbrev main_v182 : Ref sig .tc := ⟨.hbm, 250, rfl⟩
abbrev main_cst_54 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_cst_55 : Ref sig .tc := ⟨.hbm, 256, rfl⟩
abbrev main_v187 : Ref sig .tc := ⟨.hbm, 257, rfl⟩
abbrev main_v188 : Ref sig .tc := ⟨.hbm, 258, rfl⟩
abbrev main_v189 : Ref sig .tc := ⟨.hbm, 259, rfl⟩
abbrev main_v190 : Ref sig .tc := ⟨.hbm, 260, rfl⟩
abbrev main_v191 : Ref sig .tc := ⟨.hbm, 261, rfl⟩
abbrev main_v192 : Ref sig .tc := ⟨.hbm, 262, rfl⟩
abbrev main_v193 : Ref sig .tc := ⟨.hbm, 263, rfl⟩
abbrev main_v194 : Ref sig .tc := ⟨.hbm, 264, rfl⟩
abbrev main_v195 : Ref sig .tc := ⟨.hbm, 265, rfl⟩
abbrev main_v196 : Ref sig .tc := ⟨.hbm, 266, rfl⟩
abbrev main_v197 : Ref sig .tc := ⟨.hbm, 267, rfl⟩
abbrev main_v198 : Ref sig .tc := ⟨.hbm, 268, rfl⟩
abbrev main_v199 : Ref sig .tc := ⟨.hbm, 269, rfl⟩
abbrev main_v200 : Ref sig .tc := ⟨.hbm, 270, rfl⟩
abbrev main_v201 : Ref sig .tc := ⟨.hbm, 271, rfl⟩
abbrev main_cst_56 : Ref sig .tc := ⟨.hbm, 272, rfl⟩
abbrev main_v202 : Ref sig .tc := ⟨.hbm, 273, rfl⟩
abbrev main_cst_57 : Ref sig .tc := ⟨.hbm, 274, rfl⟩
abbrev main_v203 : Ref sig .tc := ⟨.hbm, 275, rfl⟩
abbrev main_cst_58 : Ref sig .tc := ⟨.hbm, 276, rfl⟩
abbrev main_v204 : Ref sig .tc := ⟨.hbm, 277, rfl⟩
abbrev main_v205 : Ref sig .tc := ⟨.hbm, 278, rfl⟩
abbrev main_v206 : Ref sig .tc := ⟨.hbm, 279, rfl⟩
abbrev main_v207 : Ref sig .tc := ⟨.hbm, 280, rfl⟩
abbrev main_v208 : Ref sig .tc := ⟨.hbm, 281, rfl⟩
abbrev main_v209 : Ref sig .tc := ⟨.hbm, 282, rfl⟩
abbrev main_v210 : Ref sig .tc := ⟨.hbm, 283, rfl⟩
abbrev main_v211 : Ref sig .tc := ⟨.hbm, 284, rfl⟩
abbrev main_v212 : Ref sig .tc := ⟨.hbm, 285, rfl⟩
abbrev main_v213 : Ref sig .tc := ⟨.hbm, 286, rfl⟩
abbrev main_v214 : Ref sig .tc := ⟨.hbm, 287, rfl⟩
abbrev main_v215 : Ref sig .tc := ⟨.hbm, 288, rfl⟩
abbrev main_v216 : Ref sig .tc := ⟨.hbm, 289, rfl⟩
abbrev main_cst_59 : Ref sig .tc := ⟨.hbm, 290, rfl⟩
abbrev main_v217 : Ref sig .tc := ⟨.hbm, 291, rfl⟩
abbrev main_v218 : Ref sig .tc := ⟨.hbm, 292, rfl⟩
abbrev main_v219 : Ref sig .tc := ⟨.hbm, 293, rfl⟩
abbrev main_cst_60 : Ref sig .tc := ⟨.hbm, 294, rfl⟩
abbrev main_v220 : Ref sig .tc := ⟨.hbm, 295, rfl⟩
abbrev main_cst_61 : Ref sig .tc := ⟨.hbm, 296, rfl⟩
abbrev main_v221 : Ref sig .tc := ⟨.hbm, 297, rfl⟩
abbrev main_cst_62 : Ref sig .tc := ⟨.hbm, 298, rfl⟩
abbrev main_v222 : Ref sig .tc := ⟨.hbm, 299, rfl⟩
abbrev main_v223 : Ref sig .tc := ⟨.hbm, 300, rfl⟩
abbrev main_v224 : Ref sig .tc := ⟨.hbm, 301, rfl⟩
abbrev main_v225 : Ref sig .tc := ⟨.hbm, 302, rfl⟩
abbrev main_v226 : Ref sig .tc := ⟨.hbm, 303, rfl⟩
abbrev main_v227 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_v234 : Ref sig .tc := ⟨.hbm, 311, rfl⟩
abbrev main_cst_63 : Ref sig .tc := ⟨.hbm, 312, rfl⟩
abbrev main_v235 : Ref sig .tc := ⟨.hbm, 313, rfl⟩
abbrev main_v236 : Ref sig .tc := ⟨.hbm, 314, rfl⟩
abbrev main_v237 : Ref sig .tc := ⟨.hbm, 315, rfl⟩
abbrev main_cst_64 : Ref sig .tc := ⟨.hbm, 316, rfl⟩
abbrev main_v238 : Ref sig .tc := ⟨.hbm, 317, rfl⟩
abbrev main_cst_65 : Ref sig .tc := ⟨.hbm, 318, rfl⟩
abbrev main_v239 : Ref sig .tc := ⟨.hbm, 319, rfl⟩
abbrev main_c_66 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_c_67 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_cst_68 : Ref sig .tc := ⟨.hbm, 328, rfl⟩
abbrev main_v246 : Ref sig .tc := ⟨.hbm, 329, rfl⟩
abbrev main_v247 : Ref sig .tc := ⟨.hbm, 330, rfl⟩
abbrev main_c_69 : Ref sig .tc := ⟨.hbm, 331, rfl⟩
abbrev main_v248 : Ref sig .tc := ⟨.hbm, 332, rfl⟩
abbrev main_v249 : Ref sig .tc := ⟨.hbm, 333, rfl⟩
abbrev main_c_70 : Ref sig .tc := ⟨.hbm, 334, rfl⟩
abbrev main_v250 : Ref sig .tc := ⟨.hbm, 335, rfl⟩
abbrev main_v251 : Ref sig .tc := ⟨.hbm, 336, rfl⟩
abbrev main_v252 : Ref sig .tc := ⟨.hbm, 337, rfl⟩
abbrev main_v253 : Ref sig .tc := ⟨.hbm, 338, rfl⟩
abbrev main_cst_71 : Ref sig .tc := ⟨.hbm, 339, rfl⟩
abbrev main_v254 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_cst_72 : Ref sig .tc := ⟨.hbm, 344, rfl⟩
abbrev main_v258 : Ref sig .tc := ⟨.hbm, 345, rfl⟩
abbrev main_cst_73 : Ref sig .tc := ⟨.hbm, 346, rfl⟩
abbrev main_v259 : Ref sig .tc := ⟨.hbm, 347, rfl⟩
abbrev main_v260 : Ref sig .tc := ⟨.hbm, 348, rfl⟩
abbrev main_v261 : Ref sig .tc := ⟨.hbm, 349, rfl⟩
abbrev main_v262 : Ref sig .tc := ⟨.hbm, 350, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![arg0.toNat, c4_i32.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  slices_S64x32x4_S64x32x1_0_0_0 : S64x32x4.Slices ![0, 0, 0] S64x32x1
  shapeCasts_S64x32x1_S64x32 : S64x32x1.ShapeCasts S64x32
  slices_S64x32x4_S64x32x1_0_0_1 : S64x32x4.Slices ![0, 0, 1] S64x32x1
  slices_S64x32x4_S64x32x1_0_0_2 : S64x32x4.Slices ![0, 0, 2] S64x32x1
  slices_S64x32x4_S64x32x1_0_0_3 : S64x32x4.Slices ![0, 0, 3] S64x32x1
  bcast_S_S64x32 : S_.BroadcastsInDim S64x32 (![] : Fin 0 → Fin S64x32.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S64x32_S64x32x1_0_1 : S64x32.BroadcastsInDim S64x32x1 (![0, 1] : Fin 2 → Fin S64x32x1.rank)
  concatenates_S64x32x1_S64x32x1_S64x32x1_S64x32x1_S64x32x4_d2 : Shape.Concatenates [S64x32x1, S64x32x1, S64x32x1, S64x32x1] S64x32x4 2
  reducesTo_S64x32_S_d0_1 : S64x32.ReducesTo [0, 1] S_
  h_S_ : 0 < S_.numel
  bcast_S_S4194304 : S_.BroadcastsInDim S4194304 (![] : Fin 0 → Fin S4194304.rank)
  shapeCasts_S64x32_S2048 : S64x32.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  shapeCasts_S4194304_S64x256x256 : S4194304.ShapeCasts S64x256x256
  inb_S8x1x256x256_S8x1x256x256_0_0_0_0 : ∀ a, (![0, 0, 0, 0] : Fin 4 → Nat) a + S8x1x256x256.size a ≤ S8x1x256x256.size a
  h_S8x1x256x256 : 0 < S8x1x256x256.numel
  shapeCasts_S8x1x256x256_S8x256x256 : S8x1x256x256.ShapeCasts S8x256x256
  inb_S8x256x256_S8x256x256_0_0_0 : ∀ a, (![0, 0, 0] : Fin 3 → Nat) a + S8x256x256.size a ≤ S8x256x256.size a
  h_S8x256x256 : 0 < S8x256x256.numel
  shapeCasts_S8x256x256_S8x256x256 : S8x256x256.ShapeCasts S8x256x256
  reduces_S8x256x256_S8x256 : S8x256x256.Reduces [2] S8x256
  shapeCasts_S8x256_S8x256x1 : S8x256.ShapeCasts S8x256x1
  reduces_S8x256x1_S8x1 : S8x256x1.Reduces [1] S8x1
  shapeCasts_S8x1_S8x1x1 : S8x1.ShapeCasts S8x1x1
  reduces_S8x1x1_S1x1 : S8x1x1.Reduces [0] S1x1
  shapeCasts_S1x1_S1x1x1 : S1x1.ShapeCasts S1x1x1
  inb_S1x1x1_S1x1x1_0_0_0 : ∀ a, (![0, 0, 0] : Fin 3 → Nat) a + S1x1x1.size a ≤ S1x1x1.size a
  h_S1x1x1 : 0 < S1x1x1.numel
  reducesTo_S8x1x1_S_d0_1_2 : S8x1x1.ReducesTo [0, 1, 2] S_
  gather_S64x6x256x256_S64x32x4_S64x32_n_0123_n_n_0123_2_1111_wf : GatherDims.WF S64x6x256x256 S64x32x4 S64x32 [] [0, 1, 2, 3] [] [0, 1, 2, 3] [] 2 ![1, 1, 1, 1]
  scatter_S4194304_S2048x1_S2048_n_0_0_1_wf : ScatterDims.WF S4194304 S2048x1 S2048 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x1x256x256.size a ≤ S64x6x256x256.size a
  hwx0_0 : ∀ i : grid0.Coords, EltTy.bits .f32 = 32 ∨ (Rect.block (s := S64x6x256x256) S8x1x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x256x256.size a ≤ S64x256x256.size a
  hwx0_1 : ∀ i : grid0.Coords, EltTy.bits .f32 = 32 ∨ (Rect.block (s := S64x256x256) S8x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1.size a ≤ S8x1x1.size a
  hwx0_2 : ∀ i : grid0.Coords, EltTy.bits .f32 = 32 ∨ (Rect.block (s := S8x1x1) S1x1x1.size (cc0_transform_2 i) (hinb0_2 i)).WholeWords (EltTy.packing .f32)

variable [Facts₀]

def gather_S64x6x256x256_S64x32x4_S64x32_n_0123_n_n_0123_2_1111 : GatherDims S64x6x256x256 S64x32x4 S64x32 where
  offsetDims := []
  collapsedSliceDims := [0, 1, 2, 3]
  operandBatchingDims := []
  startIndicesBatchingDims := []
  startIndexMap := [0, 1, 2, 3]
  indexVectorDim := 2
  sliceSizes := ![1, 1, 1, 1]
  wf := gather_S64x6x256x256_S64x32x4_S64x32_n_0123_n_n_0123_2_1111_wf
def scatter_S4194304_S2048x1_S2048_n_0_0_1 : ScatterDims S4194304 S2048x1 S2048 where
  updateWindowDims := []
  insertedWindowDims := [0]
  scatterDimsToOperandDims := [0]
  indexVectorDim := 1
  wf := scatter_S4194304_S2048x1_S2048_n_0_0_1_wf

abbrev win0_0 : Pipeline.Window sig grid0 :=
  Pipeline.Window.ofSpec (Memref.whole main_arg0) S8x1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v256) S8x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v257) S1x1x1.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S64x6x256x256 : Shape := ⟨4, ![64, 6, 256, 256]⟩
abbrev S64x32x4 : Shape := ⟨3, ![64, 32, 4]⟩
abbrev S64x256x256x6 : Shape := ⟨4, ![64, 256, 256, 6]⟩
abbrev S64x256x256x1 : Shape := ⟨4, ![64, 256, 256, 1]⟩
abbrev S64x256x256 : Shape := ⟨3, ![64, 256, 256]⟩
abbrev S_ : Shape := ⟨0, ![]⟩
abbrev S64x32x1 : Shape := ⟨3, ![64, 32, 1]⟩
abbrev S64x32 : Shape := ⟨2, ![64, 32]⟩
abbrev S64 : Shape := ⟨1, ![64]⟩
abbrev S64x1 : Shape := ⟨2, ![64, 1]⟩
abbrev S64x32x3 : Shape := ⟨3, ![64, 32, 3]⟩
abbrev S4194304 : Shape := ⟨1, ![4194304]⟩
abbrev S2048 : Shape := ⟨1, ![2048]⟩
abbrev S2048x1 : Shape := ⟨2, ![2048, 1]⟩

abbrev nBuf : Space → Nat
  | .hbm => 358
  | .vmem => 0
  | .smem => 0
  | _ => 0

abbrev hbmTy0_0 (i : Nat) : BufTy := match i % 128 with
  | 0 => ⟨S64x6x256x256, .f32⟩
  | 1 => ⟨S64x32x4, .f32⟩
  | 2 => ⟨S64x256x256x6, .f32⟩
  | 3 => ⟨S64x256x256x1, .f32⟩
  | 4 => ⟨S64x256x256, .f32⟩
  | 5 => ⟨S64x256x256, .f32⟩
  | 6 => ⟨S64x256x256, .f32⟩
  | 7 => ⟨S_, .f32⟩
  | 8 => ⟨S64x256x256, .f32⟩
  | 9 => ⟨S64x256x256, .f32⟩
  | 10 => ⟨S_, .f32⟩
  | 11 => ⟨S64x256x256, .f32⟩
  | 12 => ⟨S64x256x256, .f32⟩
  | 13 => ⟨S64x256x256x1, .f32⟩
  | 14 => ⟨S64x256x256, .f32⟩
  | 15 => ⟨S64x256x256, .f32⟩
  | 16 => ⟨S64x256x256, .f32⟩
  | 17 => ⟨S_, .f32⟩
  | 18 => ⟨S64x256x256, .f32⟩
  | 19 => ⟨S64x256x256, .f32⟩
  | 20 => ⟨S_, .f32⟩
  | 21 => ⟨S64x256x256, .f32⟩
  | 22 => ⟨S64x256x256, .f32⟩
  | 23 => ⟨S64x256x256x1, .f32⟩
  | 24 => ⟨S64x256x256, .f32⟩
  | 25 => ⟨S64x256x256, .f32⟩
  | 26 => ⟨S64x256x256, .f32⟩
  | 27 => ⟨S_, .f32⟩
  | 28 => ⟨S64x256x256, .f32⟩
  | 29 => ⟨S64x256x256, .f32⟩
  | 30 => ⟨S_, .f32⟩
  | 31 => ⟨S64x256x256, .f32⟩
  | 32 => ⟨S64x256x256, .f32⟩
  | 33 => ⟨S64x256x256x1, .f32⟩
  | 34 => ⟨S64x256x256, .f32⟩
  | 35 => ⟨S64x256x256, .f32⟩
  | 36 => ⟨S64x256x256, .f32⟩
  | 37 => ⟨S_, .f32⟩
  | 38 => ⟨S64x256x256, .f32⟩
  | 39 => ⟨S64x256x256, .f32⟩
  | 40 => ⟨S_, .f32⟩
  | 41 => ⟨S64x256x256, .f32⟩
  | 42 => ⟨S64x256x256, .f32⟩
  | 43 => ⟨S64x256x256x1, .f32⟩
  | 44 => ⟨S64x256x256, .f32⟩
  | 45 => ⟨S64x256x256x1, .f32⟩
  | 46 => ⟨S64x256x256, .f32⟩
  | 47 => ⟨S64x32x1, .f32⟩
  | 48 => ⟨S64x32, .f32⟩
  | 49 => ⟨S64x32x1, .f32⟩
  | 50 => ⟨S64x32, .f32⟩
  | 51 => ⟨S64x32x1, .f32⟩
  | 52 => ⟨S64x32, .f32⟩
  | 53 => ⟨S64x32x1, .f32⟩
  | 54 => ⟨S64x32, .f32⟩
  | 55 => ⟨S_, .f32⟩
  | 56 => ⟨S64x32, .f32⟩
  | 57 => ⟨S64x32, .f32⟩
  | 58 => ⟨S64x32, .f32⟩
  | 59 => ⟨S64x32, .i32⟩
  | 60 => ⟨S_, .i32⟩
  | 61 => ⟨S_, .i32⟩
  | 62 => ⟨S_, .i32⟩
  | 63 => ⟨S64x32, .i32⟩
  | 64 => ⟨S64x32, .i32⟩
  | 65 => ⟨S_, .i32⟩
  | 66 => ⟨S64x32, .i32⟩
  | 67 => ⟨S64x32, .i32⟩
  | 68 => ⟨S_, .f32⟩
  | 69 => ⟨S64x32, .f32⟩
  | 70 => ⟨S64x32, .f32⟩
  | 71 => ⟨S64x32, .f32⟩
  | 72 => ⟨S64x32, .i32⟩
  | 73 => ⟨S_, .i32⟩
  | 74 => ⟨S_, .i32⟩
  | 75 => ⟨S_, .i32⟩
  | 76 => ⟨S64x32, .i32⟩
  | 77 => ⟨S64x32, .i32⟩
  | 78 => ⟨S_, .i32⟩
  | 79 => ⟨S64x32, .i32⟩
  | 80 => ⟨S64x32, .i32⟩
  | 81 => ⟨S64, .i32⟩
  | 82 => ⟨S64x1, .i32⟩
  | 83 => ⟨S64x32, .i32⟩
  | 84 => ⟨S_, .i32⟩
  | 85 => ⟨S64x32, .i32⟩
  | 86 => ⟨S64x32, .i1⟩
  | 87 => ⟨S_, .i32⟩
  | 88 => ⟨S64x32, .i32⟩
  | 89 => ⟨S64x32, .i32⟩
  | 90 => ⟨S64x32, .i32⟩
  | 91 => ⟨S_, .i32⟩
  | 92 => ⟨S64x32, .i32⟩
  | 93 => ⟨S64x32, .i1⟩
  | 94 => ⟨S_, .i32⟩
  | 95 => ⟨S64x32, .i32⟩
  | 96 => ⟨S64x32, .i32⟩
  | 97 => ⟨S64x32, .i32⟩
  | 98 => ⟨S_, .i32⟩
  | 99 => ⟨S64x32, .i32⟩
  | 100 => ⟨S64x32, .i1⟩
  | 101 => ⟨S_, .i32⟩
  | 102 => ⟨S64x32, .i32⟩
  | 103 => ⟨S64x32, .i32⟩
  | 104 => ⟨S64x32, .i32⟩
  | 105 => ⟨S64x32x1, .i32⟩
  | 106 => ⟨S64x32x1, .i32⟩
  | 107 => ⟨S64x32x1, .i32⟩
  | 108 => ⟨S64x32x3, .i32⟩
  | 109 => ⟨S64x32, .f32⟩
  | 110 => ⟨S_, .i32⟩
  | 111 => ⟨S64x32, .i32⟩
  | 112 => ⟨S64x32, .i1⟩
  | 113 => ⟨S_, .i32⟩
  | 114 => ⟨S64x32, .i32⟩
  | 115 => ⟨S64x32, .i32⟩
  | 116 => ⟨S64x32, .i32⟩
  | 117 => ⟨S_, .i32⟩
  | 118 => ⟨S64x32, .i32⟩
  | 119 => ⟨S64x32, .i1⟩
  | 120 => ⟨S_, .i32⟩
  | 121 => ⟨S64x32, .i32⟩
  | 122 => ⟨S64x32, .i32⟩
  | 123 => ⟨S64x32, .i32⟩
  | 124 => ⟨S_, .i32⟩
  | 125 => ⟨S64x32, .i32⟩
  | 126 => ⟨S64x32, .i1⟩
  | 127 => ⟨S_, .i32⟩
  | _ => ⟨S64x6x256x256, .f32⟩

abbrev hbmTy0_1 (i : Nat) : BufTy := match i % 128 with
  | 0 => ⟨S64x32, .i32⟩
  | 1 => ⟨S64x32, .i32⟩
  | 2 => ⟨S64x32, .i32⟩
  | 3 => ⟨S64x32x1, .i32⟩
  | 4 => ⟨S64x32x1, .i32⟩
  | 5 => ⟨S64x32x1, .i32⟩
  | 6 => ⟨S64x32x3, .i32⟩
  | 7 => ⟨S64x32, .f32⟩
  | 8 => ⟨S_, .i32⟩
  | 9 => ⟨S64x32, .i32⟩
  | 10 => ⟨S64x32, .i1⟩
  | 11 => ⟨S_, .i32⟩
  | 12 => ⟨S64x32, .i32⟩
  | 13 => ⟨S64x32, .i32⟩
  | 14 => ⟨S64x32, .i32⟩
  | 15 => ⟨S_, .i32⟩
  | 16 => ⟨S64x32, .i32⟩
  | 17 => ⟨S64x32, .i1⟩
  | 18 => ⟨S_, .i32⟩
  | 19 => ⟨S64x32, .i32⟩
  | 20 => ⟨S64x32, .i32⟩
  | 21 => ⟨S64x32, .i32⟩
  | 22 => ⟨S_, .i32⟩
  | 23 => ⟨S64x32, .i32⟩
  | 24 => ⟨S64x32, .i1⟩
  | 25 => ⟨S_, .i32⟩
  | 26 => ⟨S64x32, .i32⟩
  | 27 => ⟨S64x32, .i32⟩
  | 28 => ⟨S64x32, .i32⟩
  | 29 => ⟨S64x32x1, .i32⟩
  | 30 => ⟨S64x32x1, .i32⟩
  | 31 => ⟨S64x32x1, .i32⟩
  | 32 => ⟨S64x32x3, .i32⟩
  | 33 => ⟨S64x32, .f32⟩
  | 34 => ⟨S_, .i32⟩
  | 35 => ⟨S64x32, .i32⟩
  | 36 => ⟨S64x32, .i1⟩
  | 37 => ⟨S_, .i32⟩
  | 38 => ⟨S64x32, .i32⟩
  | 39 => ⟨S64x32, .i32⟩
  | 40 => ⟨S64x32, .i32⟩
  | 41 => ⟨S_, .i32⟩
  | 42 => ⟨S64x32, .i32⟩
  | 43 => ⟨S64x32, .i1⟩
  | 44 => ⟨S_, .i32⟩
  | 45 => ⟨S64x32, .i32⟩
  | 46 => ⟨S64x32, .i32⟩
  | 47 => ⟨S64x32, .i32⟩
  | 48 => ⟨S_, .i32⟩
  | 49 => ⟨S64x32, .i32⟩
  | 50 => ⟨S64x32, .i1⟩
  | 51 => ⟨S_, .i32⟩
  | 52 => ⟨S64x32, .i32⟩
  | 53 => ⟨S64x32, .i32⟩
  | 54 => ⟨S64x32, .i32⟩
  | 55 => ⟨S64x32x1, .i32⟩
  | 56 => ⟨S64x32x1, .i32⟩
  | 57 => ⟨S64x32x1, .i32⟩
  | 58 => ⟨S64x32x3, .i32⟩
  | 59 => ⟨S64x32, .f32⟩
  | 60 => ⟨S_, .i32⟩
  | 61 => ⟨S64x32, .i32⟩
  | 62 => ⟨S64x32, .i1⟩
  | 63 => ⟨S_, .i32⟩
  | 64 => ⟨S64x32, .i32⟩
  | 65 => ⟨S64x32, .i32⟩
  | 66 => ⟨S64x32, .i32⟩
  | 67 => ⟨S_, .i32⟩
  | 68 => ⟨S64x32, .i32⟩
  | 69 => ⟨S64x32, .i1⟩
  | 70 => ⟨S_, .i32⟩
  | 71 => ⟨S64x32, .i32⟩
  | 72 => ⟨S64x32, .i32⟩
  | 73 => ⟨S64x32, .i32⟩
  | 74 => ⟨S_, .i32⟩
  | 75 => ⟨S64x32, .i32⟩
  | 76 => ⟨S64x32, .i1⟩
  | 77 => ⟨S_, .i32⟩
  | 78 => ⟨S64x32, .i32⟩
  | 79 => ⟨S64x32, .i32⟩
  | 80 => ⟨S64x32, .i32⟩
  | 81 => ⟨S64x32x1, .i32⟩
  | 82 => ⟨S64x32x1, .i32⟩
  | 83 => ⟨S64x32x1, .i32⟩
  | 84 => ⟨S64x32x3, .i32⟩
  | 85 => ⟨S64x32, .f32⟩
  | 86 => ⟨S_, .i32⟩
  | 87 => ⟨S64x32, .i32⟩
  | 88 => ⟨S64x32, .i1⟩
  | 89 => ⟨S_, .i32⟩
  | 90 => ⟨S64x32, .i32⟩
  | 91 => ⟨S64x32, .i32⟩
  | 92 => ⟨S64x32, .i32⟩
  | 93 => ⟨S_, .i32⟩
  | 94 => ⟨S64x32, .i32⟩
  | 95 => ⟨S64x32, .i1⟩
  | 96 => ⟨S_, .i32⟩
  | 97 => ⟨S64x32, .i32⟩
  | 98 => ⟨S64x32, .i32⟩
  | 99 => ⟨S64x32, .i32⟩
  | 100 => ⟨S_, .i32⟩
  | 101 => ⟨S64x32, .i32⟩
  | 102 => ⟨S64x32, .i1⟩
  | 103 => ⟨S_, .i32⟩
  | 104 => ⟨S64x32, .i32⟩
  | 105 => ⟨S64x32, .i32⟩
  | 106 => ⟨S64x32, .i32⟩
  | 107 => ⟨S64x32x1, .i32⟩
  | 108 => ⟨S64x32x1, .i32⟩
  | 109 => ⟨S64x32x1, .i32⟩
  | 110 => ⟨S64x32x3, .i32⟩
  | 111 => ⟨S64x32, .f32⟩
  | 112 => ⟨S_, .f32⟩
  | 113 => ⟨S64x32, .f32⟩
  | 114 => ⟨S64x32, .f32⟩
  | 115 => ⟨S64x32, .f32⟩
  | 116 => ⟨S64x32, .f32⟩
  | 117 => ⟨S_, .f32⟩
  | 118 => ⟨S64x32, .f32⟩
  | 119 => ⟨S64x32, .f32⟩
  | 120 => ⟨S64x32, .f32⟩
  | 121 => ⟨S64x32, .f32⟩
  | 122 => ⟨S64x32, .f32⟩
  | 123 => ⟨S64x32, .f32⟩
  | 124 => ⟨S64x32, .f32⟩
  | 125 => ⟨S64x32, .f32⟩
  | 126 => ⟨S64x32, .f32⟩
  | 127 => ⟨S64x32, .f32⟩
  | _ => ⟨S64x6x256x256, .f32⟩

abbrev hbmTy0_2 (i : Nat) : BufTy := match i % 128 with
  | 0 => ⟨S64x32, .f32⟩
  | 1 => ⟨S64x32, .f32⟩
  | 2 => ⟨S64x32, .f32⟩
  | 3 => ⟨S64x32, .f32⟩
  | 4 => ⟨S64x32, .f32⟩
  | 5 => ⟨S_, .f32⟩
  | 6 => ⟨S_, .f32⟩
  | 7 => ⟨S_, .f32⟩
  | 8 => ⟨S_, .f32⟩
  | 9 => ⟨S_, .f32⟩
  | 10 => ⟨S64x32, .f32⟩
  | 11 => ⟨S64x32, .f32⟩
  | 12 => ⟨S64x32, .f32⟩
  | 13 => ⟨S64x32, .f32⟩
  | 14 => ⟨S64x32, .i1⟩
  | 15 => ⟨S64x32, .f32⟩
  | 16 => ⟨S64x32, .f32⟩
  | 17 => ⟨S64x32, .f32⟩
  | 18 => ⟨S64x32, .f32⟩
  | 19 => ⟨S64x32, .f32⟩
  | 20 => ⟨S64x32, .f32⟩
  | 21 => ⟨S64x32, .f32⟩
  | 22 => ⟨S64x32, .f32⟩
  | 23 => ⟨S_, .f32⟩
  | 24 => ⟨S64x32, .f32⟩
  | 25 => ⟨S64x32, .f32⟩
  | 26 => ⟨S64x32, .f32⟩
  | 27 => ⟨S_, .f32⟩
  | 28 => ⟨S_, .f32⟩
  | 29 => ⟨S_, .f32⟩
  | 30 => ⟨S_, .f32⟩
  | 31 => ⟨S_, .f32⟩
  | 32 => ⟨S64x32, .f32⟩
  | 33 => ⟨S64x32, .f32⟩
  | 34 => ⟨S64x32, .f32⟩
  | 35 => ⟨S64x32, .f32⟩
  | 36 => ⟨S64x32, .i1⟩
  | 37 => ⟨S64x32, .f32⟩
  | 38 => ⟨S64x32, .f32⟩
  | 39 => ⟨S64x32, .f32⟩
  | 40 => ⟨S64x32, .f32⟩
  | 41 => ⟨S64x32, .f32⟩
  | 42 => ⟨S64x32, .f32⟩
  | 43 => ⟨S64x32, .f32⟩
  | 44 => ⟨S64x32, .f32⟩
  | 45 => ⟨S_, .f32⟩
  | 46 => ⟨S64x32, .f32⟩
  | 47 => ⟨S64x32, .f32⟩
  | 48 => ⟨S64x32, .f32⟩
  | 49 => ⟨S_, .f32⟩
  | 50 => ⟨S_, .f32⟩
  | 51 => ⟨S_, .f32⟩
  | 52 => ⟨S_, .f32⟩
  | 53 => ⟨S_, .i32⟩
  | 54 => ⟨S64x32, .i32⟩
  | 55 => ⟨S64x32, .i32⟩
  | 56 => ⟨S64x32, .i32⟩
  | 57 => ⟨S_, .i32⟩
  | 58 => ⟨S64x32, .i32⟩
  | 59 => ⟨S64x32, .i32⟩
  | 60 => ⟨S64x32, .i32⟩
  | 61 => ⟨S_, .f32⟩
  | 62 => ⟨S4194304, .f32⟩
  | 63 => ⟨S2048, .i32⟩
  | 64 => ⟨S_, .i32⟩
  | 65 => ⟨S2048, .i32⟩
  | 66 => ⟨S2048, .i1⟩
  | 67 => ⟨S_, .i32⟩
  | 68 => ⟨S2048, .i32⟩
  | 69 => ⟨S2048, .i32⟩
  | 70 => ⟨S2048, .i32⟩
  | 71 => ⟨S2048x1, .i32⟩
  | 72 => ⟨S_, .f32⟩
  | 73 => ⟨S2048, .f32⟩
  | 74 => ⟨S4194304, .f32⟩
  | 75 => ⟨S4194304, .f32⟩
  | 76 => ⟨S_, .f32⟩
  | 77 => ⟨S4194304, .f32⟩
  | 78 => ⟨S4194304, .f32⟩
  | 79 => ⟨S4194304, .f32⟩
  | 80 => ⟨S4194304, .f32⟩
  | 81 => ⟨S4194304, .i1⟩
  | 82 => ⟨S4194304, .f32⟩
  | 83 => ⟨S4194304, .f32⟩
  | 84 => ⟨S4194304, .f32⟩
  | 85 => ⟨S4194304, .f32⟩
  | 86 => ⟨S4194304, .f32⟩
  | 87 => ⟨S4194304, .f32⟩
  | 88 => ⟨S4194304, .f32⟩
  | 89 => ⟨S4194304, .f32⟩
  | 90 => ⟨S_, .f32⟩
  | 91 => ⟨S4194304, .f32⟩
  | 92 => ⟨S4194304, .f32⟩
  | 93 => ⟨S4194304, .f32⟩
  | 94 => ⟨S4194304, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | 101 => ⟨S_, .f32⟩
  | _ => ⟨S64x6x256x256, .f32⟩

abbrev hbmTy (i : Nat) : BufTy := match i / 128 with
  | 0 => hbmTy0_0 i
  | 1 => hbmTy0_1 i
  | 2 => hbmTy0_2 i
  | _ => ⟨S64x6x256x256, .f32⟩

abbrev bufTy : (tb : Table) → Fin (tcTables nBuf tb) → BufTy
  | .hbm, ⟨i, _⟩ => hbmTy i
  | _, _ => ⟨S64x6x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_1 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_5 : Ref sig .tc := ⟨.hbm, 37, rfl⟩
abbrev main_v29 : Ref sig .tc := ⟨.hbm, 38, rfl⟩
abbrev main_v30 : Ref sig .tc := ⟨.hbm, 39, rfl⟩
abbrev main_cst_6 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_cst_7 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_c : Ref sig .tc := ⟨.hbm, 60, rfl⟩
abbrev main_c_8 : Ref sig .tc := ⟨.hbm, 61, rfl⟩
abbrev main_call0_v0 : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_v49 : Ref sig .tc := ⟨.hbm, 67, rfl⟩
abbrev main_cst_9 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_10 : Ref sig .tc := ⟨.hbm, 73, rfl⟩
abbrev main_c_11 : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_12 : Ref sig .tc := ⟨.hbm, 84, rfl⟩
abbrev main_v58 : Ref sig .tc := ⟨.hbm, 85, rfl⟩
abbrev main_v59 : Ref sig .tc := ⟨.hbm, 86, rfl⟩
abbrev main_c_13 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_c_15 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_c_16 : Ref sig .tc := ⟨.hbm, 98, rfl⟩
abbrev main_v68 : Ref sig .tc := ⟨.hbm, 99, rfl⟩
abbrev main_v69 : Ref sig .tc := ⟨.hbm, 100, rfl⟩
abbrev main_c_17 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_c_19 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_20 : Ref sig .tc := ⟨.hbm, 117, rfl⟩
abbrev main_v83 : Ref sig .tc := ⟨.hbm, 118, rfl⟩
abbrev main_v84 : Ref sig .tc := ⟨.hbm, 119, rfl⟩
abbrev main_c_21 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_c_22 : Ref sig .tc := ⟨.hbm, 124, rfl⟩
abbrev main_v88 : Ref sig .tc := ⟨.hbm, 125, rfl⟩
abbrev main_v89 : Ref sig .tc := ⟨.hbm, 126, rfl⟩
abbrev main_c_23 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_c_24 : Ref sig .tc := ⟨.hbm, 136, rfl⟩
abbrev main_v98 : Ref sig .tc := ⟨.hbm, 137, rfl⟩
abbrev main_v99 : Ref sig .tc := ⟨.hbm, 138, rfl⟩
abbrev main_c_25 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_c_26 : Ref sig .tc := ⟨.hbm, 143, rfl⟩
abbrev main_v103 : Ref sig .tc := ⟨.hbm, 144, rfl⟩
abbrev main_v104 : Ref sig .tc := ⟨.hbm, 145, rfl⟩
abbrev main_c_27 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_c_28 : Ref sig .tc := ⟨.hbm, 150, rfl⟩
abbrev main_v108 : Ref sig .tc := ⟨.hbm, 151, rfl⟩
abbrev main_v109 : Ref sig .tc := ⟨.hbm, 152, rfl⟩
abbrev main_c_29 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_c_30 : Ref sig .tc := ⟨.hbm, 162, rfl⟩
abbrev main_v118 : Ref sig .tc := ⟨.hbm, 163, rfl⟩
abbrev main_v119 : Ref sig .tc := ⟨.hbm, 164, rfl⟩
abbrev main_c_31 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_c_32 : Ref sig .tc := ⟨.hbm, 169, rfl⟩
abbrev main_v123 : Ref sig .tc := ⟨.hbm, 170, rfl⟩
abbrev main_v124 : Ref sig .tc := ⟨.hbm, 171, rfl⟩
abbrev main_c_33 : Ref sig .tc := ⟨.hbm, 172, rfl⟩
abbrev main_v125 : Ref sig .tc := ⟨.hbm, 173, rfl⟩
abbrev main_v126 : Ref sig .tc := ⟨.hbm, 174, rfl⟩
abbrev main_v127 : Ref sig .tc := ⟨.hbm, 175, rfl⟩
abbrev main_c_34 : Ref sig .tc := ⟨.hbm, 176, rfl⟩
abbrev main_v128 : Ref sig .tc := ⟨.hbm, 177, rfl⟩
abbrev main_v129 : Ref sig .tc := ⟨.hbm, 178, rfl⟩
abbrev main_c_35 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_c_36 : Ref sig .tc := ⟨.hbm, 188, rfl⟩
abbrev main_v138 : Ref sig .tc := ⟨.hbm, 189, rfl⟩
abbrev main_v139 : Ref sig .tc := ⟨.hbm, 190, rfl⟩
abbrev main_c_37 : Ref sig .tc := ⟨.hbm, 191, rfl⟩
abbrev main_v140 : Ref sig .tc := ⟨.hbm, 192, rfl⟩
abbrev main_v141 : Ref sig .tc := ⟨.hbm, 193, rfl⟩
abbrev main_v142 : Ref sig .tc := ⟨.hbm, 194, rfl⟩
abbrev main_c_38 : Ref sig .tc := ⟨.hbm, 195, rfl⟩
abbrev main_v143 : Ref sig .tc := ⟨.hbm, 196, rfl⟩
abbrev main_v144 : Ref sig .tc := ⟨.hbm, 197, rfl⟩
abbrev main_c_39 : Ref sig .tc := ⟨.hbm, 198, rfl⟩
abbrev main_v145 : Ref sig .tc := ⟨.hbm, 199, rfl⟩
abbrev main_v146 : Ref sig .tc := ⟨.hbm, 200, rfl⟩
abbrev main_v147 : Ref sig .tc := ⟨.hbm, 201, rfl⟩
abbrev main_c_40 : Ref sig .tc := ⟨.hbm, 202, rfl⟩
abbrev main_v148 : Ref sig .tc := ⟨.hbm, 203, rfl⟩
abbrev main_v149 : Ref sig .tc := ⟨.hbm, 204, rfl⟩
abbrev main_c_41 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_c_42 : Ref sig .tc := ⟨.hbm, 214, rfl⟩
abbrev main_v158 : Ref sig .tc := ⟨.hbm, 215, rfl⟩
abbrev main_v159 : Ref sig .tc := ⟨.hbm, 216, rfl⟩
abbrev main_c_43 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_c_44 : Ref sig .tc := ⟨.hbm, 221, rfl⟩
abbrev main_v163 : Ref sig .tc := ⟨.hbm, 222, rfl⟩
abbrev main_v164 : Ref sig .tc := ⟨.hbm, 223, rfl⟩
abbrev main_c_45 : Ref sig .tc := ⟨.hbm, 224, rfl⟩
abbrev main_v165 : Ref sig .tc := ⟨.hbm, 225, rfl⟩
abbrev main_v166 : Ref sig .tc := ⟨.hbm, 226, rfl⟩
abbrev main_v167 : Ref sig .tc := ⟨.hbm, 227, rfl⟩
abbrev main_c_46 : Ref sig .tc := ⟨.hbm, 228, rfl⟩
abbrev main_v168 : Ref sig .tc := ⟨.hbm, 229, rfl⟩
abbrev main_v169 : Ref sig .tc := ⟨.hbm, 230, rfl⟩
abbrev main_c_47 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_cst_48 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_cst_49 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_cst_50 : Ref sig .tc := ⟨.hbm, 261, rfl⟩
abbrev main_v197 : Ref sig .tc := ⟨.hbm, 262, rfl⟩
abbrev main_cst_51 : Ref sig .tc := ⟨.hbm, 263, rfl⟩
abbrev main_v198 : Ref sig .tc := ⟨.hbm, 264, rfl⟩
abbrev main_cst_52 : Ref sig .tc := ⟨.hbm, 265, rfl⟩
abbrev main_v199 : Ref sig .tc := ⟨.hbm, 266, rfl⟩
abbrev main_v200 : Ref sig .tc := ⟨.hbm, 267, rfl⟩
abbrev main_v201 : Ref sig .tc := ⟨.hbm, 268, rfl⟩
abbrev main_v202 : Ref sig .tc := ⟨.hbm, 269, rfl⟩
abbrev main_v203 : Ref sig .tc := ⟨.hbm, 270, rfl⟩
abbrev main_v204 : Ref sig .tc := ⟨.hbm, 271, rfl⟩
abbrev main_v205 : Ref sig .tc := ⟨.hbm, 272, rfl⟩
abbrev main_v206 : Ref sig .tc := ⟨.hbm, 273, rfl⟩
abbrev main_v207 : Ref sig .tc := ⟨.hbm, 274, rfl⟩
abbrev main_v208 : Ref sig .tc := ⟨.hbm, 275, rfl⟩
abbrev main_v209 : Ref sig .tc := ⟨.hbm, 276, rfl⟩
abbrev main_v210 : Ref sig .tc := ⟨.hbm, 277, rfl⟩
abbrev main_v211 : Ref sig .tc := ⟨.hbm, 278, rfl⟩
abbrev main_cst_53 : Ref sig .tc := ⟨.hbm, 279, rfl⟩
abbrev main_v212 : Ref sig .tc := ⟨.hbm, 280, rfl⟩
abbrev main_v213 : Ref sig .tc := ⟨.hbm, 281, rfl⟩
abbrev main_v214 : Ref sig .tc := ⟨.hbm, 282, rfl⟩
abbrev main_cst_54 : Ref sig .tc := ⟨.hbm, 283, rfl⟩
abbrev main_v215 : Ref sig .tc := ⟨.hbm, 284, rfl⟩
abbrev main_cst_55 : Ref sig .tc := ⟨.hbm, 285, rfl⟩
abbrev main_v216 : Ref sig .tc := ⟨.hbm, 286, rfl⟩
abbrev main_cst_56 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_v220 : Ref sig .tc := ⟨.hbm, 291, rfl⟩
abbrev main_v221 : Ref sig .tc := ⟨.hbm, 292, rfl⟩
abbrev main_v222 : Ref sig .tc := ⟨.hbm, 293, rfl⟩
abbrev main_v223 : Ref sig .tc := ⟨.hbm, 294, rfl⟩
abbrev main_v224 : Ref sig .tc := ⟨.hbm, 295, rfl⟩
abbrev main_v225 : Ref sig .tc := ⟨.hbm, 296, rfl⟩
abbrev main_v226 : Ref sig .tc := ⟨.hbm, 297, rfl⟩
abbrev main_v227 : Ref sig .tc := ⟨.hbm, 298, rfl⟩
abbrev main_v228 : Ref sig .tc := ⟨.hbm, 299, rfl⟩
abbrev main_v229 : Ref sig .tc := ⟨.hbm, 300, rfl⟩
abbrev main_cst_57 : Ref sig .tc := ⟨.hbm, 301, rfl⟩
abbrev main_v230 : Ref sig .tc := ⟨.hbm, 302, rfl⟩
abbrev main_v231 : Ref sig .tc := ⟨.hbm, 303, rfl⟩
abbrev main_v232 : Ref sig .tc := ⟨.hbm, 304, rfl⟩
abbrev main_cst_58 : Ref sig .tc := ⟨.hbm, 305, rfl⟩
abbrev main_v233 : Ref sig .tc := ⟨.hbm, 306, rfl⟩
abbrev main_cst_59 : Ref sig .tc := ⟨.hbm, 307, rfl⟩
abbrev main_v234 : Ref sig .tc := ⟨.hbm, 308, rfl⟩
abbrev main_c_60 : Ref sig .tc := ⟨.hbm, 309, rfl⟩
abbrev main_v235 : Ref sig .tc := ⟨.hbm, 310, rfl⟩
abbrev main_v236 : Ref sig .tc := ⟨.hbm, 311, rfl⟩
abbrev main_v237 : Ref sig .tc := ⟨.hbm, 312, rfl⟩
abbrev main_c_61 : Ref sig .tc := ⟨.hbm, 313, rfl⟩
abbrev main_v238 : Ref sig .tc := ⟨.hbm, 314, rfl⟩
abbrev main_v239 : Ref sig .tc := ⟨.hbm, 315, rfl⟩
abbrev main_v240 : Ref sig .tc := ⟨.hbm, 316, rfl⟩
abbrev main_cst_62 : Ref sig .tc := ⟨.hbm, 317, rfl⟩
abbrev main_v241 : Ref sig .tc := ⟨.hbm, 318, rfl⟩
abbrev main_v242 : Ref sig .tc := ⟨.hbm, 319, rfl⟩
abbrev main_c_63 : Ref sig .tc := ⟨.hbm, 320, rfl⟩
abbrev main_v243 : Ref sig .tc := ⟨.hbm, 321, rfl⟩
abbrev main_v244 : Ref sig .tc := ⟨.hbm, 322, rfl⟩
abbrev main_c_64 : Ref sig .tc := ⟨.hbm, 323, rfl⟩
abbrev main_v245 : Ref sig .tc := ⟨.hbm, 324, rfl⟩
abbrev main_v246 : Ref sig .tc := ⟨.hbm, 325, rfl⟩
abbrev main_v247 : Ref sig .tc := ⟨.hbm, 326, rfl⟩
abbrev main_v248 : Ref sig .tc := ⟨.hbm, 327, rfl⟩
abbrev main_cst_65 : Ref sig .tc := ⟨.hbm, 328, rfl⟩
abbrev main_v249 : Ref sig .tc := ⟨.hbm, 329, rfl⟩
abbrev main_v250 : Ref sig .tc := ⟨.hbm, 330, rfl⟩
abbrev main_v251 : Ref sig .tc := ⟨.hbm, 331, rfl⟩
abbrev main_cst_66 : Ref sig .tc := ⟨.hbm, 332, rfl⟩
abbrev main_v252 : Ref sig .tc := ⟨.hbm, 333, rfl⟩
abbrev main_v253 : Ref sig .tc := ⟨.hbm, 334, rfl⟩
abbrev main_v254 : Ref sig .tc := ⟨.hbm, 335, rfl⟩
abbrev main_v255 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_v263 : Ref sig .tc := ⟨.hbm, 344, rfl⟩
abbrev main_v264 : Ref sig .tc := ⟨.hbm, 345, rfl⟩
abbrev main_cst_67 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_cst_68 : Ref sig .tc := ⟨.hbm, 351, rfl⟩
abbrev main_v269 : Ref sig .tc := ⟨.hbm, 352, rfl⟩
abbrev main_cst_69 : Ref sig .tc := ⟨.hbm, 353, rfl⟩
abbrev main_v270 : Ref sig .tc := ⟨.hbm, 354, rfl⟩
abbrev main_v271 : Ref sig .tc := ⟨.hbm, 355, rfl⟩
abbrev main_v272 : Ref sig .tc := ⟨.hbm, 356, rfl⟩
abbrev main_v273 : Ref sig .tc := ⟨.hbm, 357, rfl⟩

abbrev nD : Nat := 1
abbrev τ : Topo := Topo.v7x

variable {F : FTy → Type} [FloatOps F]

class Facts₀ : Prop where
  transposes_S64x6x256x256_S64x256x256x6_0_2_3_1 : S64x6x256x256.Transposes [0, 2, 3, 1] S64x256x256x6
  slices_S64x256x256x6_S64x256x256x1_0_0_0_0 : S64x256x256x6.Slices ![0, 0, 0, 0] S64x256x256x1
  shapeCasts_S64x256x256x1_S64x256x256 : S64x256x256x1.ShapeCasts S64x256x256
  bcast_S_S64x256x256 : S_.BroadcastsInDim S64x256x256 (![] : Fin 0 → Fin S64x256x256.rank)
  slices_S64x256x256x6_S64x256x256x1_0_0_0_1 : S64x256x256x6.Slices ![0, 0, 0, 1] S64x256x256x1
  slices_S64x256x256x6_S64x256x256x1_0_0_0_2 : S64x256x256x6.Slices ![0, 0, 0, 2] S64x256x256x1
  slices_S64x256x256x6_S64x256x256x1_0_0_0_3 : S64x256x256x6.Slices ![0, 0, 0, 3] S64x256x256x1
  slices_S64x256x256x6_S64x256x256x1_0_0_0_4 : S64x256x256x6.Slices ![0, 0, 0, 4] S64x256x256x1
  slices_S64x256x256x6_S64x256x256x1_0_0_0_5 : S64x256x256x6.Slices ![0, 0, 0, 5] S64x256x256x1
  slices_S64x32x4_S64x32x1_0_0_0 : S64x32x4.Slices ![0, 0, 0] S64x32x1
  shapeCasts_S64x32x1_S64x32 : S64x32x1.ShapeCasts S64x32
  slices_S64x32x4_S64x32x1_0_0_1 : S64x32x4.Slices ![0, 0, 1] S64x32x1
  slices_S64x32x4_S64x32x1_0_0_2 : S64x32x4.Slices ![0, 0, 2] S64x32x1
  slices_S64x32x4_S64x32x1_0_0_3 : S64x32x4.Slices ![0, 0, 3] S64x32x1
  bcast_S_S64x32 : S_.BroadcastsInDim S64x32 (![] : Fin 0 → Fin S64x32.rank)
  bcast_S64_S64x1_0 : S64.BroadcastsInDim S64x1 (![0] : Fin 1 → Fin S64x1.rank)
  bcast_S64x1_S64x32_0_1 : S64x1.BroadcastsInDim S64x32 (![0, 1] : Fin 2 → Fin S64x32.rank)
  bcast_S64x32_S64x32x1_0_1 : S64x32.BroadcastsInDim S64x32x1 (![0, 1] : Fin 2 → Fin S64x32x1.rank)
  concatenates_S64x32x1_S64x32x1_S64x32x1_S64x32x3_d2 : Shape.Concatenates [S64x32x1, S64x32x1, S64x32x1] S64x32x3 2
  reducesTo_S64x32_S_d0_1 : S64x32.ReducesTo [0, 1] S_
  h_S_ : 0 < S_.numel
  bcast_S_S4194304 : S_.BroadcastsInDim S4194304 (![] : Fin 0 → Fin S4194304.rank)
  shapeCasts_S64x32_S2048 : S64x32.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  shapeCasts_S64x256x256_S4194304 : S64x256x256.ShapeCasts S4194304
  reducesTo_S4194304_S_d0 : S4194304.ReducesTo [0] S_
  gather_S64x256x256_S64x32x3_S64x32_n_012_n_n_012_2_111_wf : GatherDims.WF S64x256x256 S64x32x3 S64x32 [] [0, 1, 2] [] [0, 1, 2] [] 2 ![1, 1, 1]
  scatter_S4194304_S2048x1_S2048_n_0_0_1_wf : ScatterDims.WF S4194304 S2048x1 S2048 [] [0] [0] 1

variable [Facts₀]

def gather_S64x256x256_S64x32x3_S64x32_n_012_n_n_012_2_111 : GatherDims S64x256x256 S64x32x3 S64x32 where
  offsetDims := []
  collapsedSliceDims := [0, 1, 2]
  operandBatchingDims := []
  startIndicesBatchingDims := []
  startIndexMap := [0, 1, 2]
  indexVectorDim := 2
  sliceSizes := ![1, 1, 1]
  wf := gather_S64x256x256_S64x32x3_S64x32_n_012_n_n_012_2_111_wf
def scatter_S4194304_S2048x1_S2048_n_0_0_1 : ScatterDims S4194304 S2048x1 S2048 where
  updateWindowDims := []
  insertedWindowDims := [0]
  scatterDimsToOperandDims := [0]
  indexVectorDim := 1
  wf := scatter_S4194304_S2048x1_S2048_n_0_0_1_wf

class Facts : Prop extends Facts₀ where

variable [Facts]
-- ==== Proof.RegionFrameBitsDefs.lean ====
/- The contents of a core's TensorCore buffers when the one pallas region of @main is entered, and the block of each
   window's array that the pipeline stages at a grid point. @main runs five stretches of host operations before the
   region; the region-entry contents are the launch contents pushed through those stretches in order. -/
import proofs.«176000_j6725918786248_2_alg».proof.Proof.Gen.Kernel.Launch
import proofs.«176000_j6725918786248_2_alg».proof.Proof.Gen.Kernel.Points
import Idealize.ShloMosaic.Lib.Pipeline.FrameBody
import Idealize.ShloMosaic.Lib.Pipeline.FrameSuffix

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

open Idealize.ShloMosaic.Tactic
open Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- Core `c`'s buffer contents at the region's entry, as a valuation: the launch memory `m` after the five
    stretches of host operations that precede the region, in program order. -/
abbrev V0 (c : Dev nD) : Valuation τ sig (Elt F) :=
  StableHlo.after (List.flatten [hostOps0, hostOps0_1, hostOps0_2, hostOps0_3, hostOps0_4]) (fun b => m (c, b))

/-- The same contents read at a TensorCore reference. -/
abbrev V (c : Dev nD) (b : Ref sig .tc) : Buf (Elt F) ((c : Thread nD τ).loc b) := V0 m c (Proc.devRef .tc b)

/-- The block of window `w`'s array that grid point `t` addresses, read off the region-entry contents. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.Kernel.Hand

end
-- ==== Proof.RegionFrameBitsFresh.lean ====
/- The host operations of @main allocate nothing: every one of them is a builder that reads its operands and
    overwrites its own result buffer, so its set of freshly allocated buffers is empty. Stated per stretch of the
    program's chain (five stretches before the region, one after). -/
import proofs.«176000_j6725918786248_2_alg».proof.Proof.Gen.Kernel.Launch

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

/-- The first stretch (15 operations) allocates nothing: each builder's `fresh` is the empty set by definition. -/
theorem hostOps0_fresh : (hostOps0 : List (HloOp τ sig (Elt F))).Forall fun op => op.fresh = ∅ := by
  simp only [List.Forall]; repeat' constructor
/-- The clip call's six operations allocate nothing. -/
theorem hostOps0_1_fresh : (hostOps0_1 : List (HloOp τ sig (Elt F))).Forall fun op => op.fresh = ∅ := by
  simp only [List.Forall]; repeat' constructor
/-- The third stretch (7 operations) allocates nothing. -/
theorem hostOps0_2_fresh : (hostOps0_2 : List (HloOp τ sig (Elt F))).Forall fun op => op.fresh = ∅ := by
  simp only [List.Forall]; repeat' constructor
/-- The second clip call's six operations allocate nothing. -/
theorem hostOps0_3_fresh : (hostOps0_3 : List (HloOp τ sig (Elt F))).Forall fun op => op.fresh = ∅ := by
  simp only [List.Forall]; repeat' constructor
/-- The stretch after the region (7 operations) allocates nothing. -/
theorem hostOps1_fresh : (hostOps1 : List (HloOp τ sig (Elt F))).Forall fun op => op.fresh = ∅ := by
  simp only [List.Forall]; repeat' constructor

end Cert.Kernel.Hand

end
-- ==== Proof.RegionFrameBitsFresh4.lean ====
/- The long stretch of @main before the region (307 operations: index arithmetic, six gathers, one scatter, six
    concatenations) allocates nothing either: each operation is a builder whose `fresh` is the empty set by
    definition; the conjunction over the list is split operation by operation. -/
import proofs.«176000_j6725918786248_2_alg».proof.Proof.Gen.Kernel.Launch

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

set_option maxHeartbeats 40000000 in
/-- The fifth stretch allocates nothing. -/
theorem hostOps0_4_fresh : (hostOps0_4 : List (HloOp τ sig (Elt F))).Forall fun op => op.fresh = ∅ := by
  simp only [List.Forall]; repeat' constructor

end Cert.Kernel.Hand

end
-- ==== Proof.RegionFrameBitsKeeps.lean ====
/- No host operation of @main writes an argument array. Every operation writes exactly one buffer, its own result
    (the builders' `writes` is the singleton of the result reference, by definition), and no result reference is
    `main_arg0` or `main_arg1`: the references are told apart by deciding their equality. Stated per stretch. -/
import proofs.«176000_j6725918786248_2_alg».proof.Proof.Gen.Kernel.Launch

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

/-- The first stretch writes neither argument. -/
theorem hostOps0_keeps_args : (hostOps0 : List (HloOp τ sig (Elt F))).Forall fun op =>
    Proc.devRef .tc main_arg0 ∉ op.writes ∧ Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- The first clip call writes neither argument. -/
theorem hostOps0_1_keeps_args : (hostOps0_1 : List (HloOp τ sig (Elt F))).Forall fun op =>
    Proc.devRef .tc main_arg0 ∉ op.writes ∧ Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- The third stretch writes neither argument. -/
theorem hostOps0_2_keeps_args : (hostOps0_2 : List (HloOp τ sig (Elt F))).Forall fun op =>
    Proc.devRef .tc main_arg0 ∉ op.writes ∧ Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- The second clip call writes neither argument. -/
theorem hostOps0_3_keeps_args : (hostOps0_3 : List (HloOp τ sig (Elt F))).Forall fun op =>
    Proc.devRef .tc main_arg0 ∉ op.writes ∧ Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- The stretch after the region writes neither argument. -/
theorem hostOps1_keeps_args : (hostOps1 : List (HloOp τ sig (Elt F))).Forall fun op =>
    Proc.devRef .tc main_arg0 ∉ op.writes ∧ Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

end Cert.Kernel.Hand

end
-- ==== Proof.RegionFrameBitsKeeps4.lean ====
/- The long stretch of @main before the region writes no argument array: each of its 307 operations writes only its
    own result buffer (a singleton, by the builders' definitions — the concatenations' n-ary builder included), and
    no result reference is `main_arg0` or `main_arg1` (decided reference by reference). -/
import proofs.«176000_j6725918786248_2_alg».proof.Proof.Gen.Kernel.Launch

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

set_option maxHeartbeats 40000000 in
/-- The fifth stretch writes neither argument. -/
theorem hostOps0_4_keeps_args : (hostOps0_4 : List (HloOp τ sig (Elt F))).Forall fun op =>
    Proc.devRef .tc main_arg0 ∉ op.writes ∧ Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

end Cert.Kernel.Hand

end
-- ==== Proof.RegionFrameBitsKit.lean ====
/- @main around its one pallas region. The five stretches of host operations before the region take the launch memory to
   the region-entry contents; the region is continued by the one stretch after it. Neither argument array is written by
   any host operation, so the region finds both as launched, and the stretch after the region leaves `main_arg1` (which
   no window stages) as launched too. Both input windows are fetched at every grid point, so at each point their staging
   buffers hold the blocks that point addresses. The closing lemma turns the library's frame post (arrays at what the
   proof data say, every bypassing buffer at what the later stretch leaves) into the statement that the two argument
   arrays end as launched. -/
import proofs.«176000_j6725918786248_2_alg».proof.Proof.Gen.Kernel.Launch
import proofs.«176000_j6725918786248_2_alg».proof.Proof.Gen.Kernel.Points
import proofs.«176000_j6725918786248_2_alg».proof.Proof.RegionFrameBitsDefs
import proofs.«176000_j6725918786248_2_alg».proof.Proof.RegionFrameBitsFresh
import proofs.«176000_j6725918786248_2_alg».proof.Proof.RegionFrameBitsFresh4
import proofs.«176000_j6725918786248_2_alg».proof.Proof.RegionFrameBitsKeeps
import proofs.«176000_j6725918786248_2_alg».proof.Proof.RegionFrameBitsKeeps4
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

open Idealize.ShloMosaic.Tactic
open Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-! ## @main reduces to the region continued by the later stretch -/

/-- Holding the unscoped buffers at the launch contents, @main runs its five earlier stretches (each touching TensorCore
    references only and allocating nothing) and arrives at the region's call, continued by the last stretch, holding the
    buffers at the region-entry contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (show _ ∧ _ ∧ _ ∧ _ ∧ _ from ⟨hostOps0_sub, hostOps0_1_sub, hostOps0_2_sub, hostOps0_3_sub, hostOps0_4_sub⟩)
    (show _ ∧ _ ∧ _ ∧ _ ∧ _ from ⟨hostOps0_fresh, hostOps0_1_fresh, hostOps0_2_fresh, hostOps0_3_fresh, hostOps0_4_fresh⟩)
    main_chain

/-! ## The stretch after the region -/

/-- Its operations touch only arrays of the pipeline and buffers that bypass the region: they touch unscoped TensorCore
    references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa only [List.mem_cons, List.mem_nil_iff, or_false] using hops
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  obtain rfl : ops = hostOps1 := by simpa only [List.mem_cons, List.mem_nil_iff, or_false] using hops
  exact (List.forall_iff_forall_mem.mp hostOps1_fresh) op hop

/-- It writes no array of the pipeline: its seven result buffers are none of `main_arg0`, `main_v256`, `main_v257`. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa only [List.mem_cons, List.mem_nil_iff, or_false] using hops
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays at the region's entry and at the end -/

/-- No operation of the five earlier stretches writes either argument. -/
theorem prefix_keeps_args : ∀ op ∈ List.flatten [hostOps0, hostOps0_1, hostOps0_2, hostOps0_3, (hostOps0_4 : List (HloOp τ sig (Elt F)))],
    Proc.devRef .tc main_arg0 ∉ op.writes ∧ Proc.devRef .tc main_arg1 ∉ op.writes := by
  intro op hop
  obtain ⟨ops, hops, hmem⟩ := List.mem_flatten.mp hop
  simp only [List.mem_cons, List.mem_nil_iff, or_false] at hops
  rcases hops with rfl | rfl | rfl | rfl | rfl
  · exact (List.forall_iff_forall_mem.mp hostOps0_keeps_args) op hmem
  · exact (List.forall_iff_forall_mem.mp hostOps0_1_keeps_args) op hmem
  · exact (List.forall_iff_forall_mem.mp hostOps0_2_keeps_args) op hmem
  · exact (List.forall_iff_forall_mem.mp hostOps0_3_keeps_args) op hmem
  · exact (List.forall_iff_forall_mem.mp hostOps0_4_keeps_args) op hmem

/-- The region finds `main_arg0` as launched. -/
theorem V_main_arg0 (c : Dev nD) : V m c main_arg0 = m ((c : Thread nD τ).loc main_arg0) :=
  StableHlo.after_of_forall_not_mem (b := Proc.devRef .tc main_arg0) _ _ (fun op hop => (prefix_keeps_args op hop).1)

/-- The region finds `main_arg1` as launched. -/
theorem V_main_arg1 (c : Dev nD) : V m c main_arg1 = m ((c : Thread nD τ).loc main_arg1) :=
  StableHlo.after_of_forall_not_mem (b := Proc.devRef .tc main_arg1) _ _ (fun op hop => (prefix_keeps_args op hop).2)

/-- `main_arg1` is no array of the pipeline and the stretch after the region does not write it: whatever the proof
    data, it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (fun op hop => by
      have hop' : op ∈ (hostOps1 : List (HloOp τ sig (Elt F))) := by
        simpa only [List.flatten_cons, List.flatten_nil, List.append_nil] using hop
      exact ((List.forall_iff_forall_mem.mp hostOps1_keeps_args) op hop').2),
    Pipeline.withArrays_of_ne _ c (V0 m c) _ main_arg1 (by exact (by decide : ∀ w, Pipeline.arrRef spec0 w ≠ main_arg1))]
  exact V_main_arg1 m c

/-! ## The input windows' staging buffers -/

/-- Window 0 is fetched at every point: before the body runs at `t` its current staging buffer holds the block of
    `main_arg0` that `t` addresses — for any proof data whose array 0 is the region-entry contents. -/
theorem before0_0_of {c : Dev nD} (dat : Dat τ (Elt F) Unit ℕ (UR sig nD τ) ℕ cfg0 c) (hA : dat.A 0 = V m c (Pipeline.arrRef spec0 0))
    (t : Fin cfg0.N) (d) : dat.before 0 t d = iblk m c 0 t :=
  (dat.before_fetched 0 t (fetch0_0 t) d).trans (by unfold Dat.fetched Dat.blockOf iblk; rw [hA]; try rfl)

/-- Window 1 likewise, over `main_v256`. -/
theorem before0_1_of {c : Dev nD} (dat : Dat τ (Elt F) Unit ℕ (UR sig nD τ) ℕ cfg0 c) (hA : dat.A 1 = V m c (Pipeline.arrRef spec0 1))
    (t : Fin cfg0.N) (d) : dat.before 1 t d = iblk m c 1 t :=
  (dat.before_fetched 1 t (fetch0_1 t) d).trans (by unfold Dat.fetched Dat.blockOf iblk; rw [hA]; try rfl)

/-! ## From the library's frame post to the argument arrays -/

/-- For any proof data whose arrays are the region-entry contents, a run ending in the library's frame post ends with
    both arguments as launched: `main_arg0` is window 0's array, an input, which the post's first clause puts at the
    proof data's array, that is at `V`, that is at the launch contents; `main_arg1` is unscoped and no window's array,
    so the second clause puts it at what the later stretch leaves, again the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c)⟩) h

end Cert.Kernel.Hand

end
-- ==== Proof.RegionFrameBitsBody.lean ====
/- The kernel body of the region, run on the pipeline's staging buffers. The body loads window 0's buffer whole, loads
   window 1's whole, loads window 2's whole (a value it never uses), then stores one payload — a function of the two
   input blocks only — over the whole of window 2's buffer. So whatever window 2's buffer held, after the body it holds
   that payload of the two input blocks, and the input buffers are as they were. The proof data of the pipeline say
   exactly this at every grid point; the body obligation of the library follows point by point. -/
import proofs.«176000_j6725918786248_2_alg».proof.Proof.Gen.Kernel.Launch
import proofs.«176000_j6725918786248_2_alg».proof.Proof.Gen.Kernel.Skeleton
import proofs.«176000_j6725918786248_2_alg».proof.Proof.Gen.Kernel.Points
import proofs.«176000_j6725918786248_2_alg».proof.Proof.RegionFrameBitsDefs
import proofs.«176000_j6725918786248_2_alg».proof.Proof.RegionFrameBitsKit
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

open Idealize.ShloMosaic.Tactic
open Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-! ## The one store's rectangle -/

/-- The offsets of the body's rank-3 accesses (window 1's load, window 2's load and store) are all zero. -/
theorem zeros3 : (![0, 0, 0] : Fin 3 → Nat) = fun _ => 0 := funext fun a => by fin_cases a <;> rfl
/-- So are those of its rank-4 access (window 0's load). -/
theorem zeros4 : (![0, 0, 0, 0] : Fin 4 → Nat) = fun _ => 0 := funext fun a => by fin_cases a <;> rfl

/-- A load of a whole `8×1×256×256` buffer through the whole-buffer rectangle reads the buffer's contents. -/
theorem load_whole0 (v : View sig .tc .vmem S8x1x256x256 .f32) (f : v.ty.Contents (Elt F)) :
    View.readAt (Elt F) v (Rect.unit (s := S8x1x256x256) ![0, 0, 0, 0] S8x1x256x256.size inb_S8x1x256x256_S8x1x256x256_0_0_0_0).toLoadRect f
      = View.read (Elt F) v f :=
  View.ld_unit_zero zeros4 inb_S8x1x256x256_S8x1x256x256_0_0_0_0 _
/-- A load of a whole `8×256×256` buffer through the whole-buffer rectangle reads the buffer's contents. -/
theorem load_whole1 (v : View sig .tc .vmem S8x256x256 .f32) (f : v.ty.Contents (Elt F)) :
    View.readAt (Elt F) v (Rect.unit (s := S8x256x256) ![0, 0, 0] S8x256x256.size inb_S8x256x256_S8x256x256_0_0_0).toLoadRect f
      = View.read (Elt F) v f :=
  View.ld_unit_zero zeros3 inb_S8x256x256_S8x256x256_0_0_0 _

/-- The rectangle of the body's one store: the whole of a `1×1×1` buffer. -/
abbrev rOut : Rect S1x1x1 := Rect.unit (s := S1x1x1) ![0, 0, 0] S1x1x1.size inb_S1x1x1_S1x1x1_0_0_0

/-- One store through the whole-buffer rectangle covers every index of the buffer. -/
theorem cover_out (p : Vec F S1x1x1 .f32) (y : S1x1x1.Idx) :
    ∃ pc ∈ ([⟨rOut, p⟩] : List (View.Piece (Elt F) S1x1x1 .f32)), y ∈ pc.1.set :=
  ⟨_, List.mem_singleton_self _, View.mem_set_unit_zero zeros3 inb_S1x1x1_S1x1x1_0_0_0 y⟩

/-! ## The body's triple -/

set_option maxHeartbeats 1000000 in
/-- The body on whole staging memrefs — the two inputs' at contents `x0`, `x1`, the output's at anything — runs to its
    continuation with the inputs' buffers unchanged and the output's buffer at the payload of `x0` and `x1`: the printed
    function is its skeleton, the three loads read what is held (the third value is dropped), and a buffer read back after
    one covering store is that store's payload. -/
theorem sound_kernel (c : Dev nD) (E : Set ℕ) (i : grid0.Coords)
    (a1 : Memref sig .tc .vmem S8x1x256x256 .f32) (h1 : a1.IsWhole) (a2 : Memref sig .tc .vmem S8x256x256 .f32) (h2 : a2.IsWhole)
    (a3 : Memref sig .tc .vmem S1x1x1 .f32) (h3 : a3.IsWhole)
    (x0 : Vec F S8x1x256x256 .f32) (x1 : Vec F S8x256x256 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (k0_pay1 x0 x1)) -∗ K ⟨⟩))
      ⊢ wp frame (wpE (defs₀ (F := F)) Variants.none c none) E (cc0__noobj_kernel i a1 h1 a2 h2 a3 h3) K := by
  simp only [cc0__noobj_kernel_eq_skeleton]; unfold cc0__noobj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [load_whole0, load_whole1]
  exact (View.read_writes_eq_canon _ _ _ (cover_out _)).trans (View.canon_unit_zero zeros3 inb_S1x1x1_S1x1x1_0_0_0 _)

/-! ## The pipeline's proof data -/

/-- The proof data of the pipeline on core `c`: the arrays as the region finds them; after the body at point `t` each
    input's buffer at its block and the output's at the payload of the two input blocks; the region invariant the plain
    one (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (iblk m c 1 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay1 (iblk m c 0 t) (iblk m c 1 t) := by dsimp only [dats]

/-- Each input's current staging buffer holds its block when the body starts at `t`. -/
theorem before0_0 (c : Dev nD) (t : Fin cfg0.N) (d) : (dats m 0 c).before 0 t d = iblk m c 0 t :=
  before0_0_of m (dats m 0 c) (A_eq m c 0) t d
theorem before0_1 (c : Dev nD) (t : Fin cfg0.N) (d) : (dats m 0 c).before 1 t d = iblk m c 1 t :=
  before0_1_of m (dats m 0 c) (A_eq m c 1) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, the output's holds something, so the body's triple
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.RegionFrameBitsRun.lean ====
/- The run of @main and the frame: with the body obligation met at every point, full shares, nothing owed and the plain
   region invariant, the library's frame run around the region concludes that every weakly fair execution of @main
   terminates with the pipeline's arrays at what the proof data compute and every bypassing buffer at what the later
   stretch leaves; read at the two argument arrays this says they end as launched. -/
import proofs.«176000_j6725918786248_2_alg».proof.Proof.Gen.Kernel.Launch
import proofs.«176000_j6725918786248_2_alg».proof.Proof.Gen.Kernel.Skeleton
import proofs.«176000_j6725918786248_2_alg».proof.Proof.Gen.Kernel.Points
import proofs.«176000_j6725918786248_2_alg».proof.Proof.RegionFrameBitsDefs
import proofs.«176000_j6725918786248_2_alg».proof.Proof.RegionFrameBitsKit
import proofs.«176000_j6725918786248_2_alg».proof.Proof.RegionFrameBitsBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe
open Idealize.SL Idealize.SL.Sem

variable {F : FTy → Type} [FloatOps F]

open Idealize.ShloMosaic.Tactic
open Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with ours, which unfolds plain
-- definitions inside a metavariable's type
set_option backward.isDefEq.respectTransparency.types false in
/-- From any memory with zero counters, at any generator state: every weakly fair execution of @main on the TensorCores
    terminates, and every final state has each array of the pipeline at what the library computes from the proof data and
    every other unscoped buffer as the stretch after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Hand

end
-- ==== Proof.RegionFrameIdealDefs.lean ====
/- The contents of a core's TensorCore buffers when the one pallas region of @main is entered, and the block of each
   window's array that the pipeline stages at a grid point. @main runs five stretches of host operations before the
   region; the region-entry contents are the launch contents pushed through those stretches in order. -/
import proofs.«176000_j6725918786248_2_alg».proof.Proof.Gen.KernelIdeal.Launch
import proofs.«176000_j6725918786248_2_alg».proof.Proof.Gen.KernelIdeal.Points
import Idealize.ShloMosaic.Lib.Pipeline.FrameBody
import Idealize.ShloMosaic.Lib.Pipeline.FrameSuffix

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

open Idealize.ShloMosaic.Tactic
open Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-- Core `c`'s buffer contents at the region's entry, as a valuation: the launch memory `m` after the five
    stretches of host operations that precede the region, in program order. -/
abbrev V0 (c : Dev nD) : Valuation τ sig (Elt F) :=
  StableHlo.after (List.flatten [hostOps0, hostOps0_1, hostOps0_2, hostOps0_3, hostOps0_4]) (fun b => m (c, b))

/-- The same contents read at a TensorCore reference. -/
abbrev V (c : Dev nD) (b : Ref sig .tc) : Buf (Elt F) ((c : Thread nD τ).loc b) := V0 m c (Proc.devRef .tc b)

/-- The block of window `w`'s array that grid point `t` addresses, read off the region-entry contents. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

end Cert.KernelIdeal.Hand

end
-- ==== Proof.RegionFrameIdealFresh.lean ====
/- The host operations of @main allocate nothing: every one of them is a builder that reads its operands and
    overwrites its own result buffer, so its set of freshly allocated buffers is empty. Stated per stretch of the
    program's chain (five stretches before the region, one after). -/
import proofs.«176000_j6725918786248_2_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The first stretch (15 operations) allocates nothing: each builder's `fresh` is the empty set by definition. -/
theorem hostOps0_fresh : (hostOps0 : List (HloOp τ sig (Elt F))).Forall fun op => op.fresh = ∅ := by
  simp only [List.Forall]; repeat' constructor
/-- The clip call's six operations allocate nothing. -/
theorem hostOps0_1_fresh : (hostOps0_1 : List (HloOp τ sig (Elt F))).Forall fun op => op.fresh = ∅ := by
  simp only [List.Forall]; repeat' constructor
/-- The third stretch (7 operations) allocates nothing. -/
theorem hostOps0_2_fresh : (hostOps0_2 : List (HloOp τ sig (Elt F))).Forall fun op => op.fresh = ∅ := by
  simp only [List.Forall]; repeat' constructor
/-- The second clip call's six operations allocate nothing. -/
theorem hostOps0_3_fresh : (hostOps0_3 : List (HloOp τ sig (Elt F))).Forall fun op => op.fresh = ∅ := by
  simp only [List.Forall]; repeat' constructor
/-- The stretch after the region (7 operations) allocates nothing. -/
theorem hostOps1_fresh : (hostOps1 : List (HloOp τ sig (Elt F))).Forall fun op => op.fresh = ∅ := by
  simp only [List.Forall]; repeat' constructor

end Cert.KernelIdeal.Hand

end
-- ==== Proof.RegionFrameIdealFresh4.lean ====
/- The long stretch of @main before the region (307 operations: index arithmetic, six gathers, one scatter, six
    concatenations) allocates nothing either: each operation is a builder whose `fresh` is the empty set by
    definition; the conjunction over the list is split operation by operation. -/
import proofs.«176000_j6725918786248_2_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

set_option maxHeartbeats 40000000 in
/-- The fifth stretch allocates nothing. -/
theorem hostOps0_4_fresh : (hostOps0_4 : List (HloOp τ sig (Elt F))).Forall fun op => op.fresh = ∅ := by
  simp only [List.Forall]; repeat' constructor

end Cert.KernelIdeal.Hand

end
-- ==== Proof.RegionFrameIdealKeeps.lean ====
/- No host operation of @main writes an argument array. Every operation writes exactly one buffer, its own result
    (the builders' `writes` is the singleton of the result reference, by definition), and no result reference is
    `main_arg0` or `main_arg1`: the references are told apart by deciding their equality. Stated per stretch. -/
import proofs.«176000_j6725918786248_2_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

/-- The first stretch writes neither argument. -/
theorem hostOps0_keeps_args : (hostOps0 : List (HloOp τ sig (Elt F))).Forall fun op =>
    Proc.devRef .tc main_arg0 ∉ op.writes ∧ Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- The first clip call writes neither argument. -/
theorem hostOps0_1_keeps_args : (hostOps0_1 : List (HloOp τ sig (Elt F))).Forall fun op =>
    Proc.devRef .tc main_arg0 ∉ op.writes ∧ Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- The third stretch writes neither argument. -/
theorem hostOps0_2_keeps_args : (hostOps0_2 : List (HloOp τ sig (Elt F))).Forall fun op =>
    Proc.devRef .tc main_arg0 ∉ op.writes ∧ Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- The second clip call writes neither argument. -/
theorem hostOps0_3_keeps_args : (hostOps0_3 : List (HloOp τ sig (Elt F))).Forall fun op =>
    Proc.devRef .tc main_arg0 ∉ op.writes ∧ Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)
/-- The stretch after the region writes neither argument. -/
theorem hostOps1_keeps_args : (hostOps1 : List (HloOp τ sig (Elt F))).Forall fun op =>
    Proc.devRef .tc main_arg0 ∉ op.writes ∧ Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

end Cert.KernelIdeal.Hand

end
-- ==== Proof.RegionFrameIdealKeeps4.lean ====
/- The long stretch of @main before the region writes no argument array: each of its 307 operations writes only its
    own result buffer (a singleton, by the builders' definitions — the concatenations' n-ary builder included), and
    no result reference is `main_arg0` or `main_arg1` (decided reference by reference). -/
import proofs.«176000_j6725918786248_2_alg».proof.Proof.Gen.KernelIdeal.Launch

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

set_option maxHeartbeats 40000000 in
/-- The fifth stretch writes neither argument. -/
theorem hostOps0_4_keeps_args : (hostOps0_4 : List (HloOp τ sig (Elt F))).Forall fun op =>
    Proc.devRef .tc main_arg0 ∉ op.writes ∧ Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

end Cert.KernelIdeal.Hand

end
-- ==== Proof.RegionFrameIdealKit.lean ====
/- @main around its one pallas region. The five stretches of host operations before the region take the launch memory to
   the region-entry contents; the region is continued by the one stretch after it. Neither argument array is written by
   any host operation, so the region finds both as launched, and the stretch after the region leaves `main_arg1` (which
   no window stages) as launched too. Both input windows are fetched at every grid point, so at each point their staging
   buffers hold the blocks that point addresses. The closing lemma turns the library's frame post (arrays at what the
   proof data say, every bypassing buffer at what the later stretch leaves) into the statement that the two argument
   arrays end as launched. -/
import proofs.«176000_j6725918786248_2_alg».proof.Proof.Gen.KernelIdeal.Launch
import proofs.«176000_j6725918786248_2_alg».proof.Proof.Gen.KernelIdeal.Points
import proofs.«176000_j6725918786248_2_alg».proof.Proof.RegionFrameIdealDefs
import proofs.«176000_j6725918786248_2_alg».proof.Proof.RegionFrameIdealFresh
import proofs.«176000_j6725918786248_2_alg».proof.Proof.RegionFrameIdealFresh4
import proofs.«176000_j6725918786248_2_alg».proof.Proof.RegionFrameIdealKeeps
import proofs.«176000_j6725918786248_2_alg».proof.Proof.RegionFrameIdealKeeps4
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

open Idealize.ShloMosaic.Tactic
open Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-! ## @main reduces to the region continued by the later stretch -/

/-- Holding the unscoped buffers at the launch contents, @main runs its five earlier stretches (each touching TensorCore
    references only and allocating nothing) and arrives at the region's call, continued by the last stretch, holding the
    buffers at the region-entry contents `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0, hostOps0_1, hostOps0_2, hostOps0_3, hostOps0_4] [hostOps1]
    (show _ ∧ _ ∧ _ ∧ _ ∧ _ from ⟨hostOps0_sub, hostOps0_1_sub, hostOps0_2_sub, hostOps0_3_sub, hostOps0_4_sub⟩)
    (show _ ∧ _ ∧ _ ∧ _ ∧ _ from ⟨hostOps0_fresh, hostOps0_1_fresh, hostOps0_2_fresh, hostOps0_3_fresh, hostOps0_4_fresh⟩)
    main_chain

/-! ## The stretch after the region -/

/-- Its operations touch only arrays of the pipeline and buffers that bypass the region: they touch unscoped TensorCore
    references, and with nothing prefetched every such reference is one or the other. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  obtain rfl : ops = hostOps1 := by simpa only [List.mem_cons, List.mem_nil_iff, or_false] using hops
  exact Pipeline.sub_ucRefs op ((List.forall_iff_forall_mem.mp hostOps1_sub) op hop)

/-- It allocates nothing. -/
theorem sfx_fresh : ∀ ops ∈ ([hostOps1] : List (List (HloOp τ sig (Elt F)))), ∀ op ∈ ops, op.fresh = ∅ := by
  intro ops hops op hop
  obtain rfl : ops = hostOps1 := by simpa only [List.mem_cons, List.mem_nil_iff, or_false] using hops
  exact (List.forall_iff_forall_mem.mp hostOps1_fresh) op hop

/-- It writes no array of the pipeline: its seven result buffers are none of `main_arg0`, `main_v256`, `main_v257`. -/
theorem sfx_keeps : ∀ ops ∈ ([hostOps1] : List (List (HloOp τ sig (Elt F)))), ∀ op ∈ ops,
    ∀ w, Proc.devRef .tc (Pipeline.arrRef spec0 w) ∉ op.writes := by
  intro ops hops op hop
  obtain rfl : ops = hostOps1 := by simpa only [List.mem_cons, List.mem_nil_iff, or_false] using hops
  simp only [hostOps1, List.mem_cons, List.mem_nil_iff, or_false] at hop
  rcases hop with rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton] <;> exact StableHlo.devRef_ne_of_ne (by decide)

/-! ## The argument arrays at the region's entry and at the end -/

/-- No operation of the five earlier stretches writes either argument. -/
theorem prefix_keeps_args : ∀ op ∈ List.flatten [hostOps0, hostOps0_1, hostOps0_2, hostOps0_3, (hostOps0_4 : List (HloOp τ sig (Elt F)))],
    Proc.devRef .tc main_arg0 ∉ op.writes ∧ Proc.devRef .tc main_arg1 ∉ op.writes := by
  intro op hop
  obtain ⟨ops, hops, hmem⟩ := List.mem_flatten.mp hop
  simp only [List.mem_cons, List.mem_nil_iff, or_false] at hops
  rcases hops with rfl | rfl | rfl | rfl | rfl
  · exact (List.forall_iff_forall_mem.mp hostOps0_keeps_args) op hmem
  · exact (List.forall_iff_forall_mem.mp hostOps0_1_keeps_args) op hmem
  · exact (List.forall_iff_forall_mem.mp hostOps0_2_keeps_args) op hmem
  · exact (List.forall_iff_forall_mem.mp hostOps0_3_keeps_args) op hmem
  · exact (List.forall_iff_forall_mem.mp hostOps0_4_keeps_args) op hmem

/-- The region finds `main_arg0` as launched. -/
theorem V_main_arg0 (c : Dev nD) : V m c main_arg0 = m ((c : Thread nD τ).loc main_arg0) :=
  StableHlo.after_of_forall_not_mem (b := Proc.devRef .tc main_arg0) _ _ (fun op hop => (prefix_keeps_args op hop).1)

/-- The region finds `main_arg1` as launched. -/
theorem V_main_arg1 (c : Dev nD) : V m c main_arg1 = m ((c : Thread nD τ).loc main_arg1) :=
  StableHlo.after_of_forall_not_mem (b := Proc.devRef .tc main_arg1) _ _ (fun op hop => (prefix_keeps_args op hop).2)

/-- `main_arg1` is no array of the pipeline and the stretch after the region does not write it: whatever the proof
    data, it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (fun op hop => by
      have hop' : op ∈ (hostOps1 : List (HloOp τ sig (Elt F))) := by
        simpa only [List.flatten_cons, List.flatten_nil, List.append_nil] using hop
      exact ((List.forall_iff_forall_mem.mp hostOps1_keeps_args) op hop').2),
    Pipeline.withArrays_of_ne _ c (V0 m c) _ main_arg1 (by exact (by decide : ∀ w, Pipeline.arrRef spec0 w ≠ main_arg1))]
  exact V_main_arg1 m c

/-! ## The input windows' staging buffers -/

/-- Window 0 is fetched at every point: before the body runs at `t` its current staging buffer holds the block of
    `main_arg0` that `t` addresses — for any proof data whose array 0 is the region-entry contents. -/
theorem before0_0_of {c : Dev nD} (dat : Dat τ (Elt F) Unit ℕ (UR sig nD τ) ℕ cfg0 c) (hA : dat.A 0 = V m c (Pipeline.arrRef spec0 0))
    (t : Fin cfg0.N) (d) : dat.before 0 t d = iblk m c 0 t :=
  (dat.before_fetched 0 t (fetch0_0 t) d).trans (by unfold Dat.fetched Dat.blockOf iblk; rw [hA]; try rfl)

/-- Window 1 likewise, over `main_v256`. -/
theorem before0_1_of {c : Dev nD} (dat : Dat τ (Elt F) Unit ℕ (UR sig nD τ) ℕ cfg0 c) (hA : dat.A 1 = V m c (Pipeline.arrRef spec0 1))
    (t : Fin cfg0.N) (d) : dat.before 1 t d = iblk m c 1 t :=
  (dat.before_fetched 1 t (fetch0_1 t) d).trans (by unfold Dat.fetched Dat.blockOf iblk; rw [hA]; try rfl)

/-! ## From the library's frame post to the argument arrays -/

/-- For any proof data whose arrays are the region-entry contents, a run ending in the library's frame post ends with
    both arguments as launched: `main_arg0` is window 0's array, an input, which the post's first clause puts at the
    proof data's array, that is at `V`, that is at the launch contents; `main_arg1` is unscoped and no window's array,
    so the second clause puts it at what the later stretch leaves, again the launch contents. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).1 0).trans (((dats 0 c).arrAt_in 0 rfl _).trans ((hA c 0).trans (V_main_arg0 m c))),
     ((h c).2 main_arg1 (Pipeline.mem_restRefs_of main_arg1 (by decide) (by decide))).trans (W_main_arg1 m dats c)⟩) h

end Cert.KernelIdeal.Hand

end
-- ==== Proof.RegionFrameIdealBody.lean ====
/- The kernel body of the region, run on the pipeline's staging buffers. The body loads window 0's buffer whole, loads
   window 1's whole, loads window 2's whole (a value it never uses), then stores one payload — a function of the two
   input blocks only — over the whole of window 2's buffer. So whatever window 2's buffer held, after the body it holds
   that payload of the two input blocks, and the input buffers are as they were. The proof data of the pipeline say
   exactly this at every grid point; the body obligation of the library follows point by point. -/
import proofs.«176000_j6725918786248_2_alg».proof.Proof.Gen.KernelIdeal.Launch
import proofs.«176000_j6725918786248_2_alg».proof.Proof.Gen.KernelIdeal.Skeleton
import proofs.«176000_j6725918786248_2_alg».proof.Proof.Gen.KernelIdeal.Points
import proofs.«176000_j6725918786248_2_alg».proof.Proof.RegionFrameIdealDefs
import proofs.«176000_j6725918786248_2_alg».proof.Proof.RegionFrameIdealKit
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

open Idealize.ShloMosaic.Tactic
open Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

/-! ## The one store's rectangle -/

/-- The offsets of the body's rank-3 accesses (window 1's load, window 2's load and store) are all zero. -/
theorem zeros3 : (![0, 0, 0] : Fin 3 → Nat) = fun _ => 0 := funext fun a => by fin_cases a <;> rfl
/-- So are those of its rank-4 access (window 0's load). -/
theorem zeros4 : (![0, 0, 0, 0] : Fin 4 → Nat) = fun _ => 0 := funext fun a => by fin_cases a <;> rfl

/-- A load of a whole `8×1×256×256` buffer through the whole-buffer rectangle reads the buffer's contents. -/
theorem load_whole0 (v : View sig .tc .vmem S8x1x256x256 .f32) (f : v.ty.Contents (Elt F)) :
    View.readAt (Elt F) v (Rect.unit (s := S8x1x256x256) ![0, 0, 0, 0] S8x1x256x256.size inb_S8x1x256x256_S8x1x256x256_0_0_0_0).toLoadRect f
      = View.read (Elt F) v f :=
  View.ld_unit_zero zeros4 inb_S8x1x256x256_S8x1x256x256_0_0_0_0 _
/-- A load of a whole `8×256×256` buffer through the whole-buffer rectangle reads the buffer's contents. -/
theorem load_whole1 (v : View sig .tc .vmem S8x256x256 .f32) (f : v.ty.Contents (Elt F)) :
    View.readAt (Elt F) v (Rect.unit (s := S8x256x256) ![0, 0, 0] S8x256x256.size inb_S8x256x256_S8x256x256_0_0_0).toLoadRect f
      = View.read (Elt F) v f :=
  View.ld_unit_zero zeros3 inb_S8x256x256_S8x256x256_0_0_0 _

/-- The rectangle of the body's one store: the whole of a `1×1×1` buffer. -/
abbrev rOut : Rect S1x1x1 := Rect.unit (s := S1x1x1) ![0, 0, 0] S1x1x1.size inb_S1x1x1_S1x1x1_0_0_0

/-- One store through the whole-buffer rectangle covers every index of the buffer. -/
theorem cover_out (p : Vec F S1x1x1 .f32) (y : S1x1x1.Idx) :
    ∃ pc ∈ ([⟨rOut, p⟩] : List (View.Piece (Elt F) S1x1x1 .f32)), y ∈ pc.1.set :=
  ⟨_, List.mem_singleton_self _, View.mem_set_unit_zero zeros3 inb_S1x1x1_S1x1x1_0_0_0 y⟩

/-! ## The body's triple -/

set_option maxHeartbeats 1000000 in
/-- The body on whole staging memrefs — the two inputs' at contents `x0`, `x1`, the output's at anything — runs to its
    continuation with the inputs' buffers unchanged and the output's buffer at the payload of `x0` and `x1`: the printed
    function is its skeleton, the three loads read what is held (the third value is dropped), and a buffer read back after
    one covering store is that store's payload. -/
theorem sound_kernel (c : Dev nD) (E : Set ℕ) (i : grid0.Coords)
    (a1 : Memref sig .tc .vmem S8x1x256x256 .f32) (h1 : a1.IsWhole) (a2 : Memref sig .tc .vmem S8x256x256 .f32) (h2 : a2.IsWhole)
    (a3 : Memref sig .tc .vmem S1x1x1 .f32) (h3 : a3.IsWhole)
    (x0 : Vec F S8x1x256x256 .f32) (x1 : Vec F S8x256x256 .f32) (K : PUnit → sProp 𝕄) :
    iprop(owns (c : Thread nD τ) a1 fullShare x0 ∗ owns (c : Thread nD τ) a2 fullShare x1 ∗ (∃ d, owns (c : Thread nD τ) a3 fullShare d)
        ∗ (iprop(owns (c : Thread nD τ) a1 fullShare x0 ∗ owns (c : Thread nD τ) a2 fullShare x1
            ∗ owns (c : Thread nD τ) a3 fullShare (k0_pay1 x0 x1)) -∗ K ⟨⟩))
      ⊢ wp frame (wpE (defs₀ (F := F)) Variants.none c none) E (cc0__noobj_kernel i a1 h1 a2 h2 a3 h3) K := by
  simp only [cc0__noobj_kernel_eq_skeleton]; unfold cc0__noobj_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [load_whole0, load_whole1]
  exact (View.read_writes_eq_canon _ _ _ (cover_out _)).trans (View.canon_unit_zero zeros3 inb_S1x1x1_S1x1x1_0_0_0 _)

/-! ## The pipeline's proof data -/

/-- The proof data of the pipeline on core `c`: the arrays as the region finds them; after the body at point `t` each
    input's buffer at its block and the output's at the payload of the two input blocks; the region invariant the plain
    one (the scoped rest and the generator register, untouched); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => k0_pay1 (iblk m c 0 t) (iblk m c 1 t)
  Φ _ := Pipeline.ΦA spec0 c
  q _ := fullShare
  owed _ := 0

/-- The proof data's arrays are the region-entry contents (the definition projected; `V` is never unfolded). -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = k0_pay1 (iblk m c 0 t) (iblk m c 1 t) := by dsimp only [dats]

/-- Each input's current staging buffer holds its block when the body starts at `t`. -/
theorem before0_0 (c : Dev nD) (t : Fin cfg0.N) (d) : (dats m 0 c).before 0 t d = iblk m c 0 t :=
  before0_0_of m (dats m 0 c) (A_eq m c 0) t d
theorem before0_1 (c : Dev nD) (t : Fin cfg0.N) (d) : (dats m 0 c).before 1 t d = iblk m c 1 t :=
  before0_1_of m (dats m 0 c) (A_eq m c 1) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' buffers hold their blocks, the output's holds something, so the body's triple
    applies; the invariant and what the core owes pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.RegionFrameIdealRun.lean ====
/- The run of @main and the frame: with the body obligation met at every point, full shares, nothing owed and the plain
   region invariant, the library's frame run around the region concludes that every weakly fair execution of @main
   terminates with the pipeline's arrays at what the proof data compute and every bypassing buffer at what the later
   stretch leaves; read at the two argument arrays this says they end as launched. -/
import proofs.«176000_j6725918786248_2_alg».proof.Proof.Gen.KernelIdeal.Launch
import proofs.«176000_j6725918786248_2_alg».proof.Proof.Gen.KernelIdeal.Skeleton
import proofs.«176000_j6725918786248_2_alg».proof.Proof.Gen.KernelIdeal.Points
import proofs.«176000_j6725918786248_2_alg».proof.Proof.RegionFrameIdealDefs
import proofs.«176000_j6725918786248_2_alg».proof.Proof.RegionFrameIdealKit
import proofs.«176000_j6725918786248_2_alg».proof.Proof.RegionFrameIdealBody
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe
open Idealize.SL Idealize.SL.Sem

variable {F : FTy → Type} [FloatOps F]

open Idealize.ShloMosaic.Tactic
open Idealize.SL.RA Idealize.SL.BI
open scoped Idealize.SL.BI
open Idealize.SL.BI.BIBase Idealize.SL.BI.Laws Idealize.SL.ProofMode
open Idealize.ShloMosaic.Rounds
open Idealize.ShloMosaic.Pipeline (Dat Cfg Window BodyObligation cellOf)

local notation "𝕄" => MT nD τ sig Unit (Elt F) ℕ (UR sig nD τ) ℕ

variable (m : (ℓ : Loc nD τ sig) → Buf (Elt F) ℓ) (ρ : Dev nD → PrngReg)

-- the library theorem's implicit arguments are found by unifying its conclusion with ours, which unfolds plain
-- definitions inside a metavariable's type
set_option backward.isDefEq.respectTransparency.types false in
/-- From any memory with zero counters, at any generator state: every weakly fair execution of @main on the TensorCores
    terminates, and every final state has each array of the pipeline at what the library computes from the proof data and
    every other unscoped buffer as the stretch after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main runs, and both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Hand

end
-- ==== Proof.ReferenceRun.lean ====
/-
  The reference program's run, read back. Its @main is a straight line of 356 host operations: slices of the boxes,
  the cell coordinates (floor, clamp), six point gathers out of the transposed prediction channels, the three gathered
  losses, the scatter that zeroes the hit cells of a mask of ones, and the masked softplus sum over all 64·256·256 cells.
  Every weakly fair execution terminates with each buffer at the fold of the operations' results over the launch
  contents, so the two arguments end as they were launched.
-/
import proofs.«176000_j6725918786248_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
set_option maxRecDepth 16384 in
/-- @main's operations, in order (the operations of an outlined clamp stand in its call's place). -/
abbrev ops : List (HloOp τ sig (Elt F)) :=
  [ unary main_arg0 main_v0 ((transpose S64x256x256x6 [0, 2, 3, 1] · transposes_S64x6x256x256_S64x256x256x6_0_2_3_1) : (⟨S64x6x256x256, .f32⟩ : BufTy).Contents (Elt F) → (⟨S64x256x256x6, .f32⟩ : BufTy).Contents (Elt F)),
    unary main_v0 main_v1 ((extractStridedSlice S64x256x256x1 ![0, 0, 0, 0] · slices_S64x256x256x6_S64x256x256x1_0_0_0_0) : (⟨S64x256x256x6, .f32⟩ : BufTy).Contents (Elt F) → (⟨S64x256x256x1, .f32⟩ : BufTy).Contents (Elt F)),
    reshape main_v1 main_v2 rfl shapeCasts_S64x256x256x1_S64x256x256,
    unary main_v2 main_v3 (Host.negf : (⟨S64x256x256, .f32⟩ : BufTy).Contents (Elt F) → (⟨S64x256x256, .f32⟩ : BufTy).Contents (Elt F)),
    unary main_v3 main_v4 (Host.exp : (⟨S64x256x256, .f32⟩ : BufTy).Contents (Elt F) → (⟨S64x256x256, .f32⟩ : BufTy).Contents (Elt F)),
    nullary main_cst (constant S_ .f32 0x3F800000#32),
    unary main_cst main_v5 (broadcastInDim S64x256x256 ![] bcast_S_S64x256x256 : (⟨S_, .f32⟩ : BufTy).Contents (Elt F) → (⟨S64x256x256, .f32⟩ : BufTy).Contents (Elt F)),
    binary main_v5 main_v4 main_v6 (addf : (⟨S64x256x256, .f32⟩ : BufTy).Contents (Elt F) → (⟨S64x256x256, .f32⟩ : BufTy).Contents (Elt F) → (⟨S64x256x256, .f32⟩ : BufTy).Contents (Elt F)),
    nullary main_cst_0 (constant S_ .f32 0x3F800000#32),
    unary main_cst_0 main_v7 (broadcastInDim S64x256x256 ![] bcast_S_S64x256x256 : (⟨S_, .f32⟩ : BufTy).Contents (Elt F) → (⟨S64x256x256, .f32⟩ : BufTy).Contents (Elt F)),
    binary main_v7 main_v6 main_v8 (Host.divf : (⟨S64x256x256, .f32⟩ : BufTy).Contents (Elt F) → (⟨S64x256x256, .f32⟩ : BufTy).Contents (Elt F) → (⟨S64x256x256, .f32⟩ : BufTy).Contents (Elt F)),
    unary main_v0 main_v9 ((extractStridedSlice S64x256x256x1 ![0, 0, 0, 1] · slices_S64x256x256x6_S64x256x256x1_0_0_0_1) : (⟨S64x256x256x6, .f32⟩ : BufTy).Contents (Elt F) → (⟨S64x256x256x1, .f32⟩ : BufTy).Contents (Elt F)),
    reshape main_v9 main_v10 rfl shapeCasts_S64x256x256x1_S64x256x256,
    unary main_v10 main_v11 (Host.negf : (⟨S64x256x256, .f32⟩ : BufTy).Contents (Elt F) → (⟨S64x256x256, .f32⟩ : BufTy).Contents (Elt F)),
    unary main_v11 main_v12 (Host.exp : (⟨S64x256x256, .f32⟩ : BufTy).Contents (Elt F) → (⟨S64x256x256, .f32⟩ : BufTy).Contents (Elt F)),
    nullary main_cst_1 (constant S_ .f32 0x3F800000#32),
    unary main_cst_1 main_v13 (broadcastInDim S64x256x256 ![] bcast_S_S64x256x256 : (⟨S_, .f32⟩ : BufTy).Contents (Elt F) → (⟨S64x256x256, .f32⟩ : BufTy).Contents (Elt F)),
    binary main_v13 main_v12 main_v14 (addf : (⟨S64x256x256, .f32⟩ : BufTy).Contents (Elt F) → (⟨S64x256x256, .f32⟩ : BufTy).Contents (Elt F) → (⟨S64x256x256, .f32⟩ : BufTy).Contents (Elt F)),
    nullary main_cst_2 (constant S_ .f32 0x3F800000#32),
    unary main_cst_2 main_v15 (broadcastInDim S64x256x256 ![] bcast_S_S64x256x256 : (⟨S_, .f32⟩ : BufTy).Contents (Elt F) → (⟨S64x256x256, .f32⟩ : BufTy).Contents (Elt F)),
    binary main_v15 main_v14 main_v16 (Host.divf : (⟨S64x256x256, .f32⟩ : BufTy).Contents (Elt F) → (⟨S64x256x256, .f32⟩ : BufTy).Contents (Elt F) → (⟨S64x256x256, .f32⟩ : BufTy).Contents (Elt F)),
    unary main_v0 main_v17 ((extractStridedSlice S64x256x256x1 ![0, 0, 0, 2] · slices_S64x256x256x6_S64x256x256x1_0_0_0_2) : (⟨S64x256x256x6, .f32⟩ : BufTy).Contents (Elt F) → (⟨S64x256x256x1, .f32⟩ : BufTy).Contents (Elt F)),
    reshape main_v17 main_v18 rfl shapeCasts_S64x256x256x1_S64x256x256,
    unary main_v18 main_v19 (Host.negf : (⟨S64x256x256, .f32⟩ : BufTy).Contents (Elt F) → (⟨S64x256x256, .f32⟩ : BufTy).Contents (Elt F)),
    unary main_v19 main_v20 (Host.exp : (⟨S64x256x256, .f32⟩ : BufTy).Contents (Elt F) → (⟨S64x256x256, .f32⟩ : BufTy).Contents (Elt F)),
    nullary main_cst_3 (constant S_ .f32 0x3F800000#32),
    unary main_cst_3 main_v21 (broadcastInDim S64x256x256 ![] bcast_S_S64x256x256 : (⟨S_, .f32⟩ : BufTy).Contents (Elt F) → (⟨S64x256x256, .f32⟩ : BufTy).Contents (Elt F)),
    binary main_v21 main_v20 main_v22 (addf : (⟨S64x256x256, .f32⟩ : BufTy).Contents (Elt F) → (⟨S64x256x256, .f32⟩ : BufTy).Contents (Elt F) → (⟨S64x256x256, .f32⟩ : BufTy).Contents (Elt F)),
    nullary main_cst_4 (constant S_ .f32 0x3F800000#32),
    unary main_cst_4 main_v23 (broadcastInDim S64x256x256 ![] bcast_S_S64x256x256 : (⟨S_, .f32⟩ : BufTy).Contents (Elt F) → (⟨S64x256x256, .f32⟩ : BufTy).Contents (Elt F)),
    binary main_v23 main_v22 main_v24 (Host.divf : (⟨S64x256x256, .f32⟩ : BufTy).Contents (Elt F) → (⟨S64x256x256, .f32⟩ : BufTy).Contents (Elt F) → (⟨S64x256x256, .f32⟩ : BufTy).Contents (Elt F)),
    unary main_v0 main_v25 ((extractStridedSlice S64x256x256x1 ![0, 0, 0, 3] · slices_S64x256x256x6_S64x256x256x1_0_0_0_3) : (⟨S64x256x256x6, .f32⟩ : BufTy).Contents (Elt F) → (⟨S64x256x256x1, .f32⟩ : BufTy).Contents (Elt F)),
    reshape main_v25 main_v26 rfl shapeCasts_S64x256x256x1_S64x256x256,
    unary main_v26 main_v27 (Host.negf : (⟨S64x256x256, .f32⟩ : BufTy).Contents (Elt F) → (⟨S64x256x256, .f32⟩ : BufTy).Contents (Elt F)),
    unary main_v27 main_v28 (Host.exp : (⟨S64x256x256, .f32⟩ : BufTy).Contents (Elt F) → (⟨S64x256x256, .f32⟩ : BufTy).Contents (Elt F)),
    nullary main_cst_5 (constant S_ .f32 0x3F800000#32),
    unary main_cst_5 main_v29 (broadcastInDim S64x256x256 ![] bcast_S_S64x256x256 : (⟨S_, .f32⟩ : BufTy).Contents (Elt F) → (⟨S64x256x256, .f32⟩ : BufTy).Contents (Elt F)),
    binary main_v29 main_v28 main_v30 (addf : (⟨S64x256x256, .f32⟩ : BufTy).Contents (Elt F) → (⟨S64x256x256, .f32⟩ : BufTy).Contents (Elt F) → (⟨S64x256x256, .f32⟩ : BufTy).Contents (Elt F)),
    nullary main_cst_6 (constant S_ .f32 0x3F800000#32),
    unary main_cst_6 main_v31 (broadcastInDim S64x256x256 ![] bcast_S_S64x256x256 : (⟨S_, .f32⟩ : BufTy).Contents (Elt F) → (⟨S64x256x256, .f32⟩ : BufTy).Contents (Elt F)),
    binary main_v31 main_v30 main_v32 (Host.divf : (⟨S64x256x256, .f32⟩ : BufTy).Contents (Elt F) → (⟨S64x256x256, .f32⟩ : BufTy).Contents (Elt F) → (⟨S64x256x256, .f32⟩ : BufTy).Contents (Elt F)),
    unary main_v0 main_v33 ((extractStridedSlice S64x256x256x1 ![0, 0, 0, 4] · slices_S64x256x256x6_S64x256x256x1_0_0_0_4) : (⟨S64x256x256x6, .f32⟩ : BufTy).Contents (Elt F) → (⟨S64x256x256x1, .f32⟩ : BufTy).Contents (Elt F)),
    reshape main_v33 main_v34 rfl shapeCasts_S64x256x256x1_S64x256x256,
    unary main_v0 main_v35 ((extractStridedSlice S64x256x256x1 ![0, 0, 0, 5] · slices_S64x256x256x6_S64x256x256x1_0_0_0_5) : (⟨S64x256x256x6, .f32⟩ : BufTy).Contents (Elt F) → (⟨S64x256x256x1, .f32⟩ : BufTy).Contents (Elt F)),
    reshape main_v35 main_v36 rfl shapeCasts_S64x256x256x1_S64x256x256,
    unary main_arg1 main_v37 ((extractStridedSlice S64x32x1 ![0, 0, 0] · slices_S64x32x4_S64x32x1_0_0_0) : (⟨S64x32x4, .f32⟩ : BufTy).Contents (Elt F) → (⟨S64x32x1, .f32⟩ : BufTy).Contents (Elt F)),
    reshape main_v37 main_v38 rfl shapeCasts_S64x32x1_S64x32,
    unary main_arg1 main_v39 ((extractStridedSlice S64x32x1 ![0, 0, 1] · slices_S64x32x4_S64x32x1_0_0_1) : (⟨S64x32x4, .f32⟩ : BufTy).Contents (Elt F) → (⟨S64x32x1, .f32⟩ : BufTy).Contents (Elt F)),
    reshape main_v39 main_v40 rfl shapeCasts_S64x32x1_S64x32,
    unary main_arg1 main_v41 ((extractStridedSlice S64x32x1 ![0, 0, 2] · slices_S64x32x4_S64x32x1_0_0_2) : (⟨S64x32x4, .f32⟩ : BufTy).Contents (Elt F) → (⟨S64x32x1, .f32⟩ : BufTy).Contents (Elt F)),
    reshape main_v41 main_v42 rfl shapeCasts_S64x32x1_S64x32,
    unary main_arg1 main_v43 ((extractStridedSlice S64x32x1 ![0, 0, 3] · slices_S64x32x4_S64x32x1_0_0_3) : (⟨S64x32x4, .f32⟩ : BufTy).Contents (Elt F) → (⟨S64x32x1, .f32⟩ : BufTy).Contents (Elt F)),
    reshape main_v43 main_v44 rfl shapeCasts_S64x32x1_S64x32,
    nullary main_cst_7 (constant S_ .f32 0x43800000#32),
    unary main_cst_7 main_v45 (broadcastInDim S64x32 ![] bcast_S_S64x32 : (⟨S_, .f32⟩ : BufTy).Contents (Elt F) → (⟨S64x32, .f32⟩ : BufTy).Contents (Elt F)),
    binary main_v38 main_v45 main_v46 (mulf : (⟨S64x32, .f32⟩ : BufTy).Contents (Elt F) → (⟨S64x32, .f32⟩ : BufTy).Contents (Elt F) → (⟨S64x32, .f32⟩ : BufTy).Contents (Elt F)),
    unary main_v46 main_v47 (Host.floor : (⟨S64x32, .f32⟩ : BufTy).Contents (Elt F) → (⟨S64x32, .f32⟩ : BufTy).Contents (Elt F)),
    unary main_v47 main_v48 (fptosi 32 : (⟨S64x32, .f32⟩ : BufTy).Contents (Elt F) → (⟨S64x32, .i32⟩ : BufTy).Contents (Elt F)),
    nullary main_c (constantI S_ 32 0#32),
    nullary main_c_8 (constantI S_ 32 255#32),
    TRef.unary (TRef.of (T := ⟨S_, .i32⟩) main_c) (TRef.of (T := ⟨S_, .i32⟩) main_call0_v0) id,
    TRef.unary (TRef.of (T := ⟨S_, .i32⟩) main_call0_v0) (TRef.of (T := ⟨S64x32, .i32⟩) main_call0_v1) (broadcastInDim S64x32 ![] bcast_S_S64x32),
    TRef.binary (TRef.of (T := ⟨S64x32, .i32⟩) main_call0_v1) (TRef.of (T := ⟨S64x32, .i32⟩) main_v48) (TRef.of (T := ⟨S64x32, .i32⟩) main_call0_v2) maxsi,
    TRef.unary (TRef.of (T := ⟨S_, .i32⟩) main_c_8) (TRef.of (T := ⟨S_, .i32⟩) main_call0_v3) id,
    TRef.unary (TRef.of (T := ⟨S_, .i32⟩) main_call0_v3) (TRef.of (T := ⟨S64x32, .i32⟩) main_call0_v4) (broadcastInDim S64x32 ![] bcast_S_S64x32),
    TRef.binary (TRef.of (T := ⟨S64x32, .i32⟩) main_call0_v4) (TRef.of (T := ⟨S64x32, .i32⟩) main_call0_v2) (TRef.of (T := ⟨S64x32, .i32⟩) main_v49) minsi,
    nullary main_cst_9 (constant S_ .f32 0x43800000#32),
    unary main_cst_9 main_v50 (broadcastInDim S64x32 ![] bcast_S_S64x32 : (⟨S_, .f32⟩ : BufTy).Contents (Elt F) → (⟨S64x32, .f32⟩ : BufTy).Contents (Elt F)),
    binary main_v40 main_v50 main_v51 (mulf : (⟨S64x32, .f32⟩ : BufTy).Contents (Elt F) → (⟨S64x32, .f32⟩ : BufTy).Contents (Elt F) → (⟨S64x32, .f32⟩ : BufTy).Contents (Elt F)),
    unary main_v51 main_v52 (Host.floor : (⟨S64x32, .f32⟩ : BufTy).Contents (Elt F) → (⟨S64x32, .f32⟩ : BufTy).Contents (Elt F)),
    unary main_v52 main_v53 (fptosi 32 : (⟨S64x32, .f32⟩ : BufTy).Contents (Elt F) → (⟨S64x32, .i32⟩ : BufTy).Contents (Elt F)),
    nullary main_c_10 (constantI S_ 32 0#32),
    nullary main_c_11 (constantI S_ 32 255#32),
    TRef.unary (TRef.of (T := ⟨S_, .i32⟩) main_c_10) (TRef.of (T := ⟨S_, .i32⟩) main_call1_v0) id,
    TRef.unary (TRef.of (T := ⟨S_, .i32⟩) main_call1_v0) (TRef.of (T := ⟨S64x32, .i32⟩) main_call1_v1) (broadcastInDim S64x32 ![] bcast_S_S64x32),
    TRef.binary (TRef.of (T := ⟨S64x32, .i32⟩) main_call1_v1) (TRef.of (T := ⟨S64x32, .i32⟩) main_v53) (TRef.of (T := ⟨S64x32, .i32⟩) main_call1_v2) maxsi,
    TRef.unary (TRef.of (T := ⟨S_, .i32⟩) main_c_11) (TRef.of (T := ⟨S_, .i32⟩) main_call1_v3) id,
    TRef.unary (TRef.of (T := ⟨S_, .i32⟩) main_call1_v3) (TRef.of (T := ⟨S64x32, .i32⟩) main_call1_v4) (broadcastInDim S64x32 ![] bcast_S_S64x32),
    TRef.binary (TRef.of (T := ⟨S64x32, .i32⟩) main_call1_v4) (TRef.of (T := ⟨S64x32, .i32⟩) main_call1_v2) (TRef.of (T := ⟨S64x32, .i32⟩) main_v54) minsi,
    nullary main_v55 (iotaInDim S64 32 0),
    unary main_v55 main_v56 (broadcastInDim S64x1 ![0] bcast_S64_S64x1_0 : (⟨S64, .i32⟩ : BufTy).Contents (Elt F) → (⟨S64x1, .i32⟩ : BufTy).Contents (Elt F)),
    unary main_v56 main_v57 (broadcastInDim S64x32 ![0, 1] bcast_S64x1_S64x32_0_1 : (⟨S64x1, .i32⟩ : BufTy).Contents (Elt F) → (⟨S64x32, .i32⟩ : BufTy).Contents (Elt F)),
    nullary main_c_12 (constantI S_ 32 0#32),
    unary main_c_12 main_v58 (broadcastInDim S64x32 ![] bcast_S_S64x32 : (⟨S_, .i32⟩ : BufTy).Contents (Elt F) → (⟨S64x32, .i32⟩ : BufTy).Contents (Elt F)),
    binary main_v57 main_v58 main_v59 (cmpi .slt : (⟨S64x32, .i32⟩ : BufTy).Contents (Elt F) → (⟨S64x32, .i32⟩ : BufTy).Contents (Elt F) → (⟨S64x32, .i1⟩ : BufTy).Contents (Elt F)),
    nullary main_c_13 (constantI S_ 32 64#32),
    unary main_c_13 main_v60 (broadcastInDim S64x32 ![] bcast_S_S64x32 : (⟨S_, .i32⟩ : BufTy).Contents (Elt F) → (⟨S64x32, .i32⟩ : BufTy).Contents (Elt F)),
    binary main_v57 main_v60 main_v61 (addi : (⟨S64x32, .i32⟩ : BufTy).Contents (Elt F) → (⟨S64x32, .i32⟩ : BufTy).Contents (Elt F) → (⟨S64x32, .i32⟩ : BufTy).Contents (Elt F)),
    ternary main_v59 main_v61 main_v57 main_v62 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_14 (constantI S_ 32 0#32),
    unary main_c_14 main_v63 (broadcastInDim S64x32 ![] bcast_S_S64x32 : (⟨S_, .i32⟩ : BufTy).Contents (Elt F) → (⟨S64x32, .i32⟩ : BufTy).Contents (Elt F)),
    binary main_v54 main_v63 main_v64 (cmpi .slt : (⟨S64x32, .i32⟩ : BufTy).Contents (Elt F) → (⟨S64x32, .i32⟩ : BufTy).Contents (Elt F) → (⟨S64x32, .i1⟩ : BufTy).Contents (Elt F)),
    nullary main_c_15 (constantI S_ 32 256#32),
    unary main_c_15 main_v65 (broadcastInDim S64x32 ![] bcast_S_S64x32 : (⟨S_, .i32⟩ : BufTy).Contents (Elt F) → (⟨S64x32, .i32⟩ : BufTy).Contents (Elt F)),
    binary main_v54 main_v65 main_v66 (addi : (⟨S64x32, .i32⟩ : BufTy).Contents (Elt F) → (⟨S64x32, .i32⟩ : BufTy).Contents (Elt F) → (⟨S64x32, .i32⟩ : BufTy).Contents (Elt F)),
    ternary main_v64 main_v66 main_v54 main_v67 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_16 (constantI S_ 32 0#32),
    unary main_c_16 main_v68 (broadcastInDim S64x32 ![] bcast_S_S64x32 : (⟨S_, .i32⟩ : BufTy).Contents (Elt F) → (⟨S64x32, .i32⟩ : BufTy).Contents (Elt F)),
    binary main_v49 main_v68 main_v69 (cmpi .slt : (⟨S64x32, .i32⟩ : BufTy).Contents (Elt F) → (⟨S64x32, .i32⟩ : BufTy).Contents (Elt F) → (⟨S64x32, .i1⟩ : BufTy).Contents (Elt F)),
    nullary main_c_17 (constantI S_ 32 256#32),
    unary main_c_17 main_v70 (broadcastInDim S64x32 ![] bcast_S_S64x32 : (⟨S_, .i32⟩ : BufTy).Contents (Elt F) → (⟨S64x32, .i32⟩ : BufTy).Contents (Elt F)),
    binary main_v49 main_v70 main_v71 (addi : (⟨S64x32, .i32⟩ : BufTy).Contents (Elt F) → (⟨S64x32, .i32⟩ : BufTy).Contents (Elt F) → (⟨S64x32, .i32⟩ : BufTy).Contents (Elt F)),
    ternary main_v69 main_v71 main_v49 main_v72 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v62 main_v73 (broadcastInDim S64x32x1 ![0, 1] bcast_S64x32_S64x32x1_0_1 : (⟨S64x32, .i32⟩ : BufTy).Contents (Elt F) → (⟨S64x32x1, .i32⟩ : BufTy).Contents (Elt F)),
    unary main_v67 main_v74 (broadcastInDim S64x32x1 ![0, 1] bcast_S64x32_S64x32x1_0_1 : (⟨S64x32, .i32⟩ : BufTy).Contents (Elt F) → (⟨S64x32x1, .i32⟩ : BufTy).Contents (Elt F)),
    unary main_v72 main_v75 (broadcastInDim S64x32x1 ![0, 1] bcast_S64x32_S64x32x1_0_1 : (⟨S64x32, .i32⟩ : BufTy).Contents (Elt F) → (⟨S64x32x1, .i32⟩ : BufTy).Contents (Elt F)),
    nary ![main_v73, main_v74, main_v75] main_v76 (fun u => concatenate S64x32x3 2 [⟨S64x32x1, u 0⟩, ⟨S64x32x1, u 1⟩, ⟨S64x32x1, u 2⟩] concatenates_S64x32x1_S64x32x1_S64x32x1_S64x32x3_d2),
    binary main_v8 main_v76 main_v77 ((fun x i => Host.gather gather_S64x256x256_S64x32x3_S64x32_n_012_n_n_012_2_111 x i) : (⟨S64x256x256, .f32⟩ : BufTy).Contents (Elt F) → (⟨S64x32x3, .i32⟩ : BufTy).Contents (Elt F) → (⟨S64x32, .f32⟩ : BufTy).Contents (Elt F)),
    nullary main_c_18 (constantI S_ 32 0#32),
    unary main_c_18 main_v78 (broadcastInDim S64x32 ![] bcast_S_S64x32 : (⟨S_, .i32⟩ : BufTy).Contents (Elt F) → (⟨S64x32, .i32⟩ : BufTy).Contents (Elt F)),
    binary main_v57 main_v78 main_v79 (cmpi .slt : (⟨S64x32, .i32⟩ : BufTy).Contents (Elt F) → (⟨S64x32, .i32⟩ : BufTy).Contents (Elt F) → (⟨S64x32, .i1⟩ : BufTy).Contents (Elt F)),
    nullary main_c_19 (constantI S_ 32 64#32),
    unary main_c_19 main_v80 (broadcastInDim S64x32 ![] bcast_S_S64x32 : (⟨S_, .i32⟩ : BufTy).Contents (Elt F) → (⟨S64x32, .i32⟩ : BufTy).Contents (Elt F)),
    binary main_v57 main_v80 main_v81 (addi : (⟨S64x32, .i32⟩ : BufTy).Contents (Elt F) → (⟨S64x32, .i32⟩ : BufTy).Contents (Elt F) → (⟨S64x32, .i32⟩ : BufTy).Contents (Elt F)),
    ternary main_v79 main_v81 main_v57 main_v82 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_20 (constantI S_ 32 0#32),
    unary main_c_20 main_v83 (broadcastInDim S64x32 ![] bcast_S_S64x32 : (⟨S_, .i32⟩ : BufTy).Contents (Elt F) → (⟨S64x32, .i32⟩ : BufTy).Contents (Elt F)),
    binary main_v54 main_v83 main_v84 (cmpi .slt : (⟨S64x32, .i32⟩ : BufTy).Contents (Elt F) → (⟨S64x32, .i32⟩ : BufTy).Contents (Elt F) → (⟨S64x32, .i1⟩ : BufTy).Contents (Elt F)),
    nullary main_c_21 (constantI S_ 32 256#32),
    unary main_c_21 main_v85 (broadcastInDim S64x32 ![] bcast_S_S64x32 : (⟨S_, .i32⟩ : BufTy).Contents (Elt F) → (⟨S64x32, .i32⟩ : BufTy).Contents (Elt F)),
    binary main_v54 main_v85 main_v86 (addi : (⟨S64x32, .i32⟩ : BufTy).Contents (Elt F) → (⟨S64x32, .i32⟩ : BufTy).Contents (Elt F) → (⟨S64x32, .i32⟩ : BufTy).Contents (Elt F)),
    ternary main_v84 main_v86 main_v54 main_v87 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_22 (constantI S_ 32 0#32),
    unary main_c_22 main_v88 (broadcastInDim S64x32 ![] bcast_S_S64x32 : (⟨S_, .i32⟩ : BufTy).Contents (Elt F) → (⟨S64x32, .i32⟩ : BufTy).Contents (Elt F)),
    binary main_v49 main_v88 main_v89 (cmpi .slt : (⟨S64x32, .i32⟩ : BufTy).Contents (Elt F) → (⟨S64x32, .i32⟩ : BufTy).Contents (Elt F) → (⟨S64x32, .i1⟩ : BufTy).Contents (Elt F)),
    nullary main_c_23 (constantI S_ 32 256#32),
    unary main_c_23 main_v90 (broadcastInDim S64x32 ![] bcast_S_S64x32 : (⟨S_, .i32⟩ : BufTy).Contents (Elt F) → (⟨S64x32, .i32⟩ : BufTy).Contents (Elt F)),
    binary main_v49 main_v90 main_v91 (addi : (⟨S64x32, .i32⟩ : BufTy).Contents (Elt F) → (⟨S64x32, .i32⟩ : BufTy).Contents (Elt F) → (⟨S64x32, .i32⟩ : BufTy).Contents (Elt F)),
    ternary main_v89 main_v91 main_v49 main_v92 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v82 main_v93 (broadcastInDim S64x32x1 ![0, 1] bcast_S64x32_S64x32x1_0_1 : (⟨S64x32, .i32⟩ : BufTy).Contents (Elt F) → (⟨S64x32x1, .i32⟩ : BufTy).Contents (Elt F)),
    unary main_v87 main_v94 (broadcastInDim S64x32x1 ![0, 1] bcast_S64x32_S64x32x1_0_1 : (⟨S64x32, .i32⟩ : BufTy).Contents (Elt F) → (⟨S64x32x1, .i32⟩ : BufTy).Contents (Elt F)),
    unary main_v92 main_v95 (broadcastInDim S64x32x1 ![0, 1] bcast_S64x32_S64x32x1_0_1 : (⟨S64x32, .i32⟩ : BufTy).Contents (Elt F) → (⟨S64x32x1, .i32⟩ : BufTy).Contents (Elt F)),
    nary ![main_v93, main_v94, main_v95] main_v96 (fun u => concatenate S64x32x3 2 [⟨S64x32x1, u 0⟩, ⟨S64x32x1, u 1⟩, ⟨S64x32x1, u 2⟩] concatenates_S64x32x1_S64x32x1_S64x32x1_S64x32x3_d2),
    binary main_v16 main_v96 main_v97 ((fun x i => Host.gather gather_S64x256x256_S64x32x3_S64x32_n_012_n_n_012_2_111 x i) : (⟨S64x256x256, .f32⟩ : BufTy).Contents (Elt F) → (⟨S64x32x3, .i32⟩ : BufTy).Contents (Elt F) → (⟨S64x32, .f32⟩ : BufTy).Contents (Elt F)),
    nullary main_c_24 (constantI S_ 32 0#32),
    unary main_c_24 main_v98 (broadcastInDim S64x32 ![] bcast_S_S64x32 : (⟨S_, .i32⟩ : BufTy).Contents (Elt F) → (⟨S64x32, .i32⟩ : BufTy).Contents (Elt F)),
    binary main_v57 main_v98 main_v99 (cmpi .slt : (⟨S64x32, .i32⟩ : BufTy).Contents (Elt F) → (⟨S64x32, .i32⟩ : BufTy).Contents (Elt F) → (⟨S64x32, .i1⟩ : BufTy).Contents (Elt F)),
    nullary main_c_25 (constantI S_ 32 64#32),
    unary main_c_25 main_v100 (broadcastInDim S64x32 ![] bcast_S_S64x32 : (⟨S_, .i32⟩ : BufTy).Contents (Elt F) → (⟨S64x32, .i32⟩ : BufTy).Contents (Elt F)),
    binary main_v57 main_v100 main_v101 (addi : (⟨S64x32, .i32⟩ : BufTy).Contents (Elt F) → (⟨S64x32, .i32⟩ : BufTy).Contents (Elt F) → (⟨S64x32, .i32⟩ : BufTy).Contents (Elt F)),
    ternary main_v99 main_v101 main_v57 main_v102 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_26 (constantI S_ 32 0#32),
    unary main_c_26 main_v103 (broadcastInDim S64x32 ![] bcast_S_S64x32 : (⟨S_, .i32⟩ : BufTy).Contents (Elt F) → (⟨S64x32, .i32⟩ : BufTy).Contents (Elt F)),
    binary main_v54 main_v103 main_v104 (cmpi .slt : (⟨S64x32, .i32⟩ : BufTy).Contents (Elt F) → (⟨S64x32, .i32⟩ : BufTy).Contents (Elt F) → (⟨S64x32, .i1⟩ : BufTy).Contents (Elt F)),
    nullary main_c_27 (constantI S_ 32 256#32),
    unary main_c_27 main_v105 (broadcastInDim S64x32 ![] bcast_S_S64x32 : (⟨S_, .i32⟩ : BufTy).Contents (Elt F) → (⟨S64x32, .i32⟩ : BufTy).Contents (Elt F)),
    binary main_v54 main_v105 main_v106 (addi : (⟨S64x32, .i32⟩ : BufTy).Contents (Elt F) → (⟨S64x32, .i32⟩ : BufTy).Contents (Elt F) → (⟨S64x32, .i32⟩ : BufTy).Contents (Elt F)),
    ternary main_v104 main_v106 main_v54 main_v107 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_28 (constantI S_ 32 0#32),
    unary main_c_28 main_v108 (broadcastInDim S64x32 ![] bcast_S_S64x32 : (⟨S_, .i32⟩ : BufTy).Contents (Elt F) → (⟨S64x32, .i32⟩ : BufTy).Contents (Elt F)),
    binary main_v49 main_v108 main_v109 (cmpi .slt : (⟨S64x32, .i32⟩ : BufTy).Contents (Elt F) → (⟨S64x32, .i32⟩ : BufTy).Contents (Elt F) → (⟨S64x32, .i1⟩ : BufTy).Contents (Elt F)),
    nullary main_c_29 (constantI S_ 32 256#32),
    unary main_c_29 main_v110 (broadcastInDim S64x32 ![] bcast_S_S64x32 : (⟨S_, .i32⟩ : BufTy).Contents (Elt F) → (⟨S64x32, .i32⟩ : BufTy).Contents (Elt F)),
    binary main_v49 main_v110 main_v111 (addi : (⟨S64x32, .i32⟩ : BufTy).Contents (Elt F) → (⟨S64x32, .i32⟩ : BufTy).Contents (Elt F) → (⟨S64x32, .i32⟩ : BufTy).Contents (Elt F)),
    ternary main_v109 main_v111 main_v49 main_v112 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v102 main_v113 (broadcastInDim S64x32x1 ![0, 1] bcast_S64x32_S64x32x1_0_1 : (⟨S64x32, .i32⟩ : BufTy).Contents (Elt F) → (⟨S64x32x1, .i32⟩ : BufTy).Contents (Elt F)),
    unary main_v107 main_v114 (broadcastInDim S64x32x1 ![0, 1] bcast_S64x32_S64x32x1_0_1 : (⟨S64x32, .i32⟩ : BufTy).Contents (Elt F) → (⟨S64x32x1, .i32⟩ : BufTy).Contents (Elt F)),
    unary main_v112 main_v115 (broadcastInDim S64x32x1 ![0, 1] bcast_S64x32_S64x32x1_0_1 : (⟨S64x32, .i32⟩ : BufTy).Contents (Elt F) → (⟨S64x32x1, .i32⟩ : BufTy).Contents (Elt F)),
    nary ![main_v113, main_v114, main_v115] main_v116 (fun u => concatenate S64x32x3 2 [⟨S64x32x1, u 0⟩, ⟨S64x32x1, u 1⟩, ⟨S64x32x1, u 2⟩] concatenates_S64x32x1_S64x32x1_S64x32x1_S64x32x3_d2),
    binary main_v24 main_v116 main_v117 ((fun x i => Host.gather gather_S64x256x256_S64x32x3_S64x32_n_012_n_n_012_2_111 x i) : (⟨S64x256x256, .f32⟩ : BufTy).Contents (Elt F) → (⟨S64x32x3, .i32⟩ : BufTy).Contents (Elt F) → (⟨S64x32, .f32⟩ : BufTy).Contents (Elt F)),
    nullary main_c_30 (constantI S_ 32 0#32),
    unary main_c_30 main_v118 (broadcastInDim S64x32 ![] bcast_S_S64x32 : (⟨S_, .i32⟩ : BufTy).Contents (Elt F) → (⟨S64x32, .i32⟩ : BufTy).Contents (Elt F)),
    binary main_v57 main_v118 main_v119 (cmpi .slt : (⟨S64x32, .i32⟩ : BufTy).Contents (Elt F) → (⟨S64x32, .i32⟩ : BufTy).Contents (Elt F) → (⟨S64x32, .i1⟩ : BufTy).Contents (Elt F)),
    nullary main_c_31 (constantI S_ 32 64#32),
    unary main_c_31 main_v120 (broadcastInDim S64x32 ![] bcast_S_S64x32 : (⟨S_, .i32⟩ : BufTy).Contents (Elt F) → (⟨S64x32, .i32⟩ : BufTy).Contents (Elt F)),
    binary main_v57 main_v120 main_v121 (addi : (⟨S64x32, .i32⟩ : BufTy).Contents (Elt F) → (⟨S64x32, .i32⟩ : BufTy).Contents (Elt F) → (⟨S64x32, .i32⟩ : BufTy).Contents (Elt F)),
    ternary main_v119 main_v121 main_v57 main_v122 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_32 (constantI S_ 32 0#32),
    unary main_c_32 main_v123 (broadcastInDim S64x32 ![] bcast_S_S64x32 : (⟨S_, .i32⟩ : BufTy).Contents (Elt F) → (⟨S64x32, .i32⟩ : BufTy).Contents (Elt F)),
    binary main_v54 main_v123 main_v124 (cmpi .slt : (⟨S64x32, .i32⟩ : BufTy).Contents (Elt F) → (⟨S64x32, .i32⟩ : BufTy).Contents (Elt F) → (⟨S64x32, .i1⟩ : BufTy).Contents (Elt F)),
    nullary main_c_33 (constantI S_ 32 256#32),
    unary main_c_33 main_v125 (broadcastInDim S64x32 ![] bcast_S_S64x32 : (⟨S_, .i32⟩ : BufTy).Contents (Elt F) → (⟨S64x32, .i32⟩ : BufTy).Contents (Elt F)),
    binary main_v54 main_v125 main_v126 (addi : (⟨S64x32, .i32⟩ : BufTy).Contents (Elt F) → (⟨S64x32, .i32⟩ : BufTy).Contents (Elt F) → (⟨S64x32, .i32⟩ : BufTy).Contents (Elt F)),
    ternary main_v124 main_v126 main_v54 main_v127 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_34 (constantI S_ 32 0#32),
    unary main_c_34 main_v128 (broadcastInDim S64x32 ![] bcast_S_S64x32 : (⟨S_, .i32⟩ : BufTy).Contents (Elt F) → (⟨S64x32, .i32⟩ : BufTy).Contents (Elt F)),
    binary main_v49 main_v128 main_v129 (cmpi .slt : (⟨S64x32, .i32⟩ : BufTy).Contents (Elt F) → (⟨S64x32, .i32⟩ : BufTy).Contents (Elt F) → (⟨S64x32, .i1⟩ : BufTy).Contents (Elt F)),
    nullary main_c_35 (constantI S_ 32 256#32),
    unary main_c_35 main_v130 (broadcastInDim S64x32 ![] bcast_S_S64x32 : (⟨S_, .i32⟩ : BufTy).Contents (Elt F) → (⟨S64x32, .i32⟩ : BufTy).Contents (Elt F)),
    binary main_v49 main_v130 main_v131 (addi : (⟨S64x32, .i32⟩ : BufTy).Contents (Elt F) → (⟨S64x32, .i32⟩ : BufTy).Contents (Elt F) → (⟨S64x32, .i32⟩ : BufTy).Contents (Elt F)),
    ternary main_v129 main_v131 main_v49 main_v132 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v122 main_v133 (broadcastInDim S64x32x1 ![0, 1] bcast_S64x32_S64x32x1_0_1 : (⟨S64x32, .i32⟩ : BufTy).Contents (Elt F) → (⟨S64x32x1, .i32⟩ : BufTy).Contents (Elt F)),
    unary main_v127 main_v134 (broadcastInDim S64x32x1 ![0, 1] bcast_S64x32_S64x32x1_0_1 : (⟨S64x32, .i32⟩ : BufTy).Contents (Elt F) → (⟨S64x32x1, .i32⟩ : BufTy).Contents (Elt F)),
    unary main_v132 main_v135 (broadcastInDim S64x32x1 ![0, 1] bcast_S64x32_S64x32x1_0_1 : (⟨S64x32, .i32⟩ : BufTy).Contents (Elt F) → (⟨S64x32x1, .i32⟩ : BufTy).Contents (Elt F)),
    nary ![main_v133, main_v134, main_v135] main_v136 (fun u => concatenate S64x32x3 2 [⟨S64x32x1, u 0⟩, ⟨S64x32x1, u 1⟩, ⟨S64x32x1, u 2⟩] concatenates_S64x32x1_S64x32x1_S64x32x1_S64x32x3_d2),
    binary main_v32 main_v136 main_v137 ((fun x i => Host.gather gather_S64x256x256_S64x32x3_S64x32_n_012_n_n_012_2_111 x i) : (⟨S64x256x256, .f32⟩ : BufTy).Contents (Elt F) → (⟨S64x32x3, .i32⟩ : BufTy).Contents (Elt F) → (⟨S64x32, .f32⟩ : BufTy).Contents (Elt F)),
    nullary main_c_36 (constantI S_ 32 0#32),
    unary main_c_36 main_v138 (broadcastInDim S64x32 ![] bcast_S_S64x32 : (⟨S_, .i32⟩ : BufTy).Contents (Elt F) → (⟨S64x32, .i32⟩ : BufTy).Contents (Elt F)),
    binary main_v57 main_v138 main_v139 (cmpi .slt : (⟨S64x32, .i32⟩ : BufTy).Contents (Elt F) → (⟨S64x32, .i32⟩ : BufTy).Contents (Elt F) → (⟨S64x32, .i1⟩ : BufTy).Contents (Elt F)),
    nullary main_c_37 (constantI S_ 32 64#32),
    unary main_c_37 main_v140 (broadcastInDim S64x32 ![] bcast_S_S64x32 : (⟨S_, .i32⟩ : BufTy).Contents (Elt F) → (⟨S64x32, .i32⟩ : BufTy).Contents (Elt F)),
    binary main_v57 main_v140 main_v141 (addi : (⟨S64x32, .i32⟩ : BufTy).Contents (Elt F) → (⟨S64x32, .i32⟩ : BufTy).Contents (Elt F) → (⟨S64x32, .i32⟩ : BufTy).Contents (Elt F)),
    ternary main_v139 main_v141 main_v57 main_v142 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_38 (constantI S_ 32 0#32),
    unary main_c_38 main_v143 (broadcastInDim S64x32 ![] bcast_S_S64x32 : (⟨S_, .i32⟩ : BufTy).Contents (Elt F) → (⟨S64x32, .i32⟩ : BufTy).Contents (Elt F)),
    binary main_v54 main_v143 main_v144 (cmpi .slt : (⟨S64x32, .i32⟩ : BufTy).Contents (Elt F) → (⟨S64x32, .i32⟩ : BufTy).Contents (Elt F) → (⟨S64x32, .i1⟩ : BufTy).Contents (Elt F)),
    nullary main_c_39 (constantI S_ 32 256#32),
    unary main_c_39 main_v145 (broadcastInDim S64x32 ![] bcast_S_S64x32 : (⟨S_, .i32⟩ : BufTy).Contents (Elt F) → (⟨S64x32, .i32⟩ : BufTy).Contents (Elt F)),
    binary main_v54 main_v145 main_v146 (addi : (⟨S64x32, .i32⟩ : BufTy).Contents (Elt F) → (⟨S64x32, .i32⟩ : BufTy).Contents (Elt F) → (⟨S64x32, .i32⟩ : BufTy).Contents (Elt F)),
    ternary main_v144 main_v146 main_v54 main_v147 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_40 (constantI S_ 32 0#32),
    unary main_c_40 main_v148 (broadcastInDim S64x32 ![] bcast_S_S64x32 : (⟨S_, .i32⟩ : BufTy).Contents (Elt F) → (⟨S64x32, .i32⟩ : BufTy).Contents (Elt F)),
    binary main_v49 main_v148 main_v149 (cmpi .slt : (⟨S64x32, .i32⟩ : BufTy).Contents (Elt F) → (⟨S64x32, .i32⟩ : BufTy).Contents (Elt F) → (⟨S64x32, .i1⟩ : BufTy).Contents (Elt F)),
    nullary main_c_41 (constantI S_ 32 256#32),
    unary main_c_41 main_v150 (broadcastInDim S64x32 ![] bcast_S_S64x32 : (⟨S_, .i32⟩ : BufTy).Contents (Elt F) → (⟨S64x32, .i32⟩ : BufTy).Contents (Elt F)),
    binary main_v49 main_v150 main_v151 (addi : (⟨S64x32, .i32⟩ : BufTy).Contents (Elt F) → (⟨S64x32, .i32⟩ : BufTy).Contents (Elt F) → (⟨S64x32, .i32⟩ : BufTy).Contents (Elt F)),
    ternary main_v149 main_v151 main_v49 main_v152 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v142 main_v153 (broadcastInDim S64x32x1 ![0, 1] bcast_S64x32_S64x32x1_0_1 : (⟨S64x32, .i32⟩ : BufTy).Contents (Elt F) → (⟨S64x32x1, .i32⟩ : BufTy).Contents (Elt F)),
    unary main_v147 main_v154 (broadcastInDim S64x32x1 ![0, 1] bcast_S64x32_S64x32x1_0_1 : (⟨S64x32, .i32⟩ : BufTy).Contents (Elt F) → (⟨S64x32x1, .i32⟩ : BufTy).Contents (Elt F)),
    unary main_v152 main_v155 (broadcastInDim S64x32x1 ![0, 1] bcast_S64x32_S64x32x1_0_1 : (⟨S64x32, .i32⟩ : BufTy).Contents (Elt F) → (⟨S64x32x1, .i32⟩ : BufTy).Contents (Elt F)),
    nary ![main_v153, main_v154, main_v155] main_v156 (fun u => concatenate S64x32x3 2 [⟨S64x32x1, u 0⟩, ⟨S64x32x1, u 1⟩, ⟨S64x32x1, u 2⟩] concatenates_S64x32x1_S64x32x1_S64x32x1_S64x32x3_d2),
    binary main_v34 main_v156 main_v157 ((fun x i => Host.gather gather_S64x256x256_S64x32x3_S64x32_n_012_n_n_012_2_111 x i) : (⟨S64x256x256, .f32⟩ : BufTy).Contents (Elt F) → (⟨S64x32x3, .i32⟩ : BufTy).Contents (Elt F) → (⟨S64x32, .f32⟩ : BufTy).Contents (Elt F)),
    nullary main_c_42 (constantI S_ 32 0#32),
    unary main_c_42 main_v158 (broadcastInDim S64x32 ![] bcast_S_S64x32 : (⟨S_, .i32⟩ : BufTy).Contents (Elt F) → (⟨S64x32, .i32⟩ : BufTy).Contents (Elt F)),
    binary main_v57 main_v158 main_v159 (cmpi .slt : (⟨S64x32, .i32⟩ : BufTy).Contents (Elt F) → (⟨S64x32, .i32⟩ : BufTy).Contents (Elt F) → (⟨S64x32, .i1⟩ : BufTy).Contents (Elt F)),
    nullary main_c_43 (constantI S_ 32 64#32),
    unary main_c_43 main_v160 (broadcastInDim S64x32 ![] bcast_S_S64x32 : (⟨S_, .i32⟩ : BufTy).Contents (Elt F) → (⟨S64x32, .i32⟩ : BufTy).Contents (Elt F)),
    binary main_v57 main_v160 main_v161 (addi : (⟨S64x32, .i32⟩ : BufTy).Contents (Elt F) → (⟨S64x32, .i32⟩ : BufTy).Contents (Elt F) → (⟨S64x32, .i32⟩ : BufTy).Contents (Elt F)),
    ternary main_v159 main_v161 main_v57 main_v162 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_44 (constantI S_ 32 0#32),
    unary main_c_44 main_v163 (broadcastInDim S64x32 ![] bcast_S_S64x32 : (⟨S_, .i32⟩ : BufTy).Contents (Elt F) → (⟨S64x32, .i32⟩ : BufTy).Contents (Elt F)),
    binary main_v54 main_v163 main_v164 (cmpi .slt : (⟨S64x32, .i32⟩ : BufTy).Contents (Elt F) → (⟨S64x32, .i32⟩ : BufTy).Contents (Elt F) → (⟨S64x32, .i1⟩ : BufTy).Contents (Elt F)),
    nullary main_c_45 (constantI S_ 32 256#32),
    unary main_c_45 main_v165 (broadcastInDim S64x32 ![] bcast_S_S64x32 : (⟨S_, .i32⟩ : BufTy).Contents (Elt F) → (⟨S64x32, .i32⟩ : BufTy).Contents (Elt F)),
    binary main_v54 main_v165 main_v166 (addi : (⟨S64x32, .i32⟩ : BufTy).Contents (Elt F) → (⟨S64x32, .i32⟩ : BufTy).Contents (Elt F) → (⟨S64x32, .i32⟩ : BufTy).Contents (Elt F)),
    ternary main_v164 main_v166 main_v54 main_v167 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    nullary main_c_46 (constantI S_ 32 0#32),
    unary main_c_46 main_v168 (broadcastInDim S64x32 ![] bcast_S_S64x32 : (⟨S_, .i32⟩ : BufTy).Contents (Elt F) → (⟨S64x32, .i32⟩ : BufTy).Contents (Elt F)),
    binary main_v49 main_v168 main_v169 (cmpi .slt : (⟨S64x32, .i32⟩ : BufTy).Contents (Elt F) → (⟨S64x32, .i32⟩ : BufTy).Contents (Elt F) → (⟨S64x32, .i1⟩ : BufTy).Contents (Elt F)),
    nullary main_c_47 (constantI S_ 32 256#32),
    unary main_c_47 main_v170 (broadcastInDim S64x32 ![] bcast_S_S64x32 : (⟨S_, .i32⟩ : BufTy).Contents (Elt F) → (⟨S64x32, .i32⟩ : BufTy).Contents (Elt F)),
    binary main_v49 main_v170 main_v171 (addi : (⟨S64x32, .i32⟩ : BufTy).Contents (Elt F) → (⟨S64x32, .i32⟩ : BufTy).Contents (Elt F) → (⟨S64x32, .i32⟩ : BufTy).Contents (Elt F)),
    ternary main_v169 main_v171 main_v49 main_v172 (select : (⟨S64x32, .i1⟩ : BufTy).Contents (Elt F) → (⟨S64x32, .i32⟩ : BufTy).Contents (Elt F) → (⟨S64x32, .i32⟩ : BufTy).Contents (Elt F) → (⟨S64x32, .i32⟩ : BufTy).Contents (Elt F)),
    unary main_v162 main_v173 (broadcastInDim S64x32x1 ![0, 1] bcast_S64x32_S64x32x1_0_1 : (⟨S64x32, .i32⟩ : BufTy).Contents (Elt F) → (⟨S64x32x1, .i32⟩ : BufTy).Contents (Elt F)),
    unary main_v167 main_v174 (broadcastInDim S64x32x1 ![0, 1] bcast_S64x32_S64x32x1_0_1 : (⟨S64x32, .i32⟩ : BufTy).Contents (Elt F) → (⟨S64x32x1, .i32⟩ : BufTy).Contents (Elt F)),
    unary main_v172 main_v175 (broadcastInDim S64x32x1 ![0, 1] bcast_S64x32_S64x32x1_0_1 : (⟨S64x32, .i32⟩ : BufTy).Contents (Elt F) → (⟨S64x32x1, .i32⟩ : BufTy).Contents (Elt F)),
    nary ![main_v173, main_v174, main_v175] main_v176 (fun u => concatenate S64x32x3 2 [⟨S64x32x1, u 0⟩, ⟨S64x32x1, u 1⟩, ⟨S64x32x1, u 2⟩] concatenates_S64x32x1_S64x32x1_S64x32x1_S64x32x3_d2),
    binary main_v36 main_v176 main_v177 ((fun x i => Host.gather gather_S64x256x256_S64x32x3_S64x32_n_012_n_n_012_2_111 x i) : (⟨S64x256x256, .f32⟩ : BufTy).Contents (Elt F) → (⟨S64x32x3, .i32⟩ : BufTy).Contents (Elt F) → (⟨S64x32, .f32⟩ : BufTy).Contents (Elt F)),
    nullary main_cst_48 (constant S_ .f32 0x43800000#32),
    unary main_cst_48 main_v178 (broadcastInDim S64x32 ![] bcast_S_S64x32 : (⟨S_, .f32⟩ : BufTy).Contents (Elt F) → (⟨S64x32, .f32⟩ : BufTy).Contents (Elt F)),
    binary main_v38 main_v178 main_v179 (mulf : (⟨S64x32, .f32⟩ : BufTy).Contents (Elt F) → (⟨S64x32, .f32⟩ : BufTy).Contents (Elt F) → (⟨S64x32, .f32⟩ : BufTy).Contents (Elt F)),
    unary main_v49 main_v180 (sitofp .f32 : (⟨S64x32, .i32⟩ : BufTy).Contents (Elt F) → (⟨S64x32, .f32⟩ : BufTy).Contents (Elt F)),
    binary main_v179 main_v180 main_v181 (subf : (⟨S64x32, .f32⟩ : BufTy).Contents (Elt F) → (⟨S64x32, .f32⟩ : BufTy).Contents (Elt F) → (⟨S64x32, .f32⟩ : BufTy).Contents (Elt F)),
    nullary main_cst_49 (constant S_ .f32 0x43800000#32),
    unary main_cst_49 main_v182 (broadcastInDim S64x32 ![] bcast_S_S64x32 : (⟨S_, .f32⟩ : BufTy).Contents (Elt F) → (⟨S64x32, .f32⟩ : BufTy).Contents (Elt F)),
    binary main_v40 main_v182 main_v183 (mulf : (⟨S64x32, .f32⟩ : BufTy).Contents (Elt F) → (⟨S64x32, .f32⟩ : BufTy).Contents (Elt F) → (⟨S64x32, .f32⟩ : BufTy).Contents (Elt F)),
    unary main_v54 main_v184 (sitofp .f32 : (⟨S64x32, .i32⟩ : BufTy).Contents (Elt F) → (⟨S64x32, .f32⟩ : BufTy).Contents (Elt F)),
    binary main_v183 main_v184 main_v185 (subf : (⟨S64x32, .f32⟩ : BufTy).Contents (Elt F) → (⟨S64x32, .f32⟩ : BufTy).Contents (Elt F) → (⟨S64x32, .f32⟩ : BufTy).Contents (Elt F)),
    binary main_v77 main_v181 main_v186 (subf : (⟨S64x32, .f32⟩ : BufTy).Contents (Elt F) → (⟨S64x32, .f32⟩ : BufTy).Contents (Elt F) → (⟨S64x32, .f32⟩ : BufTy).Contents (Elt F)),
    binary main_v186 main_v186 main_v187 (mulf : (⟨S64x32, .f32⟩ : BufTy).Contents (Elt F) → (⟨S64x32, .f32⟩ : BufTy).Contents (Elt F) → (⟨S64x32, .f32⟩ : BufTy).Contents (Elt F)),
    binary main_v97 main_v185 main_v188 (subf : (⟨S64x32, .f32⟩ : BufTy).Contents (Elt F) → (⟨S64x32, .f32⟩ : BufTy).Contents (Elt F) → (⟨S64x32, .f32⟩ : BufTy).Contents (Elt F)),
    binary main_v188 main_v188 main_v189 (mulf : (⟨S64x32, .f32⟩ : BufTy).Contents (Elt F) → (⟨S64x32, .f32⟩ : BufTy).Contents (Elt F) → (⟨S64x32, .f32⟩ : BufTy).Contents (Elt F)),
    binary main_v187 main_v189 main_v190 (addf : (⟨S64x32, .f32⟩ : BufTy).Contents (Elt F) → (⟨S64x32, .f32⟩ : BufTy).Contents (Elt F) → (⟨S64x32, .f32⟩ : BufTy).Contents (Elt F)),
    binary main_v117 main_v42 main_v191 (subf : (⟨S64x32, .f32⟩ : BufTy).Contents (Elt F) → (⟨S64x32, .f32⟩ : BufTy).Contents (Elt F) → (⟨S64x32, .f32⟩ : BufTy).Contents (Elt F)),
    binary main_v191 main_v191 main_v192 (mulf : (⟨S64x32, .f32⟩ : BufTy).Contents (Elt F) → (⟨S64x32, .f32⟩ : BufTy).Contents (Elt F) → (⟨S64x32, .f32⟩ : BufTy).Contents (Elt F)),
    binary main_v190 main_v192 main_v193 (addf : (⟨S64x32, .f32⟩ : BufTy).Contents (Elt F) → (⟨S64x32, .f32⟩ : BufTy).Contents (Elt F) → (⟨S64x32, .f32⟩ : BufTy).Contents (Elt F)),
    binary main_v137 main_v44 main_v194 (subf : (⟨S64x32, .f32⟩ : BufTy).Contents (Elt F) → (⟨S64x32, .f32⟩ : BufTy).Contents (Elt F) → (⟨S64x32, .f32⟩ : BufTy).Contents (Elt F)),
    binary main_v194 main_v194 main_v195 (mulf : (⟨S64x32, .f32⟩ : BufTy).Contents (Elt F) → (⟨S64x32, .f32⟩ : BufTy).Contents (Elt F) → (⟨S64x32, .f32⟩ : BufTy).Contents (Elt F)),
    binary main_v193 main_v195 main_v196 (addf : (⟨S64x32, .f32⟩ : BufTy).Contents (Elt F) → (⟨S64x32, .f32⟩ : BufTy).Contents (Elt F) → (⟨S64x32, .f32⟩ : BufTy).Contents (Elt F)),
    nullary main_cst_50 (constant S_ .f32 0x00000000#32),
    binary main_v196 main_cst_50 main_v197 ((fun x v => Host.reduceAdd x v reducesTo_S64x32_S_d0_1 h_S_) : (⟨S64x32, .f32⟩ : BufTy).Contents (Elt F) → (⟨S_, .f32⟩ : BufTy).Contents (Elt F) → (⟨S_, .f32⟩ : BufTy).Contents (Elt F)),
    nullary main_cst_51 (constant S_ .f32 0x40A00000#32),
    binary main_cst_51 main_v197 main_v198 (mulf : (⟨S_, .f32⟩ : BufTy).Contents (Elt F) → (⟨S_, .f32⟩ : BufTy).Contents (Elt F) → (⟨S_, .f32⟩ : BufTy).Contents (Elt F)),
    nullary main_cst_52 (constant S_ .f32 0x00000000#32),
    unary main_cst_52 main_v199 (broadcastInDim S64x32 ![] bcast_S_S64x32 : (⟨S_, .f32⟩ : BufTy).Contents (Elt F) → (⟨S64x32, .f32⟩ : BufTy).Contents (Elt F)),
    binary main_v199 main_v157 main_v200 (maximumf : (⟨S64x32, .f32⟩ : BufTy).Contents (Elt F) → (⟨S64x32, .f32⟩ : BufTy).Contents (Elt F) → (⟨S64x32, .f32⟩ : BufTy).Contents (Elt F)),
    unary main_cst_52 main_v201 (broadcastInDim S64x32 ![] bcast_S_S64x32 : (⟨S_, .f32⟩ : BufTy).Contents (Elt F) → (⟨S64x32, .f32⟩ : BufTy).Contents (Elt F)),
    binary main_v201 main_v157 main_v202 (subf : (⟨S64x32, .f32⟩ : BufTy).Contents (Elt F) → (⟨S64x32, .f32⟩ : BufTy).Contents (Elt F) → (⟨S64x32, .f32⟩ : BufTy).Contents (Elt F)),
    binary main_v202 main_v202 main_v203 (cmpf .une : (⟨S64x32, .f32⟩ : BufTy).Contents (Elt F) → (⟨S64x32, .f32⟩ : BufTy).Contents (Elt F) → (⟨S64x32, .i1⟩ : BufTy).Contents (Elt F)),
    unary main_cst_52 main_v204 (broadcastInDim S64x32 ![] bcast_S_S64x32 : (⟨S_, .f32⟩ : BufTy).Contents (Elt F) → (⟨S64x32, .f32⟩ : BufTy).Contents (Elt F)),
    binary main_v204 main_v157 main_v205 (addf : (⟨S64x32, .f32⟩ : BufTy).Contents (Elt F) → (⟨S64x32, .f32⟩ : BufTy).Contents (Elt F) → (⟨S64x32, .f32⟩ : BufTy).Contents (Elt F)),
    unary main_v202 main_v206 (Host.absf : (⟨S64x32, .f32⟩ : BufTy).Contents (Elt F) → (⟨S64x32, .f32⟩ : BufTy).Contents (Elt F)),
    unary main_v206 main_v207 (Host.negf : (⟨S64x32, .f32⟩ : BufTy).Contents (Elt F) → (⟨S64x32, .f32⟩ : BufTy).Contents (Elt F)),
    unary main_v207 main_v208 (Host.exp : (⟨S64x32, .f32⟩ : BufTy).Contents (Elt F) → (⟨S64x32, .f32⟩ : BufTy).Contents (Elt F)),
    unary main_v208 main_v209 (Host.log1p : (⟨S64x32, .f32⟩ : BufTy).Contents (Elt F) → (⟨S64x32, .f32⟩ : BufTy).Contents (Elt F)),
    binary main_v200 main_v209 main_v210 (addf : (⟨S64x32, .f32⟩ : BufTy).Contents (Elt F) → (⟨S64x32, .f32⟩ : BufTy).Contents (Elt F) → (⟨S64x32, .f32⟩ : BufTy).Contents (Elt F)),
    ternary main_v203 main_v205 main_v210 main_v211 (select : (⟨S64x32, .i1⟩ : BufTy).Contents (Elt F) → (⟨S64x32, .f32⟩ : BufTy).Contents (Elt F) → (⟨S64x32, .f32⟩ : BufTy).Contents (Elt F) → (⟨S64x32, .f32⟩ : BufTy).Contents (Elt F)),
    nullary main_cst_53 (constant S_ .f32 0x3F800000#32),
    unary main_cst_53 main_v212 (broadcastInDim S64x32 ![] bcast_S_S64x32 : (⟨S_, .f32⟩ : BufTy).Contents (Elt F) → (⟨S64x32, .f32⟩ : BufTy).Contents (Elt F)),
    binary main_v157 main_v212 main_v213 (mulf : (⟨S64x32, .f32⟩ : BufTy).Contents (Elt F) → (⟨S64x32, .f32⟩ : BufTy).Contents (Elt F) → (⟨S64x32, .f32⟩ : BufTy).Contents (Elt F)),
    binary main_v211 main_v213 main_v214 (subf : (⟨S64x32, .f32⟩ : BufTy).Contents (Elt F) → (⟨S64x32, .f32⟩ : BufTy).Contents (Elt F) → (⟨S64x32, .f32⟩ : BufTy).Contents (Elt F)),
    nullary main_cst_54 (constant S_ .f32 0x00000000#32),
    binary main_v214 main_cst_54 main_v215 ((fun x v => Host.reduceAdd x v reducesTo_S64x32_S_d0_1 h_S_) : (⟨S64x32, .f32⟩ : BufTy).Contents (Elt F) → (⟨S_, .f32⟩ : BufTy).Contents (Elt F) → (⟨S_, .f32⟩ : BufTy).Contents (Elt F)),
    nullary main_cst_55 (constant S_ .f32 0x3F800000#32),
    binary main_cst_55 main_v215 main_v216 (mulf : (⟨S_, .f32⟩ : BufTy).Contents (Elt F) → (⟨S_, .f32⟩ : BufTy).Contents (Elt F) → (⟨S_, .f32⟩ : BufTy).Contents (Elt F)),
    nullary main_cst_56 (constant S_ .f32 0x00000000#32),
    unary main_cst_56 main_v217 (broadcastInDim S64x32 ![] bcast_S_S64x32 : (⟨S_, .f32⟩ : BufTy).Contents (Elt F) → (⟨S64x32, .f32⟩ : BufTy).Contents (Elt F)),
    binary main_v217 main_v177 main_v218 (maximumf : (⟨S64x32, .f32⟩ : BufTy).Contents (Elt F) → (⟨S64x32, .f32⟩ : BufTy).Contents (Elt F) → (⟨S64x32, .f32⟩ : BufTy).Contents (Elt F)),
    unary main_cst_56 main_v219 (broadcastInDim S64x32 ![] bcast_S_S64x32 : (⟨S_, .f32⟩ : BufTy).Contents (Elt F) → (⟨S64x32, .f32⟩ : BufTy).Contents (Elt F)),
    binary main_v219 main_v177 main_v220 (subf : (⟨S64x32, .f32⟩ : BufTy).Contents (Elt F) → (⟨S64x32, .f32⟩ : BufTy).Contents (Elt F) → (⟨S64x32, .f32⟩ : BufTy).Contents (Elt F)),
    binary main_v220 main_v220 main_v221 (cmpf .une : (⟨S64x32, .f32⟩ : BufTy).Contents (Elt F) → (⟨S64x32, .f32⟩ : BufTy).Contents (Elt F) → (⟨S64x32, .i1⟩ : BufTy).Contents (Elt F)),
    unary main_cst_56 main_v222 (broadcastInDim S64x32 ![] bcast_S_S64x32 : (⟨S_, .f32⟩ : BufTy).Contents (Elt F) → (⟨S64x32, .f32⟩ : BufTy).Contents (Elt F)),
    binary main_v222 main_v177 main_v223 (addf : (⟨S64x32, .f32⟩ : BufTy).Contents (Elt F) → (⟨S64x32, .f32⟩ : BufTy).Contents (Elt F) → (⟨S64x32, .f32⟩ : BufTy).Contents (Elt F)),
    unary main_v220 main_v224 (Host.absf : (⟨S64x32, .f32⟩ : BufTy).Contents (Elt F) → (⟨S64x32, .f32⟩ : BufTy).Contents (Elt F)),
    unary main_v224 main_v225 (Host.negf : (⟨S64x32, .f32⟩ : BufTy).Contents (Elt F) → (⟨S64x32, .f32⟩ : BufTy).Contents (Elt F)),
    unary main_v225 main_v226 (Host.exp : (⟨S64x32, .f32⟩ : BufTy).Contents (Elt F) → (⟨S64x32, .f32⟩ : BufTy).Contents (Elt F)),
    unary main_v226 main_v227 (Host.log1p : (⟨S64x32, .f32⟩ : BufTy).Contents (Elt F) → (⟨S64x32, .f32⟩ : BufTy).Contents (Elt F)),
    binary main_v218 main_v227 main_v228 (addf : (⟨S64x32, .f32⟩ : BufTy).Contents (Elt F) → (⟨S64x32, .f32⟩ : BufTy).Contents (Elt F) → (⟨S64x32, .f32⟩ : BufTy).Contents (Elt F)),
    ternary main_v221 main_v223 main_v228 main_v229 (select : (⟨S64x32, .i1⟩ : BufTy).Contents (Elt F) → (⟨S64x32, .f32⟩ : BufTy).Contents (Elt F) → (⟨S64x32, .f32⟩ : BufTy).Contents (Elt F) → (⟨S64x32, .f32⟩ : BufTy).Contents (Elt F)),
    nullary main_cst_57 (constant S_ .f32 0x3F800000#32),
    unary main_cst_57 main_v230 (broadcastInDim S64x32 ![] bcast_S_S64x32 : (⟨S_, .f32⟩ : BufTy).Contents (Elt F) → (⟨S64x32, .f32⟩ : BufTy).Contents (Elt F)),
    binary main_v177 main_v230 main_v231 (mulf : (⟨S64x32, .f32⟩ : BufTy).Contents (Elt F) → (⟨S64x32, .f32⟩ : BufTy).Contents (Elt F) → (⟨S64x32, .f32⟩ : BufTy).Contents (Elt F)),
    binary main_v229 main_v231 main_v232 (subf : (⟨S64x32, .f32⟩ : BufTy).Contents (Elt F) → (⟨S64x32, .f32⟩ : BufTy).Contents (Elt F) → (⟨S64x32, .f32⟩ : BufTy).Contents (Elt F)),
    nullary main_cst_58 (constant S_ .f32 0x00000000#32),
    binary main_v232 main_cst_58 main_v233 ((fun x v => Host.reduceAdd x v reducesTo_S64x32_S_d0_1 h_S_) : (⟨S64x32, .f32⟩ : BufTy).Contents (Elt F) → (⟨S_, .f32⟩ : BufTy).Contents (Elt F) → (⟨S_, .f32⟩ : BufTy).Contents (Elt F)),
    nullary main_cst_59 (constant S_ .f32 0x3F800000#32),
    binary main_cst_59 main_v233 main_v234 (mulf : (⟨S_, .f32⟩ : BufTy).Contents (Elt F) → (⟨S_, .f32⟩ : BufTy).Contents (Elt F) → (⟨S_, .f32⟩ : BufTy).Contents (Elt F)),
    nullary main_c_60 (constantI S_ 32 256#32),
    unary main_c_60 main_v235 (broadcastInDim S64x32 ![] bcast_S_S64x32 : (⟨S_, .i32⟩ : BufTy).Contents (Elt F) → (⟨S64x32, .i32⟩ : BufTy).Contents (Elt F)),
    binary main_v57 main_v235 main_v236 (muli : (⟨S64x32, .i32⟩ : BufTy).Contents (Elt F) → (⟨S64x32, .i32⟩ : BufTy).Contents (Elt F) → (⟨S64x32, .i32⟩ : BufTy).Contents (Elt F)),
    binary main_v236 main_v54 main_v237 (addi : (⟨S64x32, .i32⟩ : BufTy).Contents (Elt F) → (⟨S64x32, .i32⟩ : BufTy).Contents (Elt F) → (⟨S64x32, .i32⟩ : BufTy).Contents (Elt F)),
    nullary main_c_61 (constantI S_ 32 256#32),
    unary main_c_61 main_v238 (broadcastInDim S64x32 ![] bcast_S_S64x32 : (⟨S_, .i32⟩ : BufTy).Contents (Elt F) → (⟨S64x32, .i32⟩ : BufTy).Contents (Elt F)),
    binary main_v237 main_v238 main_v239 (muli : (⟨S64x32, .i32⟩ : BufTy).Contents (Elt F) → (⟨S64x32, .i32⟩ : BufTy).Contents (Elt F) → (⟨S64x32, .i32⟩ : BufTy).Contents (Elt F)),
    binary main_v239 main_v49 main_v240 (addi : (⟨S64x32, .i32⟩ : BufTy).Contents (Elt F) → (⟨S64x32, .i32⟩ : BufTy).Contents (Elt F) → (⟨S64x32, .i32⟩ : BufTy).Contents (Elt F)),
    nullary main_cst_62 (constant S_ .f32 0x3F800000#32),
    unary main_cst_62 main_v241 (broadcastInDim S4194304 ![] bcast_S_S4194304 : (⟨S_, .f32⟩ : BufTy).Contents (Elt F) → (⟨S4194304, .f32⟩ : BufTy).Contents (Elt F)),
    reshape main_v240 main_v242 rfl shapeCasts_S64x32_S2048,
    nullary main_c_63 (constantI S_ 32 0#32),
    unary main_c_63 main_v243 (broadcastInDim S2048 ![] bcast_S_S2048 : (⟨S_, .i32⟩ : BufTy).Contents (Elt F) → (⟨S2048, .i32⟩ : BufTy).Contents (Elt F)),
    binary main_v242 main_v243 main_v244 (cmpi .slt : (⟨S2048, .i32⟩ : BufTy).Contents (Elt F) → (⟨S2048, .i32⟩ : BufTy).Contents (Elt F) → (⟨S2048, .i1⟩ : BufTy).Contents (Elt F)),
    nullary main_c_64 (constantI S_ 32 4194304#32),
    unary main_c_64 main_v245 (broadcastInDim S2048 ![] bcast_S_S2048 : (⟨S_, .i32⟩ : BufTy).Contents (Elt F) → (⟨S2048, .i32⟩ : BufTy).Contents (Elt F)),
    binary main_v242 main_v245 main_v246 (addi : (⟨S2048, .i32⟩ : BufTy).Contents (Elt F) → (⟨S2048, .i32⟩ : BufTy).Contents (Elt F) → (⟨S2048, .i32⟩ : BufTy).Contents (Elt F)),
    ternary main_v244 main_v246 main_v242 main_v247 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v247 main_v248 (broadcastInDim S2048x1 ![0] bcast_S2048_S2048x1_0 : (⟨S2048, .i32⟩ : BufTy).Contents (Elt F) → (⟨S2048x1, .i32⟩ : BufTy).Contents (Elt F)),
    nullary main_cst_65 (constant S_ .f32 0x00000000#32),
    unary main_cst_65 main_v249 (broadcastInDim S2048 ![] bcast_S_S2048 : (⟨S_, .f32⟩ : BufTy).Contents (Elt F) → (⟨S2048, .f32⟩ : BufTy).Contents (Elt F)),
    ternary main_v241 main_v248 main_v249 main_v250 ((fun x i u => Host.scatter scatter_S4194304_S2048x1_S2048_n_0_0_1 (fun _ b => b) x i u) : (⟨S4194304, .f32⟩ : BufTy).Contents (Elt F) → (⟨S2048x1, .i32⟩ : BufTy).Contents (Elt F) → (⟨S2048, .f32⟩ : BufTy).Contents (Elt F) → (⟨S4194304, .f32⟩ : BufTy).Contents (Elt F)),
    reshape main_v34 main_v251 rfl shapeCasts_S64x256x256_S4194304,
    nullary main_cst_66 (constant S_ .f32 0x00000000#32),
    unary main_cst_66 main_v252 (broadcastInDim S4194304 ![] bcast_S_S4194304 : (⟨S_, .f32⟩ : BufTy).Contents (Elt F) → (⟨S4194304, .f32⟩ : BufTy).Contents (Elt F)),
    binary main_v252 main_v251 main_v253 (maximumf : (⟨S4194304, .f32⟩ : BufTy).Contents (Elt F) → (⟨S4194304, .f32⟩ : BufTy).Contents (Elt F) → (⟨S4194304, .f32⟩ : BufTy).Contents (Elt F)),
    unary main_cst_66 main_v254 (broadcastInDim S4194304 ![] bcast_S_S4194304 : (⟨S_, .f32⟩ : BufTy).Contents (Elt F) → (⟨S4194304, .f32⟩ : BufTy).Contents (Elt F)),
    binary main_v254 main_v251 main_v255 (subf : (⟨S4194304, .f32⟩ : BufTy).Contents (Elt F) → (⟨S4194304, .f32⟩ : BufTy).Contents (Elt F) → (⟨S4194304, .f32⟩ : BufTy).Contents (Elt F)),
    binary main_v255 main_v255 main_v256 (cmpf .une : (⟨S4194304, .f32⟩ : BufTy).Contents (Elt F) → (⟨S4194304, .f32⟩ : BufTy).Contents (Elt F) → (⟨S4194304, .i1⟩ : BufTy).Contents (Elt F)),
    unary main_cst_66 main_v257 (broadcastInDim S4194304 ![] bcast_S_S4194304 : (⟨S_, .f32⟩ : BufTy).Contents (Elt F) → (⟨S4194304, .f32⟩ : BufTy).Contents (Elt F)),
    binary main_v257 main_v251 main_v258 (addf : (⟨S4194304, .f32⟩ : BufTy).Contents (Elt F) → (⟨S4194304, .f32⟩ : BufTy).Contents (Elt F) → (⟨S4194304, .f32⟩ : BufTy).Contents (Elt F)),
    unary main_v255 main_v259 (Host.absf : (⟨S4194304, .f32⟩ : BufTy).Contents (Elt F) → (⟨S4194304, .f32⟩ : BufTy).Contents (Elt F)),
    unary main_v259 main_v260 (Host.negf : (⟨S4194304, .f32⟩ : BufTy).Contents (Elt F) → (⟨S4194304, .f32⟩ : BufTy).Contents (Elt F)),
    unary main_v260 main_v261 (Host.exp : (⟨S4194304, .f32⟩ : BufTy).Contents (Elt F) → (⟨S4194304, .f32⟩ : BufTy).Contents (Elt F)),
    unary main_v261 main_v262 (Host.log1p : (⟨S4194304, .f32⟩ : BufTy).Contents (Elt F) → (⟨S4194304, .f32⟩ : BufTy).Contents (Elt F)),
    binary main_v253 main_v262 main_v263 (addf : (⟨S4194304, .f32⟩ : BufTy).Contents (Elt F) → (⟨S4194304, .f32⟩ : BufTy).Contents (Elt F) → (⟨S4194304, .f32⟩ : BufTy).Contents (Elt F)),
    ternary main_v256 main_v258 main_v263 main_v264 (select : (⟨S4194304, .i1⟩ : BufTy).Contents (Elt F) → (⟨S4194304, .f32⟩ : BufTy).Contents (Elt F) → (⟨S4194304, .f32⟩ : BufTy).Contents (Elt F) → (⟨S4194304, .f32⟩ : BufTy).Contents (Elt F)),
    nullary main_cst_67 (constant S_ .f32 0x00000000#32),
    unary main_cst_67 main_v265 (broadcastInDim S4194304 ![] bcast_S_S4194304 : (⟨S_, .f32⟩ : BufTy).Contents (Elt F) → (⟨S4194304, .f32⟩ : BufTy).Contents (Elt F)),
    binary main_v251 main_v265 main_v266 (mulf : (⟨S4194304, .f32⟩ : BufTy).Contents (Elt F) → (⟨S4194304, .f32⟩ : BufTy).Contents (Elt F) → (⟨S4194304, .f32⟩ : BufTy).Contents (Elt F)),
    binary main_v264 main_v266 main_v267 (subf : (⟨S4194304, .f32⟩ : BufTy).Contents (Elt F) → (⟨S4194304, .f32⟩ : BufTy).Contents (Elt F) → (⟨S4194304, .f32⟩ : BufTy).Contents (Elt F)),
    binary main_v267 main_v250 main_v268 (mulf : (⟨S4194304, .f32⟩ : BufTy).Contents (Elt F) → (⟨S4194304, .f32⟩ : BufTy).Contents (Elt F) → (⟨S4194304, .f32⟩ : BufTy).Contents (Elt F)),
    nullary main_cst_68 (constant S_ .f32 0x00000000#32),
    binary main_v268 main_cst_68 main_v269 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_69 (constant S_ .f32 0x3F000000#32),
    binary main_cst_69 main_v269 main_v270 (mulf : (⟨S_, .f32⟩ : BufTy).Contents (Elt F) → (⟨S_, .f32⟩ : BufTy).Contents (Elt F) → (⟨S_, .f32⟩ : BufTy).Contents (Elt F)),
    binary main_v198 main_v216 main_v271 (addf : (⟨S_, .f32⟩ : BufTy).Contents (Elt F) → (⟨S_, .f32⟩ : BufTy).Contents (Elt F) → (⟨S_, .f32⟩ : BufTy).Contents (Elt F)),
    binary main_v271 main_v270 main_v272 (addf : (⟨S_, .f32⟩ : BufTy).Contents (Elt F) → (⟨S_, .f32⟩ : BufTy).Contents (Elt F) → (⟨S_, .f32⟩ : BufTy).Contents (Elt F)),
    binary main_v272 main_v234 main_v273 (addf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
set_option maxHeartbeats 40000000 in
set_option maxRecDepth 16384 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxHeartbeats 40000000 in
set_option maxRecDepth 16384 in
/-- Each operation touches TensorCore references only. -/
theorem ops_sub : (ops : List (HloOp τ sig (Elt F))).Forall fun op => op.bufs ⊆ tcRefs τ sig :=
  ⟨unary_bufs_sub .., unary_bufs_sub .., reshape_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., unary_bufs_sub .., nullary_bufs_sub .., unary_bufs_sub .., binary_bufs_sub .., nullary_bufs_sub .., unary_bufs_sub .., binary_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., nullary_bufs_sub .., unary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., nary_bufs_sub .., binary_bufs_sub .., nullary_bufs_sub .., unary_bufs_sub .., binary_bufs_sub .., unary_bufs_sub .., binary_bufs_sub .., nullary_bufs_sub .., unary_bufs_sub .., binary_bufs_sub .., unary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., binary_bufs_sub .., nullary_bufs_sub .., binary_bufs_sub .., nullary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., binary_bufs_sub .., nullary_bufs_sub .., binary_bufs_sub .., nullary_bufs_sub .., binary_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., binary_bufs_sub .., nullary_bufs_sub .., binary_bufs_sub .., nullary_bufs_sub .., binary_bufs_sub .., nullary_bufs_sub .., unary_bufs_sub .., binary_bufs_sub .., binary_bufs_sub .., nullary_bufs_sub .., unary_bufs_sub .., binary_bufs_sub .., binary_bufs_sub .., nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., reshape_bufs_sub .., nullary_bufs_sub .., unary_bufs_sub .., binary_bufs_sub .., unary_bufs_sub .., binary_bufs_sub .., binary_bufs_sub .., unary_bufs_sub .., binary_bufs_sub .., unary_bufs_sub .., unary_bufs_sub .., unary_bufs_sub .., unary_bufs_sub .., binary_bufs_sub .., ternary_bufs_sub .., nullary_bufs_sub .., unary_bufs_sub .., binary_bufs_sub .., binary_bufs_sub .., binary_bufs_sub .., nullary_bufs_sub .., binary_bufs_sub .., nullary_bufs_sub .., binary_bufs_sub .., binary_bufs_sub .., binary_bufs_sub .., binary_bufs_sub ..⟩

set_option maxHeartbeats 40000000 in
set_option maxRecDepth 16384 in
/-- No operation allocates a buffer. -/
theorem ops_fresh : ∀ op ∈ (ops : List (HloOp τ sig (Elt F))), op.fresh = ∅ := by
  intro _ h; (repeat (cases h with | head => rfl | tail _ h => ?_)); exact nomatch h

/-- Every weakly fair execution of the reference's @main terminates, each TensorCore buffer at the fold of the
    operations' results over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m ρ (fun _ => ops_fresh)

end Cert.ReferenceIdeal.HandRun

end
-- ==== Proof.RefKeeps.lean ====
/- No operation of the reference program writes an argument array: each of its 356 operations writes exactly one buffer,
   its own result (a singleton, by the builders' definitions), and no result reference is `main_arg0` or `main_arg1`
   (decided reference by reference). So folding the operations' results over any contents leaves both arguments where
   they were, and since every execution of the reference ends at that fold over the launch contents, the two arguments
   end as launched. -/
import proofs.«176000_j6725918786248_2_alg».proof.Proof.ReferenceRun
import Idealize.ShloMosaic.Lib.StableHlo.Run

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxHeartbeats 40000000 in
/-- No operation writes either argument. -/
theorem ops_keeps_args : (ops : List (HloOp τ sig (Elt F))).Forall fun op =>
    Proc.devRef .tc main_arg0 ∉ op.writes ∧ Proc.devRef .tc main_arg1 ∉ op.writes := by
  simp only [List.Forall, StableHlo.nullary_writes, StableHlo.unary_writes, StableHlo.binary_writes, StableHlo.ternary_writes, StableHlo.quaternary_writes, StableHlo.reshape_writes, StableHlo.binaryIndexed_writes, StableHlo.nary_writes, StableHlo.unaryIndexed_writes, Finset.mem_singleton]
  repeat' apply And.intro
  all_goals exact StableHlo.devRef_ne_of_ne (by decide)

/-- The fold of the operations' results leaves `main_arg0` at what it held. -/
theorem ref_arg0 (W : Valuation τ sig (Elt F)) : after ops W (Proc.devRef .tc main_arg0) = W (Proc.devRef .tc main_arg0) :=
  after_of_forall_not_mem ops W (fun op hop => ((List.forall_iff_forall_mem.mp ops_keeps_args) op hop).1)

/-- And `main_arg1`. -/
theorem ref_arg1 (W : Valuation τ sig (Elt F)) : after ops W (Proc.devRef .tc main_arg1) = W (Proc.devRef .tc main_arg1) :=
  after_of_forall_not_mem ops W (fun op hop => ((List.forall_iff_forall_mem.mp ops_keeps_args) op hop).2)

/-- The reference runs (every weakly fair execution terminates) and both arguments end as launched. -/
theorem ref_frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨(h c main_arg0).trans ((ref_arg0 _).trans rfl), (h c main_arg1).trans ((ref_arg1 _).trans rfl)⟩) (run_after m ρ)

end Cert.ReferenceIdeal.HandRun

end
-- ==== Proof.RegionValue.lean ====
/-
  What one grid point of the region writes. The body loads a tile of eight images' objectness channel z[t, 0, h, w] and
  the same tile of the mask m[t, h, w], forms softplus(z) · m cell by cell — softplus spelt as jnp.logaddexp(0, z) is:
  max(0, z) + log1p(exp(−|0 − z|)), with a guard on 0 − z ≠ 0 − z that never fires on the extended reals — and sums the
  tile one axis at a time (lanes, then rows, then images). So the one cell it stores is the triple sum of softplus(z)·m
  over the tile; a sum of extended reals, in any order.
-/
import proofs.«176000_j6725918786248_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.RegionValue

open Cert.KernelIdeal Cert.KernelIdeal.Gen Idealize.ShloMosaic Idealize.ShloMosaic.ValueIdx

/-- The kernel's cell function, operation by operation as the body spells logaddexp(0, z). -/
def cell (z : EReal) : EReal :=
  Scalar.select (Ideal.cmp .one (Ideal.ofBits .f32 0x00000000#32 - z) (Ideal.ofBits .f32 0x00000000#32 - z))
    (Ideal.ofBits .f32 0x00000000#32 + z)
    (max (Ideal.ofBits .f32 0x00000000#32) z
      + Ideal.log1p (Ideal.exp (Ideal.ofBits .f32 0x00000000#32
          - max (Ideal.ofBits .f32 0x00000000#32 - z) (-(Ideal.ofBits .f32 0x00000000#32 - z)))))

/-- A lane sum (axis 2 of a [8,256,256] tile) at (t, h). -/
theorem sumAxis2 (src : FVec Ideal S8x256x256 .f32) (t : Fin 8) (h : Fin 256) :
    multiReduction (F := Ideal) .add [2] S8x256 src 0x00000000#32 reduces_S8x256x256_S8x256 (.inl rfl) rfl (ix2 t h)
      = ∑ w : Fin 256, src (ix3 t h w) := by
  refine (Ideal.multiReduction_add_single src 0x00000000#32 reduces_S8x256x256_S8x256 (.inl rfl) rfl (ix2 t h)).trans ?_
  refine Finset.sum_congr rfl fun w _ => congrArg src ?_
  funext c
  match c with
  | ⟨0, _⟩ => rfl
  | ⟨1, _⟩ => rfl
  | ⟨2, _⟩ => rfl

/-- A row sum (axis 1 of a [8,256,1] column) at (t, 0). -/
theorem sumAxis1 (src : FVec Ideal S8x256x1 .f32) (t : Fin 8) :
    multiReduction (F := Ideal) .add [1] S8x1 src 0x00000000#32 reduces_S8x256x1_S8x1 (.inl rfl) rfl (ix2 t 0)
      = ∑ h : Fin 256, src (ix3 t h 0) := by
  refine (Ideal.multiReduction_add_single src 0x00000000#32 reduces_S8x256x1_S8x1 (.inl rfl) rfl (ix2 t 0)).trans ?_
  refine Finset.sum_congr rfl fun h _ => congrArg src ?_
  funext c
  match c with
  | ⟨0, _⟩ => rfl
  | ⟨1, _⟩ => rfl
  | ⟨2, _⟩ => rfl

/-- The sum over the eight images (axis 0 of a [8,1,1] column) at (0, 0). -/
theorem sumAxis0 (src : FVec Ideal S8x1x1 .f32) :
    multiReduction (F := Ideal) .add [0] S1x1 src 0x00000000#32 reduces_S8x1x1_S1x1 (.inl rfl) rfl (ix2 0 0)
      = ∑ t : Fin 8, src (ix3 t 0 0) := by
  refine (Ideal.multiReduction_add_single src 0x00000000#32 reduces_S8x1x1_S1x1 (.inl rfl) rfl (ix2 0 0)).trans ?_
  refine Finset.sum_congr rfl fun t _ => congrArg src ?_
  funext c
  match c with
  | ⟨0, _⟩ => rfl
  | ⟨1, _⟩ => rfl
  | ⟨2, _⟩ => rfl

/-- The stored cell: the sum over the tile of cell(z)·m. -/
theorem pay_at (v0 : Vec Ideal S8x1x256x256 .f32) (v2 : Vec Ideal S8x256x256 .f32) :
    k0_pay1 (F := Ideal) v0 v2 (ix3 0 0 0)
      = ∑ t : Fin 8, ∑ h : Fin 256, ∑ w : Fin 256, cell (v0 (ix4 t 0 h w)) * v2 (ix3 t h w) := by
  unfold k0_pay1
  refine (shapeCast_apply _ shapeCasts_S1x1_S1x1x1 (ix3 0 0 0) (ix2 0 0) (by
    rewrite [Shape.rowMajor_val_two, Shape.rowMajor_val_three]; rfl)).trans ?_
  refine (sumAxis0 _).trans ?_
  refine Finset.sum_congr rfl fun t _ => ?_
  refine (shapeCast_apply _ shapeCasts_S8x1_S8x1x1 (ix3 t 0 0) (ix2 t 0) (by
    rewrite [Shape.rowMajor_val_two, Shape.rowMajor_val_three]; show t.val * 1 + 0 = (t.val * 1 + 0) * 1 + 0; omega)).trans ?_
  refine (sumAxis1 _ t).trans ?_
  refine Finset.sum_congr rfl fun h _ => ?_
  refine (shapeCast_apply _ shapeCasts_S8x256_S8x256x1 (ix3 t h 0) (ix2 t h) (by
    rewrite [Shape.rowMajor_val_two, Shape.rowMajor_val_three]; show t.val * 256 + h.val = (t.val * 256 + h.val) * 1 + 0; omega)).trans ?_
  refine (sumAxis2 _ t h).trans ?_
  refine Finset.sum_congr rfl fun w _ => ?_
  show cell (shapeCast S8x256x256 v0 shapeCasts_S8x1x256x256_S8x256x256 (ix3 t h w))
      * shapeCast S8x256x256 v2 shapeCasts_S8x256x256_S8x256x256 (ix3 t h w) = _
  rw [shapeCast_self v2, shapeCast_apply v0 shapeCasts_S8x1x256x256_S8x256x256 (ix3 t h w) (ix4 t 0 h w) (by
    rewrite [Shape.rowMajor_val_four, Shape.rowMajor_val_three]
    show ((t.val * 1 + 0) * 256 + h.val) * 256 + w.val = (t.val * 256 + h.val) * 256 + w.val; omega)]

end Cert.KernelIdeal.RegionValue

end
-- ==== Proof.OutArray.lean ====
/-
  The region's output array after the run. Grid point g stores into cell (g, 0, 0) of the [8, 1, 1] output the sum,
  over its tile of eight images, of cell(z)·mask, where the tile of the image array is images 8g … 8g+7 of channel 4
  and the tile of the mask is the same eight images. The eight one-cell blocks cover the output, so the whole array is
  that function of the two input arrays as the region found them.
-/
import proofs.«176000_j6725918786248_2_alg».proof.Proof.RegionFrameIdealBody
import proofs.«176000_j6725918786248_2_alg».proof.Proof.RegionValue
import Idealize.ShloMosaic.Lib.Pipeline.Value
import Idealize.ShloMosaic.Lib.ValueIdx

set_option maxRecDepth 16384

noncomputable section

namespace Cert.KernelIdeal.OutArray

open Cert.KernelIdeal Cert.KernelIdeal.Gen Cert.KernelIdeal.Hand Cert.KernelIdeal.RegionValue
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- Image 8g + t of the batch. -/
def img (g t : Fin 8) : Fin 64 := ⟨g.val * 8 + t.val, by have := g.isLt; have := t.isLt; omega⟩

/-- The masked softplus sum over tile g: images 8g … 8g+7, all rows and lanes, of channel 4. -/
def tileSum (X : S64x6x256x256.Idx → EReal) (Mk : S64x256x256.Idx → EReal) (g : Fin 8) : EReal :=
  ∑ t : Fin 8, ∑ h : Fin 256, ∑ w : Fin 256, cell (X (ix4 (img g t) 4 h w)) * Mk (ix3 (img g t) h w)

/-- The output array as one function of the two input arrays. -/
def outFn (X : S64x6x256x256.Idx → EReal) (Mk : S64x256x256.Idx → EReal) : S8x1x1.Idx → EReal :=
  fun i => tileSum X Mk ⟨(i 0).val, (i 0).isLt⟩

/-- One point's stored cell, from its two loaded tiles, when those tiles are tile g of the arrays. -/
theorem tile_eq (x0 : Vec Ideal S8x1x256x256 .f32) (x1 : Vec Ideal S8x256x256 .f32) (y : S1x1x1.Idx)
    (X : S64x6x256x256.Idx → EReal) (Mk : S64x256x256.Idx → EReal) (g : Fin 8)
    (h0 : ∀ (t : Fin 8) (h w : Fin 256), x0 (ix4 t 0 h w) = X (ix4 (img g t) 4 h w))
    (h1 : ∀ (t : Fin 8) (h w : Fin 256), x1 (ix3 t h w) = Mk (ix3 (img g t) h w)) :
    k0_pay1 (F := Ideal) x0 x1 y = tileSum X Mk g := by
  obtain rfl : y = ix3 0 0 0 := by
    funext a
    match a with
    | ⟨0, _⟩ => exact Fin.ext (by have hy : (y 0).val < 1 := (y 0).isLt; show (y 0).val = 0; omega)
    | ⟨1, _⟩ => exact Fin.ext (by have hy : (y 1).val < 1 := (y 1).isLt; show (y 1).val = 0; omega)
    | ⟨2, _⟩ => exact Fin.ext (by have hy : (y 2).val < 1 := (y 2).isLt; show (y 2).val = 0; omega)
  rw [pay_at]
  unfold tileSum
  simp only [h0, h1]

/-- The printed index maps over the grid: point t addresses images 8t … of channel 4, the same images of the mask,
    and cell t of the output. -/
theorem idx_facts : ∀ t : Fin cfg0.N,
    win0_0.index t (0 : Fin 4) = t.val ∧ win0_0.index t (1 : Fin 4) = 4 ∧ win0_0.index t (2 : Fin 4) = 0 ∧ win0_0.index t (3 : Fin 4) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0 :=
  (by decide +kernel : ∀ t : Fin grid0.N, _)

theorem tN (t : Fin cfg0.N) : t.val < 8 := lt_of_lt_of_eq t.isLt (show cfg0.N = 8 from N_0)

/-- What point t writes back is block t of the output function of the region-entry arrays. -/
theorem flushed_eq (c : Dev nD) (t : Fin cfg0.N) :
    (dats m 0 c).flushed 2 t = ((cfg0.win 2).blk t).view.read (Elt Ideal)
      (outFn (V m c main_arg0) (V m c main_v256)) := by
  show (cfg0.win 2).cut (grid0.coords t) ((dats m 0 c).after 2 t) = _
  rw [after0_2]
  obtain ⟨e00, e01, e02, e03, e10, e11, e12, e20, e21, e22⟩ := idx_facts t
  have ht := tN t
  funext j
  show k0_pay1 (F := Ideal) (iblk m c 0 t) (iblk m c 1 t) j
      = outFn (V m c main_arg0) (V m c main_v256) (((cfg0.win 2).blk t).view.emb j)
  refine (tile_eq (iblk m c 0 t) (iblk m c 1 t) j (V m c main_arg0) (V m c main_v256) ⟨t.val, ht⟩ ?_ ?_).trans ?_
  · intro tb h w
    show V m c main_arg0 (((cfg0.win 0).blk t).view.emb (ix4 tb 0 h w)) = V m c main_arg0 (ix4 (img ⟨t.val, ht⟩ tb) 4 h w)
    refine congrArg (V m c main_arg0) ?_
    funext a
    apply Fin.ext
    match a with
    | ⟨0, _⟩ => show win0_0.index t (0 : Fin 4) * 8 + 1 * tb.val = t.val * 8 + tb.val; omega
    | ⟨1, _⟩ => show win0_0.index t (1 : Fin 4) * 1 + 1 * 0 = 4; omega
    | ⟨2, _⟩ => show win0_0.index t (2 : Fin 4) * 256 + 1 * h.val = h.val; omega
    | ⟨3, _⟩ => show win0_0.index t (3 : Fin 4) * 256 + 1 * w.val = w.val; omega
  · intro tb h w
    show V m c main_v256 (((cfg0.win 1).blk t).view.emb (ix3 tb h w)) = V m c main_v256 (ix3 (img ⟨t.val, ht⟩ tb) h w)
    refine congrArg (V m c main_v256) ?_
    funext a
    apply Fin.ext
    match a with
    | ⟨0, _⟩ => show win0_1.index t (0 : Fin 3) * 8 + 1 * tb.val = t.val * 8 + tb.val; omega
    | ⟨1, _⟩ => show win0_1.index t (1 : Fin 3) * 256 + 1 * h.val = h.val; omega
    | ⟨2, _⟩ => show win0_1.index t (2 : Fin 3) * 256 + 1 * w.val = w.val; omega
  · show tileSum _ _ ⟨t.val, ht⟩ = tileSum _ _ ⟨((((cfg0.win 2).blk t).view.emb j) 0).val, _⟩
    refine congrArg (tileSum _ _) (Fin.ext ?_)
    have hj : (j 0).val < 1 := (j 0).isLt
    show t.val = win0_2.index t (0 : Fin 3) * 1 + 1 * (j 0).val
    omega

/-- An index of the output is in point t's block iff each coordinate is in the block's range. -/
theorem mem_blk (t : Fin cfg0.N) (i : S8x1x1.Idx) :
    i ∈ ((cfg0.win 2).blk t).view.set ↔ ∀ a : Fin 3, win0_2.index t a * S1x1x1.size a ≤ (i a).val ∧ (i a).val < win0_2.index t a * S1x1x1.size a + S1x1x1.size a := by
  show i ∈ ((View.whole main_v257).slice (win0_2.rect t)).set ↔ _
  rw [View.set_slice_whole, Rect.mem_set_unit]
  exact Iff.rfl

/-- Every cell of the output is some point's block. -/
theorem cover (i : S8x1x1.Idx) : ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 1 := (i 2).isLt
  refine ⟨⟨(i 0).val, by rw [show cfg0.N = 8 from N_0]; exact hi0⟩, flush0_2 _, ?_⟩
  rw [mem_blk]
  obtain ⟨e00, e01, e02, e03, e10, e11, e12, e20, e21, e22⟩ := idx_facts ⟨(i 0).val, by rw [show cfg0.N = 8 from N_0]; exact hi0⟩
  intro a
  match a with
  | ⟨0, _⟩ => show win0_2.index _ (0 : Fin 3) * 1 ≤ (i 0).val ∧ (i 0).val < win0_2.index _ (0 : Fin 3) * 1 + 1; simp only at e20; omega
  | ⟨1, _⟩ => show win0_2.index _ (1 : Fin 3) * 1 ≤ (i 1).val ∧ (i 1).val < win0_2.index _ (1 : Fin 3) * 1 + 1; omega
  | ⟨2, _⟩ => show win0_2.index _ (2 : Fin 3) * 1 ≤ (i 2).val ∧ (i 2).val < win0_2.index _ (2 : Fin 3) * 1 + 1; omega

/-- The output array after the run. -/
theorem final (c : Dev nD) :
    (dats m 0 c).arrAt 2 cfg0.N = outFn (V m c main_arg0) (V m c main_v256) :=
  (dats m 0 c).arrAt_eq_of_cover 2 (outFn (V m c main_arg0) (V m c main_v256)) (fun t _ => flushed_eq m c t) cover

end Cert.KernelIdeal.OutArray

end
-- ==== Proof.KernelValue.lean ====
/-
  The idealized kernel program's run, read as values. After the region the program sums the eight partial sums, halves
  the total (the no-object weight 1/2) and adds the four loss terms in the order coordinate + object + no-object + class.
  The three gathered losses were computed before the region and are no array of the pipeline, so they end as the host
  prefix left them; the no-object term is the stretch after the region applied to the region's output array.
-/
import proofs.«176000_j6725918786248_2_alg».proof.Proof.RegionFrameIdealRun
import proofs.«176000_j6725918786248_2_alg».proof.Proof.OutArray
import Idealize.ShloMosaic.Lib.StableHlo.Run

set_option maxRecDepth 16384

noncomputable section

namespace Cert.KernelIdeal.KernelValue

open Cert.KernelIdeal Cert.KernelIdeal.Gen Cert.KernelIdeal.Hand
open Idealize.ShloMosaic Idealize.ShloMosaic.TcCoe Idealize.ShloMosaic.StableHlo
open Idealize.SL Idealize.SL.Sem
open Idealize.ShloMosaic.Pipeline (Dat Cfg Window)

variable (m : (ℓ : Loc nD τ sig) → Buf (Elt Ideal) ℓ) (ρ : Dev nD → PrngReg)

/-- The no-object term the program returns: half the sum of the eight tiles' partial sums. -/
def noobj (c : Dev nD) : (⟨S_, .f32⟩ : BufTy).Contents (Elt Ideal) :=
  mulf (constant (F := Ideal) S_ .f32 0x3F000000#32)
    (Host.reduceAdd (F := Ideal) (OutArray.outFn (V m c main_arg0) (V m c main_v256)) (constant (F := Ideal) S_ .f32 0x00000000#32) reducesTo_S8x1x1_S_d0_1_2 h_S_)

/-- The total the program returns: coordinate + object + no-object + class, added in that order. -/
def total (c : Dev nD) : Buf (Elt Ideal) ((c.tc : Thread nD τ).loc main_v262) :=
  (addf (addf (addf (V m c main_v203 : FVec Ideal S_ .f32) (V m c main_v221 : FVec Ideal S_ .f32)) (noobj m c : FVec Ideal S_ .f32))
    (V m c main_v239 : FVec Ideal S_ .f32) : FVec Ideal S_ .f32)

/-- What the stretch after the region finds: the output array at the region's result, -/
theorem with_out (c : Dev nD) :
    Pipeline.withArrays spec0 c (V0 m c) (fun w => (dats m 0 c).arrAt w cfg0.N) (Proc.devRef .tc main_v257)
      = OutArray.outFn (V m c main_arg0) (V m c main_v256) :=
  (Pipeline.withArrays_arr spec0 launch0.win.arr_inj c _ _ 2).trans (OutArray.final m c)

/-- and every buffer that is no array of the pipeline as the host prefix left it. -/
theorem with_v203 (c : Dev nD) :
    Pipeline.withArrays spec0 c (V0 m c) (fun w => (dats m 0 c).arrAt w cfg0.N) (Proc.devRef .tc main_v203) = V m c main_v203 :=
  Pipeline.withArrays_of_ne _ c (V0 m c) _ main_v203 (by decide)
theorem with_v221 (c : Dev nD) :
    Pipeline.withArrays spec0 c (V0 m c) (fun w => (dats m 0 c).arrAt w cfg0.N) (Proc.devRef .tc main_v221) = V m c main_v221 :=
  Pipeline.withArrays_of_ne _ c (V0 m c) _ main_v221 (by decide)
theorem with_v239 (c : Dev nD) :
    Pipeline.withArrays spec0 c (V0 m c) (fun w => (dats m 0 c).arrAt w cfg0.N) (Proc.devRef .tc main_v239) = V m c main_v239 :=
  Pipeline.withArrays_of_ne _ c (V0 m c) _ main_v239 (by decide)

theorem tail_v203 (c : Dev nD) : Pipeline.afterTail₀ cfgs (dats m) 0 (V0 m) [hostOps1] c main_v203 = V m c main_v203 := by
  unfold Pipeline.afterTail₀
  show StableHlo.after hostOps1 _ (Proc.devRef .tc main_v203) = _
  after_results
  exact with_v203 m c
theorem tail_v221 (c : Dev nD) : Pipeline.afterTail₀ cfgs (dats m) 0 (V0 m) [hostOps1] c main_v221 = V m c main_v221 := by
  unfold Pipeline.afterTail₀
  show StableHlo.after hostOps1 _ (Proc.devRef .tc main_v221) = _
  after_results
  exact with_v221 m c
theorem tail_v239 (c : Dev nD) : Pipeline.afterTail₀ cfgs (dats m) 0 (V0 m) [hostOps1] c main_v239 = V m c main_v239 := by
  unfold Pipeline.afterTail₀
  show StableHlo.after hostOps1 _ (Proc.devRef .tc main_v239) = _
  after_results
  exact with_v239 m c
theorem tail_v259 (c : Dev nD) : Pipeline.afterTail₀ cfgs (dats m) 0 (V0 m) [hostOps1] c main_v259 = noobj m c := by
  unfold Pipeline.afterTail₀
  show StableHlo.after hostOps1 _ (Proc.devRef .tc main_v259) = _
  after_results
  rw [with_out m c]
  rfl
theorem tail_v262 (c : Dev nD) : Pipeline.afterTail₀ cfgs (dats m) 0 (V0 m) [hostOps1] c main_v262 = total m c := by
  unfold Pipeline.afterTail₀
  show StableHlo.after hostOps1 _ (Proc.devRef .tc main_v262) = _
  after_results
  rw [with_out m c, with_v203 m c, with_v221 m c, with_v239 m c]
  rfl

/-- The run: every weakly fair execution terminates with the five results at these values and the arguments unchanged. -/
theorem run_values : θ_run defs (onTc (τ := τ) (main (F := Ideal))) ⟨m, fun _ => 0, ρ⟩ (fun r => ∀ c : Dev nD,
      r.2.mem ((c.tc : Thread nD τ).loc main_v262) = total m c
      ∧ r.2.mem ((c.tc : Thread nD τ).loc main_v203) = V m c main_v203
      ∧ r.2.mem ((c.tc : Thread nD τ).loc main_v221) = V m c main_v221
      ∧ r.2.mem ((c.tc : Thread nD τ).loc main_v259) = noobj m c
      ∧ r.2.mem ((c.tc : Thread nD τ).loc main_v239) = V m c main_v239
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v262 (Pipeline.mem_restRefs_of main_v262 (by decide) (by decide))).trans (tail_v262 m c),
     ((h c).2 main_v203 (Pipeline.mem_restRefs_of main_v203 (by decide) (by decide))).trans (tail_v203 m c),
     ((h c).2 main_v221 (Pipeline.mem_restRefs_of main_v221 (by decide) (by decide))).trans (tail_v221 m c),
     ((h c).2 main_v259 (Pipeline.mem_restRefs_of main_v259 (by decide) (by decide))).trans (tail_v259 m c),
     ((h c).2 main_v239 (Pipeline.mem_restRefs_of main_v239 (by decide) (by decide))).trans (tail_v239 m c),
     ((h c).1 0).trans (((dats m 0 c).arrAt_in 0 rfl _).trans ((A_eq m c 0).trans (V_main_arg0 m c))),
     ((h c).2 main_arg1 (Pipeline.mem_restRefs_of main_arg1 (by decide) (by decide))).trans (W_main_arg1 m (dats m) c)⟩)
    (run_main m ρ)

end Cert.KernelIdeal.KernelValue

end
-- ==== Proof.LibPointGather.lean ====
import Idealize.ShloMosaic.Lib.ValueIdx
import Idealize.ShloMosaic.Lib.Pipeline.Value
import Idealize.ShloMosaic.Lib.ValueLayout

/-!
# Point gathers: `stablehlo.gather` of ONE element per result position, read at an index

A *point gather* picks, for every position `(p, q)` of a rank-2 result `[R, Q]`, one element of the operand: all
operand axes are collapsed, every slice size is one, and the start indices `[R, Q, n]` hold, on their last axis, one
coordinate per operand axis (`start_index_map` the identity, `index_vector_dim = 2`). Result element `(p, q)` is the
operand at the coordinates `idx[p, q, 0], …, idx[p, q, n − 1]`, each read as a signed integer and clamped into its
axis (StableHLO clamps every start index). This file states that for operands of rank 3 and rank 4, reads the
column-by-column concatenation that builds such start indices, and relates the rank-3 gather of one channel of a
rank-4 array to the rank-4 gather whose channel column is constant.
-/

namespace Idealize.ShloMosaic.PointGather

open Idealize.ShloMosaic Idealize.ShloMosaic.ValueIdx

variable {α : Type}

/-- A coordinate clamped into an axis of positive extent `N`: `min n (N − 1)` as an element of `Fin N`. -/
abbrev clampFin (N : Nat) (hN : 0 < N) (n : Nat) : Fin N := ⟨min n (N - 1), by omega⟩

/-! ## The rank-3 point gather -/

/-- The dimension numbers of the point gather of an operand `[A, B, C]` at start indices `[R, Q, 3]`, result `[R, Q]`:
    no offset axes, all three operand axes collapsed, the start index map the identity, slice sizes one. -/
abbrev dims3 (A B C R Q : Nat)
    (wf : GatherDims.WF ⟨3, ![A, B, C]⟩ ⟨3, ![R, Q, 3]⟩ ⟨2, ![R, Q]⟩ [] [0, 1, 2] [] [0, 1, 2] [] 2 ![1, 1, 1]) :
    GatherDims ⟨3, ![A, B, C]⟩ ⟨3, ![R, Q, 3]⟩ ⟨2, ![R, Q]⟩ where
  offsetDims := []
  collapsedSliceDims := [0, 1, 2]
  operandBatchingDims := []
  startIndicesBatchingDims := []
  startIndexMap := [0, 1, 2]
  indexVectorDim := 2
  sliceSizes := ![1, 1, 1]
  wf := wf

section Three
variable {A B C R Q w : Nat}
  (wf : GatherDims.WF ⟨3, ![A, B, C]⟩ ⟨3, ![R, Q, 3]⟩ ⟨2, ![R, Q]⟩ [] [0, 1, 2] [] [0, 1, 2] [] 2 ![1, 1, 1])

/-- The slice-size condition on axis 0 says the first extent is positive. -/
theorem pos3_0 {A B C R Q : Nat}
    (wf : GatherDims.WF ⟨3, ![A, B, C]⟩ ⟨3, ![R, Q, 3]⟩ ⟨2, ![R, Q]⟩ [] [0, 1, 2] [] [0, 1, 2] [] 2 ![1, 1, 1]) : 0 < A :=
  (dims3 A B C R Q wf).slice_le 0
/-- The slice-size condition on axis 1 says the second extent is positive. -/
theorem pos3_1 {A B C R Q : Nat}
    (wf : GatherDims.WF ⟨3, ![A, B, C]⟩ ⟨3, ![R, Q, 3]⟩ ⟨2, ![R, Q]⟩ [] [0, 1, 2] [] [0, 1, 2] [] 2 ![1, 1, 1]) : 0 < B :=
  (dims3 A B C R Q wf).slice_le 1
/-- The slice-size condition on axis 2 says the third extent is positive. -/
theorem pos3_2 {A B C R Q : Nat}
    (wf : GatherDims.WF ⟨3, ![A, B, C]⟩ ⟨3, ![R, Q, 3]⟩ ⟨2, ![R, Q]⟩ [] [0, 1, 2] [] [0, 1, 2] [] 2 ![1, 1, 1]) : 0 < C :=
  (dims3 A B C R Q wf).slice_le 2

/-- On operand axis `a` (component `a` of the start index) the operand coordinate of result position `(p, q)` is the
    start index `idx[p, q, a]`, read signed and clamped into the axis: there is no batching and no offset part. -/
theorem operandIdx3_val (idx : IVec ⟨3, ![R, Q, 3]⟩ w) (p : Fin R) (q : Fin Q) (a : Fin 3) :
    ((dims3 A B C R Q wf).operandIdx (ix2 p q) idx a).val
      = min (idx (ix3 p q a)).toInt.toNat ((⟨3, ![A, B, C]⟩ : Shape).size a - 1) := by
  show (dims3 A B C R Q wf).start (ix2 p q) idx a + (dims3 A B C R Q wf).batchCoord (ix2 p q) a
    + (dims3 A B C R Q wf).offCoord (ix2 p q) a = _
  have hmem : a ∈ (dims3 A B C R Q wf).startIndexMap := by
    match a with
    | ⟨0, _⟩ => exact List.mem_cons_self
    | ⟨1, _⟩ => exact List.mem_cons_of_mem _ List.mem_cons_self
    | ⟨2, _⟩ => exact List.mem_cons_of_mem _ (List.mem_cons_of_mem _ List.mem_cons_self)
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem]
  have hsi : (dims3 A B C R Q wf).siIdx (ix2 p q) ⟨List.idxOf a (dims3 A B C R Q wf).startIndexMap,
      List.idxOf_lt_length_iff.2 hmem⟩ = ix3 p q a := by
    funext b; refine Fin.ext ?_
    match a, b with
    | ⟨0, _⟩, ⟨0, _⟩ => rfl
    | ⟨0, _⟩, ⟨1, _⟩ => rfl
    | ⟨0, _⟩, ⟨2, _⟩ => rfl
    | ⟨1, _⟩, ⟨0, _⟩ => rfl
    | ⟨1, _⟩, ⟨1, _⟩ => rfl
    | ⟨1, _⟩, ⟨2, _⟩ => rfl
    | ⟨2, _⟩, ⟨0, _⟩ => rfl
    | ⟨2, _⟩, ⟨1, _⟩ => rfl
    | ⟨2, _⟩, ⟨2, _⟩ => rfl
  rw [hsi]
  match a with
  | ⟨0, _⟩ => rfl
  | ⟨1, _⟩ => rfl
  | ⟨2, _⟩ => rfl

/-- THE RANK-3 POINT GATHER READ AT `(p, q)`: the operand at the three start-index components `idx[p, q, 0]`,
    `idx[p, q, 1]`, `idx[p, q, 2]`, each read signed and clamped into its axis. -/
theorem gather3_apply (x : (⟨3, ![A, B, C]⟩ : Shape).Idx → α) (idx : IVec ⟨3, ![R, Q, 3]⟩ w) (p : Fin R) (q : Fin Q) :
    Host.gather (dims3 A B C R Q wf) x idx (ix2 p q)
      = x (ix3 (clampFin A (pos3_0 wf) (idx (ix3 p q 0)).toInt.toNat)
               (clampFin B (pos3_1 wf) (idx (ix3 p q 1)).toInt.toNat)
               (clampFin C (pos3_2 wf) (idx (ix3 p q 2)).toInt.toNat)) := by
  unfold Host.gather
  congr 1
  funext a
  refine Fin.ext ?_
  rw [operandIdx3_val]
  match a with
  | ⟨0, _⟩ => rfl
  | ⟨1, _⟩ => rfl
  | ⟨2, _⟩ => rfl

end Three

/-! ## The rank-4 point gather -/

/-- The dimension numbers of the point gather of an operand `[A, K, B, C]` at start indices `[R, Q, 4]`, result
    `[R, Q]`: no offset axes, all four operand axes collapsed, the start index map the identity, slice sizes one. -/
abbrev dims4 (A K B C R Q : Nat)
    (wf : GatherDims.WF ⟨4, ![A, K, B, C]⟩ ⟨3, ![R, Q, 4]⟩ ⟨2, ![R, Q]⟩ [] [0, 1, 2, 3] [] [0, 1, 2, 3] [] 2 ![1, 1, 1, 1]) :
    GatherDims ⟨4, ![A, K, B, C]⟩ ⟨3, ![R, Q, 4]⟩ ⟨2, ![R, Q]⟩ where
  offsetDims := []
  collapsedSliceDims := [0, 1, 2, 3]
  operandBatchingDims := []
  startIndicesBatchingDims := []
  startIndexMap := [0, 1, 2, 3]
  indexVectorDim := 2
  sliceSizes := ![1, 1, 1, 1]
  wf := wf

/-- The slice-size condition on axis 0 says the first extent is positive. -/
theorem pos4_0 {A K B C R Q : Nat}
    (wf : GatherDims.WF ⟨4, ![A, K, B, C]⟩ ⟨3, ![R, Q, 4]⟩ ⟨2, ![R, Q]⟩ [] [0, 1, 2, 3] [] [0, 1, 2, 3] [] 2 ![1, 1, 1, 1]) :
    0 < A := (dims4 A K B C R Q wf).slice_le 0
/-- The slice-size condition on axis 1 says the second extent is positive. -/
theorem pos4_1 {A K B C R Q : Nat}
    (wf : GatherDims.WF ⟨4, ![A, K, B, C]⟩ ⟨3, ![R, Q, 4]⟩ ⟨2, ![R, Q]⟩ [] [0, 1, 2, 3] [] [0, 1, 2, 3] [] 2 ![1, 1, 1, 1]) :
    0 < K := (dims4 A K B C R Q wf).slice_le 1
/-- The slice-size condition on axis 2 says the third extent is positive. -/
theorem pos4_2 {A K B C R Q : Nat}
    (wf : GatherDims.WF ⟨4, ![A, K, B, C]⟩ ⟨3, ![R, Q, 4]⟩ ⟨2, ![R, Q]⟩ [] [0, 1, 2, 3] [] [0, 1, 2, 3] [] 2 ![1, 1, 1, 1]) :
    0 < B := (dims4 A K B C R Q wf).slice_le 2
/-- The slice-size condition on axis 3 says the fourth extent is positive. -/
theorem pos4_3 {A K B C R Q : Nat}
    (wf : GatherDims.WF ⟨4, ![A, K, B, C]⟩ ⟨3, ![R, Q, 4]⟩ ⟨2, ![R, Q]⟩ [] [0, 1, 2, 3] [] [0, 1, 2, 3] [] 2 ![1, 1, 1, 1]) :
    0 < C := (dims4 A K B C R Q wf).slice_le 3

section Four
variable {A K B C R Q w : Nat}
  (wf : GatherDims.WF ⟨4, ![A, K, B, C]⟩ ⟨3, ![R, Q, 4]⟩ ⟨2, ![R, Q]⟩ [] [0, 1, 2, 3] [] [0, 1, 2, 3] [] 2 ![1, 1, 1, 1])

/-- On operand axis `a` (component `a` of the start index) the operand coordinate of result position `(p, q)` is the
    start index `idx[p, q, a]`, read signed and clamped into the axis: there is no batching and no offset part. -/
theorem operandIdx4_val (idx : IVec ⟨3, ![R, Q, 4]⟩ w) (p : Fin R) (q : Fin Q) (a : Fin 4) :
    ((dims4 A K B C R Q wf).operandIdx (ix2 p q) idx a).val
      = min (idx (ix3 p q a)).toInt.toNat ((⟨4, ![A, K, B, C]⟩ : Shape).size a - 1) := by
  show (dims4 A K B C R Q wf).start (ix2 p q) idx a + (dims4 A K B C R Q wf).batchCoord (ix2 p q) a
    + (dims4 A K B C R Q wf).offCoord (ix2 p q) a = _
  have hmem : a ∈ (dims4 A K B C R Q wf).startIndexMap := by
    match a with
    | ⟨0, _⟩ => exact List.mem_cons_self
    | ⟨1, _⟩ => exact List.mem_cons_of_mem _ List.mem_cons_self
    | ⟨2, _⟩ => exact List.mem_cons_of_mem _ (List.mem_cons_of_mem _ List.mem_cons_self)
    | ⟨3, _⟩ => exact List.mem_cons_of_mem _ (List.mem_cons_of_mem _ (List.mem_cons_of_mem _ List.mem_cons_self))
  rw [GatherDims.batchCoord_eq_zero _ _ _ List.not_mem_nil,
    GatherDims.offCoord_eq_zero _ _ _ (fun h => ((GatherDims.mem_sKept _ _).mp h).1 hmem)]
  simp only [Nat.add_zero]
  unfold GatherDims.start
  rw [dif_pos hmem]
  have hsi : (dims4 A K B C R Q wf).siIdx (ix2 p q) ⟨List.idxOf a (dims4 A K B C R Q wf).startIndexMap,
      List.idxOf_lt_length_iff.2 hmem⟩ = ix3 p q a := by
    funext b; refine Fin.ext ?_
    match a, b with
    | ⟨0, _⟩, ⟨0, _⟩ => rfl
    | ⟨0, _⟩, ⟨1, _⟩ => rfl
    | ⟨0, _⟩, ⟨2, _⟩ => rfl
    | ⟨1, _⟩, ⟨0, _⟩ => rfl
    | ⟨1, _⟩, ⟨1, _⟩ => rfl
    | ⟨1, _⟩, ⟨2, _⟩ => rfl
    | ⟨2, _⟩, ⟨0, _⟩ => rfl
    | ⟨2, _⟩, ⟨1, _⟩ => rfl
    | ⟨2, _⟩, ⟨2, _⟩ => rfl
    | ⟨3, _⟩, ⟨0, _⟩ => rfl
    | ⟨3, _⟩, ⟨1, _⟩ => rfl
    | ⟨3, _⟩, ⟨2, _⟩ => rfl
  rw [hsi]
  match a with
  | ⟨0, _⟩ => rfl
  | ⟨1, _⟩ => rfl
  | ⟨2, _⟩ => rfl
  | ⟨3, _⟩ => rfl

/-- THE RANK-4 POINT GATHER READ AT `(p, q)`: the operand at the four start-index components `idx[p, q, 0]`, …,
    `idx[p, q, 3]`, each read signed and clamped into its axis. -/
theorem gather4_apply (x : (⟨4, ![A, K, B, C]⟩ : Shape).Idx → α) (idx : IVec ⟨3, ![R, Q, 4]⟩ w) (p : Fin R) (q : Fin Q) :
    Host.gather (dims4 A K B C R Q wf) x idx (ix2 p q)
      = x (ix4 (clampFin A (pos4_0 wf) (idx (ix3 p q 0)).toInt.toNat)
               (clampFin K (pos4_1 wf) (idx (ix3 p q 1)).toInt.toNat)
               (clampFin B (pos4_2 wf) (idx (ix3 p q 2)).toInt.toNat)
               (clampFin C (pos4_3 wf) (idx (ix3 p q 3)).toInt.toNat)) := by
  unfold Host.gather
  congr 1
  funext a
  refine Fin.ext ?_
  rw [operandIdx4_val]
  match a with
  | ⟨0, _⟩ => rfl
  | ⟨1, _⟩ => rfl
  | ⟨2, _⟩ => rfl
  | ⟨3, _⟩ => rfl

end Four

/-! ## The start indices: unit columns concatenated on the last axis, each the broadcast of a rank-2 index array -/

section Columns
variable {R Q : Nat}

/-- A rank-2 array broadcast to a unit last axis (`[R, Q] → [R, Q, 1]` along axes `0, 1`) read at `(p, q, c)` is the
    array at `(p, q)`. -/
theorem bcastCol_apply (h : (⟨2, ![R, Q]⟩ : Shape).BroadcastsInDim ⟨3, ![R, Q, 1]⟩ ![0, 1])
    (v : (⟨2, ![R, Q]⟩ : Shape).Idx → α) (p : Fin R) (q : Fin Q) (c : Fin 1) :
    broadcastInDim ⟨3, ![R, Q, 1]⟩ ![0, 1] h v (ix3 p q c) = v (ix2 p q) := by
  refine broadcastInDim_apply _ h v _ (ix2 p q) ?_
  intro a
  match a with
  | ⟨0, _⟩ =>
    show p.val = if R = 1 then 0 else p.val
    split
    · next h1 => have := p.isLt; omega
    · rfl
  | ⟨1, _⟩ =>
    show q.val = if Q = 1 then 0 else q.val
    split
    · next h1 => have := q.isLt; omega
    · rfl

/-- Coordinates off the last axis agree between `(p, q, 0)` of a column and `(p, q, k)` of the concatenation. -/
theorem col_off_axis {n : Nat} (p : Fin R) (q : Fin Q) (k : Fin n) :
    ∀ b : Fin (⟨3, ![R, Q, 1]⟩ : Shape).rank,
      b.cast (rfl : (⟨3, ![R, Q, 1]⟩ : Shape).rank = (⟨3, ![R, Q, n]⟩ : Shape).rank) ≠ (2 : Fin 3) →
      ((ix3 p q (0 : Fin 1) : (⟨3, ![R, Q, 1]⟩ : Shape).Idx) b).val
        = ((ix3 p q k : (⟨3, ![R, Q, n]⟩ : Shape).Idx) (b.cast rfl)).val := by
  intro b hb
  match b, hb with
  | ⟨0, _⟩, _ => rfl
  | ⟨1, _⟩, _ => rfl
  | ⟨2, _⟩, hb => exact absurd rfl hb

variable (u0 u1 u2 u3 : (⟨3, ![R, Q, 1]⟩ : Shape).Idx → α)

/-- Three unit columns concatenated on the last axis, read at `(p, q, 0)`: the first column at `(p, q, 0)`. -/
theorem concat3_apply_0
    (h : Shape.Concatenates [⟨3, ![R, Q, 1]⟩, ⟨3, ![R, Q, 1]⟩, ⟨3, ![R, Q, 1]⟩] ⟨3, ![R, Q, 3]⟩ 2) (p : Fin R) (q : Fin Q) :
    concatenate ⟨3, ![R, Q, 3]⟩ 2 [⟨⟨3, ![R, Q, 1]⟩, u0⟩, ⟨⟨3, ![R, Q, 1]⟩, u1⟩, ⟨⟨3, ![R, Q, 1]⟩, u2⟩] h (ix3 p q 0)
      = u0 (ix3 p q 0) :=
  concatenate_apply_piece (t := ⟨3, ![R, Q, 3]⟩) (2 : Fin 3) [⟨⟨3, ![R, Q, 1]⟩, u0⟩, ⟨⟨3, ![R, Q, 1]⟩, u1⟩, ⟨⟨3, ![R, Q, 1]⟩, u2⟩] h (ix3 p q 0) 0 (by simp) ⟨3, ![R, Q, 1]⟩ u0 rfl rfl 0 rfl (ix3 p q 0)
    (col_off_axis p q 0) rfl

/-- Three unit columns concatenated on the last axis, read at `(p, q, 1)`: the second column at `(p, q, 0)`. -/
theorem concat3_apply_1
    (h : Shape.Concatenates [⟨3, ![R, Q, 1]⟩, ⟨3, ![R, Q, 1]⟩, ⟨3, ![R, Q, 1]⟩] ⟨3, ![R, Q, 3]⟩ 2) (p : Fin R) (q : Fin Q) :
    concatenate ⟨3, ![R, Q, 3]⟩ 2 [⟨⟨3, ![R, Q, 1]⟩, u0⟩, ⟨⟨3, ![R, Q, 1]⟩, u1⟩, ⟨⟨3, ![R, Q, 1]⟩, u2⟩] h (ix3 p q 1)
      = u1 (ix3 p q 0) :=
  concatenate_apply_piece (t := ⟨3, ![R, Q, 3]⟩) (2 : Fin 3) [⟨⟨3, ![R, Q, 1]⟩, u0⟩, ⟨⟨3, ![R, Q, 1]⟩, u1⟩, ⟨⟨3, ![R, Q, 1]⟩, u2⟩] h (ix3 p q 1) 1 (by simp) ⟨3, ![R, Q, 1]⟩ u1 rfl rfl 1 rfl (ix3 p q 0)
    (col_off_axis p q 1) rfl

/-- Three unit columns concatenated on the last axis, read at `(p, q, 2)`: the third column at `(p, q, 0)`. -/
theorem concat3_apply_2
    (h : Shape.Concatenates [⟨3, ![R, Q, 1]⟩, ⟨3, ![R, Q, 1]⟩, ⟨3, ![R, Q, 1]⟩] ⟨3, ![R, Q, 3]⟩ 2) (p : Fin R) (q : Fin Q) :
    concatenate ⟨3, ![R, Q, 3]⟩ 2 [⟨⟨3, ![R, Q, 1]⟩, u0⟩, ⟨⟨3, ![R, Q, 1]⟩, u1⟩, ⟨⟨3, ![R, Q, 1]⟩, u2⟩] h (ix3 p q 2)
      = u2 (ix3 p q 0) :=
  concatenate_apply_piece (t := ⟨3, ![R, Q, 3]⟩) (2 : Fin 3) [⟨⟨3, ![R, Q, 1]⟩, u0⟩, ⟨⟨3, ![R, Q, 1]⟩, u1⟩, ⟨⟨3, ![R, Q, 1]⟩, u2⟩] h (ix3 p q 2) 2 (by simp) ⟨3, ![R, Q, 1]⟩ u2 rfl rfl 2 rfl (ix3 p q 0)
    (col_off_axis p q 2) rfl

/-- Four unit columns concatenated on the last axis, read at `(p, q, 0)`: the first column at `(p, q, 0)`. -/
theorem concat4_apply_0
    (h : Shape.Concatenates [⟨3, ![R, Q, 1]⟩, ⟨3, ![R, Q, 1]⟩, ⟨3, ![R, Q, 1]⟩, ⟨3, ![R, Q, 1]⟩] ⟨3, ![R, Q, 4]⟩ 2)
    (p : Fin R) (q : Fin Q) :
    concatenate ⟨3, ![R, Q, 4]⟩ 2
        [⟨⟨3, ![R, Q, 1]⟩, u0⟩, ⟨⟨3, ![R, Q, 1]⟩, u1⟩, ⟨⟨3, ![R, Q, 1]⟩, u2⟩, ⟨⟨3, ![R, Q, 1]⟩, u3⟩] h (ix3 p q 0)
      = u0 (ix3 p q 0) :=
  concatenate_apply_piece (t := ⟨3, ![R, Q, 4]⟩) (2 : Fin 3) [⟨⟨3, ![R, Q, 1]⟩, u0⟩, ⟨⟨3, ![R, Q, 1]⟩, u1⟩, ⟨⟨3, ![R, Q, 1]⟩, u2⟩, ⟨⟨3, ![R, Q, 1]⟩, u3⟩] h (ix3 p q 0) 0 (by simp) ⟨3, ![R, Q, 1]⟩ u0 rfl rfl 0 rfl (ix3 p q 0)
    (col_off_axis p q 0) rfl

/-- Four unit columns concatenated on the last axis, read at `(p, q, 1)`: the second column at `(p, q, 0)`. -/
theorem concat4_apply_1
    (h : Shape.Concatenates [⟨3, ![R, Q, 1]⟩, ⟨3, ![R, Q, 1]⟩, ⟨3, ![R, Q, 1]⟩, ⟨3, ![R, Q, 1]⟩] ⟨3, ![R, Q, 4]⟩ 2)
    (p : Fin R) (q : Fin Q) :
    concatenate ⟨3, ![R, Q, 4]⟩ 2
        [⟨⟨3, ![R, Q, 1]⟩, u0⟩, ⟨⟨3, ![R, Q, 1]⟩, u1⟩, ⟨⟨3, ![R, Q, 1]⟩, u2⟩, ⟨⟨3, ![R, Q, 1]⟩, u3⟩] h (ix3 p q 1)
      = u1 (ix3 p q 0) :=
  concatenate_apply_piece (t := ⟨3, ![R, Q, 4]⟩) (2 : Fin 3) [⟨⟨3, ![R, Q, 1]⟩, u0⟩, ⟨⟨3, ![R, Q, 1]⟩, u1⟩, ⟨⟨3, ![R, Q, 1]⟩, u2⟩, ⟨⟨3, ![R, Q, 1]⟩, u3⟩] h (ix3 p q 1) 1 (by simp) ⟨3, ![R, Q, 1]⟩ u1 rfl rfl 1 rfl (ix3 p q 0)
    (col_off_axis p q 1) rfl

/-- Four unit columns concatenated on the last axis, read at `(p, q, 2)`: the third column at `(p, q, 0)`. -/
theorem concat4_apply_2
    (h : Shape.Concatenates [⟨3, ![R, Q, 1]⟩, ⟨3, ![R, Q, 1]⟩, ⟨3, ![R, Q, 1]⟩, ⟨3, ![R, Q, 1]⟩] ⟨3, ![R, Q, 4]⟩ 2)
    (p : Fin R) (q : Fin Q) :
    concatenate ⟨3, ![R, Q, 4]⟩ 2
        [⟨⟨3, ![R, Q, 1]⟩, u0⟩, ⟨⟨3, ![R, Q, 1]⟩, u1⟩, ⟨⟨3, ![R, Q, 1]⟩, u2⟩, ⟨⟨3, ![R, Q, 1]⟩, u3⟩] h (ix3 p q 2)
      = u2 (ix3 p q 0) :=
  concatenate_apply_piece (t := ⟨3, ![R, Q, 4]⟩) (2 : Fin 3) [⟨⟨3, ![R, Q, 1]⟩, u0⟩, ⟨⟨3, ![R, Q, 1]⟩, u1⟩, ⟨⟨3, ![R, Q, 1]⟩, u2⟩, ⟨⟨3, ![R, Q, 1]⟩, u3⟩] h (ix3 p q 2) 2 (by simp) ⟨3, ![R, Q, 1]⟩ u2 rfl rfl 2 rfl (ix3 p q 0)
    (col_off_axis p q 2) rfl

/-- Four unit columns concatenated on the last axis, read at `(p, q, 3)`: the fourth column at `(p, q, 0)`. -/
theorem concat4_apply_3
    (h : Shape.Concatenates [⟨3, ![R, Q, 1]⟩, ⟨3, ![R, Q, 1]⟩, ⟨3, ![R, Q, 1]⟩, ⟨3, ![R, Q, 1]⟩] ⟨3, ![R, Q, 4]⟩ 2)
    (p : Fin R) (q : Fin Q) :
    concatenate ⟨3, ![R, Q, 4]⟩ 2
        [⟨⟨3, ![R, Q, 1]⟩, u0⟩, ⟨⟨3, ![R, Q, 1]⟩, u1⟩, ⟨⟨3, ![R, Q, 1]⟩, u2⟩, ⟨⟨3, ![R, Q, 1]⟩, u3⟩] h (ix3 p q 3)
      = u3 (ix3 p q 0) :=
  concatenate_apply_piece (t := ⟨3, ![R, Q, 4]⟩) (2 : Fin 3) [⟨⟨3, ![R, Q, 1]⟩, u0⟩, ⟨⟨3, ![R, Q, 1]⟩, u1⟩, ⟨⟨3, ![R, Q, 1]⟩, u2⟩, ⟨⟨3, ![R, Q, 1]⟩, u3⟩] h (ix3 p q 3) 3 (by simp) ⟨3, ![R, Q, 1]⟩ u3 rfl rfl 3 rfl (ix3 p q 0)
    (col_off_axis p q 3) rfl

end Columns

/-! ## Both gathers over start indices built from rank-2 coordinate arrays

The start indices are the concatenation on the last axis of one unit column per operand axis, each column the
broadcast of a rank-2 integer array. Read at `(p, q)`, the gather is the operand at those arrays' values at `(p, q)`,
clamped. -/

section Built
variable {A K B C R Q w : Nat}

/-- The rank-3 point gather at start indices built column by column from `va, vb, vc : [R, Q]`, read at `(p, q)`: the
    operand at `(va[p, q], vb[p, q], vc[p, q])`, each read signed and clamped into its axis. -/
theorem gather3_cols_apply (wf : GatherDims.WF ⟨3, ![A, B, C]⟩ ⟨3, ![R, Q, 3]⟩ ⟨2, ![R, Q]⟩ [] [0, 1, 2] [] [0, 1, 2] [] 2 ![1, 1, 1])
    (hb : (⟨2, ![R, Q]⟩ : Shape).BroadcastsInDim ⟨3, ![R, Q, 1]⟩ ![0, 1])
    (hc : Shape.Concatenates [⟨3, ![R, Q, 1]⟩, ⟨3, ![R, Q, 1]⟩, ⟨3, ![R, Q, 1]⟩] ⟨3, ![R, Q, 3]⟩ 2)
    (x : (⟨3, ![A, B, C]⟩ : Shape).Idx → α) (va vb vc : IVec ⟨2, ![R, Q]⟩ w) (p : Fin R) (q : Fin Q) :
    Host.gather (dims3 A B C R Q wf) x
        (concatenate ⟨3, ![R, Q, 3]⟩ 2
          [⟨⟨3, ![R, Q, 1]⟩, broadcastInDim ⟨3, ![R, Q, 1]⟩ ![0, 1] hb va⟩,
           ⟨⟨3, ![R, Q, 1]⟩, broadcastInDim ⟨3, ![R, Q, 1]⟩ ![0, 1] hb vb⟩,
           ⟨⟨3, ![R, Q, 1]⟩, broadcastInDim ⟨3, ![R, Q, 1]⟩ ![0, 1] hb vc⟩] hc) (ix2 p q)
      = x (ix3 (clampFin A (pos3_0 wf) (va (ix2 p q)).toInt.toNat)
               (clampFin B (pos3_1 wf) (vb (ix2 p q)).toInt.toNat)
               (clampFin C (pos3_2 wf) (vc (ix2 p q)).toInt.toNat)) := by
  rw [gather3_apply, concat3_apply_0, concat3_apply_1, concat3_apply_2, bcastCol_apply, bcastCol_apply, bcastCol_apply]

/-- The rank-4 point gather at start indices built column by column from `va, vk, vb, vc : [R, Q]`, read at `(p, q)`:
    the operand at `(va[p, q], vk[p, q], vb[p, q], vc[p, q])`, each read signed and clamped into its axis. -/
theorem gather4_cols_apply (wf : GatherDims.WF ⟨4, ![A, K, B, C]⟩ ⟨3, ![R, Q, 4]⟩ ⟨2, ![R, Q]⟩ [] [0, 1, 2, 3] [] [0, 1, 2, 3] [] 2 ![1, 1, 1, 1])
    (hb : (⟨2, ![R, Q]⟩ : Shape).BroadcastsInDim ⟨3, ![R, Q, 1]⟩ ![0, 1])
    (hc : Shape.Concatenates [⟨3, ![R, Q, 1]⟩, ⟨3, ![R, Q, 1]⟩, ⟨3, ![R, Q, 1]⟩, ⟨3, ![R, Q, 1]⟩] ⟨3, ![R, Q, 4]⟩ 2)
    (x : (⟨4, ![A, K, B, C]⟩ : Shape).Idx → α) (va vk vb vc : IVec ⟨2, ![R, Q]⟩ w) (p : Fin R) (q : Fin Q) :
    Host.gather (dims4 A K B C R Q wf) x
        (concatenate ⟨3, ![R, Q, 4]⟩ 2
          [⟨⟨3, ![R, Q, 1]⟩, broadcastInDim ⟨3, ![R, Q, 1]⟩ ![0, 1] hb va⟩,
           ⟨⟨3, ![R, Q, 1]⟩, broadcastInDim ⟨3, ![R, Q, 1]⟩ ![0, 1] hb vk⟩,
           ⟨⟨3, ![R, Q, 1]⟩, broadcastInDim ⟨3, ![R, Q, 1]⟩ ![0, 1] hb vb⟩,
           ⟨⟨3, ![R, Q, 1]⟩, broadcastInDim ⟨3, ![R, Q, 1]⟩ ![0, 1] hb vc⟩] hc) (ix2 p q)
      = x (ix4 (clampFin A (pos4_0 wf) (va (ix2 p q)).toInt.toNat)
               (clampFin K (pos4_1 wf) (vk (ix2 p q)).toInt.toNat)
               (clampFin B (pos4_2 wf) (vb (ix2 p q)).toInt.toNat)
               (clampFin C (pos4_3 wf) (vc (ix2 p q)).toInt.toNat)) := by
  rw [gather4_apply, concat4_apply_0, concat4_apply_1, concat4_apply_2, concat4_apply_3, bcastCol_apply, bcastCol_apply,
    bcastCol_apply, bcastCol_apply]

/-- A coordinate already inside the axis is its own clamp. -/
theorem clampFin_val_of_lt {N : Nat} (hN : 0 < N) (k : Fin N) {n : Nat} (h : n = k.val) : clampFin N hN n = k := by
  refine Fin.ext ?_
  show min n (N - 1) = k.val
  have := k.isLt
  omega

/-- THE BRIDGE. Let `z : [A, B, C]` be channel `k` of `x : [A, K, B, C]` seen through `f`
    (`z[a, b, c] = f (x[a, k, b, c])`). Then the rank-3 point gather of `z` at the coordinate arrays `(va, vb, vc)` is
    `f` of the rank-4 point gather of `x` at `(va, vk, vb, vc)`, at every position `(p, q)` where the channel array
    `vk` holds `k`: both clamp the three shared coordinates the same way, and `k` is its own clamp. -/
theorem gather3_eq_gather4 {β : Type}
    (wf3 : GatherDims.WF ⟨3, ![A, B, C]⟩ ⟨3, ![R, Q, 3]⟩ ⟨2, ![R, Q]⟩ [] [0, 1, 2] [] [0, 1, 2] [] 2 ![1, 1, 1])
    (wf4 : GatherDims.WF ⟨4, ![A, K, B, C]⟩ ⟨3, ![R, Q, 4]⟩ ⟨2, ![R, Q]⟩ [] [0, 1, 2, 3] [] [0, 1, 2, 3] [] 2 ![1, 1, 1, 1])
    (hb3 hb4 : (⟨2, ![R, Q]⟩ : Shape).BroadcastsInDim ⟨3, ![R, Q, 1]⟩ ![0, 1])
    (hc3 : Shape.Concatenates [⟨3, ![R, Q, 1]⟩, ⟨3, ![R, Q, 1]⟩, ⟨3, ![R, Q, 1]⟩] ⟨3, ![R, Q, 3]⟩ 2)
    (hc4 : Shape.Concatenates [⟨3, ![R, Q, 1]⟩, ⟨3, ![R, Q, 1]⟩, ⟨3, ![R, Q, 1]⟩, ⟨3, ![R, Q, 1]⟩] ⟨3, ![R, Q, 4]⟩ 2)
    (z : (⟨3, ![A, B, C]⟩ : Shape).Idx → β) (x : (⟨4, ![A, K, B, C]⟩ : Shape).Idx → α) (f : α → β) (k : Fin K)
    (hz : ∀ a b c, z (ix3 a b c) = f (x (ix4 a k b c)))
    (va vk vb vc : IVec ⟨2, ![R, Q]⟩ w) (p : Fin R) (q : Fin Q) (hk : (vk (ix2 p q)).toInt.toNat = k.val) :
    Host.gather (dims3 A B C R Q wf3) z
        (concatenate ⟨3, ![R, Q, 3]⟩ 2
          [⟨⟨3, ![R, Q, 1]⟩, broadcastInDim ⟨3, ![R, Q, 1]⟩ ![0, 1] hb3 va⟩,
           ⟨⟨3, ![R, Q, 1]⟩, broadcastInDim ⟨3, ![R, Q, 1]⟩ ![0, 1] hb3 vb⟩,
           ⟨⟨3, ![R, Q, 1]⟩, broadcastInDim ⟨3, ![R, Q, 1]⟩ ![0, 1] hb3 vc⟩] hc3) (ix2 p q)
      = f (Host.gather (dims4 A K B C R Q wf4) x
        (concatenate ⟨3, ![R, Q, 4]⟩ 2
          [⟨⟨3, ![R, Q, 1]⟩, broadcastInDim ⟨3, ![R, Q, 1]⟩ ![0, 1] hb4 va⟩,
           ⟨⟨3, ![R, Q, 1]⟩, broadcastInDim ⟨3, ![R, Q, 1]⟩ ![0, 1] hb4 vk⟩,
           ⟨⟨3, ![R, Q, 1]⟩, broadcastInDim ⟨3, ![R, Q, 1]⟩ ![0, 1] hb4 vb⟩,
           ⟨⟨3, ![R, Q, 1]⟩, broadcastInDim ⟨3, ![R, Q, 1]⟩ ![0, 1] hb4 vc⟩] hc4) (ix2 p q)) := by
  rw [gather3_cols_apply, gather4_cols_apply, hz, clampFin_val_of_lt (pos4_1 wf4) k hk]

end Built

end Idealize.ShloMosaic.PointGather
-- ==== Proof.ChannelGather.lean ====
import proofs.«176000_j6725918786248_2_alg».proof.KernelIdeal
import proofs.«176000_j6725918786248_2_alg».proof.ReferenceIdeal
import proofs.«176000_j6725918786248_2_alg».proof.Proof.LibPointGather

/-!
# The two programs' point gathers as whole arrays

The reference transposes the image `[64, 6, 256, 256]` to channels-last, slices channel `c` out, drops the unit axis,
(for the first four channels) applies the logistic function `1 / (1 + exp (−z))` to the whole channel, and gathers one
element per box at `(b, y, x)`. The kernel gathers from the image itself at `(b, c, y, x)`, the channel column a
constant, and applies the logistic function to the gathered values. The logistic function acts element by element and the
gather only moves elements, so the two agree: gathering from channel `c` of the image is gathering from the image
with `c` in the channel coordinate, and a pointwise map commutes with a gather.
-/

namespace Cert.ChannelGather

open Idealize.ShloMosaic Idealize.ShloMosaic.ValueIdx Idealize.ShloMosaic.PointGather

section Channel
variable {α : Type}

/-- CHANNEL `c` OF THE IMAGE read at `(a, h, w)`: the image transposed to channels-last, sliced to the one channel at
    offset `c` and reshaped to drop the unit axis, is the image at `(a, c, h, w)`. The reshape keeps the row-major
    position (`((a·256 + h)·256 + w)·1 + 0` on the four-axis side), the slice adds its offsets `(0, 0, 0, c)`, and the
    transpose by `[0, 2, 3, 1]` puts result axes `0, 1, 2, 3` on source axes `0, 2, 3, 1`. -/
theorem chan_apply (c : Nat) (hc : c < 6)
    (hT : (⟨4, ![64, 6, 256, 256]⟩ : Shape).Transposes [0, 2, 3, 1] ⟨4, ![64, 256, 256, 6]⟩)
    (hS : (⟨4, ![64, 256, 256, 6]⟩ : Shape).Slices ![0, 0, 0, c] ⟨4, ![64, 256, 256, 1]⟩)
    (hC : (⟨4, ![64, 256, 256, 1]⟩ : Shape).ShapeCasts ⟨3, ![64, 256, 256]⟩)
    (x0 : (⟨4, ![64, 6, 256, 256]⟩ : Shape).Idx → α) (a : Fin 64) (h w : Fin 256) :
    shapeCast ⟨3, ![64, 256, 256]⟩
        (extractStridedSlice ⟨4, ![64, 256, 256, 1]⟩ ![0, 0, 0, c] (transpose ⟨4, ![64, 256, 256, 6]⟩ [0, 2, 3, 1] x0 hT) hS) hC
        (ix3 a h w)
      = x0 (ix4 a ⟨c, hc⟩ h w) := by
  refine (shapeCast_apply _ hC (ix3 a h w) (ix4 a h w (0 : Fin 1)) (by
    rw [Shape.rowMajor_val_four, Shape.rowMajor_val_three]
    show ((a.val * 256 + h.val) * 256 + w.val) * 1 + 0 = (a.val * 256 + h.val) * 256 + w.val
    omega)).trans ?_
  refine (extractStridedSlice_apply _ _ hS (ix4 a h w (0 : Fin 1)) (ix4 a h w (⟨c, hc⟩ : Fin 6)) (by
    intro b
    match b with
    | ⟨0, _⟩ => show a.val = 0 + a.val; omega
    | ⟨1, _⟩ => show h.val = 0 + h.val; omega
    | ⟨2, _⟩ => show w.val = 0 + w.val; omega
    | ⟨3, _⟩ => show c = c + 0; omega)).trans ?_
  exact transpose_apply _ x0 hT (ix4 a h w (⟨c, hc⟩ : Fin 6)) (ix4 a ⟨c, hc⟩ h w) (by
    intro b
    match b with
    | ⟨0, _⟩ => rfl
    | ⟨1, _⟩ => rfl
    | ⟨2, _⟩ => rfl
    | ⟨3, _⟩ => rfl)

end Channel

section Gathers
variable {F : FTy → Type} [FloatOps F] [ReferenceIdeal.Facts₀] [KernelIdeal.Facts₀]

/-- The logistic function on one element as both programs compute it: `1 / (1 + exp (−v))`, with the host program's
    negate, exponential, add and divide and the constant `1` given by its bits. -/
def logistic1 (v : F .f32) : F .f32 :=
  FloatOps.hostDivf (FloatOps.ofBits .f32 0x3F800000#32)
    (FloatOps.addf (FloatOps.ofBits .f32 0x3F800000#32) (FloatOps.hostUnary .exp (FloatOps.hostNegf v)))

/-- Gathering from channel `c` of the image at `(b, y, x)` is gathering from the image at `(b, c, y, x)`, for any
    channel `c < 6` and any word `cw` whose signed value is `c` in the kernel's constant channel column: at each box
    both sides read the image at the same clamped coordinates, and `c` is its own clamp into `[0, 5]`. -/
theorem gather_raw (c : Nat) (hc : c < 6) (hS : ReferenceIdeal.S64x256x256x6.Slices ![0, 0, 0, c] ReferenceIdeal.S64x256x256x1)
    (cw : BitVec 32) (hcw : cw.toInt.toNat = c)
    (x0 : (⟨ReferenceIdeal.S64x6x256x256, .f32⟩ : BufTy).Contents (Elt F)) (vb vy vx : (⟨ReferenceIdeal.S64x32, .i32⟩ : BufTy).Contents (Elt F)) :
    Host.gather ReferenceIdeal.gather_S64x256x256_S64x32x3_S64x32_n_012_n_n_012_2_111 (shapeCast ReferenceIdeal.S64x256x256 (extractStridedSlice ReferenceIdeal.S64x256x256x1 ![0, 0, 0, c] (transpose ReferenceIdeal.S64x256x256x6 [0, 2, 3, 1] x0 ReferenceIdeal.Facts₀.transposes_S64x6x256x256_S64x256x256x6_0_2_3_1) hS) ReferenceIdeal.Facts₀.shapeCasts_S64x256x256x1_S64x256x256) (concatenate ReferenceIdeal.S64x32x3 2 [⟨ReferenceIdeal.S64x32x1, broadcastInDim ReferenceIdeal.S64x32x1 ![0, 1] ReferenceIdeal.Facts₀.bcast_S64x32_S64x32x1_0_1 vb⟩, ⟨ReferenceIdeal.S64x32x1, broadcastInDim ReferenceIdeal.S64x32x1 ![0, 1] ReferenceIdeal.Facts₀.bcast_S64x32_S64x32x1_0_1 vy⟩, ⟨ReferenceIdeal.S64x32x1, broadcastInDim ReferenceIdeal.S64x32x1 ![0, 1] ReferenceIdeal.Facts₀.bcast_S64x32_S64x32x1_0_1 vx⟩] ReferenceIdeal.Facts₀.concatenates_S64x32x1_S64x32x1_S64x32x1_S64x32x3_d2)
      = Host.gather KernelIdeal.gather_S64x6x256x256_S64x32x4_S64x32_n_0123_n_n_0123_2_1111 x0 (concatenate KernelIdeal.S64x32x4 2 [⟨KernelIdeal.S64x32x1, broadcastInDim KernelIdeal.S64x32x1 ![0, 1] KernelIdeal.Facts₀.bcast_S64x32_S64x32x1_0_1 vb⟩, ⟨KernelIdeal.S64x32x1, broadcastInDim KernelIdeal.S64x32x1 ![0, 1] KernelIdeal.Facts₀.bcast_S64x32_S64x32x1_0_1 (id (broadcastInDim KernelIdeal.S64x32 ![] KernelIdeal.Facts₀.bcast_S_S64x32 (constantI KernelIdeal.S_ 32 cw)))⟩, ⟨KernelIdeal.S64x32x1, broadcastInDim KernelIdeal.S64x32x1 ![0, 1] KernelIdeal.Facts₀.bcast_S64x32_S64x32x1_0_1 vy⟩, ⟨KernelIdeal.S64x32x1, broadcastInDim KernelIdeal.S64x32x1 ![0, 1] KernelIdeal.Facts₀.bcast_S64x32_S64x32x1_0_1 vx⟩] KernelIdeal.Facts₀.concatenates_S64x32x1_S64x32x1_S64x32x1_S64x32x1_S64x32x4_d2) := by
  funext i
  obtain ⟨p, q, rfl⟩ : ∃ p q, i = ix2 p q := ⟨i 0, i 1, eq_ix2 i⟩
  rw [show ReferenceIdeal.gather_S64x256x256_S64x32x3_S64x32_n_012_n_n_012_2_111 = dims3 64 256 256 64 32 _ from rfl,
    show KernelIdeal.gather_S64x6x256x256_S64x32x4_S64x32_n_0123_n_n_0123_2_1111 = dims4 64 6 256 256 64 32 _ from rfl]
  exact gather3_eq_gather4 _ _ _ _ _ _ _ x0 id ⟨c, hc⟩ (fun a h w => chan_apply c hc _ hS _ x0 a h w) vb _ vy vx p q hcw

/-- The same with the logistic function: the reference applies it to the whole channel before gathering, the kernel to the
    gathered values. It acts on each element alone, so it commutes with the gather. -/
theorem gather_sig (c : Nat) (hc : c < 6) (hS : ReferenceIdeal.S64x256x256x6.Slices ![0, 0, 0, c] ReferenceIdeal.S64x256x256x1)
    (cw : BitVec 32) (hcw : cw.toInt.toNat = c)
    (x0 : (⟨ReferenceIdeal.S64x6x256x256, .f32⟩ : BufTy).Contents (Elt F)) (vb vy vx : (⟨ReferenceIdeal.S64x32, .i32⟩ : BufTy).Contents (Elt F)) :
    Host.gather ReferenceIdeal.gather_S64x256x256_S64x32x3_S64x32_n_012_n_n_012_2_111 (Host.divf (broadcastInDim ReferenceIdeal.S64x256x256 ![] ReferenceIdeal.Facts₀.bcast_S_S64x256x256 (constant ReferenceIdeal.S_ .f32 0x3F800000#32)) (addf (broadcastInDim ReferenceIdeal.S64x256x256 ![] ReferenceIdeal.Facts₀.bcast_S_S64x256x256 (constant ReferenceIdeal.S_ .f32 0x3F800000#32)) (Host.exp (Host.negf (shapeCast ReferenceIdeal.S64x256x256 (extractStridedSlice ReferenceIdeal.S64x256x256x1 ![0, 0, 0, c] (transpose ReferenceIdeal.S64x256x256x6 [0, 2, 3, 1] x0 ReferenceIdeal.Facts₀.transposes_S64x6x256x256_S64x256x256x6_0_2_3_1) hS) ReferenceIdeal.Facts₀.shapeCasts_S64x256x256x1_S64x256x256))))) (concatenate ReferenceIdeal.S64x32x3 2 [⟨ReferenceIdeal.S64x32x1, broadcastInDim ReferenceIdeal.S64x32x1 ![0, 1] ReferenceIdeal.Facts₀.bcast_S64x32_S64x32x1_0_1 vb⟩, ⟨ReferenceIdeal.S64x32x1, broadcastInDim ReferenceIdeal.S64x32x1 ![0, 1] ReferenceIdeal.Facts₀.bcast_S64x32_S64x32x1_0_1 vy⟩, ⟨ReferenceIdeal.S64x32x1, broadcastInDim ReferenceIdeal.S64x32x1 ![0, 1] ReferenceIdeal.Facts₀.bcast_S64x32_S64x32x1_0_1 vx⟩] ReferenceIdeal.Facts₀.concatenates_S64x32x1_S64x32x1_S64x32x1_S64x32x3_d2)
      = (Host.divf (broadcastInDim KernelIdeal.S64x32 ![] KernelIdeal.Facts₀.bcast_S_S64x32 (constant KernelIdeal.S_ .f32 0x3F800000#32)) (addf (broadcastInDim KernelIdeal.S64x32 ![] KernelIdeal.Facts₀.bcast_S_S64x32 (constant KernelIdeal.S_ .f32 0x3F800000#32)) (Host.exp (Host.negf (Host.gather KernelIdeal.gather_S64x6x256x256_S64x32x4_S64x32_n_0123_n_n_0123_2_1111 x0 (concatenate KernelIdeal.S64x32x4 2 [⟨KernelIdeal.S64x32x1, broadcastInDim KernelIdeal.S64x32x1 ![0, 1] KernelIdeal.Facts₀.bcast_S64x32_S64x32x1_0_1 vb⟩, ⟨KernelIdeal.S64x32x1, broadcastInDim KernelIdeal.S64x32x1 ![0, 1] KernelIdeal.Facts₀.bcast_S64x32_S64x32x1_0_1 (id (broadcastInDim KernelIdeal.S64x32 ![] KernelIdeal.Facts₀.bcast_S_S64x32 (constantI KernelIdeal.S_ 32 cw)))⟩, ⟨KernelIdeal.S64x32x1, broadcastInDim KernelIdeal.S64x32x1 ![0, 1] KernelIdeal.Facts₀.bcast_S64x32_S64x32x1_0_1 vy⟩, ⟨KernelIdeal.S64x32x1, broadcastInDim KernelIdeal.S64x32x1 ![0, 1] KernelIdeal.Facts₀.bcast_S64x32_S64x32x1_0_1 vx⟩] KernelIdeal.Facts₀.concatenates_S64x32x1_S64x32x1_S64x32x1_S64x32x1_S64x32x4_d2)))))) := by
  funext i
  obtain ⟨p, q, rfl⟩ : ∃ p q, i = ix2 p q := ⟨i 0, i 1, eq_ix2 i⟩
  rw [show ReferenceIdeal.gather_S64x256x256_S64x32x3_S64x32_n_012_n_n_012_2_111 = dims3 64 256 256 64 32 _ from rfl,
    show KernelIdeal.gather_S64x6x256x256_S64x32x4_S64x32_n_0123_n_n_0123_2_1111 = dims4 64 6 256 256 64 32 _ from rfl]
  exact gather3_eq_gather4 _ _ _ _ _ _ _ x0 logistic1 ⟨c, hc⟩
    (fun a h w => congrArg logistic1 (chan_apply c hc _ hS _ x0 a h w)) vb _ vy vx p q hcw

/-- Channel 0, with the logistic function: the reference's gather of the logistic of channel 0 is the logistic of the kernel's
    gather at channel coordinate 0. -/
theorem gather_sig_0 (x0 : (⟨ReferenceIdeal.S64x6x256x256, .f32⟩ : BufTy).Contents (Elt F)) (vb vy vx : (⟨ReferenceIdeal.S64x32, .i32⟩ : BufTy).Contents (Elt F)) :
    Host.gather ReferenceIdeal.gather_S64x256x256_S64x32x3_S64x32_n_012_n_n_012_2_111 (Host.divf (broadcastInDim ReferenceIdeal.S64x256x256 ![] ReferenceIdeal.Facts₀.bcast_S_S64x256x256 (constant ReferenceIdeal.S_ .f32 0x3F800000#32)) (addf (broadcastInDim ReferenceIdeal.S64x256x256 ![] ReferenceIdeal.Facts₀.bcast_S_S64x256x256 (constant ReferenceIdeal.S_ .f32 0x3F800000#32)) (Host.exp (Host.negf (shapeCast ReferenceIdeal.S64x256x256 (extractStridedSlice ReferenceIdeal.S64x256x256x1 ![0, 0, 0, 0] (transpose ReferenceIdeal.S64x256x256x6 [0, 2, 3, 1] x0 ReferenceIdeal.Facts₀.transposes_S64x6x256x256_S64x256x256x6_0_2_3_1) ReferenceIdeal.Facts₀.slices_S64x256x256x6_S64x256x256x1_0_0_0_0) ReferenceIdeal.Facts₀.shapeCasts_S64x256x256x1_S64x256x256))))) (concatenate ReferenceIdeal.S64x32x3 2 [⟨ReferenceIdeal.S64x32x1, broadcastInDim ReferenceIdeal.S64x32x1 ![0, 1] ReferenceIdeal.Facts₀.bcast_S64x32_S64x32x1_0_1 vb⟩, ⟨ReferenceIdeal.S64x32x1, broadcastInDim ReferenceIdeal.S64x32x1 ![0, 1] ReferenceIdeal.Facts₀.bcast_S64x32_S64x32x1_0_1 vy⟩, ⟨ReferenceIdeal.S64x32x1, broadcastInDim ReferenceIdeal.S64x32x1 ![0, 1] ReferenceIdeal.Facts₀.bcast_S64x32_S64x32x1_0_1 vx⟩] ReferenceIdeal.Facts₀.concatenates_S64x32x1_S64x32x1_S64x32x1_S64x32x3_d2)
      = (Host.divf (broadcastInDim KernelIdeal.S64x32 ![] KernelIdeal.Facts₀.bcast_S_S64x32 (constant KernelIdeal.S_ .f32 0x3F800000#32)) (addf (broadcastInDim KernelIdeal.S64x32 ![] KernelIdeal.Facts₀.bcast_S_S64x32 (constant KernelIdeal.S_ .f32 0x3F800000#32)) (Host.exp (Host.negf (Host.gather KernelIdeal.gather_S64x6x256x256_S64x32x4_S64x32_n_0123_n_n_0123_2_1111 x0 (concatenate KernelIdeal.S64x32x4 2 [⟨KernelIdeal.S64x32x1, broadcastInDim KernelIdeal.S64x32x1 ![0, 1] KernelIdeal.Facts₀.bcast_S64x32_S64x32x1_0_1 vb⟩, ⟨KernelIdeal.S64x32x1, broadcastInDim KernelIdeal.S64x32x1 ![0, 1] KernelIdeal.Facts₀.bcast_S64x32_S64x32x1_0_1 (id (broadcastInDim KernelIdeal.S64x32 ![] KernelIdeal.Facts₀.bcast_S_S64x32 (constantI KernelIdeal.S_ 32 0#32)))⟩, ⟨KernelIdeal.S64x32x1, broadcastInDim KernelIdeal.S64x32x1 ![0, 1] KernelIdeal.Facts₀.bcast_S64x32_S64x32x1_0_1 vy⟩, ⟨KernelIdeal.S64x32x1, broadcastInDim KernelIdeal.S64x32x1 ![0, 1] KernelIdeal.Facts₀.bcast_S64x32_S64x32x1_0_1 vx⟩] KernelIdeal.Facts₀.concatenates_S64x32x1_S64x32x1_S64x32x1_S64x32x1_S64x32x4_d2)))))) :=
  gather_sig 0 (by decide) _ 0#32 (by decide) x0 vb vy vx

/-- Channel 1, with the logistic function: the reference's gather of the logistic of channel 1 is the logistic of the kernel's
    gather at channel coordinate 1. -/
theorem gather_sig_1 (x0 : (⟨ReferenceIdeal.S64x6x256x256, .f32⟩ : BufTy).Contents (Elt F)) (vb vy vx : (⟨ReferenceIdeal.S64x32, .i32⟩ : BufTy).Contents (Elt F)) :
    Host.gather ReferenceIdeal.gather_S64x256x256_S64x32x3_S64x32_n_012_n_n_012_2_111 (Host.divf (broadcastInDim ReferenceIdeal.S64x256x256 ![] ReferenceIdeal.Facts₀.bcast_S_S64x256x256 (constant ReferenceIdeal.S_ .f32 0x3F800000#32)) (addf (broadcastInDim ReferenceIdeal.S64x256x256 ![] ReferenceIdeal.Facts₀.bcast_S_S64x256x256 (constant ReferenceIdeal.S_ .f32 0x3F800000#32)) (Host.exp (Host.negf (shapeCast ReferenceIdeal.S64x256x256 (extractStridedSlice ReferenceIdeal.S64x256x256x1 ![0, 0, 0, 1] (transpose ReferenceIdeal.S64x256x256x6 [0, 2, 3, 1] x0 ReferenceIdeal.Facts₀.transposes_S64x6x256x256_S64x256x256x6_0_2_3_1) ReferenceIdeal.Facts₀.slices_S64x256x256x6_S64x256x256x1_0_0_0_1) ReferenceIdeal.Facts₀.shapeCasts_S64x256x256x1_S64x256x256))))) (concatenate ReferenceIdeal.S64x32x3 2 [⟨ReferenceIdeal.S64x32x1, broadcastInDim ReferenceIdeal.S64x32x1 ![0, 1] ReferenceIdeal.Facts₀.bcast_S64x32_S64x32x1_0_1 vb⟩, ⟨ReferenceIdeal.S64x32x1, broadcastInDim ReferenceIdeal.S64x32x1 ![0, 1] ReferenceIdeal.Facts₀.bcast_S64x32_S64x32x1_0_1 vy⟩, ⟨ReferenceIdeal.S64x32x1, broadcastInDim ReferenceIdeal.S64x32x1 ![0, 1] ReferenceIdeal.Facts₀.bcast_S64x32_S64x32x1_0_1 vx⟩] ReferenceIdeal.Facts₀.concatenates_S64x32x1_S64x32x1_S64x32x1_S64x32x3_d2)
      = (Host.divf (broadcastInDim KernelIdeal.S64x32 ![] KernelIdeal.Facts₀.bcast_S_S64x32 (constant KernelIdeal.S_ .f32 0x3F800000#32)) (addf (broadcastInDim KernelIdeal.S64x32 ![] KernelIdeal.Facts₀.bcast_S_S64x32 (constant KernelIdeal.S_ .f32 0x3F800000#32)) (Host.exp (Host.negf (Host.gather KernelIdeal.gather_S64x6x256x256_S64x32x4_S64x32_n_0123_n_n_0123_2_1111 x0 (concatenate KernelIdeal.S64x32x4 2 [⟨KernelIdeal.S64x32x1, broadcastInDim KernelIdeal.S64x32x1 ![0, 1] KernelIdeal.Facts₀.bcast_S64x32_S64x32x1_0_1 vb⟩, ⟨KernelIdeal.S64x32x1, broadcastInDim KernelIdeal.S64x32x1 ![0, 1] KernelIdeal.Facts₀.bcast_S64x32_S64x32x1_0_1 (id (broadcastInDim KernelIdeal.S64x32 ![] KernelIdeal.Facts₀.bcast_S_S64x32 (constantI KernelIdeal.S_ 32 1#32)))⟩, ⟨KernelIdeal.S64x32x1, broadcastInDim KernelIdeal.S64x32x1 ![0, 1] KernelIdeal.Facts₀.bcast_S64x32_S64x32x1_0_1 vy⟩, ⟨KernelIdeal.S64x32x1, broadcastInDim KernelIdeal.S64x32x1 ![0, 1] KernelIdeal.Facts₀.bcast_S64x32_S64x32x1_0_1 vx⟩] KernelIdeal.Facts₀.concatenates_S64x32x1_S64x32x1_S64x32x1_S64x32x1_S64x32x4_d2)))))) :=
  gather_sig 1 (by decide) _ 1#32 (by decide) x0 vb vy vx

/-- Channel 2, with the logistic function: the reference's gather of the logistic of channel 2 is the logistic of the kernel's
    gather at channel coordinate 2. -/
theorem gather_sig_2 (x0 : (⟨ReferenceIdeal.S64x6x256x256, .f32⟩ : BufTy).Contents (Elt F)) (vb vy vx : (⟨ReferenceIdeal.S64x32, .i32⟩ : BufTy).Contents (Elt F)) :
    Host.gather ReferenceIdeal.gather_S64x256x256_S64x32x3_S64x32_n_012_n_n_012_2_111 (Host.divf (broadcastInDim ReferenceIdeal.S64x256x256 ![] ReferenceIdeal.Facts₀.bcast_S_S64x256x256 (constant ReferenceIdeal.S_ .f32 0x3F800000#32)) (addf (broadcastInDim ReferenceIdeal.S64x256x256 ![] ReferenceIdeal.Facts₀.bcast_S_S64x256x256 (constant ReferenceIdeal.S_ .f32 0x3F800000#32)) (Host.exp (Host.negf (shapeCast ReferenceIdeal.S64x256x256 (extractStridedSlice ReferenceIdeal.S64x256x256x1 ![0, 0, 0, 2] (transpose ReferenceIdeal.S64x256x256x6 [0, 2, 3, 1] x0 ReferenceIdeal.Facts₀.transposes_S64x6x256x256_S64x256x256x6_0_2_3_1) ReferenceIdeal.Facts₀.slices_S64x256x256x6_S64x256x256x1_0_0_0_2) ReferenceIdeal.Facts₀.shapeCasts_S64x256x256x1_S64x256x256))))) (concatenate ReferenceIdeal.S64x32x3 2 [⟨ReferenceIdeal.S64x32x1, broadcastInDim ReferenceIdeal.S64x32x1 ![0, 1] ReferenceIdeal.Facts₀.bcast_S64x32_S64x32x1_0_1 vb⟩, ⟨ReferenceIdeal.S64x32x1, broadcastInDim ReferenceIdeal.S64x32x1 ![0, 1] ReferenceIdeal.Facts₀.bcast_S64x32_S64x32x1_0_1 vy⟩, ⟨ReferenceIdeal.S64x32x1, broadcastInDim ReferenceIdeal.S64x32x1 ![0, 1] ReferenceIdeal.Facts₀.bcast_S64x32_S64x32x1_0_1 vx⟩] ReferenceIdeal.Facts₀.concatenates_S64x32x1_S64x32x1_S64x32x1_S64x32x3_d2)
      = (Host.divf (broadcastInDim KernelIdeal.S64x32 ![] KernelIdeal.Facts₀.bcast_S_S64x32 (constant KernelIdeal.S_ .f32 0x3F800000#32)) (addf (broadcastInDim KernelIdeal.S64x32 ![] KernelIdeal.Facts₀.bcast_S_S64x32 (constant KernelIdeal.S_ .f32 0x3F800000#32)) (Host.exp (Host.negf (Host.gather KernelIdeal.gather_S64x6x256x256_S64x32x4_S64x32_n_0123_n_n_0123_2_1111 x0 (concatenate KernelIdeal.S64x32x4 2 [⟨KernelIdeal.S64x32x1, broadcastInDim KernelIdeal.S64x32x1 ![0, 1] KernelIdeal.Facts₀.bcast_S64x32_S64x32x1_0_1 vb⟩, ⟨KernelIdeal.S64x32x1, broadcastInDim KernelIdeal.S64x32x1 ![0, 1] KernelIdeal.Facts₀.bcast_S64x32_S64x32x1_0_1 (id (broadcastInDim KernelIdeal.S64x32 ![] KernelIdeal.Facts₀.bcast_S_S64x32 (constantI KernelIdeal.S_ 32 2#32)))⟩, ⟨KernelIdeal.S64x32x1, broadcastInDim KernelIdeal.S64x32x1 ![0, 1] KernelIdeal.Facts₀.bcast_S64x32_S64x32x1_0_1 vy⟩, ⟨KernelIdeal.S64x32x1, broadcastInDim KernelIdeal.S64x32x1 ![0, 1] KernelIdeal.Facts₀.bcast_S64x32_S64x32x1_0_1 vx⟩] KernelIdeal.Facts₀.concatenates_S64x32x1_S64x32x1_S64x32x1_S64x32x1_S64x32x4_d2)))))) :=
  gather_sig 2 (by decide) _ 2#32 (by decide) x0 vb vy vx

/-- Channel 3, with the logistic function: the reference's gather of the logistic of channel 3 is the logistic of the kernel's
    gather at channel coordinate 3. -/
theorem gather_sig_3 (x0 : (⟨ReferenceIdeal.S64x6x256x256, .f32⟩ : BufTy).Contents (Elt F)) (vb vy vx : (⟨ReferenceIdeal.S64x32, .i32⟩ : BufTy).Contents (Elt F)) :
    Host.gather ReferenceIdeal.gather_S64x256x256_S64x32x3_S64x32_n_012_n_n_012_2_111 (Host.divf (broadcastInDim ReferenceIdeal.S64x256x256 ![] ReferenceIdeal.Facts₀.bcast_S_S64x256x256 (constant ReferenceIdeal.S_ .f32 0x3F800000#32)) (addf (broadcastInDim ReferenceIdeal.S64x256x256 ![] ReferenceIdeal.Facts₀.bcast_S_S64x256x256 (constant ReferenceIdeal.S_ .f32 0x3F800000#32)) (Host.exp (Host.negf (shapeCast ReferenceIdeal.S64x256x256 (extractStridedSlice ReferenceIdeal.S64x256x256x1 ![0, 0, 0, 3] (transpose ReferenceIdeal.S64x256x256x6 [0, 2, 3, 1] x0 ReferenceIdeal.Facts₀.transposes_S64x6x256x256_S64x256x256x6_0_2_3_1) ReferenceIdeal.Facts₀.slices_S64x256x256x6_S64x256x256x1_0_0_0_3) ReferenceIdeal.Facts₀.shapeCasts_S64x256x256x1_S64x256x256))))) (concatenate ReferenceIdeal.S64x32x3 2 [⟨ReferenceIdeal.S64x32x1, broadcastInDim ReferenceIdeal.S64x32x1 ![0, 1] ReferenceIdeal.Facts₀.bcast_S64x32_S64x32x1_0_1 vb⟩, ⟨ReferenceIdeal.S64x32x1, broadcastInDim ReferenceIdeal.S64x32x1 ![0, 1] ReferenceIdeal.Facts₀.bcast_S64x32_S64x32x1_0_1 vy⟩, ⟨ReferenceIdeal.S64x32x1, broadcastInDim ReferenceIdeal.S64x32x1 ![0, 1] ReferenceIdeal.Facts₀.bcast_S64x32_S64x32x1_0_1 vx⟩] ReferenceIdeal.Facts₀.concatenates_S64x32x1_S64x32x1_S64x32x1_S64x32x3_d2)
      = (Host.divf (broadcastInDim KernelIdeal.S64x32 ![] KernelIdeal.Facts₀.bcast_S_S64x32 (constant KernelIdeal.S_ .f32 0x3F800000#32)) (addf (broadcastInDim KernelIdeal.S64x32 ![] KernelIdeal.Facts₀.bcast_S_S64x32 (constant KernelIdeal.S_ .f32 0x3F800000#32)) (Host.exp (Host.negf (Host.gather KernelIdeal.gather_S64x6x256x256_S64x32x4_S64x32_n_0123_n_n_0123_2_1111 x0 (concatenate KernelIdeal.S64x32x4 2 [⟨KernelIdeal.S64x32x1, broadcastInDim KernelIdeal.S64x32x1 ![0, 1] KernelIdeal.Facts₀.bcast_S64x32_S64x32x1_0_1 vb⟩, ⟨KernelIdeal.S64x32x1, broadcastInDim KernelIdeal.S64x32x1 ![0, 1] KernelIdeal.Facts₀.bcast_S64x32_S64x32x1_0_1 (id (broadcastInDim KernelIdeal.S64x32 ![] KernelIdeal.Facts₀.bcast_S_S64x32 (constantI KernelIdeal.S_ 32 3#32)))⟩, ⟨KernelIdeal.S64x32x1, broadcastInDim KernelIdeal.S64x32x1 ![0, 1] KernelIdeal.Facts₀.bcast_S64x32_S64x32x1_0_1 vy⟩, ⟨KernelIdeal.S64x32x1, broadcastInDim KernelIdeal.S64x32x1 ![0, 1] KernelIdeal.Facts₀.bcast_S64x32_S64x32x1_0_1 vx⟩] KernelIdeal.Facts₀.concatenates_S64x32x1_S64x32x1_S64x32x1_S64x32x1_S64x32x4_d2)))))) :=
  gather_sig 3 (by decide) _ 3#32 (by decide) x0 vb vy vx

/-- Channel 4, no logistic function: the reference's gather of channel 4 is the kernel's gather at channel coordinate 4. -/
theorem gather_raw_4 (x0 : (⟨ReferenceIdeal.S64x6x256x256, .f32⟩ : BufTy).Contents (Elt F)) (vb vy vx : (⟨ReferenceIdeal.S64x32, .i32⟩ : BufTy).Contents (Elt F)) :
    Host.gather ReferenceIdeal.gather_S64x256x256_S64x32x3_S64x32_n_012_n_n_012_2_111 (shapeCast ReferenceIdeal.S64x256x256 (extractStridedSlice ReferenceIdeal.S64x256x256x1 ![0, 0, 0, 4] (transpose ReferenceIdeal.S64x256x256x6 [0, 2, 3, 1] x0 ReferenceIdeal.Facts₀.transposes_S64x6x256x256_S64x256x256x6_0_2_3_1) ReferenceIdeal.Facts₀.slices_S64x256x256x6_S64x256x256x1_0_0_0_4) ReferenceIdeal.Facts₀.shapeCasts_S64x256x256x1_S64x256x256) (concatenate ReferenceIdeal.S64x32x3 2 [⟨ReferenceIdeal.S64x32x1, broadcastInDim ReferenceIdeal.S64x32x1 ![0, 1] ReferenceIdeal.Facts₀.bcast_S64x32_S64x32x1_0_1 vb⟩, ⟨ReferenceIdeal.S64x32x1, broadcastInDim ReferenceIdeal.S64x32x1 ![0, 1] ReferenceIdeal.Facts₀.bcast_S64x32_S64x32x1_0_1 vy⟩, ⟨ReferenceIdeal.S64x32x1, broadcastInDim ReferenceIdeal.S64x32x1 ![0, 1] ReferenceIdeal.Facts₀.bcast_S64x32_S64x32x1_0_1 vx⟩] ReferenceIdeal.Facts₀.concatenates_S64x32x1_S64x32x1_S64x32x1_S64x32x3_d2)
      = Host.gather KernelIdeal.gather_S64x6x256x256_S64x32x4_S64x32_n_0123_n_n_0123_2_1111 x0 (concatenate KernelIdeal.S64x32x4 2 [⟨KernelIdeal.S64x32x1, broadcastInDim KernelIdeal.S64x32x1 ![0, 1] KernelIdeal.Facts₀.bcast_S64x32_S64x32x1_0_1 vb⟩, ⟨KernelIdeal.S64x32x1, broadcastInDim KernelIdeal.S64x32x1 ![0, 1] KernelIdeal.Facts₀.bcast_S64x32_S64x32x1_0_1 (id (broadcastInDim KernelIdeal.S64x32 ![] KernelIdeal.Facts₀.bcast_S_S64x32 (constantI KernelIdeal.S_ 32 4#32)))⟩, ⟨KernelIdeal.S64x32x1, broadcastInDim KernelIdeal.S64x32x1 ![0, 1] KernelIdeal.Facts₀.bcast_S64x32_S64x32x1_0_1 vy⟩, ⟨KernelIdeal.S64x32x1, broadcastInDim KernelIdeal.S64x32x1 ![0, 1] KernelIdeal.Facts₀.bcast_S64x32_S64x32x1_0_1 vx⟩] KernelIdeal.Facts₀.concatenates_S64x32x1_S64x32x1_S64x32x1_S64x32x1_S64x32x4_d2) :=
  gather_raw 4 (by decide) _ 4#32 (by decide) x0 vb vy vx

/-- Channel 5, no logistic function: the reference's gather of channel 5 is the kernel's gather at channel coordinate 5. -/
theorem gather_raw_5 (x0 : (⟨ReferenceIdeal.S64x6x256x256, .f32⟩ : BufTy).Contents (Elt F)) (vb vy vx : (⟨ReferenceIdeal.S64x32, .i32⟩ : BufTy).Contents (Elt F)) :
    Host.gather ReferenceIdeal.gather_S64x256x256_S64x32x3_S64x32_n_012_n_n_012_2_111 (shapeCast ReferenceIdeal.S64x256x256 (extractStridedSlice ReferenceIdeal.S64x256x256x1 ![0, 0, 0, 5] (transpose ReferenceIdeal.S64x256x256x6 [0, 2, 3, 1] x0 ReferenceIdeal.Facts₀.transposes_S64x6x256x256_S64x256x256x6_0_2_3_1) ReferenceIdeal.Facts₀.slices_S64x256x256x6_S64x256x256x1_0_0_0_5) ReferenceIdeal.Facts₀.shapeCasts_S64x256x256x1_S64x256x256) (concatenate ReferenceIdeal.S64x32x3 2 [⟨ReferenceIdeal.S64x32x1, broadcastInDim ReferenceIdeal.S64x32x1 ![0, 1] ReferenceIdeal.Facts₀.bcast_S64x32_S64x32x1_0_1 vb⟩, ⟨ReferenceIdeal.S64x32x1, broadcastInDim ReferenceIdeal.S64x32x1 ![0, 1] ReferenceIdeal.Facts₀.bcast_S64x32_S64x32x1_0_1 vy⟩, ⟨ReferenceIdeal.S64x32x1, broadcastInDim ReferenceIdeal.S64x32x1 ![0, 1] ReferenceIdeal.Facts₀.bcast_S64x32_S64x32x1_0_1 vx⟩] ReferenceIdeal.Facts₀.concatenates_S64x32x1_S64x32x1_S64x32x1_S64x32x3_d2)
      = Host.gather KernelIdeal.gather_S64x6x256x256_S64x32x4_S64x32_n_0123_n_n_0123_2_1111 x0 (concatenate KernelIdeal.S64x32x4 2 [⟨KernelIdeal.S64x32x1, broadcastInDim KernelIdeal.S64x32x1 ![0, 1] KernelIdeal.Facts₀.bcast_S64x32_S64x32x1_0_1 vb⟩, ⟨KernelIdeal.S64x32x1, broadcastInDim KernelIdeal.S64x32x1 ![0, 1] KernelIdeal.Facts₀.bcast_S64x32_S64x32x1_0_1 (id (broadcastInDim KernelIdeal.S64x32 ![] KernelIdeal.Facts₀.bcast_S_S64x32 (constantI KernelIdeal.S_ 32 5#32)))⟩, ⟨KernelIdeal.S64x32x1, broadcastInDim KernelIdeal.S64x32x1 ![0, 1] KernelIdeal.Facts₀.bcast_S64x32_S64x32x1_0_1 vy⟩, ⟨KernelIdeal.S64x32x1, broadcastInDim KernelIdeal.S64x32x1 ![0, 1] KernelIdeal.Facts₀.bcast_S64x32_S64x32x1_0_1 vx⟩] KernelIdeal.Facts₀.concatenates_S64x32x1_S64x32x1_S64x32x1_S64x32x1_S64x32x4_d2) :=
  gather_raw 5 (by decide) _ 5#32 (by decide) x0 vb vy vx

end Gathers

end Cert.ChannelGather
-- ==== Proof.ConcatOps.lean ====
/-
  The start indices of the six point gathers of each program are joined from index columns by a concatenation along the
  last axis: three columns [b, y, x] in the reference, four columns [b, channel, y, x] in the kernel program. Each such
  operation's result, at its own buffer, is the joined array of its operand buffers' contents; written as a plain
  function of the columns, evaluation of a line of operations goes on through the columns.
-/
import proofs.«176000_j6725918786248_2_alg».proof.Proof.Gen.KernelIdeal.Launch
import proofs.«176000_j6725918786248_2_alg».proof.Proof.ReferenceRun
import Idealize.ShloMosaic.Lib.StableHlo.Run

noncomputable section

namespace Cert.HostBridge

open Idealize.ShloMosaic Idealize.ShloMosaic.TcCoe Idealize.SL.Sem Idealize.ShloMosaic.StableHlo

/-- Three [64, 32, 1] columns joined along the last axis (the reference's start indices). -/
def cat3 {α : Type} (u0 u1 u2 : Cert.ReferenceIdeal.S64x32x1.Idx → α) : Cert.ReferenceIdeal.S64x32x3.Idx → α :=
  concatenate Cert.ReferenceIdeal.S64x32x3 2 [⟨Cert.ReferenceIdeal.S64x32x1, u0⟩, ⟨Cert.ReferenceIdeal.S64x32x1, u1⟩, ⟨Cert.ReferenceIdeal.S64x32x1, u2⟩] Cert.ReferenceIdeal.Gen.concatenates_S64x32x1_S64x32x1_S64x32x1_S64x32x3_d2

/-- Four [64, 32, 1] columns joined along the last axis (the kernel program's start indices). -/
def cat4 {α : Type} (u0 u1 u2 u3 : Cert.KernelIdeal.S64x32x1.Idx → α) : Cert.KernelIdeal.S64x32x4.Idx → α :=
  concatenate Cert.KernelIdeal.S64x32x4 2 [⟨Cert.KernelIdeal.S64x32x1, u0⟩, ⟨Cert.KernelIdeal.S64x32x1, u1⟩, ⟨Cert.KernelIdeal.S64x32x1, u2⟩, ⟨Cert.KernelIdeal.S64x32x1, u3⟩] Cert.KernelIdeal.Gen.concatenates_S64x32x1_S64x32x1_S64x32x1_S64x32x1_S64x32x4_d2

variable {F : FTy → Type} [FloatOps F]

/-! ## The reference's six concatenations -/

theorem cat_r_v76 (hxs hy) (V : Valuation Cert.ReferenceIdeal.τ Cert.ReferenceIdeal.sig (Elt F)) :
    (nary (τ := Cert.ReferenceIdeal.τ) ![Cert.ReferenceIdeal.main_v73, Cert.ReferenceIdeal.main_v74, Cert.ReferenceIdeal.main_v75] Cert.ReferenceIdeal.main_v76 (fun u => concatenate Cert.ReferenceIdeal.S64x32x3 2 [⟨Cert.ReferenceIdeal.S64x32x1, u 0⟩, ⟨Cert.ReferenceIdeal.S64x32x1, u 1⟩, ⟨Cert.ReferenceIdeal.S64x32x1, u 2⟩] Cert.ReferenceIdeal.Gen.concatenates_S64x32x1_S64x32x1_S64x32x1_S64x32x3_d2) hxs hy).result V (no_index (Proc.devRef .tc Cert.ReferenceIdeal.main_v76))
      = cat3 (V (Proc.devRef .tc Cert.ReferenceIdeal.main_v73)) (V (Proc.devRef .tc Cert.ReferenceIdeal.main_v74)) (V (Proc.devRef .tc Cert.ReferenceIdeal.main_v75)) :=
  (nary_result ![Cert.ReferenceIdeal.main_v73, Cert.ReferenceIdeal.main_v74, Cert.ReferenceIdeal.main_v75] Cert.ReferenceIdeal.main_v76 _ hxs hy V).trans rfl

theorem cat_r_v96 (hxs hy) (V : Valuation Cert.ReferenceIdeal.τ Cert.ReferenceIdeal.sig (Elt F)) :
    (nary (τ := Cert.ReferenceIdeal.τ) ![Cert.ReferenceIdeal.main_v93, Cert.ReferenceIdeal.main_v94, Cert.ReferenceIdeal.main_v95] Cert.ReferenceIdeal.main_v96 (fun u => concatenate Cert.ReferenceIdeal.S64x32x3 2 [⟨Cert.ReferenceIdeal.S64x32x1, u 0⟩, ⟨Cert.ReferenceIdeal.S64x32x1, u 1⟩, ⟨Cert.ReferenceIdeal.S64x32x1, u 2⟩] Cert.ReferenceIdeal.Gen.concatenates_S64x32x1_S64x32x1_S64x32x1_S64x32x3_d2) hxs hy).result V (no_index (Proc.devRef .tc Cert.ReferenceIdeal.main_v96))
      = cat3 (V (Proc.devRef .tc Cert.ReferenceIdeal.main_v93)) (V (Proc.devRef .tc Cert.ReferenceIdeal.main_v94)) (V (Proc.devRef .tc Cert.ReferenceIdeal.main_v95)) :=
  (nary_result ![Cert.ReferenceIdeal.main_v93, Cert.ReferenceIdeal.main_v94, Cert.ReferenceIdeal.main_v95] Cert.ReferenceIdeal.main_v96 _ hxs hy V).trans rfl

theorem cat_r_v116 (hxs hy) (V : Valuation Cert.ReferenceIdeal.τ Cert.ReferenceIdeal.sig (Elt F)) :
    (nary (τ := Cert.ReferenceIdeal.τ) ![Cert.ReferenceIdeal.main_v113, Cert.ReferenceIdeal.main_v114, Cert.ReferenceIdeal.main_v115] Cert.ReferenceIdeal.main_v116 (fun u => concatenate Cert.ReferenceIdeal.S64x32x3 2 [⟨Cert.ReferenceIdeal.S64x32x1, u 0⟩, ⟨Cert.ReferenceIdeal.S64x32x1, u 1⟩, ⟨Cert.ReferenceIdeal.S64x32x1, u 2⟩] Cert.ReferenceIdeal.Gen.concatenates_S64x32x1_S64x32x1_S64x32x1_S64x32x3_d2) hxs hy).result V (no_index (Proc.devRef .tc Cert.ReferenceIdeal.main_v116))
      = cat3 (V (Proc.devRef .tc Cert.ReferenceIdeal.main_v113)) (V (Proc.devRef .tc Cert.ReferenceIdeal.main_v114)) (V (Proc.devRef .tc Cert.ReferenceIdeal.main_v115)) :=
  (nary_result ![Cert.ReferenceIdeal.main_v113, Cert.ReferenceIdeal.main_v114, Cert.ReferenceIdeal.main_v115] Cert.ReferenceIdeal.main_v116 _ hxs hy V).trans rfl

theorem cat_r_v136 (hxs hy) (V : Valuation Cert.ReferenceIdeal.τ Cert.ReferenceIdeal.sig (Elt F)) :
    (nary (τ := Cert.ReferenceIdeal.τ) ![Cert.ReferenceIdeal.main_v133, Cert.ReferenceIdeal.main_v134, Cert.ReferenceIdeal.main_v135] Cert.ReferenceIdeal.main_v136 (fun u => concatenate Cert.ReferenceIdeal.S64x32x3 2 [⟨Cert.ReferenceIdeal.S64x32x1, u 0⟩, ⟨Cert.ReferenceIdeal.S64x32x1, u 1⟩, ⟨Cert.ReferenceIdeal.S64x32x1, u 2⟩] Cert.ReferenceIdeal.Gen.concatenates_S64x32x1_S64x32x1_S64x32x1_S64x32x3_d2) hxs hy).result V (no_index (Proc.devRef .tc Cert.ReferenceIdeal.main_v136))
      = cat3 (V (Proc.devRef .tc Cert.ReferenceIdeal.main_v133)) (V (Proc.devRef .tc Cert.ReferenceIdeal.main_v134)) (V (Proc.devRef .tc Cert.ReferenceIdeal.main_v135)) :=
  (nary_result ![Cert.ReferenceIdeal.main_v133, Cert.ReferenceIdeal.main_v134, Cert.ReferenceIdeal.main_v135] Cert.ReferenceIdeal.main_v136 _ hxs hy V).trans rfl

theorem cat_r_v156 (hxs hy) (V : Valuation Cert.ReferenceIdeal.τ Cert.ReferenceIdeal.sig (Elt F)) :
    (nary (τ := Cert.ReferenceIdeal.τ) ![Cert.ReferenceIdeal.main_v153, Cert.ReferenceIdeal.main_v154, Cert.ReferenceIdeal.main_v155] Cert.ReferenceIdeal.main_v156 (fun u => concatenate Cert.ReferenceIdeal.S64x32x3 2 [⟨Cert.ReferenceIdeal.S64x32x1, u 0⟩, ⟨Cert.ReferenceIdeal.S64x32x1, u 1⟩, ⟨Cert.ReferenceIdeal.S64x32x1, u 2⟩] Cert.ReferenceIdeal.Gen.concatenates_S64x32x1_S64x32x1_S64x32x1_S64x32x3_d2) hxs hy).result V (no_index (Proc.devRef .tc Cert.ReferenceIdeal.main_v156))
      = cat3 (V (Proc.devRef .tc Cert.ReferenceIdeal.main_v153)) (V (Proc.devRef .tc Cert.ReferenceIdeal.main_v154)) (V (Proc.devRef .tc Cert.ReferenceIdeal.main_v155)) :=
  (nary_result ![Cert.ReferenceIdeal.main_v153, Cert.ReferenceIdeal.main_v154, Cert.ReferenceIdeal.main_v155] Cert.ReferenceIdeal.main_v156 _ hxs hy V).trans rfl

theorem cat_r_v176 (hxs hy) (V : Valuation Cert.ReferenceIdeal.τ Cert.ReferenceIdeal.sig (Elt F)) :
    (nary (τ := Cert.ReferenceIdeal.τ) ![Cert.ReferenceIdeal.main_v173, Cert.ReferenceIdeal.main_v174, Cert.ReferenceIdeal.main_v175] Cert.ReferenceIdeal.main_v176 (fun u => concatenate Cert.ReferenceIdeal.S64x32x3 2 [⟨Cert.ReferenceIdeal.S64x32x1, u 0⟩, ⟨Cert.ReferenceIdeal.S64x32x1, u 1⟩, ⟨Cert.ReferenceIdeal.S64x32x1, u 2⟩] Cert.ReferenceIdeal.Gen.concatenates_S64x32x1_S64x32x1_S64x32x1_S64x32x3_d2) hxs hy).result V (no_index (Proc.devRef .tc Cert.ReferenceIdeal.main_v176))
      = cat3 (V (Proc.devRef .tc Cert.ReferenceIdeal.main_v173)) (V (Proc.devRef .tc Cert.ReferenceIdeal.main_v174)) (V (Proc.devRef .tc Cert.ReferenceIdeal.main_v175)) :=
  (nary_result ![Cert.ReferenceIdeal.main_v173, Cert.ReferenceIdeal.main_v174, Cert.ReferenceIdeal.main_v175] Cert.ReferenceIdeal.main_v176 _ hxs hy V).trans rfl

/-! ## The kernel program's six concatenations -/

theorem cat_k_v42 (hxs hy) (V : Valuation Cert.KernelIdeal.τ Cert.KernelIdeal.sig (Elt F)) :
    (nary (τ := Cert.KernelIdeal.τ) ![Cert.KernelIdeal.main_v38, Cert.KernelIdeal.main_v39, Cert.KernelIdeal.main_v40, Cert.KernelIdeal.main_v41] Cert.KernelIdeal.main_v42 (fun u => concatenate Cert.KernelIdeal.S64x32x4 2 [⟨Cert.KernelIdeal.S64x32x1, u 0⟩, ⟨Cert.KernelIdeal.S64x32x1, u 1⟩, ⟨Cert.KernelIdeal.S64x32x1, u 2⟩, ⟨Cert.KernelIdeal.S64x32x1, u 3⟩] Cert.KernelIdeal.Gen.concatenates_S64x32x1_S64x32x1_S64x32x1_S64x32x1_S64x32x4_d2) hxs hy).result V (no_index (Proc.devRef .tc Cert.KernelIdeal.main_v42))
      = cat4 (V (Proc.devRef .tc Cert.KernelIdeal.main_v38)) (V (Proc.devRef .tc Cert.KernelIdeal.main_v39)) (V (Proc.devRef .tc Cert.KernelIdeal.main_v40)) (V (Proc.devRef .tc Cert.KernelIdeal.main_v41)) :=
  (nary_result ![Cert.KernelIdeal.main_v38, Cert.KernelIdeal.main_v39, Cert.KernelIdeal.main_v40, Cert.KernelIdeal.main_v41] Cert.KernelIdeal.main_v42 _ hxs hy V).trans rfl

theorem cat_k_v65 (hxs hy) (V : Valuation Cert.KernelIdeal.τ Cert.KernelIdeal.sig (Elt F)) :
    (nary (τ := Cert.KernelIdeal.τ) ![Cert.KernelIdeal.main_v61, Cert.KernelIdeal.main_v62, Cert.KernelIdeal.main_v63, Cert.KernelIdeal.main_v64] Cert.KernelIdeal.main_v65 (fun u => concatenate Cert.KernelIdeal.S64x32x4 2 [⟨Cert.KernelIdeal.S64x32x1, u 0⟩, ⟨Cert.KernelIdeal.S64x32x1, u 1⟩, ⟨Cert.KernelIdeal.S64x32x1, u 2⟩, ⟨Cert.KernelIdeal.S64x32x1, u 3⟩] Cert.KernelIdeal.Gen.concatenates_S64x32x1_S64x32x1_S64x32x1_S64x32x1_S64x32x4_d2) hxs hy).result V (no_index (Proc.devRef .tc Cert.KernelIdeal.main_v65))
      = cat4 (V (Proc.devRef .tc Cert.KernelIdeal.main_v61)) (V (Proc.devRef .tc Cert.KernelIdeal.main_v62)) (V (Proc.devRef .tc Cert.KernelIdeal.main_v63)) (V (Proc.devRef .tc Cert.KernelIdeal.main_v64)) :=
  (nary_result ![Cert.KernelIdeal.main_v61, Cert.KernelIdeal.main_v62, Cert.KernelIdeal.main_v63, Cert.KernelIdeal.main_v64] Cert.KernelIdeal.main_v65 _ hxs hy V).trans rfl

theorem cat_k_v88 (hxs hy) (V : Valuation Cert.KernelIdeal.τ Cert.KernelIdeal.sig (Elt F)) :
    (nary (τ := Cert.KernelIdeal.τ) ![Cert.KernelIdeal.main_v84, Cert.KernelIdeal.main_v85, Cert.KernelIdeal.main_v86, Cert.KernelIdeal.main_v87] Cert.KernelIdeal.main_v88 (fun u => concatenate Cert.KernelIdeal.S64x32x4 2 [⟨Cert.KernelIdeal.S64x32x1, u 0⟩, ⟨Cert.KernelIdeal.S64x32x1, u 1⟩, ⟨Cert.KernelIdeal.S64x32x1, u 2⟩, ⟨Cert.KernelIdeal.S64x32x1, u 3⟩] Cert.KernelIdeal.Gen.concatenates_S64x32x1_S64x32x1_S64x32x1_S64x32x1_S64x32x4_d2) hxs hy).result V (no_index (Proc.devRef .tc Cert.KernelIdeal.main_v88))
      = cat4 (V (Proc.devRef .tc Cert.KernelIdeal.main_v84)) (V (Proc.devRef .tc Cert.KernelIdeal.main_v85)) (V (Proc.devRef .tc Cert.KernelIdeal.main_v86)) (V (Proc.devRef .tc Cert.KernelIdeal.main_v87)) :=
  (nary_result ![Cert.KernelIdeal.main_v84, Cert.KernelIdeal.main_v85, Cert.KernelIdeal.main_v86, Cert.KernelIdeal.main_v87] Cert.KernelIdeal.main_v88 _ hxs hy V).trans rfl

theorem cat_k_v111 (hxs hy) (V : Valuation Cert.KernelIdeal.τ Cert.KernelIdeal.sig (Elt F)) :
    (nary (τ := Cert.KernelIdeal.τ) ![Cert.KernelIdeal.main_v107, Cert.KernelIdeal.main_v108, Cert.KernelIdeal.main_v109, Cert.KernelIdeal.main_v110] Cert.KernelIdeal.main_v111 (fun u => concatenate Cert.KernelIdeal.S64x32x4 2 [⟨Cert.KernelIdeal.S64x32x1, u 0⟩, ⟨Cert.KernelIdeal.S64x32x1, u 1⟩, ⟨Cert.KernelIdeal.S64x32x1, u 2⟩, ⟨Cert.KernelIdeal.S64x32x1, u 3⟩] Cert.KernelIdeal.Gen.concatenates_S64x32x1_S64x32x1_S64x32x1_S64x32x1_S64x32x4_d2) hxs hy).result V (no_index (Proc.devRef .tc Cert.KernelIdeal.main_v111))
      = cat4 (V (Proc.devRef .tc Cert.KernelIdeal.main_v107)) (V (Proc.devRef .tc Cert.KernelIdeal.main_v108)) (V (Proc.devRef .tc Cert.KernelIdeal.main_v109)) (V (Proc.devRef .tc Cert.KernelIdeal.main_v110)) :=
  (nary_result ![Cert.KernelIdeal.main_v107, Cert.KernelIdeal.main_v108, Cert.KernelIdeal.main_v109, Cert.KernelIdeal.main_v110] Cert.KernelIdeal.main_v111 _ hxs hy V).trans rfl

theorem cat_k_v134 (hxs hy) (V : Valuation Cert.KernelIdeal.τ Cert.KernelIdeal.sig (Elt F)) :
    (nary (τ := Cert.KernelIdeal.τ) ![Cert.KernelIdeal.main_v130, Cert.KernelIdeal.main_v131, Cert.KernelIdeal.main_v132, Cert.KernelIdeal.main_v133] Cert.KernelIdeal.main_v134 (fun u => concatenate Cert.KernelIdeal.S64x32x4 2 [⟨Cert.KernelIdeal.S64x32x1, u 0⟩, ⟨Cert.KernelIdeal.S64x32x1, u 1⟩, ⟨Cert.KernelIdeal.S64x32x1, u 2⟩, ⟨Cert.KernelIdeal.S64x32x1, u 3⟩] Cert.KernelIdeal.Gen.concatenates_S64x32x1_S64x32x1_S64x32x1_S64x32x1_S64x32x4_d2) hxs hy).result V (no_index (Proc.devRef .tc Cert.KernelIdeal.main_v134))
      = cat4 (V (Proc.devRef .tc Cert.KernelIdeal.main_v130)) (V (Proc.devRef .tc Cert.KernelIdeal.main_v131)) (V (Proc.devRef .tc Cert.KernelIdeal.main_v132)) (V (Proc.devRef .tc Cert.KernelIdeal.main_v133)) :=
  (nary_result ![Cert.KernelIdeal.main_v130, Cert.KernelIdeal.main_v131, Cert.KernelIdeal.main_v132, Cert.KernelIdeal.main_v133] Cert.KernelIdeal.main_v134 _ hxs hy V).trans rfl

theorem cat_k_v157 (hxs hy) (V : Valuation Cert.KernelIdeal.τ Cert.KernelIdeal.sig (Elt F)) :
    (nary (τ := Cert.KernelIdeal.τ) ![Cert.KernelIdeal.main_v153, Cert.KernelIdeal.main_v154, Cert.KernelIdeal.main_v155, Cert.KernelIdeal.main_v156] Cert.KernelIdeal.main_v157 (fun u => concatenate Cert.KernelIdeal.S64x32x4 2 [⟨Cert.KernelIdeal.S64x32x1, u 0⟩, ⟨Cert.KernelIdeal.S64x32x1, u 1⟩, ⟨Cert.KernelIdeal.S64x32x1, u 2⟩, ⟨Cert.KernelIdeal.S64x32x1, u 3⟩] Cert.KernelIdeal.Gen.concatenates_S64x32x1_S64x32x1_S64x32x1_S64x32x1_S64x32x4_d2) hxs hy).result V (no_index (Proc.devRef .tc Cert.KernelIdeal.main_v157))
      = cat4 (V (Proc.devRef .tc Cert.KernelIdeal.main_v153)) (V (Proc.devRef .tc Cert.KernelIdeal.main_v154)) (V (Proc.devRef .tc Cert.KernelIdeal.main_v155)) (V (Proc.devRef .tc Cert.KernelIdeal.main_v156)) :=
  (nary_result ![Cert.KernelIdeal.main_v153, Cert.KernelIdeal.main_v154, Cert.KernelIdeal.main_v155, Cert.KernelIdeal.main_v156] Cert.KernelIdeal.main_v157 _ hxs hy V).trans rfl

/-- One evaluation pass over a line of the two programs' host operations: each operation's result at its own buffer is
    its function of its operands' contents, at any other buffer what was there. -/
macro "eval_host" : tactic =>
  `(tactic| (simp (disch := decide) only [after_cons, after_nil,
      nullary_result', unary_result', binary_result', ternary_result', quaternary_result', reshape_result',
      cat_r_v76, cat_r_v96, cat_r_v116, cat_r_v136, cat_r_v156, cat_r_v176, cat_k_v42, cat_k_v65, cat_k_v88, cat_k_v111, cat_k_v134, cat_k_v157,
      unaryIndexed_result', binaryIndexed_result',
      nullary_result_ne', unary_result_ne', binary_result_ne', ternary_result_ne', quaternary_result_ne', reshape_result_ne',
      nary_result_ne', unaryIndexed_result_ne', binaryIndexed_result_ne']))

end Cert.HostBridge

end
-- ==== Proof.HostCoord.lean ====
/-
  The coordinate loss on both sides. Both programs compute the same cell coordinates (floor of 256·x, clamped to
  [0, 255]) and the same batch index; the kernel program picks the four box channels straight out of the image array
  with a 4-column start index and takes the logistic afterwards, the reference takes the logistic of each transposed
  channel and picks with a 3-column start index. A point gather commutes with a pointwise map and the two start
  indices address the same cell, so the four gathered arrays agree, and everything after them is the same text.
-/
import proofs.«176000_j6725918786248_2_alg».proof.Proof.Gen.KernelIdeal.Launch
import proofs.«176000_j6725918786248_2_alg».proof.Proof.ReferenceRun
import proofs.«176000_j6725918786248_2_alg».proof.Proof.ChannelGather
import proofs.«176000_j6725918786248_2_alg».proof.Proof.ConcatOps
import Idealize.ShloMosaic.Lib.StableHlo.Run
import Idealize.ShloMosaic.PureOps.Ideal

noncomputable section

namespace Cert.HostBridge

open Idealize.ShloMosaic Idealize.ShloMosaic.TcCoe Idealize.SL.Sem Idealize.ShloMosaic.StableHlo

set_option maxHeartbeats 800000000 in
set_option maxRecDepth 65536 in
theorem coord_eq (V : Valuation Cert.KernelIdeal.τ Cert.KernelIdeal.sig (Elt Ideal)) (W : Valuation Cert.ReferenceIdeal.τ Cert.ReferenceIdeal.sig (Elt Ideal))
    (h0 : W (Proc.devRef .tc Cert.ReferenceIdeal.main_arg0) = V (Proc.devRef .tc Cert.KernelIdeal.main_arg0))
    (h1 : W (Proc.devRef .tc Cert.ReferenceIdeal.main_arg1) = V (Proc.devRef .tc Cert.KernelIdeal.main_arg1)) :
    after Cert.ReferenceIdeal.HandRun.ops W (Proc.devRef .tc Cert.ReferenceIdeal.main_v198)
      = after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4]) V (Proc.devRef .tc Cert.KernelIdeal.main_v203) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.ReferenceIdeal.HandRun.ops,
    List.flatten_cons, List.flatten_nil, List.append_nil, List.cons_append, List.nil_append]
  eval_host
  rw [h0, h1]
  -- the four gathered channels, in the order they stand in the sum: x, y, w, h
  first
    | (generalize hG : Host.gather Cert.ReferenceIdeal.gather_S64x256x256_S64x32x3_S64x32_n_012_n_n_012_2_111 _ _ = G
       obtain rfl : G = _ := hG.symm.trans (Cert.ChannelGather.gather_sig_0 (F := Ideal) _ _ _ _))
    | erw [Cert.ChannelGather.gather_sig_0]
  first
    | (generalize hG : Host.gather Cert.ReferenceIdeal.gather_S64x256x256_S64x32x3_S64x32_n_012_n_n_012_2_111 _ _ = G
       obtain rfl : G = _ := hG.symm.trans (Cert.ChannelGather.gather_sig_1 (F := Ideal) _ _ _ _))
    | erw [Cert.ChannelGather.gather_sig_1]
  first
    | (generalize hG : Host.gather Cert.ReferenceIdeal.gather_S64x256x256_S64x32x3_S64x32_n_012_n_n_012_2_111 _ _ = G
       obtain rfl : G = _ := hG.symm.trans (Cert.ChannelGather.gather_sig_2 (F := Ideal) _ _ _ _))
    | erw [Cert.ChannelGather.gather_sig_2]
  first
    | (generalize hG : Host.gather Cert.ReferenceIdeal.gather_S64x256x256_S64x32x3_S64x32_n_012_n_n_012_2_111 _ _ = G
       obtain rfl : G = _ := hG.symm.trans (Cert.ChannelGather.gather_sig_3 (F := Ideal) _ _ _ _))
    | erw [Cert.ChannelGather.gather_sig_3]
  rfl

end Cert.HostBridge

end
-- ==== Proof.HostObj.lean ====
/-
  The object loss on both sides: the objectness channel picked at the boxes' cells (raw, no logistic), then the same
  softplus-minus-logit text and the same sum.
-/
import proofs.«176000_j6725918786248_2_alg».proof.Proof.Gen.KernelIdeal.Launch
import proofs.«176000_j6725918786248_2_alg».proof.Proof.ReferenceRun
import proofs.«176000_j6725918786248_2_alg».proof.Proof.ChannelGather
import proofs.«176000_j6725918786248_2_alg».proof.Proof.ConcatOps
import Idealize.ShloMosaic.Lib.StableHlo.Run
import Idealize.ShloMosaic.PureOps.Ideal

noncomputable section

namespace Cert.HostBridge

open Idealize.ShloMosaic Idealize.ShloMosaic.TcCoe Idealize.SL.Sem Idealize.ShloMosaic.StableHlo

set_option maxHeartbeats 800000000 in
set_option maxRecDepth 65536 in
theorem obj_eq (V : Valuation Cert.KernelIdeal.τ Cert.KernelIdeal.sig (Elt Ideal)) (W : Valuation Cert.ReferenceIdeal.τ Cert.ReferenceIdeal.sig (Elt Ideal))
    (h0 : W (Proc.devRef .tc Cert.ReferenceIdeal.main_arg0) = V (Proc.devRef .tc Cert.KernelIdeal.main_arg0))
    (h1 : W (Proc.devRef .tc Cert.ReferenceIdeal.main_arg1) = V (Proc.devRef .tc Cert.KernelIdeal.main_arg1)) :
    after Cert.ReferenceIdeal.HandRun.ops W (Proc.devRef .tc Cert.ReferenceIdeal.main_v216)
      = after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4]) V (Proc.devRef .tc Cert.KernelIdeal.main_v221) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.ReferenceIdeal.HandRun.ops,
    List.flatten_cons, List.flatten_nil, List.append_nil, List.cons_append, List.nil_append]
  eval_host
  rw [h0, h1]
  first
    | (generalize hG : Host.gather Cert.ReferenceIdeal.gather_S64x256x256_S64x32x3_S64x32_n_012_n_n_012_2_111 _ _ = G
       obtain rfl : G = _ := hG.symm.trans (by
         first
           | exact Cert.ChannelGather.gather_raw_4 (F := Ideal) _ _ _ _))
    | erw [Cert.ChannelGather.gather_raw_4]
  rfl

end Cert.HostBridge

end
-- ==== Proof.HostClass.lean ====
/-
  The class loss on both sides: the class channel picked at the boxes' cells, then the same text and the same sum.
-/
import proofs.«176000_j6725918786248_2_alg».proof.Proof.Gen.KernelIdeal.Launch
import proofs.«176000_j6725918786248_2_alg».proof.Proof.ReferenceRun
import proofs.«176000_j6725918786248_2_alg».proof.Proof.ChannelGather
import proofs.«176000_j6725918786248_2_alg».proof.Proof.ConcatOps
import Idealize.ShloMosaic.Lib.StableHlo.Run
import Idealize.ShloMosaic.PureOps.Ideal

noncomputable section

namespace Cert.HostBridge

open Idealize.ShloMosaic Idealize.ShloMosaic.TcCoe Idealize.SL.Sem Idealize.ShloMosaic.StableHlo

set_option maxHeartbeats 800000000 in
set_option maxRecDepth 65536 in
theorem cls_eq (V : Valuation Cert.KernelIdeal.τ Cert.KernelIdeal.sig (Elt Ideal)) (W : Valuation Cert.ReferenceIdeal.τ Cert.ReferenceIdeal.sig (Elt Ideal))
    (h0 : W (Proc.devRef .tc Cert.ReferenceIdeal.main_arg0) = V (Proc.devRef .tc Cert.KernelIdeal.main_arg0))
    (h1 : W (Proc.devRef .tc Cert.ReferenceIdeal.main_arg1) = V (Proc.devRef .tc Cert.KernelIdeal.main_arg1)) :
    after Cert.ReferenceIdeal.HandRun.ops W (Proc.devRef .tc Cert.ReferenceIdeal.main_v234)
      = after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4]) V (Proc.devRef .tc Cert.KernelIdeal.main_v239) := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.ReferenceIdeal.HandRun.ops,
    List.flatten_cons, List.flatten_nil, List.append_nil, List.cons_append, List.nil_append]
  eval_host
  rw [h0, h1]
  first
    | (generalize hG : Host.gather Cert.ReferenceIdeal.gather_S64x256x256_S64x32x3_S64x32_n_012_n_n_012_2_111 _ _ = G
       obtain rfl : G = _ := hG.symm.trans (by
         first
           | exact Cert.ChannelGather.gather_raw_5 (F := Ideal) _ _ _ _))
    | erw [Cert.ChannelGather.gather_raw_5]
  rfl

end Cert.HostBridge

end
-- ==== Proof.HostTotal.lean ====
/- The reference's total is the sum of its four terms in the printed order. Its last three operations are the three
   additions ((coordinate + class) + no-object) + object, each writing a buffer of its own; the 353 operations before them
   produce the four terms. Folding the operations' results over the whole list is folding the last three over the fold
   of the first 353, and the last three leave the four terms' buffers alone, so the total's buffer holds the nested sum
   of the four buffers' final contents. -/
import proofs.«176000_j6725918786248_2_alg».proof.Proof.ReferenceRun
import Idealize.ShloMosaic.Lib.StableHlo.Run
import Idealize.ShloMosaic.Lib.Pipeline.Frame

noncomputable section

namespace Cert.HostBridge

open Idealize.ShloMosaic Idealize.ShloMosaic.TcCoe Idealize.SL.Sem Idealize.ShloMosaic.StableHlo

section Total

open Cert.ReferenceIdeal

variable {F : FTy → Type} [FloatOps F]

/-- The reference's last three operations: the additions that total the four terms. -/
abbrev totalOps : List (HloOp τ sig (Elt F)) :=
  [ binary main_v198 main_v216 main_v271 (addf : (⟨S_, .f32⟩ : BufTy).Contents (Elt F) → (⟨S_, .f32⟩ : BufTy).Contents (Elt F) → (⟨S_, .f32⟩ : BufTy).Contents (Elt F)),
    binary main_v271 main_v270 main_v272 (addf : (⟨S_, .f32⟩ : BufTy).Contents (Elt F) → (⟨S_, .f32⟩ : BufTy).Contents (Elt F) → (⟨S_, .f32⟩ : BufTy).Contents (Elt F)),
    binary main_v272 main_v234 main_v273 (addf : (⟨S_, .f32⟩ : BufTy).Contents (Elt F) → (⟨S_, .f32⟩ : BufTy).Contents (Elt F) → (⟨S_, .f32⟩ : BufTy).Contents (Elt F)) ]

set_option maxRecDepth 65536 in
set_option maxHeartbeats 40000000 in
/-- They are what is left of the reference's operations after the first 353. -/
theorem drop_ops : List.drop 353 (HandRun.ops : List (HloOp τ sig (Elt F))) = totalOps := rfl

/-- The fold over all operations is the fold of the last three over the fold of the first 353. -/
theorem after_ops_split (W : Valuation τ sig (Elt F)) :
    after HandRun.ops W = after totalOps (after (List.take 353 HandRun.ops) W) := by
  rw [← drop_ops, ← StableHlo.after_append, List.take_append_drop]

/-- Over any contents, the last three operations leave in the total's buffer the nested sum of what the four terms'
    buffers hold — which they do not write. -/
theorem totalOps_sum (W : Valuation τ sig (Elt F)) :
    after totalOps W (Proc.devRef .tc main_v273)
      = addf (F := F) (s := S_) (φ := .f32) (addf (F := F) (s := S_) (φ := .f32) (addf (F := F) (s := S_) (φ := .f32) (after totalOps W (Proc.devRef .tc main_v198)) (after totalOps W (Proc.devRef .tc main_v216)))
          (after totalOps W (Proc.devRef .tc main_v270))) (after totalOps W (Proc.devRef .tc main_v234)) := by
  simp only [totalOps]
  after_results_simp
  all_goals rfl

/-- The reference's total is the sum of its four terms, in the printed order. -/
theorem total_eq (W : Valuation τ sig (Elt F)) :
    after HandRun.ops W (Proc.devRef .tc main_v273)
      = addf (F := F) (s := S_) (φ := .f32) (addf (F := F) (s := S_) (φ := .f32) (addf (F := F) (s := S_) (φ := .f32) (after HandRun.ops W (Proc.devRef .tc main_v198)) (after HandRun.ops W (Proc.devRef .tc main_v216)))
          (after HandRun.ops W (Proc.devRef .tc main_v270))) (after HandRun.ops W (Proc.devRef .tc main_v234)) := by
  rw [after_ops_split W]
  exact totalOps_sum _

end Total

end Cert.HostBridge

end
-- ==== Proof.LibFlatSum.lean ====
/-
  Regrouping a sum over a flat index. A row-major flat index k < 8·8·256·256 is ((g·8 + t)·256 + h)·256 + w for
  exactly one quadruple of coordinates, so a sum over all flat indices is the four nested sums over the coordinates.
  Addition in a commutative monoid is all that is used (no finiteness): it holds of sums of extended reals.
-/
import Idealize.ShloMosaic.Lib.ValueIdx

open Idealize.ShloMosaic Idealize.ShloMosaic.ValueIdx

namespace Idealize.ShloMosaic.FlatSum

/-- The flat index of the cell (g·8 + t, h, w) of a [64, 256, 256] array laid out row-major. -/
def flatCell (g t : Fin 8) (h w : Fin 256) : Fin 4194304 :=
  ⟨((g.val * 8 + t.val) * 256 + h.val) * 256 + w.val, by
    have := g.isLt; have := t.isLt; have := h.isLt; have := w.isLt; omega⟩

theorem flatCell_injective : Function.Injective (fun p : Fin 8 × Fin 8 × Fin 256 × Fin 256 => flatCell p.1 p.2.1 p.2.2.1 p.2.2.2) := by
  rintro ⟨g, t, h, w⟩ ⟨g', t', h', w'⟩ heq
  have hv : ((g.val * 8 + t.val) * 256 + h.val) * 256 + w.val = ((g'.val * 8 + t'.val) * 256 + h'.val) * 256 + w'.val :=
    congrArg Fin.val heq
  have := g.isLt; have := t.isLt; have := h.isLt; have := w.isLt
  have := g'.isLt; have := t'.isLt; have := h'.isLt; have := w'.isLt
  have h1 : g.val = g'.val := by omega
  have h2 : t.val = t'.val := by omega
  have h3 : h.val = h'.val := by omega
  have h4 : w.val = w'.val := by omega
  exact Prod.ext (Fin.ext h1) (Prod.ext (Fin.ext h2) (Prod.ext (Fin.ext h3) (Fin.ext h4)))

theorem flatCell_bijective : Function.Bijective (fun p : Fin 8 × Fin 8 × Fin 256 × Fin 256 => flatCell p.1 p.2.1 p.2.2.1 p.2.2.2) := by
  rw [Fintype.bijective_iff_injective_and_card]
  refine ⟨flatCell_injective, ?_⟩
  simp only [Fintype.card_prod, Fintype.card_fin]

/-- A sum over the 4194304 flat indices is the nested sum over the cells' coordinates. -/
theorem sum_flat {M : Type*} [AddCommMonoid M] (f : Fin 4194304 → M) :
    ∑ k, f k = ∑ g : Fin 8, ∑ t : Fin 8, ∑ h : Fin 256, ∑ w : Fin 256, f (flatCell g t h w) := by
  rw [← Fintype.sum_bijective _ flatCell_bijective (fun p => f (flatCell p.1 p.2.1 p.2.2.1 p.2.2.2)) f (fun _ => rfl)]
  simp only [Fintype.sum_prod_type]

/-- The same over the index type of a rank-1 shape of that length. -/
theorem sum_flat_idx {M : Type*} [AddCommMonoid M] (f : (⟨1, ![4194304]⟩ : Shape).Idx → M) :
    ∑ j, f j = ∑ g : Fin 8, ∑ t : Fin 8, ∑ h : Fin 256, ∑ w : Fin 256, f (ix1 (flatCell g t h w)) := by
  rw [← sum_flat (fun k => f (ix1 k))]
  exact Fintype.sum_equiv
    (⟨fun j => j 0, ix1, fun j => (eq_ix1 j).symm, fun _ => rfl⟩ : (⟨1, ![4194304]⟩ : Shape).Idx ≃ Fin 4194304) _ _
    (fun j => congrArg f (eq_ix1 j))

end Idealize.ShloMosaic.FlatSum
-- ==== Proof.SoftplusCell.lean ====
/-
  The two spellings of the no-object cell agree on every extended real. The reference computes
  bce(z, 0) = logaddexp(0, z) − z·0; the kernel computes logaddexp(0, z). On the extended reals z·0 = 0 (also at ±∞) and
  subtracting 0 changes nothing, the comparison d ≠ d guarding logaddexp is false for every d (there is no NaN), and
  0 − a is −a; so both are max(0, z) + log1p(exp(−|−z|)). No finiteness of z is needed.
-/
import proofs.«176000_j6725918786248_2_alg».proof.Proof.RegionValue

noncomputable section

namespace Cert.NoObj

open Idealize.ShloMosaic Idealize.ShloMosaic.ValueIdx

/-- The reference's cell function, operation by operation as the host spells bce(z, 0). -/
def cellRef (z : EReal) : EReal :=
  Scalar.select (Ideal.cmp .une (Ideal.ofBits .f32 0x00000000#32 - z) (Ideal.ofBits .f32 0x00000000#32 - z))
      (Ideal.ofBits .f32 0x00000000#32 + z)
      (max (Ideal.ofBits .f32 0x00000000#32) z
        + Ideal.log1p (Ideal.exp (-(max (Ideal.ofBits .f32 0x00000000#32 - z) (-(Ideal.ofBits .f32 0x00000000#32 - z))))))
    - z * Ideal.ofBits .f32 0x00000000#32

/-- A float is never unequal to itself on the extended reals, ordered or unordered. -/
theorem cmp_self_one (d : EReal) : Ideal.cmp .one d d = 0#1 := by
  unfold Ideal.cmp; simp
theorem cmp_self_une (d : EReal) : Ideal.cmp .une d d = 0#1 := by
  unfold Ideal.cmp; simp

/-- The kernel's cell is the reference's, at every extended real. -/
theorem cell_eq (z : EReal) : Cert.KernelIdeal.RegionValue.cell z = cellRef z := by
  unfold Cert.KernelIdeal.RegionValue.cell cellRef
  rw [cmp_self_one, cmp_self_une, select_zero, select_zero, Ideal.ofBits_zero_f32, mul_zero, sub_zero, zero_sub]

end Cert.NoObj

end
-- ==== Proof.NoObjSum.lean ====
import Idealize.ShloMosaic.PureOps.Ideal.Laws
import Idealize.ShloMosaic.Lib.ValueIdx
import Idealize.ShloMosaic.Lib.Pipeline.Value
import proofs.«176000_j6725918786248_2_alg».proof.Proof.ChannelGather
import proofs.«176000_j6725918786248_2_alg».proof.Proof.LibFlatSum
import proofs.«176000_j6725918786248_2_alg».proof.Proof.RegionValue
import proofs.«176000_j6725918786248_2_alg».proof.Proof.SoftplusCell

/-!
# The no-object term: the reference's masked sum over the flat cells, read by coordinates

The reference flattens channel 4 of the image `[64, 6, 256, 256]` to `4194304` cells, applies to every cell the function
`z ↦ logaddexp(0, z) − z·0`, multiplies by a flat mask and sums everything. A flat cell is `((g·8 + t)·256 + h)·256 + w`
for exactly one `(g, t, h, w)`, the cell function acts on each element alone, and on the extended reals it is the
kernel's cell function; so the sum is the nested sum over `(g, t, h, w)` of the kernel's cell of the image at
`(g·8 + t, 4, h, w)` times the mask at that flat cell. The kernel reads the same mask reshaped to `[64, 256, 256]`.
-/

noncomputable section

namespace Cert.NoObjSum

open Idealize.ShloMosaic Idealize.ShloMosaic.ValueIdx Idealize.ShloMosaic.FlatSum

variable [ReferenceIdeal.Facts₀] [KernelIdeal.Facts₀]

/-- The image index `g·8 + t` of group `g`, member `t` is below 64. -/
theorem img_lt (g t : Fin 8) : g.val * 8 + t.val < 64 := by
  have := g.isLt; have := t.isLt; omega

/-- THE KERNEL'S MASK: the flat mask reshaped to `[64, 256, 256]` reads, at `(g·8 + t, h, w)`, the flat mask at the cell's
    row-major position. -/
theorem mask_cell (M : (⟨ReferenceIdeal.S4194304, .f32⟩ : BufTy).Contents (Elt Ideal)) (g t : Fin 8) (h w : Fin 256) :
    shapeCast KernelIdeal.S64x256x256 M KernelIdeal.Facts₀.shapeCasts_S4194304_S64x256x256 (ix3 ⟨g.val * 8 + t.val, img_lt g t⟩ h w)
      = M (ix1 (flatCell g t h w)) := by
  refine shapeCast_apply M _ _ (ix1 (flatCell g t h w)) ?_
  rw [Shape.rowMajor_val_one, Shape.rowMajor_val_three]
  rfl

/-- Channel 4 of the image flattened, read at the flat cell of `(g, t, h, w)`: the image at `(g·8 + t, 4, h, w)`. The
    flattening keeps the row-major position, and the channel is the image at that channel coordinate. -/
theorem flatChan_cell (x0 : (⟨ReferenceIdeal.S64x6x256x256, .f32⟩ : BufTy).Contents (Elt Ideal)) (g t : Fin 8) (h w : Fin 256) :
    (shapeCast ReferenceIdeal.S4194304 (shapeCast ReferenceIdeal.S64x256x256 (extractStridedSlice ReferenceIdeal.S64x256x256x1 ![0, 0, 0, 4] (transpose ReferenceIdeal.S64x256x256x6 [0, 2, 3, 1] x0 ReferenceIdeal.Facts₀.transposes_S64x6x256x256_S64x256x256x6_0_2_3_1) ReferenceIdeal.Facts₀.slices_S64x256x256x6_S64x256x256x1_0_0_0_4) ReferenceIdeal.Facts₀.shapeCasts_S64x256x256x1_S64x256x256) ReferenceIdeal.Facts₀.shapeCasts_S64x256x256_S4194304) (ix1 (flatCell g t h w))
      = x0 (ix4 ⟨g.val * 8 + t.val, img_lt g t⟩ 4 h w) := by
  refine (shapeCast_apply _ _ (ix1 (flatCell g t h w)) (ix3 ⟨g.val * 8 + t.val, img_lt g t⟩ h w) (by
    rw [Shape.rowMajor_val_one, Shape.rowMajor_val_three]
    rfl)).trans ?_
  exact ChannelGather.chan_apply 4 (by decide) _ _ _ x0 _ h w

/-- The reference's cell-by-cell term at one flat index: its operations are all elementwise (a constant broadcast reads
    the constant; at the extended reals the host's subtract, add, multiply, maximum, negate, absolute value, exponential
    and log-plus-one are the extended reals' own), so at index `j` the term is the reference's cell function of `zf j` times
    the mask at `j`. -/
theorem term_apply (zf M : (⟨ReferenceIdeal.S4194304, .f32⟩ : BufTy).Contents (Elt Ideal)) (j : ReferenceIdeal.S4194304.Idx) :
    mulf (F := Ideal) (φ := .f32) (subf (F := Ideal) (φ := .f32) (select (cmpf (F := Ideal) (φ := .f32) .une (subf (F := Ideal) (φ := .f32) (broadcastInDim ReferenceIdeal.S4194304 ![] ReferenceIdeal.Facts₀.bcast_S_S4194304 (constant (F := Ideal) ReferenceIdeal.S_ .f32 0x00000000#32)) zf) (subf (F := Ideal) (φ := .f32) (broadcastInDim ReferenceIdeal.S4194304 ![] ReferenceIdeal.Facts₀.bcast_S_S4194304 (constant (F := Ideal) ReferenceIdeal.S_ .f32 0x00000000#32)) zf)) (addf (F := Ideal) (φ := .f32) (broadcastInDim ReferenceIdeal.S4194304 ![] ReferenceIdeal.Facts₀.bcast_S_S4194304 (constant (F := Ideal) ReferenceIdeal.S_ .f32 0x00000000#32)) zf) (addf (F := Ideal) (φ := .f32) (maximumf (F := Ideal) (φ := .f32) (broadcastInDim ReferenceIdeal.S4194304 ![] ReferenceIdeal.Facts₀.bcast_S_S4194304 (constant (F := Ideal) ReferenceIdeal.S_ .f32 0x00000000#32)) zf) (Host.log1p (F := Ideal) (φ := .f32) (Host.exp (F := Ideal) (φ := .f32) (Host.negf (F := Ideal) (φ := .f32) (Host.absf (F := Ideal) (φ := .f32) (subf (F := Ideal) (φ := .f32) (broadcastInDim ReferenceIdeal.S4194304 ![] ReferenceIdeal.Facts₀.bcast_S_S4194304 (constant (F := Ideal) ReferenceIdeal.S_ .f32 0x00000000#32)) zf))))))) (mulf (F := Ideal) (φ := .f32) zf (broadcastInDim ReferenceIdeal.S4194304 ![] ReferenceIdeal.Facts₀.bcast_S_S4194304 (constant (F := Ideal) ReferenceIdeal.S_ .f32 0x00000000#32)))) M j
      = NoObj.cellRef (zf j) * M j := rfl

/-- THE REFERENCE'S SUM. The host sum over the flat cells, from the initial value 0, of the cell term times the mask is the
    nested sum over groups, members, rows and columns of the kernel's cell function of the image's channel 4 there, times
    the mask at the flat cell. -/
theorem ref_sum (x0 : (⟨ReferenceIdeal.S64x6x256x256, .f32⟩ : BufTy).Contents (Elt Ideal)) (M : (⟨ReferenceIdeal.S4194304, .f32⟩ : BufTy).Contents (Elt Ideal)) :
    Host.reduceAdd (F := Ideal) (φ := .f32) (mulf (F := Ideal) (φ := .f32) (subf (F := Ideal) (φ := .f32) (select (cmpf (F := Ideal) (φ := .f32) .une (subf (F := Ideal) (φ := .f32) (broadcastInDim ReferenceIdeal.S4194304 ![] ReferenceIdeal.Facts₀.bcast_S_S4194304 (constant (F := Ideal) ReferenceIdeal.S_ .f32 0x00000000#32)) (shapeCast ReferenceIdeal.S4194304 (shapeCast ReferenceIdeal.S64x256x256 (extractStridedSlice ReferenceIdeal.S64x256x256x1 ![0, 0, 0, 4] (transpose ReferenceIdeal.S64x256x256x6 [0, 2, 3, 1] x0 ReferenceIdeal.Facts₀.transposes_S64x6x256x256_S64x256x256x6_0_2_3_1) ReferenceIdeal.Facts₀.slices_S64x256x256x6_S64x256x256x1_0_0_0_4) ReferenceIdeal.Facts₀.shapeCasts_S64x256x256x1_S64x256x256) ReferenceIdeal.Facts₀.shapeCasts_S64x256x256_S4194304)) (subf (F := Ideal) (φ := .f32) (broadcastInDim ReferenceIdeal.S4194304 ![] ReferenceIdeal.Facts₀.bcast_S_S4194304 (constant (F := Ideal) ReferenceIdeal.S_ .f32 0x00000000#32)) (shapeCast ReferenceIdeal.S4194304 (shapeCast ReferenceIdeal.S64x256x256 (extractStridedSlice ReferenceIdeal.S64x256x256x1 ![0, 0, 0, 4] (transpose ReferenceIdeal.S64x256x256x6 [0, 2, 3, 1] x0 ReferenceIdeal.Facts₀.transposes_S64x6x256x256_S64x256x256x6_0_2_3_1) ReferenceIdeal.Facts₀.slices_S64x256x256x6_S64x256x256x1_0_0_0_4) ReferenceIdeal.Facts₀.shapeCasts_S64x256x256x1_S64x256x256) ReferenceIdeal.Facts₀.shapeCasts_S64x256x256_S4194304))) (addf (F := Ideal) (φ := .f32) (broadcastInDim ReferenceIdeal.S4194304 ![] ReferenceIdeal.Facts₀.bcast_S_S4194304 (constant (F := Ideal) ReferenceIdeal.S_ .f32 0x00000000#32)) (shapeCast ReferenceIdeal.S4194304 (shapeCast ReferenceIdeal.S64x256x256 (extractStridedSlice ReferenceIdeal.S64x256x256x1 ![0, 0, 0, 4] (transpose ReferenceIdeal.S64x256x256x6 [0, 2, 3, 1] x0 ReferenceIdeal.Facts₀.transposes_S64x6x256x256_S64x256x256x6_0_2_3_1) ReferenceIdeal.Facts₀.slices_S64x256x256x6_S64x256x256x1_0_0_0_4) ReferenceIdeal.Facts₀.shapeCasts_S64x256x256x1_S64x256x256) ReferenceIdeal.Facts₀.shapeCasts_S64x256x256_S4194304)) (addf (F := Ideal) (φ := .f32) (maximumf (F := Ideal) (φ := .f32) (broadcastInDim ReferenceIdeal.S4194304 ![] ReferenceIdeal.Facts₀.bcast_S_S4194304 (constant (F := Ideal) ReferenceIdeal.S_ .f32 0x00000000#32)) (shapeCast ReferenceIdeal.S4194304 (shapeCast ReferenceIdeal.S64x256x256 (extractStridedSlice ReferenceIdeal.S64x256x256x1 ![0, 0, 0, 4] (transpose ReferenceIdeal.S64x256x256x6 [0, 2, 3, 1] x0 ReferenceIdeal.Facts₀.transposes_S64x6x256x256_S64x256x256x6_0_2_3_1) ReferenceIdeal.Facts₀.slices_S64x256x256x6_S64x256x256x1_0_0_0_4) ReferenceIdeal.Facts₀.shapeCasts_S64x256x256x1_S64x256x256) ReferenceIdeal.Facts₀.shapeCasts_S64x256x256_S4194304)) (Host.log1p (F := Ideal) (φ := .f32) (Host.exp (F := Ideal) (φ := .f32) (Host.negf (F := Ideal) (φ := .f32) (Host.absf (F := Ideal) (φ := .f32) (subf (F := Ideal) (φ := .f32) (broadcastInDim ReferenceIdeal.S4194304 ![] ReferenceIdeal.Facts₀.bcast_S_S4194304 (constant (F := Ideal) ReferenceIdeal.S_ .f32 0x00000000#32)) (shapeCast ReferenceIdeal.S4194304 (shapeCast ReferenceIdeal.S64x256x256 (extractStridedSlice ReferenceIdeal.S64x256x256x1 ![0, 0, 0, 4] (transpose ReferenceIdeal.S64x256x256x6 [0, 2, 3, 1] x0 ReferenceIdeal.Facts₀.transposes_S64x6x256x256_S64x256x256x6_0_2_3_1) ReferenceIdeal.Facts₀.slices_S64x256x256x6_S64x256x256x1_0_0_0_4) ReferenceIdeal.Facts₀.shapeCasts_S64x256x256x1_S64x256x256) ReferenceIdeal.Facts₀.shapeCasts_S64x256x256_S4194304)))))))) (mulf (F := Ideal) (φ := .f32) (shapeCast ReferenceIdeal.S4194304 (shapeCast ReferenceIdeal.S64x256x256 (extractStridedSlice ReferenceIdeal.S64x256x256x1 ![0, 0, 0, 4] (transpose ReferenceIdeal.S64x256x256x6 [0, 2, 3, 1] x0 ReferenceIdeal.Facts₀.transposes_S64x6x256x256_S64x256x256x6_0_2_3_1) ReferenceIdeal.Facts₀.slices_S64x256x256x6_S64x256x256x1_0_0_0_4) ReferenceIdeal.Facts₀.shapeCasts_S64x256x256x1_S64x256x256) ReferenceIdeal.Facts₀.shapeCasts_S64x256x256_S4194304) (broadcastInDim ReferenceIdeal.S4194304 ![] ReferenceIdeal.Facts₀.bcast_S_S4194304 (constant (F := Ideal) ReferenceIdeal.S_ .f32 0x00000000#32)))) M)
        (constant (F := Ideal) ReferenceIdeal.S_ .f32 0x00000000#32) ReferenceIdeal.Facts₀.reducesTo_S4194304_S_d0 ReferenceIdeal.Facts₀.h_S_ ix0
      = ∑ g : Fin 8, ∑ t : Fin 8, ∑ h : Fin 256, ∑ w : Fin 256,
          KernelIdeal.RegionValue.cell (x0 (ix4 ⟨g.val * 8 + t.val, img_lt g t⟩ 4 h w)) * M (ix1 (flatCell g t h w)) := by
  refine (Ideal.hostReduceAdd_total ReferenceIdeal.Facts₀.reducesTo_S4194304_S_d0 (fun b => b.elim0) _ _ ix0).trans ?_
  rw [show constant (F := Ideal) ReferenceIdeal.S_ .f32 0x00000000#32 (Shape.Idx.first ReferenceIdeal.Facts₀.h_S_)
      = Ideal.ofBits .f32 0x00000000#32 from rfl, Ideal.ofBits_zero_f32, zero_add, sum_flat_idx]
  refine Finset.sum_congr rfl fun g _ => Finset.sum_congr rfl fun t _ => Finset.sum_congr rfl fun h _ =>
    Finset.sum_congr rfl fun w _ => ?_
  rw [term_apply, flatChan_cell, NoObj.cell_eq]

end Cert.NoObjSum

end
-- ==== Proof.HostMask.lean ====
/-
  The mask on both sides: a vector of 4194304 ones with the boxes' cells (flat index (b·256 + gy)·256 + gx) set to zero
  by one scatter. The two programs build the same start indices and scatter the same values; the kernel program then
  views the flat vector as [64, 256, 256].
-/
import proofs.«176000_j6725918786248_2_alg».proof.Proof.Gen.KernelIdeal.Launch
import proofs.«176000_j6725918786248_2_alg».proof.Proof.ReferenceRun
import proofs.«176000_j6725918786248_2_alg».proof.Proof.ChannelGather
import Idealize.ShloMosaic.Lib.StableHlo.Run
import Idealize.ShloMosaic.PureOps.Ideal

noncomputable section

namespace Cert.HostBridge

open Idealize.ShloMosaic Idealize.ShloMosaic.TcCoe Idealize.SL.Sem Idealize.ShloMosaic.StableHlo

set_option maxHeartbeats 800000000 in
set_option maxRecDepth 65536 in
theorem mask_eq (V : Valuation Cert.KernelIdeal.τ Cert.KernelIdeal.sig (Elt Ideal)) (W : Valuation Cert.ReferenceIdeal.τ Cert.ReferenceIdeal.sig (Elt Ideal))
    (h0 : W (Proc.devRef .tc Cert.ReferenceIdeal.main_arg0) = V (Proc.devRef .tc Cert.KernelIdeal.main_arg0))
    (h1 : W (Proc.devRef .tc Cert.ReferenceIdeal.main_arg1) = V (Proc.devRef .tc Cert.KernelIdeal.main_arg1)) :
    after (List.flatten [Cert.KernelIdeal.Gen.hostOps0, Cert.KernelIdeal.Gen.hostOps0_1, Cert.KernelIdeal.Gen.hostOps0_2, Cert.KernelIdeal.Gen.hostOps0_3, Cert.KernelIdeal.Gen.hostOps0_4]) V (Proc.devRef .tc Cert.KernelIdeal.main_v256)
      = shapeCast Cert.KernelIdeal.S64x256x256 (after Cert.ReferenceIdeal.HandRun.ops W (Proc.devRef .tc Cert.ReferenceIdeal.main_v250)) Cert.KernelIdeal.Gen.shapeCasts_S4194304_S64x256x256 := by
  simp only [Cert.KernelIdeal.Gen.hostOps0, Cert.KernelIdeal.Gen.hostOps0_1, Cert.KernelIdeal.Gen.hostOps0_2, Cert.KernelIdeal.Gen.hostOps0_3, Cert.KernelIdeal.Gen.hostOps0_4, Cert.ReferenceIdeal.HandRun.ops,
    List.flatten_cons, List.flatten_nil, List.append_nil, List.cons_append, List.nil_append]
  after_results_simp
  rw [h1]
  rfl

end Cert.HostBridge

end
-- ==== Proof.HostChan4.lean ====
/- Channel 4 of the image as the reference holds it: the image transposed to channels-last, its channel 4 sliced out and
   the unit axis dropped. Three of the reference's first 43 operations compute it into one buffer and none of the later
   operations writes that buffer, so the fold of all the operations' results over any contents has it there. -/
import proofs.«176000_j6725918786248_2_alg».proof.Proof.ReferenceRun
import Idealize.ShloMosaic.Lib.StableHlo.Run
import Idealize.ShloMosaic.PureOps.Ideal

noncomputable section

namespace Cert.HostBridge

open Idealize.ShloMosaic Idealize.ShloMosaic.TcCoe Idealize.SL.Sem Idealize.ShloMosaic.StableHlo

set_option maxHeartbeats 800000000 in
set_option maxRecDepth 65536 in
/-- The buffer of the reshaped objectness channel holds channel 4 of the transposed image, as a `[64, 256, 256]` array. -/
theorem chan4_eq (W : Valuation Cert.ReferenceIdeal.τ Cert.ReferenceIdeal.sig (Elt Ideal)) :
    after Cert.ReferenceIdeal.HandRun.ops W (Proc.devRef .tc Cert.ReferenceIdeal.main_v34)
      = shapeCast Cert.ReferenceIdeal.S64x256x256 (extractStridedSlice Cert.ReferenceIdeal.S64x256x256x1 ![0, 0, 0, 4] (transpose Cert.ReferenceIdeal.S64x256x256x6 [0, 2, 3, 1] (W (Proc.devRef .tc Cert.ReferenceIdeal.main_arg0) : (⟨Cert.ReferenceIdeal.S64x6x256x256, .f32⟩ : BufTy).Contents (Elt Ideal)) Cert.ReferenceIdeal.Facts₀.transposes_S64x6x256x256_S64x256x256x6_0_2_3_1) Cert.ReferenceIdeal.Facts₀.slices_S64x256x256x6_S64x256x256x1_0_0_0_4) Cert.ReferenceIdeal.Facts₀.shapeCasts_S64x256x256x1_S64x256x256 := by
  simp only [Cert.ReferenceIdeal.HandRun.ops]
  after_results_simp
  all_goals rfl

end Cert.HostBridge

end
-- ==== Proof.HostNoObj.lean ====
/- The reference's no-object term, read off its operations. After the scatter has produced the mask, the reference
   flattens channel 4 of the transposed image to 4194304 cells, applies the softplus-style cell function to every cell
   (in the printed spelling: select on the self-comparison of 0 − z, the sum 0 + z, max(0, z) + log1p(exp(−|0 − z|)), minus
   z·0), multiplies by the mask, sums all cells from the initial value 0 and halves the sum. These are the reference's
   last 27 operations; the 329 before them end with the scatter. Folding all the operations' results is folding the
   last 27 over the fold of the first 329, and the last 27 read only two earlier buffers — the reshaped channel and the
   mask — and write neither, so the no-object result is this composition of the two buffers' final contents. -/
import proofs.«176000_j6725918786248_2_alg».proof.Proof.ReferenceRun
import proofs.«176000_j6725918786248_2_alg».proof.Proof.HostChan4
import Idealize.ShloMosaic.Lib.StableHlo.Run
import Idealize.ShloMosaic.Lib.Pipeline.Frame
import Idealize.ShloMosaic.PureOps.Ideal

noncomputable section

namespace Cert.HostBridge

open Idealize.ShloMosaic Idealize.ShloMosaic.TcCoe Idealize.SL.Sem Idealize.ShloMosaic.StableHlo

section NoObj

open Cert.ReferenceIdeal Cert.ReferenceIdeal.Gen

/-- The reference's last 27 operations: the cell function over the flattened channel, the masked sum, its half, and the
    three additions of the total. -/
abbrev closingOps {F : FTy → Type} [FloatOps F] : List (HloOp τ sig (Elt F)) :=
  [ reshape main_v34 main_v251 rfl shapeCasts_S64x256x256_S4194304,
    nullary main_cst_66 (constant S_ .f32 0x00000000#32),
    unary main_cst_66 main_v252 (broadcastInDim S4194304 ![] bcast_S_S4194304 : (⟨S_, .f32⟩ : BufTy).Contents (Elt F) → (⟨S4194304, .f32⟩ : BufTy).Contents (Elt F)),
    binary main_v252 main_v251 main_v253 (maximumf : (⟨S4194304, .f32⟩ : BufTy).Contents (Elt F) → (⟨S4194304, .f32⟩ : BufTy).Contents (Elt F) → (⟨S4194304, .f32⟩ : BufTy).Contents (Elt F)),
    unary main_cst_66 main_v254 (broadcastInDim S4194304 ![] bcast_S_S4194304 : (⟨S_, .f32⟩ : BufTy).Contents (Elt F) → (⟨S4194304, .f32⟩ : BufTy).Contents (Elt F)),
    binary main_v254 main_v251 main_v255 (subf : (⟨S4194304, .f32⟩ : BufTy).Contents (Elt F) → (⟨S4194304, .f32⟩ : BufTy).Contents (Elt F) → (⟨S4194304, .f32⟩ : BufTy).Contents (Elt F)),
    binary main_v255 main_v255 main_v256 (cmpf .une : (⟨S4194304, .f32⟩ : BufTy).Contents (Elt F) → (⟨S4194304, .f32⟩ : BufTy).Contents (Elt F) → (⟨S4194304, .i1⟩ : BufTy).Contents (Elt F)),
    unary main_cst_66 main_v257 (broadcastInDim S4194304 ![] bcast_S_S4194304 : (⟨S_, .f32⟩ : BufTy).Contents (Elt F) → (⟨S4194304, .f32⟩ : BufTy).Contents (Elt F)),
    binary main_v257 main_v251 main_v258 (addf : (⟨S4194304, .f32⟩ : BufTy).Contents (Elt F) → (⟨S4194304, .f32⟩ : BufTy).Contents (Elt F) → (⟨S4194304, .f32⟩ : BufTy).Contents (Elt F)),
    unary main_v255 main_v259 (Host.absf : (⟨S4194304, .f32⟩ : BufTy).Contents (Elt F) → (⟨S4194304, .f32⟩ : BufTy).Contents (Elt F)),
    unary main_v259 main_v260 (Host.negf : (⟨S4194304, .f32⟩ : BufTy).Contents (Elt F) → (⟨S4194304, .f32⟩ : BufTy).Contents (Elt F)),
    unary main_v260 main_v261 (Host.exp : (⟨S4194304, .f32⟩ : BufTy).Contents (Elt F) → (⟨S4194304, .f32⟩ : BufTy).Contents (Elt F)),
    unary main_v261 main_v262 (Host.log1p : (⟨S4194304, .f32⟩ : BufTy).Contents (Elt F) → (⟨S4194304, .f32⟩ : BufTy).Contents (Elt F)),
    binary main_v253 main_v262 main_v263 (addf : (⟨S4194304, .f32⟩ : BufTy).Contents (Elt F) → (⟨S4194304, .f32⟩ : BufTy).Contents (Elt F) → (⟨S4194304, .f32⟩ : BufTy).Contents (Elt F)),
    ternary main_v256 main_v258 main_v263 main_v264 (select : (⟨S4194304, .i1⟩ : BufTy).Contents (Elt F) → (⟨S4194304, .f32⟩ : BufTy).Contents (Elt F) → (⟨S4194304, .f32⟩ : BufTy).Contents (Elt F) → (⟨S4194304, .f32⟩ : BufTy).Contents (Elt F)),
    nullary main_cst_67 (constant S_ .f32 0x00000000#32),
    unary main_cst_67 main_v265 (broadcastInDim S4194304 ![] bcast_S_S4194304 : (⟨S_, .f32⟩ : BufTy).Contents (Elt F) → (⟨S4194304, .f32⟩ : BufTy).Contents (Elt F)),
    binary main_v251 main_v265 main_v266 (mulf : (⟨S4194304, .f32⟩ : BufTy).Contents (Elt F) → (⟨S4194304, .f32⟩ : BufTy).Contents (Elt F) → (⟨S4194304, .f32⟩ : BufTy).Contents (Elt F)),
    binary main_v264 main_v266 main_v267 (subf : (⟨S4194304, .f32⟩ : BufTy).Contents (Elt F) → (⟨S4194304, .f32⟩ : BufTy).Contents (Elt F) → (⟨S4194304, .f32⟩ : BufTy).Contents (Elt F)),
    binary main_v267 main_v250 main_v268 (mulf : (⟨S4194304, .f32⟩ : BufTy).Contents (Elt F) → (⟨S4194304, .f32⟩ : BufTy).Contents (Elt F) → (⟨S4194304, .f32⟩ : BufTy).Contents (Elt F)),
    nullary main_cst_68 (constant S_ .f32 0x00000000#32),
    binary main_v268 main_cst_68 main_v269 ((fun x v => Host.reduceAdd x v reducesTo_S4194304_S_d0 h_S_) : (⟨S4194304, .f32⟩ : BufTy).Contents (Elt F) → (⟨S_, .f32⟩ : BufTy).Contents (Elt F) → (⟨S_, .f32⟩ : BufTy).Contents (Elt F)),
    nullary main_cst_69 (constant S_ .f32 0x3F000000#32),
    binary main_cst_69 main_v269 main_v270 (mulf : (⟨S_, .f32⟩ : BufTy).Contents (Elt F) → (⟨S_, .f32⟩ : BufTy).Contents (Elt F) → (⟨S_, .f32⟩ : BufTy).Contents (Elt F)),
    binary main_v198 main_v216 main_v271 (addf : (⟨S_, .f32⟩ : BufTy).Contents (Elt F) → (⟨S_, .f32⟩ : BufTy).Contents (Elt F) → (⟨S_, .f32⟩ : BufTy).Contents (Elt F)),
    binary main_v271 main_v270 main_v272 (addf : (⟨S_, .f32⟩ : BufTy).Contents (Elt F) → (⟨S_, .f32⟩ : BufTy).Contents (Elt F) → (⟨S_, .f32⟩ : BufTy).Contents (Elt F)),
    binary main_v272 main_v234 main_v273 (addf : (⟨S_, .f32⟩ : BufTy).Contents (Elt F) → (⟨S_, .f32⟩ : BufTy).Contents (Elt F) → (⟨S_, .f32⟩ : BufTy).Contents (Elt F)) ]

set_option maxRecDepth 65536 in
set_option maxHeartbeats 40000000 in
/-- They are what is left of the reference's operations after the first 329. -/
theorem drop_closing {F : FTy → Type} [FloatOps F] : List.drop 329 (HandRun.ops : List (HloOp τ sig (Elt F))) = closingOps := rfl

/-- The fold over all operations is the fold of the last 27 over the fold of the first 329. -/
theorem after_ops_closing {F : FTy → Type} [FloatOps F] (W : Valuation τ sig (Elt F)) :
    after HandRun.ops W = after closingOps (after (List.take 329 HandRun.ops) W) := by
  rw [← drop_closing, ← StableHlo.after_append, List.take_append_drop]

end NoObj

/-- The last 27 operations do not write the reshaped channel's buffer. -/
theorem closing_v34 (W' : Valuation Cert.ReferenceIdeal.τ Cert.ReferenceIdeal.sig (Elt Ideal)) :
    after closingOps W' (Proc.devRef .tc Cert.ReferenceIdeal.main_v34) = W' (Proc.devRef .tc Cert.ReferenceIdeal.main_v34) := by
  simp only [closingOps]
  after_results_simp
  all_goals rfl

/-- Nor the mask's. -/
theorem closing_v250 (W' : Valuation Cert.ReferenceIdeal.τ Cert.ReferenceIdeal.sig (Elt Ideal)) :
    after closingOps W' (Proc.devRef .tc Cert.ReferenceIdeal.main_v250) = W' (Proc.devRef .tc Cert.ReferenceIdeal.main_v250) := by
  simp only [closingOps]
  after_results_simp
  all_goals rfl

set_option maxHeartbeats 4000000 in
/-- Over any contents, the last 27 operations leave in the no-object buffer half the sum, over the flat cells, of the cell
    function of the reshaped channel times the mask. -/
theorem closing_noobj (W' : Valuation Cert.ReferenceIdeal.τ Cert.ReferenceIdeal.sig (Elt Ideal)) :
    after closingOps W' (Proc.devRef .tc Cert.ReferenceIdeal.main_v270)
      = mulf (F := Ideal) (φ := .f32) (constant (F := Ideal) Cert.ReferenceIdeal.S_ .f32 0x3F000000#32) (Host.reduceAdd (F := Ideal) (φ := .f32) (mulf (F := Ideal) (φ := .f32) (subf (F := Ideal) (φ := .f32) (select (cmpf (F := Ideal) (φ := .f32) .une (subf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (W' (Proc.devRef .tc Cert.ReferenceIdeal.main_v34) : (⟨Cert.ReferenceIdeal.S64x256x256, .f32⟩ : BufTy).Contents (Elt Ideal)) Cert.ReferenceIdeal.Facts₀.shapeCasts_S64x256x256_S4194304)) (subf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (W' (Proc.devRef .tc Cert.ReferenceIdeal.main_v34) : (⟨Cert.ReferenceIdeal.S64x256x256, .f32⟩ : BufTy).Contents (Elt Ideal)) Cert.ReferenceIdeal.Facts₀.shapeCasts_S64x256x256_S4194304))) (addf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (W' (Proc.devRef .tc Cert.ReferenceIdeal.main_v34) : (⟨Cert.ReferenceIdeal.S64x256x256, .f32⟩ : BufTy).Contents (Elt Ideal)) Cert.ReferenceIdeal.Facts₀.shapeCasts_S64x256x256_S4194304)) (addf (F := Ideal) (φ := .f32) (maximumf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (W' (Proc.devRef .tc Cert.ReferenceIdeal.main_v34) : (⟨Cert.ReferenceIdeal.S64x256x256, .f32⟩ : BufTy).Contents (Elt Ideal)) Cert.ReferenceIdeal.Facts₀.shapeCasts_S64x256x256_S4194304)) (Host.log1p (F := Ideal) (φ := .f32) (Host.exp (F := Ideal) (φ := .f32) (Host.negf (F := Ideal) (φ := .f32) (Host.absf (F := Ideal) (φ := .f32) (subf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (W' (Proc.devRef .tc Cert.ReferenceIdeal.main_v34) : (⟨Cert.ReferenceIdeal.S64x256x256, .f32⟩ : BufTy).Contents (Elt Ideal)) Cert.ReferenceIdeal.Facts₀.shapeCasts_S64x256x256_S4194304)))))))) (mulf (F := Ideal) (φ := .f32) (shapeCast Cert.ReferenceIdeal.S4194304 (W' (Proc.devRef .tc Cert.ReferenceIdeal.main_v34) : (⟨Cert.ReferenceIdeal.S64x256x256, .f32⟩ : BufTy).Contents (Elt Ideal)) Cert.ReferenceIdeal.Facts₀.shapeCasts_S64x256x256_S4194304) (broadcastInDim Cert.ReferenceIdeal.S4194304 ![] Cert.ReferenceIdeal.Facts₀.bcast_S_S4194304 (constant (F := Ideal) Cert.ReferenceIdeal.S_ .f32 0x00000000#32)))) (W' (Proc.devRef .tc Cert.ReferenceIdeal.main_v250) : (⟨Cert.ReferenceIdeal.S4194304, .f32⟩ : BufTy).Contents (Elt Ideal))) (constant (F := Ideal) Cert.ReferenceIdeal.S_ .f32 0x00000000#32) Cert.ReferenceIdeal.Facts₀.reducesTo_S4194304_S_d0 Cert.ReferenceIdeal.Facts₀.h_S_) := by
  simp only [closingOps]
  after_results_simp
  all_goals rfl

/-- The no-object result of the reference from the final contents of the reshaped channel's buffer and of the mask's. -/
theorem noobj_ref_chan (W : Valuation Cert.ReferenceIdeal.τ Cert.ReferenceIdeal.sig (Elt Ideal)) :
    after Cert.ReferenceIdeal.HandRun.ops W (Proc.devRef .tc Cert.ReferenceIdeal.main_v270)
      = mulf (F := Ideal) (φ := .f32) (constant (F := Ideal) Cert.ReferenceIdeal.S_ .f32 0x3F000000#32) (Host.reduceAdd (F := Ideal) (φ := .f32) (mulf (F := Ideal) (φ := .f32) (subf (F := Ideal) (φ := .f32) (select (cmpf (F := Ideal) (φ := .f32) .une (subf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (after Cert.ReferenceIdeal.HandRun.ops W (Proc.devRef .tc Cert.ReferenceIdeal.main_v34) : (⟨Cert.ReferenceIdeal.S64x256x256, .f32⟩ : BufTy).Contents (Elt Ideal)) Cert.ReferenceIdeal.Facts₀.shapeCasts_S64x256x256_S4194304)) (subf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (after Cert.ReferenceIdeal.HandRun.ops W (Proc.devRef .tc Cert.ReferenceIdeal.main_v34) : (⟨Cert.ReferenceIdeal.S64x256x256, .f32⟩ : BufTy).Contents (Elt Ideal)) Cert.ReferenceIdeal.Facts₀.shapeCasts_S64x256x256_S4194304))) (addf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (after Cert.ReferenceIdeal.HandRun.ops W (Proc.devRef .tc Cert.ReferenceIdeal.main_v34) : (⟨Cert.ReferenceIdeal.S64x256x256, .f32⟩ : BufTy).Contents (Elt Ideal)) Cert.ReferenceIdeal.Facts₀.shapeCasts_S64x256x256_S4194304)) (addf (F := Ideal) (φ := .f32) (maximumf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (after Cert.ReferenceIdeal.HandRun.ops W (Proc.devRef .tc Cert.ReferenceIdeal.main_v34) : (⟨Cert.ReferenceIdeal.S64x256x256, .f32⟩ : BufTy).Contents (Elt Ideal)) Cert.ReferenceIdeal.Facts₀.shapeCasts_S64x256x256_S4194304)) (Host.log1p (F := Ideal) (φ := .f32) (Host.exp (F := Ideal) (φ := .f32) (Host.negf (F := Ideal) (φ := .f32) (Host.absf (F := Ideal) (φ := .f32) (subf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (after Cert.ReferenceIdeal.HandRun.ops W (Proc.devRef .tc Cert.ReferenceIdeal.main_v34) : (⟨Cert.ReferenceIdeal.S64x256x256, .f32⟩ : BufTy).Contents (Elt Ideal)) Cert.ReferenceIdeal.Facts₀.shapeCasts_S64x256x256_S4194304)))))))) (mulf (F := Ideal) (φ := .f32) (shapeCast Cert.ReferenceIdeal.S4194304 (after Cert.ReferenceIdeal.HandRun.ops W (Proc.devRef .tc Cert.ReferenceIdeal.main_v34) : (⟨Cert.ReferenceIdeal.S64x256x256, .f32⟩ : BufTy).Contents (Elt Ideal)) Cert.ReferenceIdeal.Facts₀.shapeCasts_S64x256x256_S4194304) (broadcastInDim Cert.ReferenceIdeal.S4194304 ![] Cert.ReferenceIdeal.Facts₀.bcast_S_S4194304 (constant (F := Ideal) Cert.ReferenceIdeal.S_ .f32 0x00000000#32)))) (after Cert.ReferenceIdeal.HandRun.ops W (Proc.devRef .tc Cert.ReferenceIdeal.main_v250) : (⟨Cert.ReferenceIdeal.S4194304, .f32⟩ : BufTy).Contents (Elt Ideal))) (constant (F := Ideal) Cert.ReferenceIdeal.S_ .f32 0x00000000#32) Cert.ReferenceIdeal.Facts₀.reducesTo_S4194304_S_d0 Cert.ReferenceIdeal.Facts₀.h_S_) := by
  rw [after_ops_closing W, closing_v34, closing_v250]
  exact closing_noobj _

/-- The no-object result of the reference is half the sum, over the flat cells, of the cell function of channel 4 of the
    image times the mask. -/
theorem noobj_ref (W : Valuation Cert.ReferenceIdeal.τ Cert.ReferenceIdeal.sig (Elt Ideal)) :
    after Cert.ReferenceIdeal.HandRun.ops W (Proc.devRef .tc Cert.ReferenceIdeal.main_v270)
      = mulf (F := Ideal) (φ := .f32) (constant (F := Ideal) Cert.ReferenceIdeal.S_ .f32 0x3F000000#32) (Host.reduceAdd (F := Ideal) (φ := .f32) (mulf (F := Ideal) (φ := .f32) (subf (F := Ideal) (φ := .f32) (select (cmpf (F := Ideal) (φ := .f32) .une (subf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (shapeCast Cert.ReferenceIdeal.S64x256x256 (extractStridedSlice Cert.ReferenceIdeal.S64x256x256x1 ![0, 0, 0, 4] (transpose Cert.ReferenceIdeal.S64x256x256x6 [0, 2, 3, 1] (W (Proc.devRef .tc Cert.ReferenceIdeal.main_arg0) : (⟨Cert.ReferenceIdeal.S64x6x256x256, .f32⟩ : BufTy).Contents (Elt Ideal)) Cert.ReferenceIdeal.Facts₀.transposes_S64x6x256x256_S64x256x256x6_0_2_3_1) Cert.ReferenceIdeal.Facts₀.slices_S64x256x256x6_S64x256x256x1_0_0_0_4) Cert.ReferenceIdeal.Facts₀.shapeCasts_S64x256x256x1_S64x256x256) Cert.ReferenceIdeal.Facts₀.shapeCasts_S64x256x256_S4194304)) (subf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (shapeCast Cert.ReferenceIdeal.S64x256x256 (extractStridedSlice Cert.ReferenceIdeal.S64x256x256x1 ![0, 0, 0, 4] (transpose Cert.ReferenceIdeal.S64x256x256x6 [0, 2, 3, 1] (W (Proc.devRef .tc Cert.ReferenceIdeal.main_arg0) : (⟨Cert.ReferenceIdeal.S64x6x256x256, .f32⟩ : BufTy).Contents (Elt Ideal)) Cert.ReferenceIdeal.Facts₀.transposes_S64x6x256x256_S64x256x256x6_0_2_3_1) Cert.ReferenceIdeal.Facts₀.slices_S64x256x256x6_S64x256x256x1_0_0_0_4) Cert.ReferenceIdeal.Facts₀.shapeCasts_S64x256x256x1_S64x256x256) Cert.ReferenceIdeal.Facts₀.shapeCasts_S64x256x256_S4194304))) (addf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (shapeCast Cert.ReferenceIdeal.S64x256x256 (extractStridedSlice Cert.ReferenceIdeal.S64x256x256x1 ![0, 0, 0, 4] (transpose Cert.ReferenceIdeal.S64x256x256x6 [0, 2, 3, 1] (W (Proc.devRef .tc Cert.ReferenceIdeal.main_arg0) : (⟨Cert.ReferenceIdeal.S64x6x256x256, .f32⟩ : BufTy).Contents (Elt Ideal)) Cert.ReferenceIdeal.Facts₀.transposes_S64x6x256x256_S64x256x256x6_0_2_3_1) Cert.ReferenceIdeal.Facts₀.slices_S64x256x256x6_S64x256x256x1_0_0_0_4) Cert.ReferenceIdeal.Facts₀.shapeCasts_S64x256x256x1_S64x256x256) Cert.ReferenceIdeal.Facts₀.shapeCasts_S64x256x256_S4194304)) (addf (F := Ideal) (φ := .f32) (maximumf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (shapeCast Cert.ReferenceIdeal.S64x256x256 (extractStridedSlice Cert.ReferenceIdeal.S64x256x256x1 ![0, 0, 0, 4] (transpose Cert.ReferenceIdeal.S64x256x256x6 [0, 2, 3, 1] (W (Proc.devRef .tc Cert.ReferenceIdeal.main_arg0) : (⟨Cert.ReferenceIdeal.S64x6x256x256, .f32⟩ : BufTy).Contents (Elt Ideal)) Cert.ReferenceIdeal.Facts₀.transposes_S64x6x256x256_S64x256x256x6_0_2_3_1) Cert.ReferenceIdeal.Facts₀.slices_S64x256x256x6_S64x256x256x1_0_0_0_4) Cert.ReferenceIdeal.Facts₀.shapeCasts_S64x256x256x1_S64x256x256) Cert.ReferenceIdeal.Facts₀.shapeCasts_S64x256x256_S4194304)) (Host.log1p (F := Ideal) (φ := .f32) (Host.exp (F := Ideal) (φ := .f32) (Host.negf (F := Ideal) (φ := .f32) (Host.absf (F := Ideal) (φ := .f32) (subf (F := Ideal) (φ := .f32) (broadcastInDim Cert.ReferenceIdeal.S4194304 ![] Cert.ReferenceIdeal.Facts₀.bcast_S_S4194304 (constant (F := Ideal) Cert.ReferenceIdeal.S_ .f32 0x00000000#32)) (shapeCast Cert.ReferenceIdeal.S4194304 (shapeCast Cert.ReferenceIdeal.S64x256x256 (extractStridedSlice Cert.ReferenceIdeal.S64x256x256x1 ![0, 0, 0, 4] (transpose Cert.ReferenceIdeal.S64x256x256x6 [0, 2, 3, 1] (W (Proc.devRef .tc Cert.ReferenceIdeal.main_arg0) : (⟨Cert.ReferenceIdeal.S64x6x256x256, .f32⟩ : BufTy).Contents (Elt Ideal)) Cert.ReferenceIdeal.Facts₀.transposes_S64x6x256x256_S64x256x256x6_0_2_3_1) Cert.ReferenceIdeal.Facts₀.slices_S64x256x256x6_S64x256x256x1_0_0_0_4) Cert.ReferenceIdeal.Facts₀.shapeCasts_S64x256x256x1_S64x256x256) Cert.ReferenceIdeal.Facts₀.shapeCasts_S64x256x256_S4194304)))))))) (mulf (F := Ideal) (φ := .f32) (shapeCast Cert.ReferenceIdeal.S4194304 (shapeCast Cert.ReferenceIdeal.S64x256x256 (extractStridedSlice Cert.ReferenceIdeal.S64x256x256x1 ![0, 0, 0, 4] (transpose Cert.ReferenceIdeal.S64x256x256x6 [0, 2, 3, 1] (W (Proc.devRef .tc Cert.ReferenceIdeal.main_arg0) : (⟨Cert.ReferenceIdeal.S64x6x256x256, .f32⟩ : BufTy).Contents (Elt Ideal)) Cert.ReferenceIdeal.Facts₀.transposes_S64x6x256x256_S64x256x256x6_0_2_3_1) Cert.ReferenceIdeal.Facts₀.slices_S64x256x256x6_S64x256x256x1_0_0_0_4) Cert.ReferenceIdeal.Facts₀.shapeCasts_S64x256x256x1_S64x256x256) Cert.ReferenceIdeal.Facts₀.shapeCasts_S64x256x256_S4194304) (broadcastInDim Cert.ReferenceIdeal.S4194304 ![] Cert.ReferenceIdeal.Facts₀.bcast_S_S4194304 (constant (F := Ideal) Cert.ReferenceIdeal.S_ .f32 0x00000000#32)))) (after Cert.ReferenceIdeal.HandRun.ops W (Proc.devRef .tc Cert.ReferenceIdeal.main_v250) : (⟨Cert.ReferenceIdeal.S4194304, .f32⟩ : BufTy).Contents (Elt Ideal))) (constant (F := Ideal) Cert.ReferenceIdeal.S_ .f32 0x00000000#32) Cert.ReferenceIdeal.Facts₀.reducesTo_S4194304_S_d0 Cert.ReferenceIdeal.Facts₀.h_S_) := by
  rw [noobj_ref_chan W, chan4_eq W]
  all_goals rfl

end Cert.HostBridge

end
-- ==== Proof.NoObjBridge.lean ====
/-
  The no-object term on both sides. The reference sums, over all 64·256·256 flat cells, bce(z, 0) times the mask and
  halves the sum. The kernel program sums, tile by tile of eight images, softplus(z) times the mask viewed as
  [64, 256, 256], then sums the eight partial sums and halves. A flat cell is exactly one (tile, image, row, lane), the
  two cell functions agree on every extended real, and the kernel's mask at (b, h, w) is the flat mask at
  (b·256 + h)·256 + w; sums of extended reals may be regrouped freely. So the two terms are equal.
-/
import proofs.«176000_j6725918786248_2_alg».proof.Proof.Gen.KernelIdeal.Launch
import proofs.«176000_j6725918786248_2_alg».proof.Proof.ReferenceRun
import proofs.«176000_j6725918786248_2_alg».proof.Proof.ChannelGather
import proofs.«176000_j6725918786248_2_alg».proof.Proof.KernelValue
import proofs.«176000_j6725918786248_2_alg».proof.Proof.NoObjSum
import proofs.«176000_j6725918786248_2_alg».proof.Proof.HostMask
import proofs.«176000_j6725918786248_2_alg».proof.Proof.HostNoObj
import Idealize.ShloMosaic.PureOps.Ideal.Laws
import Idealize.ShloMosaic.Lib.StableHlo.Run
import Idealize.ShloMosaic.PureOps.Ideal

noncomputable section

namespace Cert.HostBridge

open Idealize.ShloMosaic Idealize.ShloMosaic.TcCoe Idealize.SL.Sem Idealize.ShloMosaic.StableHlo

open Idealize.ShloMosaic.ValueIdx Idealize.ShloMosaic.FlatSum

/-- A sum over the cells of an [8, 1, 1] array is the sum over its eight leading coordinates. -/
theorem sum_811 {M : Type*} [AddCommMonoid M] (f : (⟨3, ![8, 1, 1]⟩ : Shape).Idx → M) :
    ∑ i, f i = ∑ g : Fin 8, f (ix3 g 0 0) := by
  refine Fintype.sum_equiv
    (⟨fun i => i 0, fun g => ix3 g 0 0, fun i => ?_, fun _ => rfl⟩ : (⟨3, ![8, 1, 1]⟩ : Shape).Idx ≃ Fin 8) _ _ (fun i => ?_)
  · funext a
    match a with
    | ⟨0, _⟩ => rfl
    | ⟨1, _⟩ => exact Fin.ext (by have hy : (i 1).val < 1 := (i 1).isLt; show 0 = (i 1).val; omega)
    | ⟨2, _⟩ => exact Fin.ext (by have hy : (i 2).val < 1 := (i 2).isLt; show 0 = (i 2).val; omega)
  · refine congrArg f ?_
    funext a
    match a with
    | ⟨0, _⟩ => rfl
    | ⟨1, _⟩ => exact Fin.ext (by have hy : (i 1).val < 1 := (i 1).isLt; show (i 1).val = 0; omega)
    | ⟨2, _⟩ => exact Fin.ext (by have hy : (i 2).val < 1 := (i 2).isLt; show (i 2).val = 0; omega)

set_option maxHeartbeats 800000000 in
set_option maxRecDepth 65536 in
theorem noobj_eq (m : (ℓ : Loc Cert.KernelIdeal.nD Cert.KernelIdeal.τ Cert.KernelIdeal.sig) → Buf (Elt Ideal) ℓ) (c : Dev Cert.KernelIdeal.nD)
    (W : Valuation Cert.ReferenceIdeal.τ Cert.ReferenceIdeal.sig (Elt Ideal))
    (h0 : W (Proc.devRef .tc Cert.ReferenceIdeal.main_arg0) = (fun b => m (c, b)) (Proc.devRef .tc Cert.KernelIdeal.main_arg0))
    (h1 : W (Proc.devRef .tc Cert.ReferenceIdeal.main_arg1) = (fun b => m (c, b)) (Proc.devRef .tc Cert.KernelIdeal.main_arg1)) :
    after Cert.ReferenceIdeal.HandRun.ops W (Proc.devRef .tc Cert.ReferenceIdeal.main_v270) = Cert.KernelIdeal.KernelValue.noobj m c := by
  rw [noobj_ref W]
  unfold Cert.KernelIdeal.KernelValue.noobj
  refine congrArg (mulf (F := Ideal) (constant (F := Ideal) Cert.KernelIdeal.S_ .f32 0x3F000000#32)) ?_
  funext i
  obtain rfl : i = ix0 := eq_ix0 i
  refine (Cert.NoObjSum.ref_sum _ _).trans ?_
  refine Eq.symm ((Ideal.hostReduceAdd_total Cert.KernelIdeal.Gen.reducesTo_S8x1x1_S_d0_1_2 (fun b => b.elim0) _ _ ix0).trans ?_)
  rw [show constant (F := Ideal) Cert.KernelIdeal.S_ .f32 0x00000000#32 (Shape.Idx.first Cert.KernelIdeal.Gen.h_S_)
      = Ideal.ofBits .f32 0x00000000#32 from rfl, Ideal.ofBits_zero_f32, zero_add, sum_811]
  refine Finset.sum_congr rfl fun g _ => ?_
  show Cert.KernelIdeal.OutArray.tileSum _ _ ⟨g.val, _⟩ = _
  unfold Cert.KernelIdeal.OutArray.tileSum
  refine Finset.sum_congr rfl fun t _ => Finset.sum_congr rfl fun h _ => Finset.sum_congr rfl fun w _ => ?_
  have hm := congrFun (mask_eq (fun b => m (c, b)) W h0 h1) (ix3 ⟨g.val * 8 + t.val, Cert.NoObjSum.img_lt g t⟩ h w)
  have hx : Cert.KernelIdeal.Hand.V m c Cert.KernelIdeal.main_arg0 = W (Proc.devRef .tc Cert.ReferenceIdeal.main_arg0) :=
    (Cert.KernelIdeal.Hand.V_main_arg0 m c).trans h0.symm
  show Cert.KernelIdeal.RegionValue.cell (Cert.KernelIdeal.Hand.V m c Cert.KernelIdeal.main_arg0 (ix4 ⟨g.val * 8 + t.val, _⟩ 4 h w))
      * Cert.KernelIdeal.Hand.V m c Cert.KernelIdeal.main_v256 (ix3 ⟨g.val * 8 + t.val, _⟩ h w) = _
  rw [hx]
  refine congrArg (Cert.KernelIdeal.RegionValue.cell _ * ·) ?_
  exact hm.trans (Cert.NoObjSum.mask_cell _ g t h w)

end Cert.HostBridge

end
-- ==== Proof.Algebraic.lean ====
/-
  The two idealized programs return the same five numbers. Run from memories that agree on the two arguments, the
  kernel program's results are: the three gathered losses as its host prefix computed them, the no-object term from the
  region's eight partial sums, and their total; the reference's are its own four terms and their total in the same
  order. The gathered losses agree because a point gather commutes with the logistic and with the choice of layout; the
  no-object terms agree because a sum of extended reals may be regrouped and the two cell functions coincide; the
  totals agree term by term.
-/
import proofs.«176000_j6725918786248_2_alg».proof.Defs
import proofs.«176000_j6725918786248_2_alg».proof.Proof.Gen.Pre_finite_inputs
import proofs.«176000_j6725918786248_2_alg».proof.Proof.KernelValue
import proofs.«176000_j6725918786248_2_alg».proof.Proof.ReferenceRun
import proofs.«176000_j6725918786248_2_alg».proof.Proof.RefKeeps
import proofs.«176000_j6725918786248_2_alg».proof.Proof.HostCoord
import proofs.«176000_j6725918786248_2_alg».proof.Proof.HostObj
import proofs.«176000_j6725918786248_2_alg».proof.Proof.HostClass
import proofs.«176000_j6725918786248_2_alg».proof.Proof.HostTotal
import proofs.«176000_j6725918786248_2_alg».proof.Proof.NoObjBridge

noncomputable section

namespace Cert.Proof.Parts

open Idealize.ShloMosaic Idealize.ShloMosaic.TcCoe Idealize.SL.Sem Idealize.ShloMosaic.StableHlo
open Cert.HostBridge

/-- The reference's total, given its four terms' values: the same nested sum as the kernel program's. -/
theorem total_bridge (m : (ℓ : Loc Cert.KernelIdeal.nD Cert.KernelIdeal.τ Cert.KernelIdeal.sig) → Buf (Elt Ideal) ℓ) (c : Dev Cert.KernelIdeal.nD)
    (W : Valuation Cert.ReferenceIdeal.τ Cert.ReferenceIdeal.sig (Elt Ideal))
    (e1 : after Cert.ReferenceIdeal.HandRun.ops W (Proc.devRef .tc Cert.ReferenceIdeal.main_v198) = Cert.KernelIdeal.Hand.V m c Cert.KernelIdeal.main_v203)
    (e2 : after Cert.ReferenceIdeal.HandRun.ops W (Proc.devRef .tc Cert.ReferenceIdeal.main_v216) = Cert.KernelIdeal.Hand.V m c Cert.KernelIdeal.main_v221)
    (e3 : after Cert.ReferenceIdeal.HandRun.ops W (Proc.devRef .tc Cert.ReferenceIdeal.main_v270) = Cert.KernelIdeal.KernelValue.noobj m c)
    (e4 : after Cert.ReferenceIdeal.HandRun.ops W (Proc.devRef .tc Cert.ReferenceIdeal.main_v234) = Cert.KernelIdeal.Hand.V m c Cert.KernelIdeal.main_v239) :
    after Cert.ReferenceIdeal.HandRun.ops W (Proc.devRef .tc Cert.ReferenceIdeal.main_v273) = Cert.KernelIdeal.KernelValue.total m c := by
  refine (total_eq W).trans ?_
  first
    | (rw [e1, e2, e3, e4]; rfl)
    | (simp only [e1, e2, e3, e4]; rfl)
    | exact congrArg₂ (addf (F := Ideal) (s := Cert.KernelIdeal.S_) (φ := .f32))
        (congrArg₂ (addf (F := Ideal) (s := Cert.KernelIdeal.S_) (φ := .f32))
          (congrArg₂ (addf (F := Ideal) (s := Cert.KernelIdeal.S_) (φ := .f32)) e1 e2) e3) e4

set_option maxHeartbeats 4000000 in
theorem algebraic : Cert.algebraic_KernelIdeal_ReferenceIdeal := by
  intro m ρ m' ρ' _ hagree
  refine ⟨_, _, _, _, _, Cert.KernelIdeal.KernelValue.run_values m ρ, ?_⟩
  refine (θ_run Cert.ReferenceIdeal.defs _ _).mono (fun _ h c => ?_) (Cert.ReferenceIdeal.HandRun.run_after m' ρ')
  have h0 : launchContents m' c (Proc.devRef .tc Cert.ReferenceIdeal.main_arg0)
      = (fun b => m (c, b)) (Proc.devRef .tc Cert.KernelIdeal.main_arg0) := (hagree c).1
  have h1 : launchContents m' c (Proc.devRef .tc Cert.ReferenceIdeal.main_arg1)
      = (fun b => m (c, b)) (Proc.devRef .tc Cert.KernelIdeal.main_arg1) := (hagree c).2
  have e1 : after Cert.ReferenceIdeal.HandRun.ops (launchContents m' c) (Proc.devRef .tc Cert.ReferenceIdeal.main_v198)
      = Cert.KernelIdeal.Hand.V m c Cert.KernelIdeal.main_v203 := coord_eq (fun b => m (c, b)) (launchContents m' c) h0 h1
  have e2 : after Cert.ReferenceIdeal.HandRun.ops (launchContents m' c) (Proc.devRef .tc Cert.ReferenceIdeal.main_v216)
      = Cert.KernelIdeal.Hand.V m c Cert.KernelIdeal.main_v221 := obj_eq (fun b => m (c, b)) (launchContents m' c) h0 h1
  have e3 : after Cert.ReferenceIdeal.HandRun.ops (launchContents m' c) (Proc.devRef .tc Cert.ReferenceIdeal.main_v270)
      = Cert.KernelIdeal.KernelValue.noobj m c := noobj_eq m c (launchContents m' c) h0 h1
  have e4 : after Cert.ReferenceIdeal.HandRun.ops (launchContents m' c) (Proc.devRef .tc Cert.ReferenceIdeal.main_v234)
      = Cert.KernelIdeal.Hand.V m c Cert.KernelIdeal.main_v239 := cls_eq (fun b => m (c, b)) (launchContents m' c) h0 h1
  exact ⟨(h c Cert.ReferenceIdeal.main_v273).trans (total_bridge m c _ e1 e2 e3 e4),
    (h c Cert.ReferenceIdeal.main_v198).trans e1,
    (h c Cert.ReferenceIdeal.main_v216).trans e2,
    (h c Cert.ReferenceIdeal.main_v270).trans e3,
    (h c Cert.ReferenceIdeal.main_v234).trans e4,
    (h c Cert.ReferenceIdeal.main_arg0).trans ((Cert.ReferenceIdeal.HandRun.ref_arg0 (launchContents m' c)).trans rfl),
    (h c Cert.ReferenceIdeal.main_arg1).trans ((Cert.ReferenceIdeal.HandRun.ref_arg1 (launchContents m' c)).trans rfl)⟩

end Cert.Proof.Parts

end
-- ==== Proof.lean ====
/-
  The certificate of the no-object loss kernel against its reference.

  The kernel program computes a detection loss in five numbers. Three of them (coordinate, object, class) are computed
  on the host from values picked at the boxes' cells; the fourth (no-object) is the masked softplus sum over every cell of
  the objectness channel, computed by a pipelined region over eight tiles of eight images and halved; the fifth is their
  sum. The reference computes the same five numbers from transposed channels and one flat sum.

  Frames: each kernel program runs its host prefix, the region (every point loads its two tiles, stores one cell) and the
  short stretch after it, without a fault, and writes neither argument; the reference is a straight line of host
  operations. Preservation: the idealization rewrote nothing. Equality at the extended reals: module Algebraic.
-/
import proofs.«176000_j6725918786248_2_alg».proof.Defs
import proofs.«176000_j6725918786248_2_alg».proof.Proof.Gen.Kernel
import proofs.«176000_j6725918786248_2_alg».proof.Proof.Gen.KernelIdeal
import proofs.«176000_j6725918786248_2_alg».proof.Proof.Gen.ReferenceIdeal
import proofs.«176000_j6725918786248_2_alg».proof.Proof.Gen.Pre_finite_inputs
import proofs.«176000_j6725918786248_2_alg».proof.Proof.RegionFrameBitsRun
import proofs.«176000_j6725918786248_2_alg».proof.Proof.RegionFrameIdealRun
import proofs.«176000_j6725918786248_2_alg».proof.Proof.RefKeeps
import proofs.«176000_j6725918786248_2_alg».proof.Proof.Algebraic
import Idealize.ShloMosaic.Adequacy
import Idealize.ShloMosaic.Init

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.Hand.frame (F := Bits) m ρ,
    fun m ρ _ => Cert.KernelIdeal.Hand.frame (F := Ideal) m ρ,
    fun m ρ _ => Cert.ReferenceIdeal.HandRun.ref_frame (F := Ideal) m ρ,
    trivial,
    Cert.Proof.Parts.algebraic⟩

end Cert.Proof

end
